-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10240x78 : Shape := ⟨2, ![10240, 78]⟩
abbrev S2x40960 : Shape := ⟨2, ![2, 40960]⟩
abbrev S10240 : Shape := ⟨1, ![10240]⟩
abbrev S76800x54 : Shape := ⟨2, ![76800, 54]⟩
abbrev S2x768000 : Shape := ⟨2, ![2, 768000]⟩
abbrev S76800 : Shape := ⟨1, ![76800]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S54x54 : Shape := ⟨2, ![54, 54]⟩
abbrev S54 : Shape := ⟨1, ![54]⟩
abbrev S54x108 : Shape := ⟨2, ![54, 108]⟩
abbrev S108 : Shape := ⟨1, ![108]⟩
abbrev S108x216 : Shape := ⟨2, ![108, 216]⟩
abbrev S216 : Shape := ⟨1, ![216]⟩
abbrev S216x1024 : Shape := ⟨2, ![216, 1024]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S10240x78 : S_.BroadcastsInDim S10240x78 (![] : Fin 0 → Fin S10240x78.rank)
  reducesTo_S10240x78_S_d0_1 : S10240x78.ReducesTo [0, 1] S_
  h_S_ : 0 < S_.numel
  bcast_S_S76800x54 : S_.BroadcastsInDim S76800x54 (![] : Fin 0 → Fin S76800x54.rank)
  reducesTo_S76800x54_S_d0_1 : S76800x54.ReducesTo [0, 1] S_
  bcast_S_S78x78 : S_.BroadcastsInDim S78x78 (![] : Fin 0 → Fin S78x78.rank)
  reducesTo_S78x78_S_d0_1 : S78x78.ReducesTo [0, 1] S_
  bcast_S_S78 : S_.BroadcastsInDim S78 (![] : Fin 0 → Fin S78.rank)
  reducesTo_S78_S_d0 : S78.ReducesTo [0] S_
  bcast_S_S78x156 : S_.BroadcastsInDim S78x156 (![] : Fin 0 → Fin S78x156.rank)
  reducesTo_S78x156_S_d0_1 : S78x156.ReducesTo [0, 1] S_
  bcast_S_S156 : S_.BroadcastsInDim S156 (![] : Fin 0 → Fin S156.rank)
  reducesTo_S156_S_d0 : S156.ReducesTo [0] S_
  bcast_S_S156x312 : S_.BroadcastsInDim S156x312 (![] : Fin 0 → Fin S156x312.rank)
  reducesTo_S156x312_S_d0_1 : S156x312.ReducesTo [0, 1] S_
  bcast_S_S312 : S_.BroadcastsInDim S312 (![] : Fin 0 → Fin S312.rank)
  reducesTo_S312_S_d0 : S312.ReducesTo [0] S_
  bcast_S_S312x1024 : S_.BroadcastsInDim S312x1024 (![] : Fin 0 → Fin S312x1024.rank)
  reducesTo_S312x1024_S_d0_1 : S312x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S54x54 : S_.BroadcastsInDim S54x54 (![] : Fin 0 → Fin S54x54.rank)
  reducesTo_S54x54_S_d0_1 : S54x54.ReducesTo [0, 1] S_
  bcast_S_S54 : S_.BroadcastsInDim S54 (![] : Fin 0 → Fin S54.rank)
  reducesTo_S54_S_d0 : S54.ReducesTo [0] S_
  bcast_S_S54x108 : S_.BroadcastsInDim S54x108 (![] : Fin 0 → Fin S54x108.rank)
  reducesTo_S54x108_S_d0_1 : S54x108.ReducesTo [0, 1] S_
  bcast_S_S108 : S_.BroadcastsInDim S108 (![] : Fin 0 → Fin S108.rank)
  reducesTo_S108_S_d0 : S108.ReducesTo [0] S_
  bcast_S_S108x216 : S_.BroadcastsInDim S108x216 (![] : Fin 0 → Fin S108x216.rank)
  reducesTo_S108x216_S_d0_1 : S108x216.ReducesTo [0, 1] S_
  bcast_S_S216 : S_.BroadcastsInDim S216 (![] : Fin 0 → Fin S216.rank)
  reducesTo_S216_S_d0 : S216.ReducesTo [0] S_
  bcast_S_S216x1024 : S_.BroadcastsInDim S216x1024 (![] : Fin 0 → Fin S216x1024.rank)
  reducesTo_S216x1024_S_d0_1 : S216x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg29 : FVec F S512 .f32) (main_arg30 : FVec F S512x1 .f32) (main_arg31 : FVec F S1 .f32) (main_v118 : IVec S_ 1) (main_v119 : FVec F S1024x512 .f32) : IVec S_ 1 :=
  let main_cst_46 : FVec F S_ .f32 := constant S_ .f32 0x7F800000#32
  let main_v120 : FVec F S1024x512 .f32 := broadcastInDim S1024x512 ![] bcast_S_S1024x512 main_cst_46
  let main_v121 : IVec S1024x512 1 := cmpf .olt main_v119 main_v120
  let main_c_47 : IVec S_ 1 := constantI S_ 1 1#1
  let main_v122 : IVec S_ 1 := (fun x v => Host.reduce IntOp.andi x v reducesTo_S1024x512_S_d0_1 h_S_) main_v121 main_c_47
  let main_v123 : IVec S_ 1 := andi main_v118 main_v122
  let main_v124 : FVec F S512 .f32 := Host.absf main_arg29
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S512x1 .f32 := Host.absf main_arg30
  let main_cst_50 : FVec F S_ .f32 := constant S_ .f32 0x7F800000#32
  let main_v130 : FVec F S512x1 .f32 := broadcastInDim S512x1 ![] bcast_S_S512x1 main_cst_50
  let main_v131 : IVec S512x1 1 := cmpf .olt main_v129 main_v130
  let main_c_51 : IVec S_ 1 := constantI S_ 1 1#1
  let main_v132 : IVec S_ 1 := (fun x v => Host.reduce IntOp.andi x v reducesTo_S512x1_S_d0_1 h_S_) main_v131 main_c_51
  let main_v133 : IVec S_ 1 := andi main_v128 main_v132
  let main_v134 : FVec F S1 .f32 := Host.absf main_arg31
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v98 : IVec S_ 1) (main_v101 : IVec S1024x128 1) (main_c_39 : IVec S_ 1) : IVec S_ 1 :=
  let main_v102 : IVec S_ 1 := (fun x v => Host.reduce IntOp.andi x v reducesTo_S1024x128_S_d0_1 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S256x1024 .f32 := Host.absf main_arg26
  let main_cst_42 : FVec F S_ .f32 := constant S_ .f32 0x7F800000#32
  let main_v110 : FVec F S256x1024 .f32 := broadcastInDim S256x1024 ![] bcast_S_S256x1024 main_cst_42
  let main_v111 : IVec S256x1024 1 := cmpf .olt main_v109 main_v110
  let main_c_43 : IVec S_ 1 := constantI S_ 1 1#1
  let main_v112 : IVec S_ 1 := (fun x v => Host.reduce IntOp.andi x v reducesTo_S256x1024_S_d0_1 h_S_) main_v111 main_c_43
  let main_v113 : IVec S_ 1 := andi main_v108 main_v112
  let main_v114 : FVec F S1024 .f32 := Host.absf main_arg27
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024x512 .f32 := Host.absf main_arg28
  fn_part7 (F := F) main_arg29 main_arg30 main_arg31 main_v118 main_v119

def fn_part5 {F : FTy → Type} [FloatOps F] (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v83 : IVec S_ 1) (main_v84 : FVec F S216 .f32) (main_cst_32 : FVec F S_ .f32) : IVec S_ 1 :=
  let main_v85 : FVec F S216 .f32 := broadcastInDim S216 ![] bcast_S_S216 main_cst_32
  let main_v86 : IVec S216 1 := cmpf .olt main_v84 main_v85
  let main_c_33 : IVec S_ 1 := constantI S_ 1 1#1
  let main_v87 : IVec S_ 1 := (fun x v => Host.reduce IntOp.andi x v reducesTo_S216_S_d0 h_S_) main_v86 main_c_33
  let main_v88 : IVec S_ 1 := andi main_v83 main_v87
  let main_v89 : FVec F S216x1024 .f32 := Host.absf main_arg22
  let main_cst_34 : FVec F S_ .f32 := constant S_ .f32 0x7F800000#32
  let main_v90 : FVec F S216x1024 .f32 := broadcastInDim S216x1024 ![] bcast_S_S216x1024 main_cst_34
  let main_v91 : IVec S216x1024 1 := cmpf .olt main_v89 main_v90
  let main_c_35 : IVec S_ 1 := constantI S_ 1 1#1
  let main_v92 : IVec S_ 1 := (fun x v => Host.reduce IntOp.andi x v reducesTo_S216x1024_S_d0_1 h_S_) main_v91 main_c_35
  let main_v93 : IVec S_ 1 := andi main_v88 main_v92
  let main_v94 : FVec F S1024 .f32 := Host.absf main_arg23
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x128 .f32 := Host.absf main_arg24
  let main_cst_38 : FVec F S_ .f32 := constant S_ .f32 0x7F800000#32
  let main_v100 : FVec F S1024x128 .f32 := broadcastInDim S1024x128 ![] bcast_S_S1024x128 main_cst_38
  let main_v101 : IVec S1024x128 1 := cmpf .olt main_v99 main_v100
  let main_c_39 : IVec S_ 1 := constantI S_ 1 1#1
  fn_part6 (F := F) main_arg25 main_arg26 main_arg27 main_arg28 main_arg29 main_arg30 main_arg31 main_v98 main_v101 main_c_39

def fn_part4 {F : FTy → Type} [FloatOps F] (main_arg18 : FVec F S54x108 .f32) (main_arg19 : FVec F S108 .f32) (main_arg20 : FVec F S108x216 .f32) (main_arg21 : FVec F S216 .f32) (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v63 : IVec S_ 1) (main_v67 : IVec S_ 1) : IVec S_ 1 :=
  let main_v68 : IVec S_ 1 := andi main_v63 main_v67
  let main_v69 : FVec F S54x108 .f32 := Host.absf main_arg18
  let main_cst_26 : FVec F S_ .f32 := constant S_ .f32 0x7F800000#32
  let main_v70 : FVec F S54x108 .f32 := broadcastInDim S54x108 ![] bcast_S_S54x108 main_cst_26
  let main_v71 : IVec S54x108 1 := cmpf .olt main_v69 main_v70
  let main_c_27 : IVec S_ 1 := constantI S_ 1 1#1
  let main_v72 : IVec S_ 1 := (fun x v => Host.reduce IntOp.andi x v reducesTo_S54x108_S_d0_1 h_S_) main_v71 main_c_27
  let main_v73 : IVec S_ 1 := andi main_v68 main_v72
  let main_v74 : FVec F S108 .f32 := Host.absf main_arg19
  let main_cst_28 : FVec F S_ .f32 := constant S_ .f32 0x7F800000#32
  let main_v75 : FVec F S108 .f32 := broadcastInDim S108 ![] bcast_S_S108 main_cst_28
  let main_v76 : IVec S108 1 := cmpf .olt main_v74 main_v75
  let main_c_29 : IVec S_ 1 := constantI S_ 1 1#1
  let main_v77 : IVec S_ 1 := (fun x v => Host.reduce IntOp.andi x v reducesTo_S108_S_d0 h_S_) main_v76 main_c_29
  let main_v78 : IVec S_ 1 := andi main_v73 main_v77
  let main_v79 : FVec F S108x216 .f32 := Host.absf main_arg20
  let main_cst_30 : FVec F S_ .f32 := constant S_ .f32 0x7F800000#32
  let main_v80 : FVec F S108x216 .f32 := broadcastInDim S108x216 ![] bcast_S_S108x216 main_cst_30
  let main_v81 : IVec S108x216 1 := cmpf .olt main_v79 main_v80
  let main_c_31 : IVec S_ 1 := constantI S_ 1 1#1
  let main_v82 : IVec S_ 1 := (fun x v => Host.reduce IntOp.andi x v reducesTo_S108x216_S_d0_1 h_S_) main_v81 main_c_31
  let main_v83 : IVec S_ 1 := andi main_v78 main_v82
  let main_v84 : FVec F S216 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_v83 main_v84 main_cst_32

def fn_part3 {F : FTy → Type} [FloatOps F] (main_arg15 : FVec F S128 .f32) (main_arg16 : FVec F S54x54 .f32) (main_arg17 : FVec F S54 .f32) (main_arg18 : FVec F S54x108 .f32) (main_arg19 : FVec F S108 .f32) (main_arg20 : FVec F S108x216 .f32) (main_arg21 : FVec F S216 .f32) (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v48 : IVec S_ 1) (main_v49 : FVec F S1024x128 .f32) (main_v50 : FVec F S1024x128 .f32) : IVec S_ 1 :=
  let main_v51 : IVec S1024x128 1 := cmpf .olt main_v49 main_v50
  let main_c_19 : IVec S_ 1 := constantI S_ 1 1#1
  let main_v52 : IVec S_ 1 := (fun x v => Host.reduce IntOp.andi x v reducesTo_S1024x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S54x54 .f32 := Host.absf main_arg16
  let main_cst_22 : FVec F S_ .f32 := constant S_ .f32 0x7F800000#32
  let main_v60 : FVec F S54x54 .f32 := broadcastInDim S54x54 ![] bcast_S_S54x54 main_cst_22
  let main_v61 : IVec S54x54 1 := cmpf .olt main_v59 main_v60
  let main_c_23 : IVec S_ 1 := constantI S_ 1 1#1
  let main_v62 : IVec S_ 1 := (fun x v => Host.reduce IntOp.andi x v reducesTo_S54x54_S_d0_1 h_S_) main_v61 main_c_23
  let main_v63 : IVec S_ 1 := andi main_v58 main_v62
  let main_v64 : FVec F S54 .f32 := Host.absf main_arg17
  let main_cst_24 : FVec F S_ .f32 := constant S_ .f32 0x7F800000#32
  let main_v65 : FVec F S54 .f32 := broadcastInDim S54 ![] bcast_S_S54 main_cst_24
  let main_v66 : IVec S54 1 := cmpf .olt main_v64 main_v65
  let main_c_25 : IVec S_ 1 := constantI S_ 1 1#1
  let main_v67 : IVec S_ 1 := (fun x v => Host.reduce IntOp.andi x v reducesTo_S54_S_d0 h_S_) main_v66 main_c_25
  fn_part4 (F := F) main_arg18 main_arg19 main_arg20 main_arg21 main_arg22 main_arg23 main_arg24 main_arg25 main_arg26 main_arg27 main_arg28 main_arg29 main_arg30 main_arg31 main_v63 main_v67

def fn_part2 {F : FTy → Type} [FloatOps F] (main_arg11 : FVec F S312 .f32) (main_arg12 : FVec F S312x1024 .f32) (main_arg13 : FVec F S1024 .f32) (main_arg14 : FVec F S1024x128 .f32) (main_arg15 : FVec F S128 .f32) (main_arg16 : FVec F S54x54 .f32) (main_arg17 : FVec F S54 .f32) (main_arg18 : FVec F S54x108 .f32) (main_arg19 : FVec F S108 .f32) (main_arg20 : FVec F S108x216 .f32) (main_arg21 : FVec F S216 .f32) (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v33 : IVec S_ 1) : IVec S_ 1 :=
  let main_v34 : FVec F S312 .f32 := Host.absf main_arg11
  let main_cst_12 : FVec F S_ .f32 := constant S_ .f32 0x7F800000#32
  let main_v35 : FVec F S312 .f32 := broadcastInDim S312 ![] bcast_S_S312 main_cst_12
  let main_v36 : IVec S312 1 := cmpf .olt main_v34 main_v35
  let main_c_13 : IVec S_ 1 := constantI S_ 1 1#1
  let main_v37 : IVec S_ 1 := (fun x v => Host.reduce IntOp.andi x v reducesTo_S312_S_d0 h_S_) main_v36 main_c_13
  let main_v38 : IVec S_ 1 := andi main_v33 main_v37
  let main_v39 : FVec F S312x1024 .f32 := Host.absf main_arg12
  let main_cst_14 : FVec F S_ .f32 := constant S_ .f32 0x7F800000#32
  let main_v40 : FVec F S312x1024 .f32 := broadcastInDim S312x1024 ![] bcast_S_S312x1024 main_cst_14
  let main_v41 : IVec S312x1024 1 := cmpf .olt main_v39 main_v40
  let main_c_15 : IVec S_ 1 := constantI S_ 1 1#1
  let main_v42 : IVec S_ 1 := (fun x v => Host.reduce IntOp.andi x v reducesTo_S312x1024_S_d0_1 h_S_) main_v41 main_c_15
  let main_v43 : IVec S_ 1 := andi main_v38 main_v42
  let main_v44 : FVec F S1024 .f32 := Host.absf main_arg13
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x128 .f32 := Host.absf main_arg14
  let main_cst_18 : FVec F S_ .f32 := constant S_ .f32 0x7F800000#32
  let main_v50 : FVec F S1024x128 .f32 := broadcastInDim S1024x128 ![] bcast_S_S1024x128 main_cst_18
  fn_part3 (F := F) main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg8 : FVec F S78x156 .f32) (main_arg9 : FVec F S156 .f32) (main_arg10 : FVec F S156x312 .f32) (main_arg11 : FVec F S312 .f32) (main_arg12 : FVec F S312x1024 .f32) (main_arg13 : FVec F S1024 .f32) (main_arg14 : FVec F S1024x128 .f32) (main_arg15 : FVec F S128 .f32) (main_arg16 : FVec F S54x54 .f32) (main_arg17 : FVec F S54 .f32) (main_arg18 : FVec F S54x108 .f32) (main_arg19 : FVec F S108 .f32) (main_arg20 : FVec F S108x216 .f32) (main_arg21 : FVec F S216 .f32) (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) (main_v13 : IVec S_ 1) (main_v16 : IVec S78 1) : IVec S_ 1 :=
  let main_c_5 : IVec S_ 1 := constantI S_ 1 1#1
  let main_v17 : IVec S_ 1 := (fun x v => Host.reduce IntOp.andi x v reducesTo_S78_S_d0 h_S_) main_v16 main_c_5
  let main_v18 : IVec S_ 1 := andi main_v13 main_v17
  let main_v19 : FVec F S78x156 .f32 := Host.absf main_arg8
  let main_cst_6 : FVec F S_ .f32 := constant S_ .f32 0x7F800000#32
  let main_v20 : FVec F S78x156 .f32 := broadcastInDim S78x156 ![] bcast_S_S78x156 main_cst_6
  let main_v21 : IVec S78x156 1 := cmpf .olt main_v19 main_v20
  let main_c_7 : IVec S_ 1 := constantI S_ 1 1#1
  let main_v22 : IVec S_ 1 := (fun x v => Host.reduce IntOp.andi x v reducesTo_S78x156_S_d0_1 h_S_) main_v21 main_c_7
  let main_v23 : IVec S_ 1 := andi main_v18 main_v22
  let main_v24 : FVec F S156 .f32 := Host.absf main_arg9
  let main_cst_8 : FVec F S_ .f32 := constant S_ .f32 0x7F800000#32
  let main_v25 : FVec F S156 .f32 := broadcastInDim S156 ![] bcast_S_S156 main_cst_8
  let main_v26 : IVec S156 1 := cmpf .olt main_v24 main_v25
  let main_c_9 : IVec S_ 1 := constantI S_ 1 1#1
  let main_v27 : IVec S_ 1 := (fun x v => Host.reduce IntOp.andi x v reducesTo_S156_S_d0 h_S_) main_v26 main_c_9
  let main_v28 : IVec S_ 1 := andi main_v23 main_v27
  let main_v29 : FVec F S156x312 .f32 := Host.absf main_arg10
  let main_cst_10 : FVec F S_ .f32 := constant S_ .f32 0x7F800000#32
  let main_v30 : FVec F S156x312 .f32 := broadcastInDim S156x312 ![] bcast_S_S156x312 main_cst_10
  let main_v31 : IVec S156x312 1 := cmpf .olt main_v29 main_v30
  let main_c_11 : IVec S_ 1 := constantI S_ 1 1#1
  let main_v32 : IVec S_ 1 := (fun x v => Host.reduce IntOp.andi x v reducesTo_S156x312_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S10240x78 .f32) (main_arg1 : IVec S2x40960 32) (main_arg2 : IVec S10240 32) (main_arg3 : FVec F S76800x54 .f32) (main_arg4 : IVec S2x768000 32) (main_arg5 : IVec S76800 32) (main_arg6 : FVec F S78x78 .f32) (main_arg7 : FVec F S78 .f32) (main_arg8 : FVec F S78x156 .f32) (main_arg9 : FVec F S156 .f32) (main_arg10 : FVec F S156x312 .f32) (main_arg11 : FVec F S312 .f32) (main_arg12 : FVec F S312x1024 .f32) (main_arg13 : FVec F S1024 .f32) (main_arg14 : FVec F S1024x128 .f32) (main_arg15 : FVec F S128 .f32) (main_arg16 : FVec F S54x54 .f32) (main_arg17 : FVec F S54 .f32) (main_arg18 : FVec F S54x108 .f32) (main_arg19 : FVec F S108 .f32) (main_arg20 : FVec F S108x216 .f32) (main_arg21 : FVec F S216 .f32) (main_arg22 : FVec F S216x1024 .f32) (main_arg23 : FVec F S1024 .f32) (main_arg24 : FVec F S1024x128 .f32) (main_arg25 : FVec F S128 .f32) (main_arg26 : FVec F S256x1024 .f32) (main_arg27 : FVec F S1024 .f32) (main_arg28 : FVec F S1024x512 .f32) (main_arg29 : FVec F S512 .f32) (main_arg30 : FVec F S512x1 .f32) (main_arg31 : FVec F S1 .f32) : IVec S_ 1 :=
  let main_v0 : FVec F S10240x78 .f32 := Host.absf main_arg0
  let main_cst : FVec F S_ .f32 := constant S_ .f32 0x7F800000#32
  let main_v1 : FVec F S10240x78 .f32 := broadcastInDim S10240x78 ![] bcast_S_S10240x78 main_cst
  let main_v2 : IVec S10240x78 1 := cmpf .olt main_v0 main_v1
  let main_c : IVec S_ 1 := constantI S_ 1 1#1
  let main_v3 : IVec S_ 1 := (fun x v => Host.reduce IntOp.andi x v reducesTo_S10240x78_S_d0_1 h_S_) main_v2 main_c
  let main_v4 : FVec F S76800x54 .f32 := Host.absf main_arg3
  let main_cst_0 : FVec F S_ .f32 := constant S_ .f32 0x7F800000#32
  let main_v5 : FVec F S76800x54 .f32 := broadcastInDim S76800x54 ![] bcast_S_S76800x54 main_cst_0
  let main_v6 : IVec S76800x54 1 := cmpf .olt main_v4 main_v5
  let main_c_1 : IVec S_ 1 := constantI S_ 1 1#1
  let main_v7 : IVec S_ 1 := (fun x v => Host.reduce IntOp.andi x v reducesTo_S76800x54_S_d0_1 h_S_) main_v6 main_c_1
  let main_v8 : IVec S_ 1 := andi main_v3 main_v7
  let main_v9 : FVec F S78x78 .f32 := Host.absf main_arg6
  let main_cst_2 : FVec F S_ .f32 := constant S_ .f32 0x7F800000#32
  let main_v10 : FVec F S78x78 .f32 := broadcastInDim S78x78 ![] bcast_S_S78x78 main_cst_2
  let main_v11 : IVec S78x78 1 := cmpf .olt main_v9 main_v10
  let main_c_3 : IVec S_ 1 := constantI S_ 1 1#1
  let main_v12 : IVec S_ 1 := (fun x v => Host.reduce IntOp.andi x v reducesTo_S78x78_S_d0_1 h_S_) main_v11 main_c_3
  let main_v13 : IVec S_ 1 := andi main_v8 main_v12
  let main_v14 : FVec F S78 .f32 := Host.absf main_arg7
  let main_cst_4 : FVec F S_ .f32 := constant S_ .f32 0x7F800000#32
  let main_v15 : FVec F S78 .f32 := broadcastInDim S78 ![] bcast_S_S78 main_cst_4
  let main_v16 : IVec S78 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S10240x78 : Shape := ⟨2, ![10240, 78]⟩
abbrev S2x40960 : Shape := ⟨2, ![2, 40960]⟩
abbrev S10240 : Shape := ⟨1, ![10240]⟩
abbrev S76800x54 : Shape := ⟨2, ![76800, 54]⟩
abbrev S2x768000 : Shape := ⟨2, ![2, 768000]⟩
abbrev S76800 : Shape := ⟨1, ![76800]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S54x54 : Shape := ⟨2, ![54, 54]⟩
abbrev S54 : Shape := ⟨1, ![54]⟩
abbrev S54x108 : Shape := ⟨2, ![54, 108]⟩
abbrev S108 : Shape := ⟨1, ![108]⟩
abbrev S108x216 : Shape := ⟨2, ![108, 216]⟩
abbrev S216 : Shape := ⟨1, ![216]⟩
abbrev S216x1024 : Shape := ⟨2, ![216, 1024]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x40960 : Shape := ⟨2, ![1, 40960]⟩
abbrev S40960 : Shape := ⟨1, ![40960]⟩
abbrev S_ : Shape := ⟨0, ![]⟩
abbrev S40960x1 : Shape := ⟨2, ![40960, 1]⟩
abbrev S10240x1 : Shape := ⟨2, ![10240, 1]⟩
abbrev S2048x78 : Shape := ⟨2, ![2048, 78]⟩
abbrev S40960x78 : Shape := ⟨2, ![40960, 78]⟩
abbrev S2048x1 : Shape := ⟨2, ![2048, 1]⟩
abbrev S1x78 : Shape := ⟨2, ![1, 78]⟩
abbrev S10240x156 : Shape := ⟨2, ![10240, 156]⟩
abbrev S2048x156 : Shape := ⟨2, ![2048, 156]⟩
abbrev S40960x156 : Shape := ⟨2, ![40960, 156]⟩
abbrev S1x156 : Shape := ⟨2, ![1, 156]⟩
abbrev S10240x312 : Shape := ⟨2, ![10240, 312]⟩
abbrev S2048x312 : Shape := ⟨2, ![2048, 312]⟩
abbrev S40960x312 : Shape := ⟨2, ![40960, 312]⟩
abbrev S1x312 : Shape := ⟨2, ![1, 312]⟩
abbrev S256x312 : Shape := ⟨2, ![256, 312]⟩
abbrev S256 : Shape := ⟨1, ![256]⟩
abbrev S256x1 : Shape := ⟨2, ![256, 1]⟩
abbrev S1x1024 : Shape := ⟨2, ![1, 1024]⟩
abbrev S256x128 : Shape := ⟨2, ![256, 128]⟩
abbrev S1x128 : Shape := ⟨2, ![1, 128]⟩
abbrev S1x768000 : Shape := ⟨2, ![1, 768000]⟩
abbrev S768000 : Shape := ⟨1, ![768000]⟩
abbrev S768000x1 : Shape := ⟨2, ![768000, 1]⟩
abbrev S76800x1 : Shape := ⟨2, ![76800, 1]⟩
abbrev S3072x54 : Shape := ⟨2, ![3072, 54]⟩
abbrev S768000x54 : Shape := ⟨2, ![768000, 54]⟩
abbrev S3072x1 : Shape := ⟨2, ![3072, 1]⟩
abbrev S1x54 : Shape := ⟨2, ![1, 54]⟩
abbrev S76800x108 : Shape := ⟨2, ![76800, 108]⟩
abbrev S3072x108 : Shape := ⟨2, ![3072, 108]⟩
abbrev S768000x108 : Shape := ⟨2, ![768000, 108]⟩
abbrev S1x108 : Shape := ⟨2, ![1, 108]⟩
abbrev S76800x216 : Shape := ⟨2, ![76800, 216]⟩
abbrev S3072x216 : Shape := ⟨2, ![3072, 216]⟩
abbrev S768000x216 : Shape := ⟨2, ![768000, 216]⟩
abbrev S1x216 : Shape := ⟨2, ![1, 216]⟩
abbrev S256x216 : Shape := ⟨2, ![256, 216]⟩
abbrev S256x256 : Shape := ⟨2, ![256, 256]⟩
abbrev S256x512 : Shape := ⟨2, ![256, 512]⟩
abbrev S1x512 : Shape := ⟨2, ![1, 512]⟩
abbrev S1x1 : Shape := ⟨2, ![1, 1]⟩

abbrev nBuf : Space → Nat
  | .hbm => 264
  | .vmem => 112
  | .smem => 0
  | _ => 0

abbrev hbmTy0_0 (i : Nat) : BufTy := match i % 128 with
  | 0 => ⟨S10240x78, .f32⟩
  | 1 => ⟨S2x40960, .i32⟩
  | 2 => ⟨S10240, .i32⟩
  | 3 => ⟨S76800x54, .f32⟩
  | 4 => ⟨S2x768000, .i32⟩
  | 5 => ⟨S76800, .i32⟩
  | 6 => ⟨S78x78, .f32⟩
  | 7 => ⟨S78, .f32⟩
  | 8 => ⟨S78x156, .f32⟩
  | 9 => ⟨S156, .f32⟩
  | 10 => ⟨S156x312, .f32⟩
  | 11 => ⟨S312, .f32⟩
  | 12 => ⟨S312x1024, .f32⟩
  | 13 => ⟨S1024, .f32⟩
  | 14 => ⟨S1024x128, .f32⟩
  | 15 => ⟨S128, .f32⟩
  | 16 => ⟨S54x54, .f32⟩
  | 17 => ⟨S54, .f32⟩
  | 18 => ⟨S54x108, .f32⟩
  | 19 => ⟨S108, .f32⟩
  | 20 => ⟨S108x216, .f32⟩
  | 21 => ⟨S216, .f32⟩
  | 22 => ⟨S216x1024, .f32⟩
  | 23 => ⟨S1024, .f32⟩
  | 24 => ⟨S1024x128, .f32⟩
  | 25 => ⟨S128, .f32⟩
  | 26 => ⟨S256x1024, .f32⟩
  | 27 => ⟨S1024, .f32⟩
  | 28 => ⟨S1024x512, .f32⟩
  | 29 => ⟨S512, .f32⟩
  | 30 => ⟨S512x1, .f32⟩
  | 31 => ⟨S1, .f32⟩
  | 32 => ⟨S1x40960, .i32⟩
  | 33 => ⟨S40960, .i32⟩
  | 34 => ⟨S1x40960, .i32⟩
  | 35 => ⟨S40960, .i32⟩
  | 36 => ⟨S_, .f32⟩
  | 37 => ⟨S40960, .f32⟩
  | 38 => ⟨S_, .f32⟩
  | 39 => ⟨S10240, .f32⟩
  | 40 => ⟨S40960x1, .i32⟩
  | 41 => ⟨S10240, .f32⟩
  | 42 => ⟨S_, .f32⟩
  | 43 => ⟨S10240, .f32⟩
  | 44 => ⟨S10240, .f32⟩
  | 45 => ⟨S10240, .f32⟩
  | 46 => ⟨S10240x1, .f32⟩
  | 47 => ⟨S10240x78, .f32⟩
  | 48 => ⟨S_, .i32⟩
  | 49 => ⟨S40960, .i32⟩
  | 50 => ⟨S40960, .i1⟩
  | 51 => ⟨S_, .i32⟩
  | 52 => ⟨S40960, .i32⟩
  | 53 => ⟨S40960, .i32⟩
  | 54 => ⟨S40960, .i32⟩
  | 55 => ⟨S40960x1, .i32⟩
  | 56 => ⟨S40960x78, .f32⟩
  | 57 => ⟨S_, .i32⟩
  | 58 => ⟨S40960, .i32⟩
  | 59 => ⟨S40960, .i1⟩
  | 60 => ⟨S_, .i32⟩
  | 61 => ⟨S40960, .i32⟩
  | 62 => ⟨S40960, .i32⟩
  | 63 => ⟨S40960, .i32⟩
  | 64 => ⟨S40960x1, .i32⟩
  | 65 => ⟨S40960, .f32⟩
  | 66 => ⟨S40960x1, .f32⟩
  | 67 => ⟨S40960x78, .f32⟩
  | 68 => ⟨S40960x78, .f32⟩
  | 69 => ⟨S_, .f32⟩
  | 70 => ⟨S10240x78, .f32⟩
  | 71 => ⟨S40960x1, .i32⟩
  | 72 => ⟨S10240x78, .f32⟩
  | 73 => ⟨S10240x78, .f32⟩
  | 74 => ⟨S10240x156, .f32⟩
  | 75 => ⟨S_, .i32⟩
  | 76 => ⟨S40960, .i32⟩
  | 77 => ⟨S40960, .i1⟩
  | 78 => ⟨S_, .i32⟩
  | 79 => ⟨S40960, .i32⟩
  | 80 => ⟨S40960, .i32⟩
  | 81 => ⟨S40960, .i32⟩
  | 82 => ⟨S40960x1, .i32⟩
  | 83 => ⟨S40960x156, .f32⟩
  | 84 => ⟨S_, .i32⟩
  | 85 => ⟨S40960, .i32⟩
  | 86 => ⟨S40960, .i1⟩
  | 87 => ⟨S_, .i32⟩
  | 88 => ⟨S40960, .i32⟩
  | 89 => ⟨S40960, .i32⟩
  | 90 => ⟨S40960, .i32⟩
  | 91 => ⟨S40960x1, .i32⟩
  | 92 => ⟨S40960, .f32⟩
  | 93 => ⟨S40960x1, .f32⟩
  | 94 => ⟨S40960x156, .f32⟩
  | 95 => ⟨S40960x156, .f32⟩
  | 96 => ⟨S_, .f32⟩
  | 97 => ⟨S10240x156, .f32⟩
  | 98 => ⟨S40960x1, .i32⟩
  | 99 => ⟨S10240x156, .f32⟩
  | 100 => ⟨S10240x156, .f32⟩
  | 101 => ⟨S10240x312, .f32⟩
  | 102 => ⟨S_, .i32⟩
  | 103 => ⟨S40960, .i32⟩
  | 104 => ⟨S40960, .i1⟩
  | 105 => ⟨S_, .i32⟩
  | 106 => ⟨S40960, .i32⟩
  | 107 => ⟨S40960, .i32⟩
  | 108 => ⟨S40960, .i32⟩
  | 109 => ⟨S40960x1, .i32⟩
  | 110 => ⟨S40960x312, .f32⟩
  | 111 => ⟨S_, .i32⟩
  | 112 => ⟨S40960, .i32⟩
  | 113 => ⟨S40960, .i1⟩
  | 114 => ⟨S_, .i32⟩
  | 115 => ⟨S40960, .i32⟩
  | 116 => ⟨S40960, .i32⟩
  | 117 => ⟨S40960, .i32⟩
  | 118 => ⟨S40960x1, .i32⟩
  | 119 => ⟨S40960, .f32⟩
  | 120 => ⟨S40960x1, .f32⟩
  | 121 => ⟨S40960x312, .f32⟩
  | 122 => ⟨S40960x312, .f32⟩
  | 123 => ⟨S_, .f32⟩
  | 124 => ⟨S10240x312, .f32⟩
  | 125 => ⟨S40960x1, .i32⟩
  | 126 => ⟨S10240x312, .f32⟩
  | 127 => ⟨S10240x312, .f32⟩
  | _ => ⟨S10240x78, .f32⟩

abbrev hbmTy0_1 (i : Nat) : BufTy := match i % 128 with
  | 0 => ⟨S_, .f32⟩
  | 1 => ⟨S256x312, .f32⟩
  | 2 => ⟨S10240x1, .i32⟩
  | 3 => ⟨S256x312, .f32⟩
  | 4 => ⟨S_, .f32⟩
  | 5 => ⟨S10240, .f32⟩
  | 6 => ⟨S_, .f32⟩
  | 7 => ⟨S256, .f32⟩
  | 8 => ⟨S10240x1, .i32⟩
  | 9 => ⟨S256, .f32⟩
  | 10 => ⟨S_, .f32⟩
  | 11 => ⟨S256, .f32⟩
  | 12 => ⟨S256, .f32⟩
  | 13 => ⟨S256x1, .f32⟩
  | 14 => ⟨S256x312, .f32⟩
  | 15 => ⟨S256x312, .f32⟩
  | 16 => ⟨S256x1024, .f32⟩
  | 17 => ⟨S256x128, .f32⟩
  | 18 => ⟨S1x768000, .i32⟩
  | 19 => ⟨S768000, .i32⟩
  | 20 => ⟨S1x768000, .i32⟩
  | 21 => ⟨S768000, .i32⟩
  | 22 => ⟨S_, .f32⟩
  | 23 => ⟨S768000, .f32⟩
  | 24 => ⟨S_, .f32⟩
  | 25 => ⟨S76800, .f32⟩
  | 26 => ⟨S768000x1, .i32⟩
  | 27 => ⟨S76800, .f32⟩
  | 28 => ⟨S_, .f32⟩
  | 29 => ⟨S76800, .f32⟩
  | 30 => ⟨S76800, .f32⟩
  | 31 => ⟨S76800, .f32⟩
  | 32 => ⟨S76800x1, .f32⟩
  | 33 => ⟨S76800x54, .f32⟩
  | 34 => ⟨S_, .i32⟩
  | 35 => ⟨S768000, .i32⟩
  | 36 => ⟨S768000, .i1⟩
  | 37 => ⟨S_, .i32⟩
  | 38 => ⟨S768000, .i32⟩
  | 39 => ⟨S768000, .i32⟩
  | 40 => ⟨S768000, .i32⟩
  | 41 => ⟨S768000x1, .i32⟩
  | 42 => ⟨S768000x54, .f32⟩
  | 43 => ⟨S_, .i32⟩
  | 44 => ⟨S768000, .i32⟩
  | 45 => ⟨S768000, .i1⟩
  | 46 => ⟨S_, .i32⟩
  | 47 => ⟨S768000, .i32⟩
  | 48 => ⟨S768000, .i32⟩
  | 49 => ⟨S768000, .i32⟩
  | 50 => ⟨S768000x1, .i32⟩
  | 51 => ⟨S768000, .f32⟩
  | 52 => ⟨S768000x1, .f32⟩
  | 53 => ⟨S768000x54, .f32⟩
  | 54 => ⟨S768000x54, .f32⟩
  | 55 => ⟨S_, .f32⟩
  | 56 => ⟨S76800x54, .f32⟩
  | 57 => ⟨S768000x1, .i32⟩
  | 58 => ⟨S76800x54, .f32⟩
  | 59 => ⟨S76800x54, .f32⟩
  | 60 => ⟨S76800x108, .f32⟩
  | 61 => ⟨S_, .i32⟩
  | 62 => ⟨S768000, .i32⟩
  | 63 => ⟨S768000, .i1⟩
  | 64 => ⟨S_, .i32⟩
  | 65 => ⟨S768000, .i32⟩
  | 66 => ⟨S768000, .i32⟩
  | 67 => ⟨S768000, .i32⟩
  | 68 => ⟨S768000x1, .i32⟩
  | 69 => ⟨S768000x108, .f32⟩
  | 70 => ⟨S_, .i32⟩
  | 71 => ⟨S768000, .i32⟩
  | 72 => ⟨S768000, .i1⟩
  | 73 => ⟨S_, .i32⟩
  | 74 => ⟨S768000, .i32⟩
  | 75 => ⟨S768000, .i32⟩
  | 76 => ⟨S768000, .i32⟩
  | 77 => ⟨S768000x1, .i32⟩
  | 78 => ⟨S768000, .f32⟩
  | 79 => ⟨S768000x1, .f32⟩
  | 80 => ⟨S768000x108, .f32⟩
  | 81 => ⟨S768000x108, .f32⟩
  | 82 => ⟨S_, .f32⟩
  | 83 => ⟨S76800x108, .f32⟩
  | 84 => ⟨S768000x1, .i32⟩
  | 85 => ⟨S76800x108, .f32⟩
  | 86 => ⟨S76800x108, .f32⟩
  | 87 => ⟨S76800x216, .f32⟩
  | 88 => ⟨S_, .i32⟩
  | 89 => ⟨S768000, .i32⟩
  | 90 => ⟨S768000, .i1⟩
  | 91 => ⟨S_, .i32⟩
  | 92 => ⟨S768000, .i32⟩
  | 93 => ⟨S768000, .i32⟩
  | 94 => ⟨S768000, .i32⟩
  | 95 => ⟨S768000x1, .i32⟩
  | 96 => ⟨S768000x216, .f32⟩
  | 97 => ⟨S_, .i32⟩
  | 98 => ⟨S768000, .i32⟩
  | 99 => ⟨S768000, .i1⟩
  | 100 => ⟨S_, .i32⟩
  | 101 => ⟨S768000, .i32⟩
  | 102 => ⟨S768000, .i32⟩
  | 103 => ⟨S768000, .i32⟩
  | 104 => ⟨S768000x1, .i32⟩
  | 105 => ⟨S768000, .f32⟩
  | 106 => ⟨S768000x1, .f32⟩
  | 107 => ⟨S768000x216, .f32⟩
  | 108 => ⟨S768000x216, .f32⟩
  | 109 => ⟨S_, .f32⟩
  | 110 => ⟨S76800x216, .f32⟩
  | 111 => ⟨S768000x1, .i32⟩
  | 112 => ⟨S76800x216, .f32⟩
  | 113 => ⟨S76800x216, .f32⟩
  | 114 => ⟨S_, .f32⟩
  | 115 => ⟨S256x216, .f32⟩
  | 116 => ⟨S76800x1, .i32⟩
  | 117 => ⟨S256x216, .f32⟩
  | 118 => ⟨S_, .f32⟩
  | 119 => ⟨S76800, .f32⟩
  | 120 => ⟨S_, .f32⟩
  | 121 => ⟨S256, .f32⟩
  | 122 => ⟨S76800x1, .i32⟩
  | 123 => ⟨S256, .f32⟩
  | 124 => ⟨S_, .f32⟩
  | 125 => ⟨S256, .f32⟩
  | 126 => ⟨S256, .f32⟩
  | 127 => ⟨S256x1, .f32⟩
  | _ => ⟨S10240x78, .f32⟩

abbrev hbmTy0_2 (i : Nat) : BufTy := match i % 128 with
  | 0 => ⟨S256x216, .f32⟩
  | 1 => ⟨S256x216, .f32⟩
  | 2 => ⟨S256x1024, .f32⟩
  | 3 => ⟨S256x128, .f32⟩
  | 4 => ⟨S256x256, .f32⟩
  | 5 => ⟨S256x1024, .f32⟩
  | 6 => ⟨S256x512, .f32⟩
  | 7 => ⟨S256x1, .f32⟩
  | _ => ⟨S10240x78, .f32⟩

abbrev hbmTy (i : Nat) : BufTy := match i / 128 with
  | 0 => hbmTy0_0 i
  | 1 => hbmTy0_1 i
  | 2 => hbmTy0_2 i
  | _ => ⟨S10240x78, .f32⟩

abbrev bufTy : (tb : Table) → Fin (tcTables nBuf tb) → BufTy
  | .hbm, ⟨i, _⟩ => hbmTy i
  | .local _ .vmem, ⟨0, _⟩ => ⟨S2048x78, .f32⟩
  | .local _ .vmem, ⟨1, _⟩ => ⟨S2048x78, .f32⟩
  | .local _ .vmem, ⟨2, _⟩ => ⟨S78x78, .f32⟩
  | .local _ .vmem, ⟨3, _⟩ => ⟨S2048x78, .f32⟩
  | .local _ .vmem, ⟨4, _⟩ => ⟨S2048x78, .f32⟩
  | .local _ .vmem, ⟨5, _⟩ => ⟨S2048x78, .f32⟩
  | .local _ .vmem, ⟨6, _⟩ => ⟨S2048x78, .f32⟩
  | .local _ .vmem, ⟨7, _⟩ => ⟨S2048x78, .f32⟩
  | .local _ .vmem, ⟨8, _⟩ => ⟨S2048x78, .f32⟩
  | .local _ .vmem, ⟨9, _⟩ => ⟨S2048x1, .f32⟩
  | .local _ .vmem, ⟨10, _⟩ => ⟨S2048x1, .f32⟩
  | .local _ .vmem, ⟨11, _⟩ => ⟨S78, .f32⟩
  | .local _ .vmem, ⟨12, _⟩ => ⟨S2048x78, .f32⟩
  | .local _ .vmem, ⟨13, _⟩ => ⟨S2048x78, .f32⟩
  | .local _ .vmem, ⟨14, _⟩ => ⟨S2048x78, .f32⟩
  | .local _ .vmem, ⟨15, _⟩ => ⟨S2048x78, .f32⟩
  | .local _ .vmem, ⟨16, _⟩ => ⟨S78x156, .f32⟩
  | .local _ .vmem, ⟨17, _⟩ => ⟨S2048x156, .f32⟩
  | .local _ .vmem, ⟨18, _⟩ => ⟨S2048x156, .f32⟩
  | .local _ .vmem, ⟨19, _⟩ => ⟨S2048x156, .f32⟩
  | .local _ .vmem, ⟨20, _⟩ => ⟨S2048x156, .f32⟩
  | .local _ .vmem, ⟨21, _⟩ => ⟨S2048x156, .f32⟩
  | .local _ .vmem, ⟨22, _⟩ => ⟨S2048x156, .f32⟩
  | .local _ .vmem, ⟨23, _⟩ => ⟨S2048x1, .f32⟩
  | .local _ .vmem, ⟨24, _⟩ => ⟨S2048x1, .f32⟩
  | .local _ .vmem, ⟨25, _⟩ => ⟨S156, .f32⟩
  | .local _ .vmem, ⟨26, _⟩ => ⟨S2048x156, .f32⟩
  | .local _ .vmem, ⟨27, _⟩ => ⟨S2048x156, .f32⟩
  | .local _ .vmem, ⟨28, _⟩ => ⟨S2048x156, .f32⟩
  | .local _ .vmem, ⟨29, _⟩ => ⟨S2048x156, .f32⟩
  | .local _ .vmem, ⟨30, _⟩ => ⟨S156x312, .f32⟩
  | .local _ .vmem, ⟨31, _⟩ => ⟨S2048x312, .f32⟩
  | .local _ .vmem, ⟨32, _⟩ => ⟨S2048x312, .f32⟩
  | .local _ .vmem, ⟨33, _⟩ => ⟨S2048x312, .f32⟩
  | .local _ .vmem, ⟨34, _⟩ => ⟨S2048x312, .f32⟩
  | .local _ .vmem, ⟨35, _⟩ => ⟨S2048x312, .f32⟩
  | .local _ .vmem, ⟨36, _⟩ => ⟨S2048x312, .f32⟩
  | .local _ .vmem, ⟨37, _⟩ => ⟨S2048x1, .f32⟩
  | .local _ .vmem, ⟨38, _⟩ => ⟨S2048x1, .f32⟩
  | .local _ .vmem, ⟨39, _⟩ => ⟨S312, .f32⟩
  | .local _ .vmem, ⟨40, _⟩ => ⟨S2048x312, .f32⟩
  | .local _ .vmem, ⟨41, _⟩ => ⟨S2048x312, .f32⟩
  | .local _ .vmem, ⟨42, _⟩ => ⟨S256x312, .f32⟩
  | .local _ .vmem, ⟨43, _⟩ => ⟨S312x1024, .f32⟩
  | .local _ .vmem, ⟨44, _⟩ => ⟨S1024, .f32⟩
  | .local _ .vmem, ⟨45, _⟩ => ⟨S256x1024, .f32⟩
  | .local _ .vmem, ⟨46, _⟩ => ⟨S256x1024, .f32⟩
  | .local _ .vmem, ⟨47, _⟩ => ⟨S1024x128, .f32⟩
  | .local _ .vmem, ⟨48, _⟩ => ⟨S128, .f32⟩
  | .local _ .vmem, ⟨49, _⟩ => ⟨S256x128, .f32⟩
  | .local _ .vmem, ⟨50, _⟩ => ⟨S3072x54, .f32⟩
  | .local _ .vmem, ⟨51, _⟩ => ⟨S3072x54, .f32⟩
  | .local _ .vmem, ⟨52, _⟩ => ⟨S54x54, .f32⟩
  | .local _ .vmem, ⟨53, _⟩ => ⟨S3072x54, .f32⟩
  | .local _ .vmem, ⟨54, _⟩ => ⟨S3072x54, .f32⟩
  | .local _ .vmem, ⟨55, _⟩ => ⟨S3072x54, .f32⟩
  | .local _ .vmem, ⟨56, _⟩ => ⟨S3072x54, .f32⟩
  | .local _ .vmem, ⟨57, _⟩ => ⟨S3072x54, .f32⟩
  | .local _ .vmem, ⟨58, _⟩ => ⟨S3072x54, .f32⟩
  | .local _ .vmem, ⟨59, _⟩ => ⟨S3072x1, .f32⟩
  | .local _ .vmem, ⟨60, _⟩ => ⟨S3072x1, .f32⟩
  | .local _ .vmem, ⟨61, _⟩ => ⟨S54, .f32⟩
  | .local _ .vmem, ⟨62, _⟩ => ⟨S3072x54, .f32⟩
  | .local _ .vmem, ⟨63, _⟩ => ⟨S3072x54, .f32⟩
  | .local _ .vmem, ⟨64, _⟩ => ⟨S3072x54, .f32⟩
  | .local _ .vmem, ⟨65, _⟩ => ⟨S3072x54, .f32⟩
  | .local _ .vmem, ⟨66, _⟩ => ⟨S54x108, .f32⟩
  | .local _ .vmem, ⟨67, _⟩ => ⟨S3072x108, .f32⟩
  | .local _ .vmem, ⟨68, _⟩ => ⟨S3072x108, .f32⟩
  | .local _ .vmem, ⟨69, _⟩ => ⟨S3072x108, .f32⟩
  | .local _ .vmem, ⟨70, _⟩ => ⟨S3072x108, .f32⟩
  | .local _ .vmem, ⟨71, _⟩ => ⟨S3072x108, .f32⟩
  | .local _ .vmem, ⟨72, _⟩ => ⟨S3072x108, .f32⟩
  | .local _ .vmem, ⟨73, _⟩ => ⟨S3072x1, .f32⟩
  | .local _ .vmem, ⟨74, _⟩ => ⟨S3072x1, .f32⟩
  | .local _ .vmem, ⟨75, _⟩ => ⟨S108, .f32⟩
  | .local _ .vmem, ⟨76, _⟩ => ⟨S3072x108, .f32⟩
  | .local _ .vmem, ⟨77, _⟩ => ⟨S3072x108, .f32⟩
  | .local _ .vmem, ⟨78, _⟩ => ⟨S3072x108, .f32⟩
  | .local _ .vmem, ⟨79, _⟩ => ⟨S3072x108, .f32⟩
  | .local _ .vmem, ⟨80, _⟩ => ⟨S108x216, .f32⟩
  | .local _ .vmem, ⟨81, _⟩ => ⟨S3072x216, .f32⟩
  | .local _ .vmem, ⟨82, _⟩ => ⟨S3072x216, .f32⟩
  | .local _ .vmem, ⟨83, _⟩ => ⟨S3072x216, .f32⟩
  | .local _ .vmem, ⟨84, _⟩ => ⟨S3072x216, .f32⟩
  | .local _ .vmem, ⟨85, _⟩ => ⟨S3072x216, .f32⟩
  | .local _ .vmem, ⟨86, _⟩ => ⟨S3072x216, .f32⟩
  | .local _ .vmem, ⟨87, _⟩ => ⟨S3072x1, .f32⟩
  | .local _ .vmem, ⟨88, _⟩ => ⟨S3072x1, .f32⟩
  | .local _ .vmem, ⟨89, _⟩ => ⟨S216, .f32⟩
  | .local _ .vmem, ⟨90, _⟩ => ⟨S3072x216, .f32⟩
  | .local _ .vmem, ⟨91, _⟩ => ⟨S3072x216, .f32⟩
  | .local _ .vmem, ⟨92, _⟩ => ⟨S256x216, .f32⟩
  | .local _ .vmem, ⟨93, _⟩ => ⟨S216x1024, .f32⟩
  | .local _ .vmem, ⟨94, _⟩ => ⟨S1024, .f32⟩
  | .local _ .vmem, ⟨95, _⟩ => ⟨S256x1024, .f32⟩
  | .local _ .vmem, ⟨96, _⟩ => ⟨S256x1024, .f32⟩
  | .local _ .vmem, ⟨97, _⟩ => ⟨S1024x128, .f32⟩
  | .local _ .vmem, ⟨98, _⟩ => ⟨S128, .f32⟩
  | .local _ .vmem, ⟨99, _⟩ => ⟨S256x128, .f32⟩
  | .local _ .vmem, ⟨100, _⟩ => ⟨S256x256, .f32⟩
  | .local _ .vmem, ⟨101, _⟩ => ⟨S256x1024, .f32⟩
  | .local _ .vmem, ⟨102, _⟩ => ⟨S1024, .f32⟩
  | .local _ .vmem, ⟨103, _⟩ => ⟨S256x1024, .f32⟩
  | .local _ .vmem, ⟨104, _⟩ => ⟨S256x1024, .f32⟩
  | .local _ .vmem, ⟨105, _⟩ => ⟨S1024x512, .f32⟩
  | .local _ .vmem, ⟨106, _⟩ => ⟨S512, .f32⟩
  | .local _ .vmem, ⟨107, _⟩ => ⟨S256x512, .f32⟩
  | .local _ .vmem, ⟨108, _⟩ => ⟨S256x512, .f32⟩
  | .local _ .vmem, ⟨109, _⟩ => ⟨S512x1, .f32⟩
  | .local _ .vmem, ⟨110, _⟩ => ⟨S1, .f32⟩
  | .local _ .vmem, ⟨111, _⟩ => ⟨S256x1, .f32⟩
  | _, _ => ⟨S10240x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c : Ref sig .tc := ⟨.hbm, 48, rfl⟩
abbrev main_v13 : Ref sig .tc := ⟨.hbm, 49, rfl⟩
abbrev main_v14 : Ref sig .tc := ⟨.hbm, 50, rfl⟩
abbrev main_c_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c_3 : Ref sig .tc := ⟨.hbm, 57, rfl⟩
abbrev main_v20 : Ref sig .tc := ⟨.hbm, 58, rfl⟩
abbrev main_v21 : Ref sig .tc := ⟨.hbm, 59, rfl⟩
abbrev main_c_4 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_6 : Ref sig .tc := ⟨.hbm, 75, rfl⟩
abbrev main_v35 : Ref sig .tc := ⟨.hbm, 76, rfl⟩
abbrev main_v36 : Ref sig .tc := ⟨.hbm, 77, rfl⟩
abbrev main_c_7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_8 : Ref sig .tc := ⟨.hbm, 84, rfl⟩
abbrev main_v42 : Ref sig .tc := ⟨.hbm, 85, rfl⟩
abbrev main_v43 : Ref sig .tc := ⟨.hbm, 86, rfl⟩
abbrev main_c_9 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_10 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_11 : Ref sig .tc := ⟨.hbm, 102, rfl⟩
abbrev main_v57 : Ref sig .tc := ⟨.hbm, 103, rfl⟩
abbrev main_v58 : Ref sig .tc := ⟨.hbm, 104, rfl⟩
abbrev main_c_12 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_13 : Ref sig .tc := ⟨.hbm, 111, rfl⟩
abbrev main_v64 : Ref sig .tc := ⟨.hbm, 112, rfl⟩
abbrev main_v65 : Ref sig .tc := ⟨.hbm, 113, rfl⟩
abbrev main_c_14 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_15 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_16 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_17 : Ref sig .tc := ⟨.hbm, 132, rfl⟩
abbrev main_v81 : Ref sig .tc := ⟨.hbm, 133, rfl⟩
abbrev main_cst_18 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_19 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_20 : Ref sig .tc := ⟨.hbm, 150, rfl⟩
abbrev main_v96 : Ref sig .tc := ⟨.hbm, 151, rfl⟩
abbrev main_cst_21 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_22 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_c_23 : Ref sig .tc := ⟨.hbm, 162, rfl⟩
abbrev main_v105 : Ref sig .tc := ⟨.hbm, 163, rfl⟩
abbrev main_v106 : Ref sig .tc := ⟨.hbm, 164, rfl⟩
abbrev main_c_24 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_25 : Ref sig .tc := ⟨.hbm, 171, rfl⟩
abbrev main_v112 : Ref sig .tc := ⟨.hbm, 172, rfl⟩
abbrev main_v113 : Ref sig .tc := ⟨.hbm, 173, rfl⟩
abbrev main_c_26 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_27 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_28 : Ref sig .tc := ⟨.hbm, 189, rfl⟩
abbrev main_v127 : Ref sig .tc := ⟨.hbm, 190, rfl⟩
abbrev main_v128 : Ref sig .tc := ⟨.hbm, 191, rfl⟩
abbrev main_c_29 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_c_30 : Ref sig .tc := ⟨.hbm, 198, rfl⟩
abbrev main_v134 : Ref sig .tc := ⟨.hbm, 199, rfl⟩
abbrev main_v135 : Ref sig .tc := ⟨.hbm, 200, rfl⟩
abbrev main_c_31 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_32 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_c_33 : Ref sig .tc := ⟨.hbm, 216, rfl⟩
abbrev main_v149 : Ref sig .tc := ⟨.hbm, 217, rfl⟩
abbrev main_v150 : Ref sig .tc := ⟨.hbm, 218, rfl⟩
abbrev main_c_34 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_c_35 : Ref sig .tc := ⟨.hbm, 225, rfl⟩
abbrev main_v156 : Ref sig .tc := ⟨.hbm, 226, rfl⟩
abbrev main_v157 : Ref sig .tc := ⟨.hbm, 227, rfl⟩
abbrev main_c_36 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_cst_37 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_cst_38 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_39 : Ref sig .tc := ⟨.hbm, 246, rfl⟩
abbrev main_v173 : Ref sig .tc := ⟨.hbm, 247, rfl⟩
abbrev main_cst_40 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_cst_41 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc7_stg0_0 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg1_1 : Ref sig .tc := ⟨.vmem, 58, rfl⟩
abbrev cc9_stg2_0 : Ref sig .tc := ⟨.vmem, 59, rfl⟩
abbrev cc9_stg2_1 : Ref sig .tc := ⟨.vmem, 60, rfl⟩
abbrev cc9_stg3_0 : Ref sig .tc := ⟨.vmem, 61, rfl⟩
abbrev cc9_stg4_0 : Ref sig .tc := ⟨.vmem, 62, rfl⟩
abbrev cc9_stg4_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg2_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc11_stg2_1 : Ref sig .tc := ⟨.vmem, 74, rfl⟩
abbrev cc11_stg3_0 : Ref sig .tc := ⟨.vmem, 75, rfl⟩
abbrev cc11_stg4_0 : Ref sig .tc := ⟨.vmem, 76, rfl⟩
abbrev cc11_stg4_1 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg2_0 : Ref sig .tc := ⟨.vmem, 81, rfl⟩
abbrev cc12_stg2_1 : Ref sig .tc := ⟨.vmem, 82, rfl⟩
abbrev cc13_stg0_0 : Ref sig .tc := ⟨.vmem, 83, rfl⟩
abbrev cc13_stg0_1 : Ref sig .tc := ⟨.vmem, 84, rfl⟩
abbrev cc13_stg1_0 : Ref sig .tc := ⟨.vmem, 85, rfl⟩
abbrev cc13_stg1_1 : Ref sig .tc := ⟨.vmem, 86, rfl⟩
abbrev cc13_stg2_0 : Ref sig .tc := ⟨.vmem, 87, rfl⟩
abbrev cc13_stg2_1 : Ref sig .tc := ⟨.vmem, 88, rfl⟩
abbrev cc13_stg3_0 : Ref sig .tc := ⟨.vmem, 89, rfl⟩
abbrev cc13_stg4_0 : Ref sig .tc := ⟨.vmem, 90, rfl⟩
abbrev cc13_stg4_1 : Ref sig .tc := ⟨.vmem, 91, rfl⟩
abbrev cc14_stg0_0 : Ref sig .tc := ⟨.vmem, 92, rfl⟩
abbrev cc14_stg1_0 : Ref sig .tc := ⟨.vmem, 93, rfl⟩
abbrev cc14_stg2_0 : Ref sig .tc := ⟨.vmem, 94, rfl⟩
abbrev cc14_stg3_0 : Ref sig .tc := ⟨.vmem, 95, rfl⟩
abbrev cc15_stg0_0 : Ref sig .tc := ⟨.vmem, 96, rfl⟩
abbrev cc15_stg1_0 : Ref sig .tc := ⟨.vmem, 97, rfl⟩
abbrev cc15_stg2_0 : Ref sig .tc := ⟨.vmem, 98, rfl⟩
abbrev cc15_stg3_0 : Ref sig .tc := ⟨.vmem, 99, rfl⟩
abbrev cc16_stg0_0 : Ref sig .tc := ⟨.vmem, 100, rfl⟩
abbrev cc16_stg1_0 : Ref sig .tc := ⟨.vmem, 101, rfl⟩
abbrev cc16_stg2_0 : Ref sig .tc := ⟨.vmem, 102, rfl⟩
abbrev cc16_stg3_0 : Ref sig .tc := ⟨.vmem, 103, rfl⟩
abbrev cc17_stg0_0 : Ref sig .tc := ⟨.vmem, 104, rfl⟩
abbrev cc17_stg1_0 : Ref sig .tc := ⟨.vmem, 105, rfl⟩
abbrev cc17_stg2_0 : Ref sig .tc := ⟨.vmem, 106, rfl⟩
abbrev cc17_stg3_0 : Ref sig .tc := ⟨.vmem, 107, rfl⟩
abbrev cc18_stg0_0 : Ref sig .tc := ⟨.vmem, 108, rfl⟩
abbrev cc18_stg1_0 : Ref sig .tc := ⟨.vmem, 109, rfl⟩
abbrev cc18_stg2_0 : Ref sig .tc := ⟨.vmem, 110, rfl⟩
abbrev cc18_stg3_0 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc7_sem0_0 : DmaSem sig := 46
abbrev cc7_sem1_0 : DmaSem sig := 47
abbrev cc7_sem2_0 : DmaSem sig := 48
abbrev cc7_sem3_0 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem2_1 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem2_1 : DmaSem sig := 60
abbrev cc9_sem3_0 : DmaSem sig := 61
abbrev cc9_sem4_0 : DmaSem sig := 62
abbrev cc9_sem4_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem2_1 : DmaSem sig := 68
abbrev cc11_sem0_0 : DmaSem sig := 69
abbrev cc11_sem0_1 : DmaSem sig := 70
abbrev cc11_sem1_0 : DmaSem sig := 71
abbrev cc11_sem1_1 : DmaSem sig := 72
abbrev cc11_sem2_0 : DmaSem sig := 73
abbrev cc11_sem2_1 : DmaSem sig := 74
abbrev cc11_sem3_0 : DmaSem sig := 75
abbrev cc11_sem4_0 : DmaSem sig := 76
abbrev cc11_sem4_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem2_1 : DmaSem sig := 82
abbrev cc13_sem0_0 : DmaSem sig := 83
abbrev cc13_sem0_1 : DmaSem sig := 84
abbrev cc13_sem1_0 : DmaSem sig := 85
abbrev cc13_sem1_1 : DmaSem sig := 86
abbrev cc13_sem2_0 : DmaSem sig := 87
abbrev cc13_sem2_1 : DmaSem sig := 88
abbrev cc13_sem3_0 : DmaSem sig := 89
abbrev cc13_sem4_0 : DmaSem sig := 90
abbrev cc13_sem4_1 : DmaSem sig := 91
abbrev cc14_sem0_0 : DmaSem sig := 92
abbrev cc14_sem1_0 : DmaSem sig := 93
abbrev cc14_sem2_0 : DmaSem sig := 94
abbrev cc14_sem3_0 : DmaSem sig := 95
abbrev cc15_sem0_0 : DmaSem sig := 96
abbrev cc15_sem1_0 : DmaSem sig := 97
abbrev cc15_sem2_0 : DmaSem sig := 98
abbrev cc15_sem3_0 : DmaSem sig := 99
abbrev cc16_sem0_0 : DmaSem sig := 100
abbrev cc16_sem1_0 : DmaSem sig := 101
abbrev cc16_sem2_0 : DmaSem sig := 102
abbrev cc16_sem3_0 : DmaSem sig := 103
abbrev cc17_sem0_0 : DmaSem sig := 104
abbrev cc17_sem1_0 : DmaSem sig := 105
abbrev cc17_sem2_0 : DmaSem sig := 106
abbrev cc17_sem3_0 : DmaSem sig := 107
abbrev cc18_sem0_0 : DmaSem sig := 108
abbrev cc18_sem1_0 : DmaSem sig := 109
abbrev cc18_sem2_0 : DmaSem sig := 110
abbrev cc18_sem3_0 : DmaSem sig := 111

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x78 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x78 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x78 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x78 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S78 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x78 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x78 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S78x156 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x156 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x156 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x156 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S156 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x156 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x156 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S156x312 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x312 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x312 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x312 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S312 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x312 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S256x312 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S312x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S256x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1024x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S3072x54 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S54x54 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S3072x54 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S3072x54 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3072x54 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S3072x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S54 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S3072x54 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S3072x54 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S54x108 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S3072x108 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S3072x108 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S3072x108 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S3072x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S108 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S3072x108 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S3072x108 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S108x216 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S3072x216 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S3072x216 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S3072x216 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S3072x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S216 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S3072x216 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S256x216 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S216x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S256x1024 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S256x1024 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S1024x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S256x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 1 → Nat :=
  let arg0 : BitVec 32 := BitVec.ofNat 32 (i 0).val
  let c0_i32 : BitVec 32 := 0#32
  let c0_i32_0 : BitVec 32 := 0#32
  ![c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S256x256 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S256x1024 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1024 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S256x1024 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S256x1024 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S1024x512 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S512 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S256x512 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S256x512 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S512x1 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S256x1 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![true]

class Facts₀ : Prop where
  slices_S2x40960_S1x40960_0_0 : S2x40960.Slices ![0, 0] S1x40960
  shapeCasts_S1x40960_S40960 : S1x40960.ShapeCasts S40960
  slices_S2x40960_S1x40960_1_0 : S2x40960.Slices ![1, 0] S1x40960
  bcast_S_S40960 : S_.BroadcastsInDim S40960 (![] : Fin 0 → Fin S40960.rank)
  bcast_S_S10240 : S_.BroadcastsInDim S10240 (![] : Fin 0 → Fin S10240.rank)
  bcast_S40960_S40960x1_0 : S40960.BroadcastsInDim S40960x1 (![0] : Fin 1 → Fin S40960x1.rank)
  bcast_S10240_S10240x1_0 : S10240.BroadcastsInDim S10240x1 (![0] : Fin 1 → Fin S10240x1.rank)
  inb_S2048x78_S2048x78_0_0 : ∀ a, (![0, 0] : Fin 2 → Nat) a + S2048x78.size a ≤ S2048x78.size a
  h_S2048x78 : 0 < S2048x78.numel
  bitsLt_bf16_f32 : FTy.bits .bf16 < FTy.bits .f32
  inb_S78x78_S78x78_0_0 : ∀ a, (![0, 0] : Fin 2 → Nat) a + S78x78.size a ≤ S78x78.size a
  h_S78x78 : 0 < S78x78.numel
  bcast_S40960x1_S40960x78_0_1 : S40960x1.BroadcastsInDim S40960x78 (![0, 1] : Fin 2 → Fin S40960x78.rank)
  bcast_S_S10240x78 : S_.BroadcastsInDim S10240x78 (![] : Fin 0 → Fin S10240x78.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S78_S78_0 : ∀ a, (![0] : Fin 1 → Nat) a + S78.size a ≤ S78.size a
  h_S78 : 0 < S78.numel
  shapeCasts_S78_S1x78 : S78.ShapeCasts S1x78
  shapeCasts_S1x78_S1x78 : S1x78.ShapeCasts S1x78
  broadcasts_S1x78_S2048x78 : S1x78.Broadcasts S2048x78
  shapeCasts_S2048x78_S2048x78 : S2048x78.ShapeCasts S2048x78
  broadcasts_S2048x1_S2048x78 : S2048x1.Broadcasts S2048x78
  inb_S78x156_S78x156_0_0 : ∀ a, (![0, 0] : Fin 2 → Nat) a + S78x156.size a ≤ S78x156.size a
  h_S78x156 : 0 < S78x156.numel
  inb_S2048x156_S2048x156_0_0 : ∀ a, (![0, 0] : Fin 2 → Nat) a + S2048x156.size a ≤ S2048x156.size a
  h_S2048x156 : 0 < S2048x156.numel
  bcast_S40960x1_S40960x156_0_1 : S40960x1.BroadcastsInDim S40960x156 (![0, 1] : Fin 2 → Fin S40960x156.rank)
  bcast_S_S10240x156 : S_.BroadcastsInDim S10240x156 (![] : Fin 0 → Fin S10240x156.rank)
  inb_S156_S156_0 : ∀ a, (![0] : Fin 1 → Nat) a + S156.size a ≤ S156.size a
  h_S156 : 0 < S156.numel
  shapeCasts_S156_S1x156 : S156.ShapeCasts S1x156
  shapeCasts_S1x156_S1x156 : S1x156.ShapeCasts S1x156
  broadcasts_S1x156_S2048x156 : S1x156.Broadcasts S2048x156
  shapeCasts_S2048x156_S2048x156 : S2048x156.ShapeCasts S2048x156
  broadcasts_S2048x1_S2048x156 : S2048x1.Broadcasts S2048x156
  inb_S156x312_S156x312_0_0 : ∀ a, (![0, 0] : Fin 2 → Nat) a + S156x312.size a ≤ S156x312.size a
  h_S156x312 : 0 < S156x312.numel
  inb_S2048x312_S2048x312_0_0 : ∀ a, (![0, 0] : Fin 2 → Nat) a + S2048x312.size a ≤ S2048x312.size a
  h_S2048x312 : 0 < S2048x312.numel
  bcast_S40960x1_S40960x312_0_1 : S40960x1.BroadcastsInDim S40960x312 (![0, 1] : Fin 2 → Fin S40960x312.rank)
  bcast_S_S10240x312 : S_.BroadcastsInDim S10240x312 (![] : Fin 0 → Fin S10240x312.rank)
  inb_S312_S312_0 : ∀ a, (![0] : Fin 1 → Nat) a + S312.size a ≤ S312.size a
  h_S312 : 0 < S312.numel
  shapeCasts_S312_S1x312 : S312.ShapeCasts S1x312
  shapeCasts_S1x312_S1x312 : S1x312.ShapeCasts S1x312
  broadcasts_S1x312_S2048x312 : S1x312.Broadcasts S2048x312
  shapeCasts_S2048x312_S2048x312 : S2048x312.ShapeCasts S2048x312
  broadcasts_S2048x1_S2048x312 : S2048x1.Broadcasts S2048x312
  bcast_S_S256x312 : S_.BroadcastsInDim S256x312 (![] : Fin 0 → Fin S256x312.rank)
  bcast_S_S256 : S_.BroadcastsInDim S256 (![] : Fin 0 → Fin S256.rank)
  bcast_S256_S256x1_0 : S256.BroadcastsInDim S256x1 (![0] : Fin 1 → Fin S256x1.rank)
  bcast_S256x1_S256x312_0_1 : S256x1.BroadcastsInDim S256x312 (![0, 1] : Fin 2 → Fin S256x312.rank)
  inb_S256x312_S256x312_0_0 : ∀ a, (![0, 0] : Fin 2 → Nat) a + S256x312.size a ≤ S256x312.size a
  h_S256x312 : 0 < S256x312.numel
  shapeCasts_S256x312_S256x312 : S256x312.ShapeCasts S256x312
  inb_S312x1024_S312x1024_0_0 : ∀ a, (![0, 0] : Fin 2 → Nat) a + S312x1024.size a ≤ S312x1024.size a
  h_S312x1024 : 0 < S312x1024.numel
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S2x768000_S1x768000_0_0 : S2x768000.Slices ![0, 0] S1x768000
  shapeCasts_S1x768000_S768000 : S1x768000.ShapeCasts S768000
  slices_S2x768000_S1x768000_1_0 : S2x768000.Slices ![1, 0] S1x768000
  bcast_S_S768000 : S_.BroadcastsInDim S768000 (![] : Fin 0 → Fin S768000.rank)
  bcast_S_S76800 : S_.BroadcastsInDim S76800 (![] : Fin 0 → Fin S76800.rank)
  bcast_S768000_S768000x1_0 : S768000.BroadcastsInDim S768000x1 (![0] : Fin 1 → Fin S768000x1.rank)
  bcast_S76800_S76800x1_0 : S76800.BroadcastsInDim S76800x1 (![0] : Fin 1 → Fin S76800x1.rank)
  inb_S3072x54_S3072x54_0_0 : ∀ a, (![0, 0] : Fin 2 → Nat) a + S3072x54.size a ≤ S3072x54.size a
  h_S3072x54 : 0 < S3072x54.numel
  inb_S54x54_S54x54_0_0 : ∀ a, (![0, 0] : Fin 2 → Nat) a + S54x54.size a ≤ S54x54.size a
  h_S54x54 : 0 < S54x54.numel
  bcast_S768000x1_S768000x54_0_1 : S768000x1.BroadcastsInDim S768000x54 (![0, 1] : Fin 2 → Fin S768000x54.rank)
  bcast_S_S76800x54 : S_.BroadcastsInDim S76800x54 (![] : Fin 0 → Fin S76800x54.rank)
  inb_S3072x1_S3072x1_0_0 : ∀ a, (![0, 0] : Fin 2 → Nat) a + S3072x1.size a ≤ S3072x1.size a
  h_S3072x1 : 0 < S3072x1.numel
  shapeCasts_S3072x1_S3072x1 : S3072x1.ShapeCasts S3072x1
  inb_S54_S54_0 : ∀ a, (![0] : Fin 1 → Nat) a + S54.size a ≤ S54.size a
  h_S54 : 0 < S54.numel
  shapeCasts_S54_S1x54 : S54.ShapeCasts S1x54
  shapeCasts_S1x54_S1x54 : S1x54.ShapeCasts S1x54
  broadcasts_S1x54_S3072x54 : S1x54.Broadcasts S3072x54
  shapeCasts_S3072x54_S3072x54 : S3072x54.ShapeCasts S3072x54
  broadcasts_S3072x1_S3072x54 : S3072x1.Broadcasts S3072x54
  inb_S54x108_S54x108_0_0 : ∀ a, (![0, 0] : Fin 2 → Nat) a + S54x108.size a ≤ S54x108.size a
  h_S54x108 : 0 < S54x108.numel
  inb_S3072x108_S3072x108_0_0 : ∀ a, (![0, 0] : Fin 2 → Nat) a + S3072x108.size a ≤ S3072x108.size a
  h_S3072x108 : 0 < S3072x108.numel
  bcast_S768000x1_S768000x108_0_1 : S768000x1.BroadcastsInDim S768000x108 (![0, 1] : Fin 2 → Fin S768000x108.rank)
  bcast_S_S76800x108 : S_.BroadcastsInDim S76800x108 (![] : Fin 0 → Fin S76800x108.rank)
  inb_S108_S108_0 : ∀ a, (![0] : Fin 1 → Nat) a + S108.size a ≤ S108.size a
  h_S108 : 0 < S108.numel
  shapeCasts_S108_S1x108 : S108.ShapeCasts S1x108
  shapeCasts_S1x108_S1x108 : S1x108.ShapeCasts S1x108
  broadcasts_S1x108_S3072x108 : S1x108.Broadcasts S3072x108
  shapeCasts_S3072x108_S3072x108 : S3072x108.ShapeCasts S3072x108
  broadcasts_S3072x1_S3072x108 : S3072x1.Broadcasts S3072x108
  inb_S108x216_S108x216_0_0 : ∀ a, (![0, 0] : Fin 2 → Nat) a + S108x216.size a ≤ S108x216.size a
  h_S108x216 : 0 < S108x216.numel
  inb_S3072x216_S3072x216_0_0 : ∀ a, (![0, 0] : Fin 2 → Nat) a + S3072x216.size a ≤ S3072x216.size a
  h_S3072x216 : 0 < S3072x216.numel
  bcast_S768000x1_S768000x216_0_1 : S768000x1.BroadcastsInDim S768000x216 (![0, 1] : Fin 2 → Fin S768000x216.rank)
  bcast_S_S76800x216 : S_.BroadcastsInDim S76800x216 (![] : Fin 0 → Fin S76800x216.rank)
  inb_S216_S216_0 : ∀ a, (![0] : Fin 1 → Nat) a + S216.size a ≤ S216.size a
  h_S216 : 0 < S216.numel
  shapeCasts_S216_S1x216 : S216.ShapeCasts S1x216
  shapeCasts_S1x216_S1x216 : S1x216.ShapeCasts S1x216
  broadcasts_S1x216_S3072x216 : S1x216.Broadcasts S3072x216
  shapeCasts_S3072x216_S3072x216 : S3072x216.ShapeCasts S3072x216
  broadcasts_S3072x1_S3072x216 : S3072x1.Broadcasts S3072x216
  bcast_S_S256x216 : S_.BroadcastsInDim S256x216 (![] : Fin 0 → Fin S256x216.rank)
  bcast_S256x1_S256x216_0_1 : S256x1.BroadcastsInDim S256x216 (![0, 1] : Fin 2 → Fin S256x216.rank)
  inb_S256x216_S256x216_0_0 : ∀ a, (![0, 0] : Fin 2 → Nat) a + S256x216.size a ≤ S256x216.size a
  h_S256x216 : 0 < S256x216.numel
  shapeCasts_S256x216_S256x216 : S256x216.ShapeCasts S256x216
  inb_S216x1024_S216x1024_0_0 : ∀ a, (![0, 0] : Fin 2 → Nat) a + S216x1024.size a ≤ S216x1024.size a
  h_S216x1024 : 0 < S216x1024.numel
  concatenates_S256x128_S256x128_S256x256_d1 : Shape.Concatenates [S256x128, S256x128] S256x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S10240_S40960x1_S40960_n_0_0_1_wf : ScatterDims.WF S10240 S40960x1 S40960 [] [0] [0] 1
  dot_S2048x78_S78x78_S2048x78_1_0_0_1_n_n_wf : DotDims.WF S2048x78 S78x78 S2048x78 [1] [0] [0] [1] [] []
  gather_S10240x78_S40960x1_S40960x78_1_0_n_n_0_1_178_wf : GatherDims.WF S10240x78 S40960x1 S40960x78 [1] [0] [] [0] [] 1 ![1, 78]
  gather_S10240_S40960x1_S40960_n_0_n_n_0_1_1_wf : GatherDims.WF S10240 S40960x1 S40960 [] [0] [] [0] [] 1 ![1]
  scatter_S10240x78_S40960x1_S40960x78_1_0_0_1_wf : ScatterDims.WF S10240x78 S40960x1 S40960x78 [1] [0] [0] 1
  dot_S2048x78_S78x156_S2048x156_1_0_0_1_n_n_wf : DotDims.WF S2048x78 S78x156 S2048x156 [1] [0] [0] [1] [] []
  gather_S10240x156_S40960x1_S40960x156_1_0_n_n_0_1_1156_wf : GatherDims.WF S10240x156 S40960x1 S40960x156 [1] [0] [] [0] [] 1 ![1, 156]
  scatter_S10240x156_S40960x1_S40960x156_1_0_0_1_wf : ScatterDims.WF S10240x156 S40960x1 S40960x156 [1] [0] [0] 1
  dot_S2048x156_S156x312_S2048x312_1_0_0_1_n_n_wf : DotDims.WF S2048x156 S156x312 S2048x312 [1] [0] [0] [1] [] []
  gather_S10240x312_S40960x1_S40960x312_1_0_n_n_0_1_1312_wf : GatherDims.WF S10240x312 S40960x1 S40960x312 [1] [0] [] [0] [] 1 ![1, 312]
  scatter_S10240x312_S40960x1_S40960x312_1_0_0_1_wf : ScatterDims.WF S10240x312 S40960x1 S40960x312 [1] [0] [0] 1
  scatter_S256x312_S10240x1_S10240x312_1_0_0_1_wf : ScatterDims.WF S256x312 S10240x1 S10240x312 [1] [0] [0] 1
  scatter_S256_S10240x1_S10240_n_0_0_1_wf : ScatterDims.WF S256 S10240x1 S10240 [] [0] [0] 1
  dot_S256x312_S312x1024_S256x1024_1_0_0_1_n_n_wf : DotDims.WF S256x312 S312x1024 S256x1024 [1] [0] [0] [1] [] []
  dot_S256x1024_S1024x128_S256x128_1_0_0_1_n_n_wf : DotDims.WF S256x1024 S1024x128 S256x128 [1] [0] [0] [1] [] []
  scatter_S76800_S768000x1_S768000_n_0_0_1_wf : ScatterDims.WF S76800 S768000x1 S768000 [] [0] [0] 1
  dot_S3072x54_S54x54_S3072x54_1_0_0_1_n_n_wf : DotDims.WF S3072x54 S54x54 S3072x54 [1] [0] [0] [1] [] []
  gather_S76800x54_S768000x1_S768000x54_1_0_n_n_0_1_154_wf : GatherDims.WF S76800x54 S768000x1 S768000x54 [1] [0] [] [0] [] 1 ![1, 54]
  gather_S76800_S768000x1_S768000_n_0_n_n_0_1_1_wf : GatherDims.WF S76800 S768000x1 S768000 [] [0] [] [0] [] 1 ![1]
  scatter_S76800x54_S768000x1_S768000x54_1_0_0_1_wf : ScatterDims.WF S76800x54 S768000x1 S768000x54 [1] [0] [0] 1
  dot_S3072x54_S54x108_S3072x108_1_0_0_1_n_n_wf : DotDims.WF S3072x54 S54x108 S3072x108 [1] [0] [0] [1] [] []
  gather_S76800x108_S768000x1_S768000x108_1_0_n_n_0_1_1108_wf : GatherDims.WF S76800x108 S768000x1 S768000x108 [1] [0] [] [0] [] 1 ![1, 108]
  scatter_S76800x108_S768000x1_S768000x108_1_0_0_1_wf : ScatterDims.WF S76800x108 S768000x1 S768000x108 [1] [0] [0] 1
  dot_S3072x108_S108x216_S3072x216_1_0_0_1_n_n_wf : DotDims.WF S3072x108 S108x216 S3072x216 [1] [0] [0] [1] [] []
  gather_S76800x216_S768000x1_S768000x216_1_0_n_n_0_1_1216_wf : GatherDims.WF S76800x216 S768000x1 S768000x216 [1] [0] [] [0] [] 1 ![1, 216]
  scatter_S76800x216_S768000x1_S768000x216_1_0_0_1_wf : ScatterDims.WF S76800x216 S768000x1 S768000x216 [1] [0] [0] 1
  scatter_S256x216_S76800x1_S76800x216_1_0_0_1_wf : ScatterDims.WF S256x216 S76800x1 S76800x216 [1] [0] [0] 1
  scatter_S256_S76800x1_S76800_n_0_0_1_wf : ScatterDims.WF S256 S76800x1 S76800 [] [0] [0] 1
  dot_S256x216_S216x1024_S256x1024_1_0_0_1_n_n_wf : DotDims.WF S256x216 S216x1024 S256x1024 [1] [0] [0] [1] [] []
  dot_S256x256_S256x1024_S256x1024_1_0_0_1_n_n_wf : DotDims.WF S256x256 S256x1024 S256x1024 [1] [0] [0] [1] [] []
  dot_S256x1024_S1024x512_S256x512_1_0_0_1_n_n_wf : DotDims.WF S256x1024 S1024x512 S256x512 [1] [0] [0] [1] [] []
  dot_S256x512_S512x1_S256x1_1_0_0_1_n_n_wf : DotDims.WF S256x512 S512x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x78.size a ≤ S10240x78.size a
  hwx0_0 : ∀ i : grid0.Coords, EltTy.bits .f32 = 32 ∨ (Rect.block (s := S10240x78) S2048x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x78.size a ≤ S78x78.size a
  hwx0_1 : ∀ i : grid0.Coords, EltTy.bits .f32 = 32 ∨ (Rect.block (s := S78x78) S78x78.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x78.size a ≤ S10240x78.size a
  hwx0_2 : ∀ i : grid0.Coords, EltTy.bits .f32 = 32 ∨ (Rect.block (s := S10240x78) S2048x78.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x78.size a ≤ S10240x78.size a
  hwx1_0 : ∀ i : grid1.Coords, EltTy.bits .f32 = 32 ∨ (Rect.block (s := S10240x78) S2048x78.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x78.size a ≤ S10240x78.size a
  hwx1_1 : ∀ i : grid1.Coords, EltTy.bits .f32 = 32 ∨ (Rect.block (s := S10240x78) S2048x78.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S10240x1.size a
  hwx1_2 : ∀ i : grid1.Coords, EltTy.bits .f32 = 32 ∨ (Rect.block (s := S10240x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S78.size a ≤ S78.size a
  hwx1_3 : ∀ i : grid1.Coords, EltTy.bits .f32 = 32 ∨ (Rect.block (s := S78) S78.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x78.size a ≤ S10240x78.size a
  hwx1_4 : ∀ i : grid1.Coords, EltTy.bits .f32 = 32 ∨ (Rect.block (s := S10240x78) S2048x78.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x78.size a ≤ S10240x78.size a
  hwx2_0 : ∀ i : grid2.Coords, EltTy.bits .f32 = 32 ∨ (Rect.block (s := S10240x78) S2048x78.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S78x156.size a ≤ S78x156.size a
  hwx2_1 : ∀ i : grid2.Coords, EltTy.bits .f32 = 32 ∨ (Rect.block (s := S78x156) S78x156.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x156.size a ≤ S10240x156.size a
  hwx2_2 : ∀ i : grid2.Coords, EltTy.bits .f32 = 32 ∨ (Rect.block (s := S10240x156) S2048x156.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x156.size a ≤ S10240x156.size a
  hwx3_0 : ∀ i : grid3.Coords, EltTy.bits .f32 = 32 ∨ (Rect.block (s := S10240x156) S2048x156.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x156.size a ≤ S10240x156.size a
  hwx3_1 : ∀ i : grid3.Coords, EltTy.bits .f32 = 32 ∨ (Rect.block (s := S10240x156) S2048x156.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S10240x1.size a
  hwx3_2 : ∀ i : grid3.Coords, EltTy.bits .f32 = 32 ∨ (Rect.block (s := S10240x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S156.size a ≤ S156.size a
  hwx3_3 : ∀ i : grid3.Coords, EltTy.bits .f32 = 32 ∨ (Rect.block (s := S156) S156.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x156.size a ≤ S10240x156.size a
  hwx3_4 : ∀ i : grid3.Coords, EltTy.bits .f32 = 32 ∨ (Rect.block (s := S10240x156) S2048x156.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x156.size a ≤ S10240x156.size a
  hwx4_0 : ∀ i : grid4.Coords, EltTy.bits .f32 = 32 ∨ (Rect.block (s := S10240x156) S2048x156.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S156x312.size a ≤ S156x312.size a
  hwx4_1 : ∀ i : grid4.Coords, EltTy.bits .f32 = 32 ∨ (Rect.block (s := S156x312) S156x312.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x312.size a ≤ S10240x312.size a
  hwx4_2 : ∀ i : grid4.Coords, EltTy.bits .f32 = 32 ∨ (Rect.block (s := S10240x312) S2048x312.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x312.size a ≤ S10240x312.size a
  hwx5_0 : ∀ i : grid5.Coords, EltTy.bits .f32 = 32 ∨ (Rect.block (s := S10240x312) S2048x312.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x312.size a ≤ S10240x312.size a
  hwx5_1 : ∀ i : grid5.Coords, EltTy.bits .f32 = 32 ∨ (Rect.block (s := S10240x312) S2048x312.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S10240x1.size a
  hwx5_2 : ∀ i : grid5.Coords, EltTy.bits .f32 = 32 ∨ (Rect.block (s := S10240x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S312.size a ≤ S312.size a
  hwx5_3 : ∀ i : grid5.Coords, EltTy.bits .f32 = 32 ∨ (Rect.block (s := S312) S312.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x312.size a ≤ S10240x312.size a
  hwx5_4 : ∀ i : grid5.Coords, EltTy.bits .f32 = 32 ∨ (Rect.block (s := S10240x312) S2048x312.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S256x312.size a ≤ S256x312.size a
  hwx6_0 : ∀ i : grid6.Coords, EltTy.bits .f32 = 32 ∨ (Rect.block (s := S256x312) S256x312.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S312x1024.size a ≤ S312x1024.size a
  hwx6_1 : ∀ i : grid6.Coords, EltTy.bits .f32 = 32 ∨ (Rect.block (s := S312x1024) S312x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024.size a ≤ S1024.size a
  hwx6_2 : ∀ i : grid6.Coords, EltTy.bits .f32 = 32 ∨ (Rect.block (s := S1024) S1024.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S256x1024.size a ≤ S256x1024.size a
  hwx6_3 : ∀ i : grid6.Coords, EltTy.bits .f32 = 32 ∨ (Rect.block (s := S256x1024) S256x1024.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S256x1024.size a
  hwx7_0 : ∀ i : grid7.Coords, EltTy.bits .f32 = 32 ∨ (Rect.block (s := S256x1024) S256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S1024x128.size a
  hwx7_1 : ∀ i : grid7.Coords, EltTy.bits .f32 = 32 ∨ (Rect.block (s := S1024x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S256x128.size a ≤ S256x128.size a
  hwx7_3 : ∀ i : grid7.Coords, EltTy.bits .f32 = 32 ∨ (Rect.block (s := S256x128) S256x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S3072x54.size a ≤ S76800x54.size a
  hwx8_0 : ∀ i : grid8.Coords, EltTy.bits .f32 = 32 ∨ (Rect.block (s := S76800x54) S3072x54.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S54x54.size a ≤ S54x54.size a
  hwx8_1 : ∀ i : grid8.Coords, EltTy.bits .f32 = 32 ∨ (Rect.block (s := S54x54) S54x54.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S3072x54.size a ≤ S76800x54.size a
  hwx8_2 : ∀ i : grid8.Coords, EltTy.bits .f32 = 32 ∨ (Rect.block (s := S76800x54) S3072x54.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S3072x54.size a ≤ S76800x54.size a
  hwx9_0 : ∀ i : grid9.Coords, EltTy.bits .f32 = 32 ∨ (Rect.block (s := S76800x54) S3072x54.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S3072x54.size a ≤ S76800x54.size a
  hwx9_1 : ∀ i : grid9.Coords, EltTy.bits .f32 = 32 ∨ (Rect.block (s := S76800x54) S3072x54.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S3072x1.size a ≤ S76800x1.size a
  hwx9_2 : ∀ i : grid9.Coords, EltTy.bits .f32 = 32 ∨ (Rect.block (s := S76800x1) S3072x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S54.size a ≤ S54.size a
  hwx9_3 : ∀ i : grid9.Coords, EltTy.bits .f32 = 32 ∨ (Rect.block (s := S54) S54.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S3072x54.size a ≤ S76800x54.size a
  hwx9_4 : ∀ i : grid9.Coords, EltTy.bits .f32 = 32 ∨ (Rect.block (s := S76800x54) S3072x54.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S3072x54.size a ≤ S76800x54.size a
  hwx10_0 : ∀ i : grid10.Coords, EltTy.bits .f32 = 32 ∨ (Rect.block (s := S76800x54) S3072x54.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S54x108.size a ≤ S54x108.size a
  hwx10_1 : ∀ i : grid10.Coords, EltTy.bits .f32 = 32 ∨ (Rect.block (s := S54x108) S54x108.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S3072x108.size a ≤ S76800x108.size a
  hwx10_2 : ∀ i : grid10.Coords, EltTy.bits .f32 = 32 ∨ (Rect.block (s := S76800x108) S3072x108.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S3072x108.size a ≤ S76800x108.size a
  hwx11_0 : ∀ i : grid11.Coords, EltTy.bits .f32 = 32 ∨ (Rect.block (s := S76800x108) S3072x108.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S3072x108.size a ≤ S76800x108.size a
  hwx11_1 : ∀ i : grid11.Coords, EltTy.bits .f32 = 32 ∨ (Rect.block (s := S76800x108) S3072x108.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S3072x1.size a ≤ S76800x1.size a
  hwx11_2 : ∀ i : grid11.Coords, EltTy.bits .f32 = 32 ∨ (Rect.block (s := S76800x1) S3072x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S108.size a ≤ S108.size a
  hwx11_3 : ∀ i : grid11.Coords, EltTy.bits .f32 = 32 ∨ (Rect.block (s := S108) S108.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S3072x108.size a ≤ S76800x108.size a
  hwx11_4 : ∀ i : grid11.Coords, EltTy.bits .f32 = 32 ∨ (Rect.block (s := S76800x108) S3072x108.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S3072x108.size a ≤ S76800x108.size a
  hwx12_0 : ∀ i : grid12.Coords, EltTy.bits .f32 = 32 ∨ (Rect.block (s := S76800x108) S3072x108.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S108x216.size a ≤ S108x216.size a
  hwx12_1 : ∀ i : grid12.Coords, EltTy.bits .f32 = 32 ∨ (Rect.block (s := S108x216) S108x216.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S3072x216.size a ≤ S76800x216.size a
  hwx12_2 : ∀ i : grid12.Coords, EltTy.bits .f32 = 32 ∨ (Rect.block (s := S76800x216) S3072x216.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S3072x216.size a ≤ S76800x216.size a
  hwx13_0 : ∀ i : grid13.Coords, EltTy.bits .f32 = 32 ∨ (Rect.block (s := S76800x216) S3072x216.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S3072x216.size a ≤ S76800x216.size a
  hwx13_1 : ∀ i : grid13.Coords, EltTy.bits .f32 = 32 ∨ (Rect.block (s := S76800x216) S3072x216.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S3072x1.size a ≤ S76800x1.size a
  hwx13_2 : ∀ i : grid13.Coords, EltTy.bits .f32 = 32 ∨ (Rect.block (s := S76800x1) S3072x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S216.size a ≤ S216.size a
  hwx13_3 : ∀ i : grid13.Coords, EltTy.bits .f32 = 32 ∨ (Rect.block (s := S216) S216.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S3072x216.size a ≤ S76800x216.size a
  hwx13_4 : ∀ i : grid13.Coords, EltTy.bits .f32 = 32 ∨ (Rect.block (s := S76800x216) S3072x216.size (cc13_transform_4 i) (hinb13_4 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S256x216.size a ≤ S256x216.size a
  hwx14_0 : ∀ i : grid14.Coords, EltTy.bits .f32 = 32 ∨ (Rect.block (s := S256x216) S256x216.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S216x1024.size a ≤ S216x1024.size a
  hwx14_1 : ∀ i : grid14.Coords, EltTy.bits .f32 = 32 ∨ (Rect.block (s := S216x1024) S216x1024.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1024.size a ≤ S1024.size a
  hwx14_2 : ∀ i : grid14.Coords, EltTy.bits .f32 = 32 ∨ (Rect.block (s := S1024) S1024.size (cc14_transform_2 i) (hinb14_2 i)).WholeWords (EltTy.packing .f32)
  hstage14_3 : ∀ j, (stage14_3 j).IsWhole
  nbuf14_3 : grid14.bufCount reads14_3 false = 1
  hreads14_3 : ∀ i i' : grid14.Coords, (∀ a, reads14_3 a = true → i a = i' a) → cc14_transform_3 i = cc14_transform_3 i'
  hinb14_3 : ∀ (i : grid14.Coords) a, (cc14_transform_3 i a + 1) * S256x1024.size a ≤ S256x1024.size a
  hwx14_3 : ∀ i : grid14.Coords, EltTy.bits .f32 = 32 ∨ (Rect.block (s := S256x1024) S256x1024.size (cc14_transform_3 i) (hinb14_3 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S256x1024.size a ≤ S256x1024.size a
  hwx15_0 : ∀ i : grid15.Coords, EltTy.bits .f32 = 32 ∨ (Rect.block (s := S256x1024) S256x1024.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1024x128.size a ≤ S1024x128.size a
  hwx15_1 : ∀ i : grid15.Coords, EltTy.bits .f32 = 32 ∨ (Rect.block (s := S1024x128) S1024x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128.size a ≤ S128.size a
  hwx15_2 : ∀ i : grid15.Coords, EltTy.bits .f32 = 32 ∨ (Rect.block (s := S128) S128.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S256x128.size a ≤ S256x128.size a
  hwx15_3 : ∀ i : grid15.Coords, EltTy.bits .f32 = 32 ∨ (Rect.block (s := S256x128) S256x128.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S256x256.size a ≤ S256x256.size a
  hwx16_0 : ∀ i : grid16.Coords, EltTy.bits .f32 = 32 ∨ (Rect.block (s := S256x256) S256x256.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x1024.size a ≤ S256x1024.size a
  hwx16_1 : ∀ i : grid16.Coords, EltTy.bits .f32 = 32 ∨ (Rect.block (s := S256x1024) S256x1024.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1024.size a ≤ S1024.size a
  hwx16_2 : ∀ i : grid16.Coords, EltTy.bits .f32 = 32 ∨ (Rect.block (s := S1024) S1024.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S256x1024.size a ≤ S256x1024.size a
  hwx16_3 : ∀ i : grid16.Coords, EltTy.bits .f32 = 32 ∨ (Rect.block (s := S256x1024) S256x1024.size (cc16_transform_3 i) (hinb16_3 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S256x1024.size a ≤ S256x1024.size a
  hwx17_0 : ∀ i : grid17.Coords, EltTy.bits .f32 = 32 ∨ (Rect.block (s := S256x1024) S256x1024.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1024x512.size a ≤ S1024x512.size a
  hwx17_1 : ∀ i : grid17.Coords, EltTy.bits .f32 = 32 ∨ (Rect.block (s := S1024x512) S1024x512.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S512.size a ≤ S512.size a
  hwx17_2 : ∀ i : grid17.Coords, EltTy.bits .f32 = 32 ∨ (Rect.block (s := S512) S512.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S256x512.size a ≤ S256x512.size a
  hwx17_3 : ∀ i : grid17.Coords, EltTy.bits .f32 = 32 ∨ (Rect.block (s := S256x512) S256x512.size (cc17_transform_3 i) (hinb17_3 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S256x512.size a ≤ S256x512.size a
  hwx18_0 : ∀ i : grid18.Coords, EltTy.bits .f32 = 32 ∨ (Rect.block (s := S256x512) S256x512.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S512x1.size a ≤ S512x1.size a
  hwx18_1 : ∀ i : grid18.Coords, EltTy.bits .f32 = 32 ∨ (Rect.block (s := S512x1) S512x1.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1.size a ≤ S1.size a
  hwx18_2 : ∀ i : grid18.Coords, EltTy.bits .f32 = 32 ∨ (Rect.block (s := S1) S1.size (cc18_transform_2 i) (hinb18_2 i)).WholeWords (EltTy.packing .f32)
  hstage18_3 : ∀ j, (stage18_3 j).IsWhole
  nbuf18_3 : grid18.bufCount reads18_3 false = 1
  hreads18_3 : ∀ i i' : grid18.Coords, (∀ a, reads18_3 a = true → i a = i' a) → cc18_transform_3 i = cc18_transform_3 i'
  hinb18_3 : ∀ (i : grid18.Coords) a, (cc18_transform_3 i a + 1) * S256x1.size a ≤ S256x1.size a
  hwx18_3 : ∀ i : grid18.Coords, EltTy.bits .f32 = 32 ∨ (Rect.block (s := S256x1) S256x1.size (cc18_transform_3 i) (hinb18_3 i)).WholeWords (EltTy.packing .f32)

variable [Facts₀]

def scatter_S10240_S40960x1_S40960_n_0_0_1 : ScatterDims S10240 S40960x1 S40960 where
  updateWindowDims := []
  insertedWindowDims := [0]
  scatterDimsToOperandDims := [0]
  indexVectorDim := 1
  wf := scatter_S10240_S40960x1_S40960_n_0_0_1_wf
def dot_S2048x78_S78x78_S2048x78_1_0_0_1_n_n : DotDims S2048x78 S78x78 S2048x78 where
  lhsContracting := [1]
  rhsContracting := [0]
  lhsNonContracting := [0]
  rhsNonContracting := [1]
  lhsBatch := []
  rhsBatch := []
  wf := dot_S2048x78_S78x78_S2048x78_1_0_0_1_n_n_wf
def gather_S10240x78_S40960x1_S40960x78_1_0_n_n_0_1_178 : GatherDims S10240x78 S40960x1 S40960x78 where
  offsetDims := [1]
  collapsedSliceDims := [0]
  operandBatchingDims := []
  startIndicesBatchingDims := []
  startIndexMap := [0]
  indexVectorDim := 1
  sliceSizes := ![1, 78]
  wf := gather_S10240x78_S40960x1_S40960x78_1_0_n_n_0_1_178_wf
def gather_S10240_S40960x1_S40960_n_0_n_n_0_1_1 : GatherDims S10240 S40960x1 S40960 where
  offsetDims := []
  collapsedSliceDims := [0]
  operandBatchingDims := []
  startIndicesBatchingDims := []
  startIndexMap := [0]
  indexVectorDim := 1
  sliceSizes := ![1]
  wf := gather_S10240_S40960x1_S40960_n_0_n_n_0_1_1_wf
def scatter_S10240x78_S40960x1_S40960x78_1_0_0_1 : ScatterDims S10240x78 S40960x1 S40960x78 where
  updateWindowDims := [1]
  insertedWindowDims := [0]
  scatterDimsToOperandDims := [0]
  indexVectorDim := 1
  wf := scatter_S10240x78_S40960x1_S40960x78_1_0_0_1_wf
def dot_S2048x78_S78x156_S2048x156_1_0_0_1_n_n : DotDims S2048x78 S78x156 S2048x156 where
  lhsContracting := [1]
  rhsContracting := [0]
  lhsNonContracting := [0]
  rhsNonContracting := [1]
  lhsBatch := []
  rhsBatch := []
  wf := dot_S2048x78_S78x156_S2048x156_1_0_0_1_n_n_wf
def gather_S10240x156_S40960x1_S40960x156_1_0_n_n_0_1_1156 : GatherDims S10240x156 S40960x1 S40960x156 where
  offsetDims := [1]
  collapsedSliceDims := [0]
  operandBatchingDims := []
  startIndicesBatchingDims := []
  startIndexMap := [0]
  indexVectorDim := 1
  sliceSizes := ![1, 156]
  wf := gather_S10240x156_S40960x1_S40960x156_1_0_n_n_0_1_1156_wf
def scatter_S10240x156_S40960x1_S40960x156_1_0_0_1 : ScatterDims S10240x156 S40960x1 S40960x156 where
  updateWindowDims := [1]
  insertedWindowDims := [0]
  scatterDimsToOperandDims := [0]
  indexVectorDim := 1
  wf := scatter_S10240x156_S40960x1_S40960x156_1_0_0_1_wf
def dot_S2048x156_S156x312_S2048x312_1_0_0_1_n_n : DotDims S2048x156 S156x312 S2048x312 where
  lhsContracting := [1]
  rhsContracting := [0]
  lhsNonContracting := [0]
  rhsNonContracting := [1]
  lhsBatch := []
  rhsBatch := []
  wf := dot_S2048x156_S156x312_S2048x312_1_0_0_1_n_n_wf
def gather_S10240x312_S40960x1_S40960x312_1_0_n_n_0_1_1312 : GatherDims S10240x312 S40960x1 S40960x312 where
  offsetDims := [1]
  collapsedSliceDims := [0]
  operandBatchingDims := []
  startIndicesBatchingDims := []
  startIndexMap := [0]
  indexVectorDim := 1
  sliceSizes := ![1, 312]
  wf := gather_S10240x312_S40960x1_S40960x312_1_0_n_n_0_1_1312_wf
def scatter_S10240x312_S40960x1_S40960x312_1_0_0_1 : ScatterDims S10240x312 S40960x1 S40960x312 where
  updateWindowDims := [1]
  insertedWindowDims := [0]
  scatterDimsToOperandDims := [0]
  indexVectorDim := 1
  wf := scatter_S10240x312_S40960x1_S40960x312_1_0_0_1_wf
def scatter_S256x312_S10240x1_S10240x312_1_0_0_1 : ScatterDims S256x312 S10240x1 S10240x312 where
  updateWindowDims := [1]
  insertedWindowDims := [0]
  scatterDimsToOperandDims := [0]
  indexVectorDim := 1
  wf := scatter_S256x312_S10240x1_S10240x312_1_0_0_1_wf
def scatter_S256_S10240x1_S10240_n_0_0_1 : ScatterDims S256 S10240x1 S10240 where
  updateWindowDims := []
  insertedWindowDims := [0]
  scatterDimsToOperandDims := [0]
  indexVectorDim := 1
  wf := scatter_S256_S10240x1_S10240_n_0_0_1_wf
def dot_S256x312_S312x1024_S256x1024_1_0_0_1_n_n : DotDims S256x312 S312x1024 S256x1024 where
  lhsContracting := [1]
  rhsContracting := [0]
  lhsNonContracting := [0]
  rhsNonContracting := [1]
  lhsBatch := []
  rhsBatch := []
  wf := dot_S256x312_S312x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def scatter_S76800_S768000x1_S768000_n_0_0_1 : ScatterDims S76800 S768000x1 S768000 where
  updateWindowDims := []
  insertedWindowDims := [0]
  scatterDimsToOperandDims := [0]
  indexVectorDim := 1
  wf := scatter_S76800_S768000x1_S768000_n_0_0_1_wf
def dot_S3072x54_S54x54_S3072x54_1_0_0_1_n_n : DotDims S3072x54 S54x54 S3072x54 where
  lhsContracting := [1]
  rhsContracting := [0]
  lhsNonContracting := [0]
  rhsNonContracting := [1]
  lhsBatch := []
  rhsBatch := []
  wf := dot_S3072x54_S54x54_S3072x54_1_0_0_1_n_n_wf
def gather_S76800x54_S768000x1_S768000x54_1_0_n_n_0_1_154 : GatherDims S76800x54 S768000x1 S768000x54 where
  offsetDims := [1]
  collapsedSliceDims := [0]
  operandBatchingDims := []
  startIndicesBatchingDims := []
  startIndexMap := [0]
  indexVectorDim := 1
  sliceSizes := ![1, 54]
  wf := gather_S76800x54_S768000x1_S768000x54_1_0_n_n_0_1_154_wf
def gather_S76800_S768000x1_S768000_n_0_n_n_0_1_1 : GatherDims S76800 S768000x1 S768000 where
  offsetDims := []
  collapsedSliceDims := [0]
  operandBatchingDims := []
  startIndicesBatchingDims := []
  startIndexMap := [0]
  indexVectorDim := 1
  sliceSizes := ![1]
  wf := gather_S76800_S768000x1_S768000_n_0_n_n_0_1_1_wf
def scatter_S76800x54_S768000x1_S768000x54_1_0_0_1 : ScatterDims S76800x54 S768000x1 S768000x54 where
  updateWindowDims := [1]
  insertedWindowDims := [0]
  scatterDimsToOperandDims := [0]
  indexVectorDim := 1
  wf := scatter_S76800x54_S768000x1_S768000x54_1_0_0_1_wf
def dot_S3072x54_S54x108_S3072x108_1_0_0_1_n_n : DotDims S3072x54 S54x108 S3072x108 where
  lhsContracting := [1]
  rhsContracting := [0]
  lhsNonContracting := [0]
  rhsNonContracting := [1]
  lhsBatch := []
  rhsBatch := []
  wf := dot_S3072x54_S54x108_S3072x108_1_0_0_1_n_n_wf
def gather_S76800x108_S768000x1_S768000x108_1_0_n_n_0_1_1108 : GatherDims S76800x108 S768000x1 S768000x108 where
  offsetDims := [1]
  collapsedSliceDims := [0]
  operandBatchingDims := []
  startIndicesBatchingDims := []
  startIndexMap := [0]
  indexVectorDim := 1
  sliceSizes := ![1, 108]
  wf := gather_S76800x108_S768000x1_S768000x108_1_0_n_n_0_1_1108_wf
def scatter_S76800x108_S768000x1_S768000x108_1_0_0_1 : ScatterDims S76800x108 S768000x1 S768000x108 where
  updateWindowDims := [1]
  insertedWindowDims := [0]
  scatterDimsToOperandDims := [0]
  indexVectorDim := 1
  wf := scatter_S76800x108_S768000x1_S768000x108_1_0_0_1_wf
def dot_S3072x108_S108x216_S3072x216_1_0_0_1_n_n : DotDims S3072x108 S108x216 S3072x216 where
  lhsContracting := [1]
  rhsContracting := [0]
  lhsNonContracting := [0]
  rhsNonContracting := [1]
  lhsBatch := []
  rhsBatch := []
  wf := dot_S3072x108_S108x216_S3072x216_1_0_0_1_n_n_wf
def gather_S76800x216_S768000x1_S768000x216_1_0_n_n_0_1_1216 : GatherDims S76800x216 S768000x1 S768000x216 where
  offsetDims := [1]
  collapsedSliceDims := [0]
  operandBatchingDims := []
  startIndicesBatchingDims := []
  startIndexMap := [0]
  indexVectorDim := 1
  sliceSizes := ![1, 216]
  wf := gather_S76800x216_S768000x1_S768000x216_1_0_n_n_0_1_1216_wf
def scatter_S76800x216_S768000x1_S768000x216_1_0_0_1 : ScatterDims S76800x216 S768000x1 S768000x216 where
  updateWindowDims := [1]
  insertedWindowDims := [0]
  scatterDimsToOperandDims := [0]
  indexVectorDim := 1
  wf := scatter_S76800x216_S768000x1_S768000x216_1_0_0_1_wf
def scatter_S256x216_S76800x1_S76800x216_1_0_0_1 : ScatterDims S256x216 S76800x1 S76800x216 where
  updateWindowDims := [1]
  insertedWindowDims := [0]
  scatterDimsToOperandDims := [0]
  indexVectorDim := 1
  wf := scatter_S256x216_S76800x1_S76800x216_1_0_0_1_wf
def scatter_S256_S76800x1_S76800_n_0_0_1 : ScatterDims S256 S76800x1 S76800 where
  updateWindowDims := []
  insertedWindowDims := [0]
  scatterDimsToOperandDims := [0]
  indexVectorDim := 1
  wf := scatter_S256_S76800x1_S76800_n_0_0_1_wf
def dot_S256x216_S216x1024_S256x1024_1_0_0_1_n_n : DotDims S256x216 S216x1024 S256x1024 where
  lhsContracting := [1]
  rhsContracting := [0]
  lhsNonContracting := [0]
  rhsNonContracting := [1]
  lhsBatch := []
  rhsBatch := []
  wf := dot_S256x216_S216x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

abbrev win0_0 : Pipeline.Window sig grid0 :=
  Pipeline.Window.ofSpec (Memref.whole main_arg0) S2048x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S78x78.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x78.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S2048x78.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x78.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S78.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S2048x78.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S2048x78.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S78x156.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2048x156.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S2048x156.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2048x156.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S156.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S2048x156.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S2048x156.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S156x312.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S2048x312.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2048x312.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S2048x312.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S312.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S2048x312.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v89) S256x312.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S312x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S256x1024.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S256x1024.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S1024x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg15) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S256x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg3) S3072x54.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S54x54.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S3072x54.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v124) S3072x54.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S3072x54.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v103) S3072x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg17) S54.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v125) S3072x54.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v125) S3072x54.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S54x108.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v126) S3072x108.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v146) S3072x108.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S3072x108.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v103) S3072x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg19) S108.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v147) S3072x108.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v147) S3072x108.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg20) S108x216.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v148) S3072x216.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v168) S3072x216.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v148) S3072x216.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v103) S3072x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_arg21) S216.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v169) S3072x216.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v181) S256x216.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_arg22) S216x1024.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_arg23) S1024.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v182) S256x1024.size cc14_transform_3 reads14_3 true false 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v182) S256x1024.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_arg24) S1024x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_arg25) S128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v183) S256x128.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v184) S256x256.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_arg26) S256x1024.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_arg27) S1024.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v185) S256x1024.size cc16_transform_3 reads16_3 true false 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v185) S256x1024.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_arg28) S1024x512.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_arg29) S512.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v186) S256x512.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v186) S256x512.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_arg30) S512x1.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_arg31) S1.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v187) S256x1.size cc18_transform_3 reads18_3 true false 1 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

class Facts : Prop extends Facts₀ where

variable [Facts]
-- ==== ReferenceIdeal.lean ====
abbrev S10240x78 : Shape := ⟨2, ![10240, 78]⟩
abbrev S2x40960 : Shape := ⟨2, ![2, 40960]⟩
abbrev S10240 : Shape := ⟨1, ![10240]⟩
abbrev S76800x54 : Shape := ⟨2, ![76800, 54]⟩
abbrev S2x768000 : Shape := ⟨2, ![2, 768000]⟩
abbrev S76800 : Shape := ⟨1, ![76800]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S54x54 : Shape := ⟨2, ![54, 54]⟩
abbrev S54 : Shape := ⟨1, ![54]⟩
abbrev S54x108 : Shape := ⟨2, ![54, 108]⟩
abbrev S108 : Shape := ⟨1, ![108]⟩
abbrev S108x216 : Shape := ⟨2, ![108, 216]⟩
abbrev S216 : Shape := ⟨1, ![216]⟩
abbrev S216x1024 : Shape := ⟨2, ![216, 1024]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x40960 : Shape := ⟨2, ![1, 40960]⟩
abbrev S40960 : Shape := ⟨1, ![40960]⟩
abbrev S_ : Shape := ⟨0, ![]⟩
abbrev S40960x1 : Shape := ⟨2, ![40960, 1]⟩
abbrev S40960x78 : Shape := ⟨2, ![40960, 78]⟩
abbrev S10240x1 : Shape := ⟨2, ![10240, 1]⟩
abbrev S1x78 : Shape := ⟨2, ![1, 78]⟩
abbrev S10240x156 : Shape := ⟨2, ![10240, 156]⟩
abbrev S40960x156 : Shape := ⟨2, ![40960, 156]⟩
abbrev S1x156 : Shape := ⟨2, ![1, 156]⟩
abbrev S10240x312 : Shape := ⟨2, ![10240, 312]⟩
abbrev S40960x312 : Shape := ⟨2, ![40960, 312]⟩
abbrev S1x312 : Shape := ⟨2, ![1, 312]⟩
abbrev S256x312 : Shape := ⟨2, ![256, 312]⟩
abbrev S256 : Shape := ⟨1, ![256]⟩
abbrev S256x1 : Shape := ⟨2, ![256, 1]⟩
abbrev S1x1024 : Shape := ⟨2, ![1, 1024]⟩
abbrev S256x128 : Shape := ⟨2, ![256, 128]⟩
abbrev S1x128 : Shape := ⟨2, ![1, 128]⟩
abbrev S1x768000 : Shape := ⟨2, ![1, 768000]⟩
abbrev S768000 : Shape := ⟨1, ![768000]⟩
abbrev S768000x1 : Shape := ⟨2, ![768000, 1]⟩
abbrev S768000x54 : Shape := ⟨2, ![768000, 54]⟩
abbrev S76800x1 : Shape := ⟨2, ![76800, 1]⟩
abbrev S1x54 : Shape := ⟨2, ![1, 54]⟩
abbrev S76800x108 : Shape := ⟨2, ![76800, 108]⟩
abbrev S768000x108 : Shape := ⟨2, ![768000, 108]⟩
abbrev S1x108 : Shape := ⟨2, ![1, 108]⟩
abbrev S76800x216 : Shape := ⟨2, ![76800, 216]⟩
abbrev S768000x216 : Shape := ⟨2, ![768000, 216]⟩
abbrev S1x216 : Shape := ⟨2, ![1, 216]⟩
abbrev S256x216 : Shape := ⟨2, ![256, 216]⟩
abbrev S256x256 : Shape := ⟨2, ![256, 256]⟩
abbrev S256x512 : Shape := ⟨2, ![256, 512]⟩
abbrev S1x512 : Shape := ⟨2, ![1, 512]⟩
abbrev S1x1 : Shape := ⟨2, ![1, 1]⟩

abbrev nBuf : Space → Nat
  | .hbm => 407
  | .vmem => 0
  | .smem => 0
  | _ => 0

abbrev hbmTy0_0 (i : Nat) : BufTy := match i % 128 with
  | 0 => ⟨S10240x78, .f32⟩
  | 1 => ⟨S2x40960, .i32⟩
  | 2 => ⟨S10240, .i32⟩
  | 3 => ⟨S76800x54, .f32⟩
  | 4 => ⟨S2x768000, .i32⟩
  | 5 => ⟨S76800, .i32⟩
  | 6 => ⟨S78x78, .f32⟩
  | 7 => ⟨S78, .f32⟩
  | 8 => ⟨S78x156, .f32⟩
  | 9 => ⟨S156, .f32⟩
  | 10 => ⟨S156x312, .f32⟩
  | 11 => ⟨S312, .f32⟩
  | 12 => ⟨S312x1024, .f32⟩
  | 13 => ⟨S1024, .f32⟩
  | 14 => ⟨S1024x128, .f32⟩
  | 15 => ⟨S128, .f32⟩
  | 16 => ⟨S54x54, .f32⟩
  | 17 => ⟨S54, .f32⟩
  | 18 => ⟨S54x108, .f32⟩
  | 19 => ⟨S108, .f32⟩
  | 20 => ⟨S108x216, .f32⟩
  | 21 => ⟨S216, .f32⟩
  | 22 => ⟨S216x1024, .f32⟩
  | 23 => ⟨S1024, .f32⟩
  | 24 => ⟨S1024x128, .f32⟩
  | 25 => ⟨S128, .f32⟩
  | 26 => ⟨S256x1024, .f32⟩
  | 27 => ⟨S1024, .f32⟩
  | 28 => ⟨S1024x512, .f32⟩
  | 29 => ⟨S512, .f32⟩
  | 30 => ⟨S512x1, .f32⟩
  | 31 => ⟨S1, .f32⟩
  | 32 => ⟨S1x40960, .i32⟩
  | 33 => ⟨S40960, .i32⟩
  | 34 => ⟨S1x40960, .i32⟩
  | 35 => ⟨S40960, .i32⟩
  | 36 => ⟨S10240x78, .f32⟩
  | 37 => ⟨S_, .f32⟩
  | 38 => ⟨S40960, .f32⟩
  | 39 => ⟨S_, .f32⟩
  | 40 => ⟨S10240, .f32⟩
  | 41 => ⟨S40960x1, .i32⟩
  | 42 => ⟨S10240, .f32⟩
  | 43 => ⟨S_, .f32⟩
  | 44 => ⟨S10240, .f32⟩
  | 45 => ⟨S10240, .f32⟩
  | 46 => ⟨S10240, .f32⟩
  | 47 => ⟨S_, .i32⟩
  | 48 => ⟨S40960, .i32⟩
  | 49 => ⟨S40960, .i1⟩
  | 50 => ⟨S_, .i32⟩
  | 51 => ⟨S40960, .i32⟩
  | 52 => ⟨S40960, .i32⟩
  | 53 => ⟨S40960, .i32⟩
  | 54 => ⟨S40960x1, .i32⟩
  | 55 => ⟨S40960x78, .f32⟩
  | 56 => ⟨S_, .i32⟩
  | 57 => ⟨S40960, .i32⟩
  | 58 => ⟨S40960, .i1⟩
  | 59 => ⟨S_, .i32⟩
  | 60 => ⟨S40960, .i32⟩
  | 61 => ⟨S40960, .i32⟩
  | 62 => ⟨S40960, .i32⟩
  | 63 => ⟨S40960x1, .i32⟩
  | 64 => ⟨S40960, .f32⟩
  | 65 => ⟨S40960x1, .f32⟩
  | 66 => ⟨S40960x78, .f32⟩
  | 67 => ⟨S40960x78, .f32⟩
  | 68 => ⟨S_, .f32⟩
  | 69 => ⟨S10240x78, .f32⟩
  | 70 => ⟨S40960x1, .i32⟩
  | 71 => ⟨S10240x78, .f32⟩
  | 72 => ⟨S10240x1, .f32⟩
  | 73 => ⟨S10240x1, .f32⟩
  | 74 => ⟨S10240x78, .f32⟩
  | 75 => ⟨S10240x78, .f32⟩
  | 76 => ⟨S10240x78, .f32⟩
  | 77 => ⟨S10240x78, .f32⟩
  | 78 => ⟨S10240x78, .f32⟩
  | 79 => ⟨S1x78, .f32⟩
  | 80 => ⟨S10240x78, .f32⟩
  | 81 => ⟨S10240x78, .f32⟩
  | 82 => ⟨S_, .f32⟩
  | 83 => ⟨S10240x78, .f32⟩
  | 84 => ⟨S10240x78, .f32⟩
  | 85 => ⟨S10240x156, .f32⟩
  | 86 => ⟨S_, .f32⟩
  | 87 => ⟨S40960, .f32⟩
  | 88 => ⟨S_, .f32⟩
  | 89 => ⟨S10240, .f32⟩
  | 90 => ⟨S40960x1, .i32⟩
  | 91 => ⟨S10240, .f32⟩
  | 92 => ⟨S_, .f32⟩
  | 93 => ⟨S10240, .f32⟩
  | 94 => ⟨S10240, .f32⟩
  | 95 => ⟨S10240, .f32⟩
  | 96 => ⟨S_, .i32⟩
  | 97 => ⟨S40960, .i32⟩
  | 98 => ⟨S40960, .i1⟩
  | 99 => ⟨S_, .i32⟩
  | 100 => ⟨S40960, .i32⟩
  | 101 => ⟨S40960, .i32⟩
  | 102 => ⟨S40960, .i32⟩
  | 103 => ⟨S40960x1, .i32⟩
  | 104 => ⟨S40960x156, .f32⟩
  | 105 => ⟨S_, .i32⟩
  | 106 => ⟨S40960, .i32⟩
  | 107 => ⟨S40960, .i1⟩
  | 108 => ⟨S_, .i32⟩
  | 109 => ⟨S40960, .i32⟩
  | 110 => ⟨S40960, .i32⟩
  | 111 => ⟨S40960, .i32⟩
  | 112 => ⟨S40960x1, .i32⟩
  | 113 => ⟨S40960, .f32⟩
  | 114 => ⟨S40960x1, .f32⟩
  | 115 => ⟨S40960x156, .f32⟩
  | 116 => ⟨S40960x156, .f32⟩
  | 117 => ⟨S_, .f32⟩
  | 118 => ⟨S10240x156, .f32⟩
  | 119 => ⟨S40960x1, .i32⟩
  | 120 => ⟨S10240x156, .f32⟩
  | 121 => ⟨S10240x1, .f32⟩
  | 122 => ⟨S10240x1, .f32⟩
  | 123 => ⟨S10240x156, .f32⟩
  | 124 => ⟨S10240x156, .f32⟩
  | 125 => ⟨S10240x156, .f32⟩
  | 126 => ⟨S10240x156, .f32⟩
  | 127 => ⟨S10240x156, .f32⟩
  | _ => ⟨S10240x78, .f32⟩

abbrev hbmTy0_1 (i : Nat) : BufTy := match i % 128 with
  | 0 => ⟨S1x156, .f32⟩
  | 1 => ⟨S10240x156, .f32⟩
  | 2 => ⟨S10240x156, .f32⟩
  | 3 => ⟨S_, .f32⟩
  | 4 => ⟨S10240x156, .f32⟩
  | 5 => ⟨S10240x156, .f32⟩
  | 6 => ⟨S10240x312, .f32⟩
  | 7 => ⟨S_, .f32⟩
  | 8 => ⟨S40960, .f32⟩
  | 9 => ⟨S_, .f32⟩
  | 10 => ⟨S10240, .f32⟩
  | 11 => ⟨S40960x1, .i32⟩
  | 12 => ⟨S10240, .f32⟩
  | 13 => ⟨S_, .f32⟩
  | 14 => ⟨S10240, .f32⟩
  | 15 => ⟨S10240, .f32⟩
  | 16 => ⟨S10240, .f32⟩
  | 17 => ⟨S_, .i32⟩
  | 18 => ⟨S40960, .i32⟩
  | 19 => ⟨S40960, .i1⟩
  | 20 => ⟨S_, .i32⟩
  | 21 => ⟨S40960, .i32⟩
  | 22 => ⟨S40960, .i32⟩
  | 23 => ⟨S40960, .i32⟩
  | 24 => ⟨S40960x1, .i32⟩
  | 25 => ⟨S40960x312, .f32⟩
  | 26 => ⟨S_, .i32⟩
  | 27 => ⟨S40960, .i32⟩
  | 28 => ⟨S40960, .i1⟩
  | 29 => ⟨S_, .i32⟩
  | 30 => ⟨S40960, .i32⟩
  | 31 => ⟨S40960, .i32⟩
  | 32 => ⟨S40960, .i32⟩
  | 33 => ⟨S40960x1, .i32⟩
  | 34 => ⟨S40960, .f32⟩
  | 35 => ⟨S40960x1, .f32⟩
  | 36 => ⟨S40960x312, .f32⟩
  | 37 => ⟨S40960x312, .f32⟩
  | 38 => ⟨S_, .f32⟩
  | 39 => ⟨S10240x312, .f32⟩
  | 40 => ⟨S40960x1, .i32⟩
  | 41 => ⟨S10240x312, .f32⟩
  | 42 => ⟨S10240x1, .f32⟩
  | 43 => ⟨S10240x1, .f32⟩
  | 44 => ⟨S10240x312, .f32⟩
  | 45 => ⟨S10240x312, .f32⟩
  | 46 => ⟨S10240x312, .f32⟩
  | 47 => ⟨S10240x312, .f32⟩
  | 48 => ⟨S10240x312, .f32⟩
  | 49 => ⟨S1x312, .f32⟩
  | 50 => ⟨S10240x312, .f32⟩
  | 51 => ⟨S10240x312, .f32⟩
  | 52 => ⟨S_, .f32⟩
  | 53 => ⟨S10240x312, .f32⟩
  | 54 => ⟨S10240x312, .f32⟩
  | 55 => ⟨S_, .f32⟩
  | 56 => ⟨S256x312, .f32⟩
  | 57 => ⟨S10240x1, .i32⟩
  | 58 => ⟨S256x312, .f32⟩
  | 59 => ⟨S_, .f32⟩
  | 60 => ⟨S10240, .f32⟩
  | 61 => ⟨S_, .f32⟩
  | 62 => ⟨S256, .f32⟩
  | 63 => ⟨S10240x1, .i32⟩
  | 64 => ⟨S256, .f32⟩
  | 65 => ⟨S_, .f32⟩
  | 66 => ⟨S256, .f32⟩
  | 67 => ⟨S256, .f32⟩
  | 68 => ⟨S256x1, .f32⟩
  | 69 => ⟨S256x312, .f32⟩
  | 70 => ⟨S256x312, .f32⟩
  | 71 => ⟨S256x1024, .f32⟩
  | 72 => ⟨S1x1024, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x128, .f32⟩
  | 79 => ⟨S1x128, .f32⟩
  | 80 => ⟨S256x128, .f32⟩
  | 81 => ⟨S256x128, .f32⟩
  | 82 => ⟨S1x768000, .i32⟩
  | 83 => ⟨S768000, .i32⟩
  | 84 => ⟨S1x768000, .i32⟩
  | 85 => ⟨S768000, .i32⟩
  | 86 => ⟨S76800x54, .f32⟩
  | 87 => ⟨S_, .f32⟩
  | 88 => ⟨S768000, .f32⟩
  | 89 => ⟨S_, .f32⟩
  | 90 => ⟨S76800, .f32⟩
  | 91 => ⟨S768000x1, .i32⟩
  | 92 => ⟨S76800, .f32⟩
  | 93 => ⟨S_, .f32⟩
  | 94 => ⟨S76800, .f32⟩
  | 95 => ⟨S76800, .f32⟩
  | 96 => ⟨S76800, .f32⟩
  | 97 => ⟨S_, .i32⟩
  | 98 => ⟨S768000, .i32⟩
  | 99 => ⟨S768000, .i1⟩
  | 100 => ⟨S_, .i32⟩
  | 101 => ⟨S768000, .i32⟩
  | 102 => ⟨S768000, .i32⟩
  | 103 => ⟨S768000, .i32⟩
  | 104 => ⟨S768000x1, .i32⟩
  | 105 => ⟨S768000x54, .f32⟩
  | 106 => ⟨S_, .i32⟩
  | 107 => ⟨S768000, .i32⟩
  | 108 => ⟨S768000, .i1⟩
  | 109 => ⟨S_, .i32⟩
  | 110 => ⟨S768000, .i32⟩
  | 111 => ⟨S768000, .i32⟩
  | 112 => ⟨S768000, .i32⟩
  | 113 => ⟨S768000x1, .i32⟩
  | 114 => ⟨S768000, .f32⟩
  | 115 => ⟨S768000x1, .f32⟩
  | 116 => ⟨S768000x54, .f32⟩
  | 117 => ⟨S768000x54, .f32⟩
  | 118 => ⟨S_, .f32⟩
  | 119 => ⟨S76800x54, .f32⟩
  | 120 => ⟨S768000x1, .i32⟩
  | 121 => ⟨S76800x54, .f32⟩
  | 122 => ⟨S76800x1, .f32⟩
  | 123 => ⟨S76800x1, .f32⟩
  | 124 => ⟨S76800x54, .f32⟩
  | 125 => ⟨S76800x54, .f32⟩
  | 126 => ⟨S76800x54, .f32⟩
  | 127 => ⟨S76800x54, .f32⟩
  | _ => ⟨S10240x78, .f32⟩

abbrev hbmTy0_2 (i : Nat) : BufTy := match i % 128 with
  | 0 => ⟨S76800x54, .f32⟩
  | 1 => ⟨S1x54, .f32⟩
  | 2 => ⟨S76800x54, .f32⟩
  | 3 => ⟨S76800x54, .f32⟩
  | 4 => ⟨S_, .f32⟩
  | 5 => ⟨S76800x54, .f32⟩
  | 6 => ⟨S76800x54, .f32⟩
  | 7 => ⟨S76800x108, .f32⟩
  | 8 => ⟨S_, .f32⟩
  | 9 => ⟨S768000, .f32⟩
  | 10 => ⟨S_, .f32⟩
  | 11 => ⟨S76800, .f32⟩
  | 12 => ⟨S768000x1, .i32⟩
  | 13 => ⟨S76800, .f32⟩
  | 14 => ⟨S_, .f32⟩
  | 15 => ⟨S76800, .f32⟩
  | 16 => ⟨S76800, .f32⟩
  | 17 => ⟨S76800, .f32⟩
  | 18 => ⟨S_, .i32⟩
  | 19 => ⟨S768000, .i32⟩
  | 20 => ⟨S768000, .i1⟩
  | 21 => ⟨S_, .i32⟩
  | 22 => ⟨S768000, .i32⟩
  | 23 => ⟨S768000, .i32⟩
  | 24 => ⟨S768000, .i32⟩
  | 25 => ⟨S768000x1, .i32⟩
  | 26 => ⟨S768000x108, .f32⟩
  | 27 => ⟨S_, .i32⟩
  | 28 => ⟨S768000, .i32⟩
  | 29 => ⟨S768000, .i1⟩
  | 30 => ⟨S_, .i32⟩
  | 31 => ⟨S768000, .i32⟩
  | 32 => ⟨S768000, .i32⟩
  | 33 => ⟨S768000, .i32⟩
  | 34 => ⟨S768000x1, .i32⟩
  | 35 => ⟨S768000, .f32⟩
  | 36 => ⟨S768000x1, .f32⟩
  | 37 => ⟨S768000x108, .f32⟩
  | 38 => ⟨S768000x108, .f32⟩
  | 39 => ⟨S_, .f32⟩
  | 40 => ⟨S76800x108, .f32⟩
  | 41 => ⟨S768000x1, .i32⟩
  | 42 => ⟨S76800x108, .f32⟩
  | 43 => ⟨S76800x1, .f32⟩
  | 44 => ⟨S76800x1, .f32⟩
  | 45 => ⟨S76800x108, .f32⟩
  | 46 => ⟨S76800x108, .f32⟩
  | 47 => ⟨S76800x108, .f32⟩
  | 48 => ⟨S76800x108, .f32⟩
  | 49 => ⟨S76800x108, .f32⟩
  | 50 => ⟨S1x108, .f32⟩
  | 51 => ⟨S76800x108, .f32⟩
  | 52 => ⟨S76800x108, .f32⟩
  | 53 => ⟨S_, .f32⟩
  | 54 => ⟨S76800x108, .f32⟩
  | 55 => ⟨S76800x108, .f32⟩
  | 56 => ⟨S76800x216, .f32⟩
  | 57 => ⟨S_, .f32⟩
  | 58 => ⟨S768000, .f32⟩
  | 59 => ⟨S_, .f32⟩
  | 60 => ⟨S76800, .f32⟩
  | 61 => ⟨S768000x1, .i32⟩
  | 62 => ⟨S76800, .f32⟩
  | 63 => ⟨S_, .f32⟩
  | 64 => ⟨S76800, .f32⟩
  | 65 => ⟨S76800, .f32⟩
  | 66 => ⟨S76800, .f32⟩
  | 67 => ⟨S_, .i32⟩
  | 68 => ⟨S768000, .i32⟩
  | 69 => ⟨S768000, .i1⟩
  | 70 => ⟨S_, .i32⟩
  | 71 => ⟨S768000, .i32⟩
  | 72 => ⟨S768000, .i32⟩
  | 73 => ⟨S768000, .i32⟩
  | 74 => ⟨S768000x1, .i32⟩
  | 75 => ⟨S768000x216, .f32⟩
  | 76 => ⟨S_, .i32⟩
  | 77 => ⟨S768000, .i32⟩
  | 78 => ⟨S768000, .i1⟩
  | 79 => ⟨S_, .i32⟩
  | 80 => ⟨S768000, .i32⟩
  | 81 => ⟨S768000, .i32⟩
  | 82 => ⟨S768000, .i32⟩
  | 83 => ⟨S768000x1, .i32⟩
  | 84 => ⟨S768000, .f32⟩
  | 85 => ⟨S768000x1, .f32⟩
  | 86 => ⟨S768000x216, .f32⟩
  | 87 => ⟨S768000x216, .f32⟩
  | 88 => ⟨S_, .f32⟩
  | 89 => ⟨S76800x216, .f32⟩
  | 90 => ⟨S768000x1, .i32⟩
  | 91 => ⟨S76800x216, .f32⟩
  | 92 => ⟨S76800x1, .f32⟩
  | 93 => ⟨S76800x1, .f32⟩
  | 94 => ⟨S76800x216, .f32⟩
  | 95 => ⟨S76800x216, .f32⟩
  | 96 => ⟨S76800x216, .f32⟩
  | 97 => ⟨S76800x216, .f32⟩
  | 98 => ⟨S76800x216, .f32⟩
  | 99 => ⟨S1x216, .f32⟩
  | 100 => ⟨S76800x216, .f32⟩
  | 101 => ⟨S76800x216, .f32⟩
  | 102 => ⟨S_, .f32⟩
  | 103 => ⟨S76800x216, .f32⟩
  | 104 => ⟨S76800x216, .f32⟩
  | 105 => ⟨S_, .f32⟩
  | 106 => ⟨S256x216, .f32⟩
  | 107 => ⟨S76800x1, .i32⟩
  | 108 => ⟨S256x216, .f32⟩
  | 109 => ⟨S_, .f32⟩
  | 110 => ⟨S76800, .f32⟩
  | 111 => ⟨S_, .f32⟩
  | 112 => ⟨S256, .f32⟩
  | 113 => ⟨S76800x1, .i32⟩
  | 114 => ⟨S256, .f32⟩
  | 115 => ⟨S_, .f32⟩
  | 116 => ⟨S256, .f32⟩
  | 117 => ⟨S256, .f32⟩
  | 118 => ⟨S256x1, .f32⟩
  | 119 => ⟨S256x216, .f32⟩
  | 120 => ⟨S256x216, .f32⟩
  | 121 => ⟨S256x1024, .f32⟩
  | 122 => ⟨S1x1024, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S10240x78, .f32⟩

abbrev hbmTy0_3 (i : Nat) : BufTy := match i % 128 with
  | 0 => ⟨S256x128, .f32⟩
  | 1 => ⟨S1x128, .f32⟩
  | 2 => ⟨S256x128, .f32⟩
  | 3 => ⟨S256x128, .f32⟩
  | 4 => ⟨S256x256, .f32⟩
  | 5 => ⟨S256x1024, .f32⟩
  | 6 => ⟨S1x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S256x512, .f32⟩
  | 13 => ⟨S1x512, .f32⟩
  | 14 => ⟨S256x512, .f32⟩
  | 15 => ⟨S256x512, .f32⟩
  | 16 => ⟨S_, .f32⟩
  | 17 => ⟨S256x512, .f32⟩
  | 18 => ⟨S256x512, .f32⟩
  | 19 => ⟨S256x1, .f32⟩
  | 20 => ⟨S1x1, .f32⟩
  | 21 => ⟨S256x1, .f32⟩
  | 22 => ⟨S256x1, .f32⟩
  | _ => ⟨S10240x78, .f32⟩

abbrev hbmTy (i : Nat) : BufTy := match i / 128 with
  | 0 => hbmTy0_0 i
  | 1 => hbmTy0_1 i
  | 2 => hbmTy0_2 i
  | 3 => hbmTy0_3 i
  | _ => ⟨S10240x78, .f32⟩

abbrev bufTy : (tb : Table) → Fin (tcTables nBuf tb) → BufTy
  | .hbm, ⟨i, _⟩ => hbmTy i
  | _, _ => ⟨S10240x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c : Ref sig .tc := ⟨.hbm, 47, rfl⟩
abbrev main_v12 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_c_3 : Ref sig .tc := ⟨.hbm, 56, rfl⟩
abbrev main_v19 : Ref sig .tc := ⟨.hbm, 57, rfl⟩
abbrev main_v20 : Ref sig .tc := ⟨.hbm, 58, rfl⟩
abbrev main_c_4 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call0_cst : Ref sig .tc := ⟨.hbm, 82, rfl⟩
abbrev main_call0_v0 : Ref sig .tc := ⟨.hbm, 83, rfl⟩
abbrev main_v42 : Ref sig .tc := ⟨.hbm, 84, rfl⟩
abbrev main_v43 : Ref sig .tc := ⟨.hbm, 85, rfl⟩
abbrev main_cst_6 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_9 : Ref sig .tc := ⟨.hbm, 96, rfl⟩
abbrev main_v51 : Ref sig .tc := ⟨.hbm, 97, rfl⟩
abbrev main_v52 : Ref sig .tc := ⟨.hbm, 98, rfl⟩
abbrev main_c_10 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_11 : Ref sig .tc := ⟨.hbm, 105, rfl⟩
abbrev main_v58 : Ref sig .tc := ⟨.hbm, 106, rfl⟩
abbrev main_v59 : Ref sig .tc := ⟨.hbm, 107, rfl⟩
abbrev main_c_12 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_13 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_call1_cst : Ref sig .tc := ⟨.hbm, 131, rfl⟩
abbrev main_call1_v0 : Ref sig .tc := ⟨.hbm, 132, rfl⟩
abbrev main_v81 : Ref sig .tc := ⟨.hbm, 133, rfl⟩
abbrev main_v82 : Ref sig .tc := ⟨.hbm, 134, rfl⟩
abbrev main_cst_14 : Ref sig .tc := ⟨.hbm, 135, rfl⟩
abbrev main_v83 : Ref sig .tc := ⟨.hbm, 136, rfl⟩
abbrev main_cst_15 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_16 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_17 : Ref sig .tc := ⟨.hbm, 145, rfl⟩
abbrev main_v90 : Ref sig .tc := ⟨.hbm, 146, rfl⟩
abbrev main_v91 : Ref sig .tc := ⟨.hbm, 147, rfl⟩
abbrev main_c_18 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_19 : Ref sig .tc := ⟨.hbm, 154, rfl⟩
abbrev main_v97 : Ref sig .tc := ⟨.hbm, 155, rfl⟩
abbrev main_v98 : Ref sig .tc := ⟨.hbm, 156, rfl⟩
abbrev main_c_20 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_21 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_call2_cst : Ref sig .tc := ⟨.hbm, 180, rfl⟩
abbrev main_call2_v0 : Ref sig .tc := ⟨.hbm, 181, rfl⟩
abbrev main_v120 : Ref sig .tc := ⟨.hbm, 182, rfl⟩
abbrev main_cst_22 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_23 : Ref sig .tc := ⟨.hbm, 187, rfl⟩
abbrev main_v124 : Ref sig .tc := ⟨.hbm, 188, rfl⟩
abbrev main_cst_24 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_25 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_call3_cst : Ref sig .tc := ⟨.hbm, 203, rfl⟩
abbrev main_call3_v0 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_26 : Ref sig .tc := ⟨.hbm, 215, rfl⟩
abbrev main_v147 : Ref sig .tc := ⟨.hbm, 216, rfl⟩
abbrev main_cst_27 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_cst_28 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_c_29 : Ref sig .tc := ⟨.hbm, 225, rfl⟩
abbrev main_v154 : Ref sig .tc := ⟨.hbm, 226, rfl⟩
abbrev main_v155 : Ref sig .tc := ⟨.hbm, 227, rfl⟩
abbrev main_c_30 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_c_31 : Ref sig .tc := ⟨.hbm, 234, rfl⟩
abbrev main_v161 : Ref sig .tc := ⟨.hbm, 235, rfl⟩
abbrev main_v162 : Ref sig .tc := ⟨.hbm, 236, rfl⟩
abbrev main_c_32 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_33 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_call4_cst : Ref sig .tc := ⟨.hbm, 260, rfl⟩
abbrev main_call4_v0 : Ref sig .tc := ⟨.hbm, 261, rfl⟩
abbrev main_v184 : Ref sig .tc := ⟨.hbm, 262, rfl⟩
abbrev main_v185 : Ref sig .tc := ⟨.hbm, 263, rfl⟩
abbrev main_cst_34 : Ref sig .tc := ⟨.hbm, 264, rfl⟩
abbrev main_v186 : Ref sig .tc := ⟨.hbm, 265, rfl⟩
abbrev main_cst_35 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_36 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_c_37 : Ref sig .tc := ⟨.hbm, 274, rfl⟩
abbrev main_v193 : Ref sig .tc := ⟨.hbm, 275, rfl⟩
abbrev main_v194 : Ref sig .tc := ⟨.hbm, 276, rfl⟩
abbrev main_c_38 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_c_39 : Ref sig .tc := ⟨.hbm, 283, rfl⟩
abbrev main_v200 : Ref sig .tc := ⟨.hbm, 284, rfl⟩
abbrev main_v201 : Ref sig .tc := ⟨.hbm, 285, rfl⟩
abbrev main_c_40 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_cst_41 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_call5_cst : Ref sig .tc := ⟨.hbm, 309, rfl⟩
abbrev main_call5_v0 : Ref sig .tc := ⟨.hbm, 310, rfl⟩
abbrev main_v223 : Ref sig .tc := ⟨.hbm, 311, rfl⟩
abbrev main_v224 : Ref sig .tc := ⟨.hbm, 312, rfl⟩
abbrev main_cst_42 : Ref sig .tc := ⟨.hbm, 313, rfl⟩
abbrev main_v225 : Ref sig .tc := ⟨.hbm, 314, rfl⟩
abbrev main_cst_43 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_cst_44 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_c_45 : Ref sig .tc := ⟨.hbm, 323, rfl⟩
abbrev main_v232 : Ref sig .tc := ⟨.hbm, 324, rfl⟩
abbrev main_v233 : Ref sig .tc := ⟨.hbm, 325, rfl⟩
abbrev main_c_46 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_c_47 : Ref sig .tc := ⟨.hbm, 332, rfl⟩
abbrev main_v239 : Ref sig .tc := ⟨.hbm, 333, rfl⟩
abbrev main_v240 : Ref sig .tc := ⟨.hbm, 334, rfl⟩
abbrev main_c_48 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_cst_49 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_call6_cst : Ref sig .tc := ⟨.hbm, 358, rfl⟩
abbrev main_call6_v0 : Ref sig .tc := ⟨.hbm, 359, rfl⟩
abbrev main_v262 : Ref sig .tc := ⟨.hbm, 360, rfl⟩
abbrev main_cst_50 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_cst_51 : Ref sig .tc := ⟨.hbm, 365, rfl⟩
abbrev main_v266 : Ref sig .tc := ⟨.hbm, 366, rfl⟩
abbrev main_cst_52 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_cst_53 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_call7_cst : Ref sig .tc := ⟨.hbm, 381, rfl⟩
abbrev main_call7_v0 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_v287 : Ref sig .tc := ⟨.hbm, 391, rfl⟩
abbrev main_v288 : Ref sig .tc := ⟨.hbm, 392, rfl⟩
abbrev main_call8_cst : Ref sig .tc := ⟨.hbm, 393, rfl⟩
abbrev main_call8_v0 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_call9_cst : Ref sig .tc := ⟨.hbm, 400, rfl⟩
abbrev main_call9_v0 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩

abbrev nD : Nat := 1
abbrev τ : Topo := Topo.v7x

variable {F : FTy → Type} [FloatOps F]

class Facts₀ : Prop where
  slices_S2x40960_S1x40960_0_0 : S2x40960.Slices ![0, 0] S1x40960
  shapeCasts_S1x40960_S40960 : S1x40960.ShapeCasts S40960
  slices_S2x40960_S1x40960_1_0 : S2x40960.Slices ![1, 0] S1x40960
  bcast_S_S40960 : S_.BroadcastsInDim S40960 (![] : Fin 0 → Fin S40960.rank)
  bcast_S_S10240 : S_.BroadcastsInDim S10240 (![] : Fin 0 → Fin S10240.rank)
  bcast_S40960_S40960x1_0 : S40960.BroadcastsInDim S40960x1 (![0] : Fin 1 → Fin S40960x1.rank)
  bcast_S40960x1_S40960x78_0_1 : S40960x1.BroadcastsInDim S40960x78 (![0, 1] : Fin 2 → Fin S40960x78.rank)
  bcast_S_S10240x78 : S_.BroadcastsInDim S10240x78 (![] : Fin 0 → Fin S10240x78.rank)
  bcast_S10240_S10240x1_0 : S10240.BroadcastsInDim S10240x1 (![0] : Fin 1 → Fin S10240x1.rank)
  bcast_S10240x1_S10240x78_0_1 : S10240x1.BroadcastsInDim S10240x78 (![0, 1] : Fin 2 → Fin S10240x78.rank)
  bcast_S78_S1x78_1 : S78.BroadcastsInDim S1x78 (![1] : Fin 1 → Fin S1x78.rank)
  bcast_S1x78_S10240x78_0_1 : S1x78.BroadcastsInDim S10240x78 (![0, 1] : Fin 2 → Fin S10240x78.rank)
  bcast_S40960x1_S40960x156_0_1 : S40960x1.BroadcastsInDim S40960x156 (![0, 1] : Fin 2 → Fin S40960x156.rank)
  bcast_S_S10240x156 : S_.BroadcastsInDim S10240x156 (![] : Fin 0 → Fin S10240x156.rank)
  bcast_S10240x1_S10240x156_0_1 : S10240x1.BroadcastsInDim S10240x156 (![0, 1] : Fin 2 → Fin S10240x156.rank)
  bcast_S156_S1x156_1 : S156.BroadcastsInDim S1x156 (![1] : Fin 1 → Fin S1x156.rank)
  bcast_S1x156_S10240x156_0_1 : S1x156.BroadcastsInDim S10240x156 (![0, 1] : Fin 2 → Fin S10240x156.rank)
  bcast_S40960x1_S40960x312_0_1 : S40960x1.BroadcastsInDim S40960x312 (![0, 1] : Fin 2 → Fin S40960x312.rank)
  bcast_S_S10240x312 : S_.BroadcastsInDim S10240x312 (![] : Fin 0 → Fin S10240x312.rank)
  bcast_S10240x1_S10240x312_0_1 : S10240x1.BroadcastsInDim S10240x312 (![0, 1] : Fin 2 → Fin S10240x312.rank)
  bcast_S312_S1x312_1 : S312.BroadcastsInDim S1x312 (![1] : Fin 1 → Fin S1x312.rank)
  bcast_S1x312_S10240x312_0_1 : S1x312.BroadcastsInDim S10240x312 (![0, 1] : Fin 2 → Fin S10240x312.rank)
  bcast_S_S256x312 : S_.BroadcastsInDim S256x312 (![] : Fin 0 → Fin S256x312.rank)
  bcast_S_S256 : S_.BroadcastsInDim S256 (![] : Fin 0 → Fin S256.rank)
  bcast_S256_S256x1_0 : S256.BroadcastsInDim S256x1 (![0] : Fin 1 → Fin S256x1.rank)
  bcast_S256x1_S256x312_0_1 : S256x1.BroadcastsInDim S256x312 (![0, 1] : Fin 2 → Fin S256x312.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  slices_S2x768000_S1x768000_0_0 : S2x768000.Slices ![0, 0] S1x768000
  shapeCasts_S1x768000_S768000 : S1x768000.ShapeCasts S768000
  slices_S2x768000_S1x768000_1_0 : S2x768000.Slices ![1, 0] S1x768000
  bcast_S_S768000 : S_.BroadcastsInDim S768000 (![] : Fin 0 → Fin S768000.rank)
  bcast_S_S76800 : S_.BroadcastsInDim S76800 (![] : Fin 0 → Fin S76800.rank)
  bcast_S768000_S768000x1_0 : S768000.BroadcastsInDim S768000x1 (![0] : Fin 1 → Fin S768000x1.rank)
  bcast_S768000x1_S768000x54_0_1 : S768000x1.BroadcastsInDim S768000x54 (![0, 1] : Fin 2 → Fin S768000x54.rank)
  bcast_S_S76800x54 : S_.BroadcastsInDim S76800x54 (![] : Fin 0 → Fin S76800x54.rank)
  bcast_S76800_S76800x1_0 : S76800.BroadcastsInDim S76800x1 (![0] : Fin 1 → Fin S76800x1.rank)
  bcast_S76800x1_S76800x54_0_1 : S76800x1.BroadcastsInDim S76800x54 (![0, 1] : Fin 2 → Fin S76800x54.rank)
  bcast_S54_S1x54_1 : S54.BroadcastsInDim S1x54 (![1] : Fin 1 → Fin S1x54.rank)
  bcast_S1x54_S76800x54_0_1 : S1x54.BroadcastsInDim S76800x54 (![0, 1] : Fin 2 → Fin S76800x54.rank)
  bcast_S768000x1_S768000x108_0_1 : S768000x1.BroadcastsInDim S768000x108 (![0, 1] : Fin 2 → Fin S768000x108.rank)
  bcast_S_S76800x108 : S_.BroadcastsInDim S76800x108 (![] : Fin 0 → Fin S76800x108.rank)
  bcast_S76800x1_S76800x108_0_1 : S76800x1.BroadcastsInDim S76800x108 (![0, 1] : Fin 2 → Fin S76800x108.rank)
  bcast_S108_S1x108_1 : S108.BroadcastsInDim S1x108 (![1] : Fin 1 → Fin S1x108.rank)
  bcast_S1x108_S76800x108_0_1 : S1x108.BroadcastsInDim S76800x108 (![0, 1] : Fin 2 → Fin S76800x108.rank)
  bcast_S768000x1_S768000x216_0_1 : S768000x1.BroadcastsInDim S768000x216 (![0, 1] : Fin 2 → Fin S768000x216.rank)
  bcast_S_S76800x216 : S_.BroadcastsInDim S76800x216 (![] : Fin 0 → Fin S76800x216.rank)
  bcast_S76800x1_S76800x216_0_1 : S76800x1.BroadcastsInDim S76800x216 (![0, 1] : Fin 2 → Fin S76800x216.rank)
  bcast_S216_S1x216_1 : S216.BroadcastsInDim S1x216 (![1] : Fin 1 → Fin S1x216.rank)
  bcast_S1x216_S76800x216_0_1 : S1x216.BroadcastsInDim S76800x216 (![0, 1] : Fin 2 → Fin S76800x216.rank)
  bcast_S_S256x216 : S_.BroadcastsInDim S256x216 (![] : Fin 0 → Fin S256x216.rank)
  bcast_S256x1_S256x216_0_1 : S256x1.BroadcastsInDim S256x216 (![0, 1] : Fin 2 → Fin S256x216.rank)
  concatenates_S256x128_S256x128_S256x256_d1 : Shape.Concatenates [S256x128, S256x128] S256x256 1
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S10240x78_S78x78_S10240x78_1_0_0_1_n_n_wf : DotDims.WF S10240x78 S78x78 S10240x78 [1] [0] [0] [1] [] []
  scatter_S10240_S40960x1_S40960_n_0_0_1_wf : ScatterDims.WF S10240 S40960x1 S40960 [] [0] [0] 1
  gather_S10240x78_S40960x1_S40960x78_1_0_n_n_0_1_178_wf : GatherDims.WF S10240x78 S40960x1 S40960x78 [1] [0] [] [0] [] 1 ![1, 78]
  gather_S10240_S40960x1_S40960_n_0_n_n_0_1_1_wf : GatherDims.WF S10240 S40960x1 S40960 [] [0] [] [0] [] 1 ![1]
  scatter_S10240x78_S40960x1_S40960x78_1_0_0_1_wf : ScatterDims.WF S10240x78 S40960x1 S40960x78 [1] [0] [0] 1
  dot_S10240x78_S78x156_S10240x156_1_0_0_1_n_n_wf : DotDims.WF S10240x78 S78x156 S10240x156 [1] [0] [0] [1] [] []
  gather_S10240x156_S40960x1_S40960x156_1_0_n_n_0_1_1156_wf : GatherDims.WF S10240x156 S40960x1 S40960x156 [1] [0] [] [0] [] 1 ![1, 156]
  scatter_S10240x156_S40960x1_S40960x156_1_0_0_1_wf : ScatterDims.WF S10240x156 S40960x1 S40960x156 [1] [0] [0] 1
  dot_S10240x156_S156x312_S10240x312_1_0_0_1_n_n_wf : DotDims.WF S10240x156 S156x312 S10240x312 [1] [0] [0] [1] [] []
  gather_S10240x312_S40960x1_S40960x312_1_0_n_n_0_1_1312_wf : GatherDims.WF S10240x312 S40960x1 S40960x312 [1] [0] [] [0] [] 1 ![1, 312]
  scatter_S10240x312_S40960x1_S40960x312_1_0_0_1_wf : ScatterDims.WF S10240x312 S40960x1 S40960x312 [1] [0] [0] 1
  scatter_S256x312_S10240x1_S10240x312_1_0_0_1_wf : ScatterDims.WF S256x312 S10240x1 S10240x312 [1] [0] [0] 1
  scatter_S256_S10240x1_S10240_n_0_0_1_wf : ScatterDims.WF S256 S10240x1 S10240 [] [0] [0] 1
  dot_S256x312_S312x1024_S256x1024_1_0_0_1_n_n_wf : DotDims.WF S256x312 S312x1024 S256x1024 [1] [0] [0] [1] [] []
  dot_S256x1024_S1024x128_S256x128_1_0_0_1_n_n_wf : DotDims.WF S256x1024 S1024x128 S256x128 [1] [0] [0] [1] [] []
  dot_S76800x54_S54x54_S76800x54_1_0_0_1_n_n_wf : DotDims.WF S76800x54 S54x54 S76800x54 [1] [0] [0] [1] [] []
  scatter_S76800_S768000x1_S768000_n_0_0_1_wf : ScatterDims.WF S76800 S768000x1 S768000 [] [0] [0] 1
  gather_S76800x54_S768000x1_S768000x54_1_0_n_n_0_1_154_wf : GatherDims.WF S76800x54 S768000x1 S768000x54 [1] [0] [] [0] [] 1 ![1, 54]
  gather_S76800_S768000x1_S768000_n_0_n_n_0_1_1_wf : GatherDims.WF S76800 S768000x1 S768000 [] [0] [] [0] [] 1 ![1]
  scatter_S76800x54_S768000x1_S768000x54_1_0_0_1_wf : ScatterDims.WF S76800x54 S768000x1 S768000x54 [1] [0] [0] 1
  dot_S76800x54_S54x108_S76800x108_1_0_0_1_n_n_wf : DotDims.WF S76800x54 S54x108 S76800x108 [1] [0] [0] [1] [] []
  gather_S76800x108_S768000x1_S768000x108_1_0_n_n_0_1_1108_wf : GatherDims.WF S76800x108 S768000x1 S768000x108 [1] [0] [] [0] [] 1 ![1, 108]
  scatter_S76800x108_S768000x1_S768000x108_1_0_0_1_wf : ScatterDims.WF S76800x108 S768000x1 S768000x108 [1] [0] [0] 1
  dot_S76800x108_S108x216_S76800x216_1_0_0_1_n_n_wf : DotDims.WF S76800x108 S108x216 S76800x216 [1] [0] [0] [1] [] []
  gather_S76800x216_S768000x1_S768000x216_1_0_n_n_0_1_1216_wf : GatherDims.WF S76800x216 S768000x1 S768000x216 [1] [0] [] [0] [] 1 ![1, 216]
  scatter_S76800x216_S768000x1_S768000x216_1_0_0_1_wf : ScatterDims.WF S76800x216 S768000x1 S768000x216 [1] [0] [0] 1
  scatter_S256x216_S76800x1_S76800x216_1_0_0_1_wf : ScatterDims.WF S256x216 S76800x1 S76800x216 [1] [0] [0] 1
  scatter_S256_S76800x1_S76800_n_0_0_1_wf : ScatterDims.WF S256 S76800x1 S76800 [] [0] [0] 1
  dot_S256x216_S216x1024_S256x1024_1_0_0_1_n_n_wf : DotDims.WF S256x216 S216x1024 S256x1024 [1] [0] [0] [1] [] []
  dot_S256x256_S256x1024_S256x1024_1_0_0_1_n_n_wf : DotDims.WF S256x256 S256x1024 S256x1024 [1] [0] [0] [1] [] []
  dot_S256x1024_S1024x512_S256x512_1_0_0_1_n_n_wf : DotDims.WF S256x1024 S1024x512 S256x512 [1] [0] [0] [1] [] []
  dot_S256x512_S512x1_S256x1_1_0_0_1_n_n_wf : DotDims.WF S256x512 S512x1 S256x1 [1] [0] [0] [1] [] []

variable [Facts₀]

def dot_S10240x78_S78x78_S10240x78_1_0_0_1_n_n : DotDims S10240x78 S78x78 S10240x78 where
  lhsContracting := [1]
  rhsContracting := [0]
  lhsNonContracting := [0]
  rhsNonContracting := [1]
  lhsBatch := []
  rhsBatch := []
  wf := dot_S10240x78_S78x78_S10240x78_1_0_0_1_n_n_wf
def scatter_S10240_S40960x1_S40960_n_0_0_1 : ScatterDims S10240 S40960x1 S40960 where
  updateWindowDims := []
  insertedWindowDims := [0]
  scatterDimsToOperandDims := [0]
  indexVectorDim := 1
  wf := scatter_S10240_S40960x1_S40960_n_0_0_1_wf
def gather_S10240x78_S40960x1_S40960x78_1_0_n_n_0_1_178 : GatherDims S10240x78 S40960x1 S40960x78 where
  offsetDims := [1]
  collapsedSliceDims := [0]
  operandBatchingDims := []
  startIndicesBatchingDims := []
  startIndexMap := [0]
  indexVectorDim := 1
  sliceSizes := ![1, 78]
  wf := gather_S10240x78_S40960x1_S40960x78_1_0_n_n_0_1_178_wf
def gather_S10240_S40960x1_S40960_n_0_n_n_0_1_1 : GatherDims S10240 S40960x1 S40960 where
  offsetDims := []
  collapsedSliceDims := [0]
  operandBatchingDims := []
  startIndicesBatchingDims := []
  startIndexMap := [0]
  indexVectorDim := 1
  sliceSizes := ![1]
  wf := gather_S10240_S40960x1_S40960_n_0_n_n_0_1_1_wf
def scatter_S10240x78_S40960x1_S40960x78_1_0_0_1 : ScatterDims S10240x78 S40960x1 S40960x78 where
  updateWindowDims := [1]
  insertedWindowDims := [0]
  scatterDimsToOperandDims := [0]
  indexVectorDim := 1
  wf := scatter_S10240x78_S40960x1_S40960x78_1_0_0_1_wf
def dot_S10240x78_S78x156_S10240x156_1_0_0_1_n_n : DotDims S10240x78 S78x156 S10240x156 where
  lhsContracting := [1]
  rhsContracting := [0]
  lhsNonContracting := [0]
  rhsNonContracting := [1]
  lhsBatch := []
  rhsBatch := []
  wf := dot_S10240x78_S78x156_S10240x156_1_0_0_1_n_n_wf
def gather_S10240x156_S40960x1_S40960x156_1_0_n_n_0_1_1156 : GatherDims S10240x156 S40960x1 S40960x156 where
  offsetDims := [1]
  collapsedSliceDims := [0]
  operandBatchingDims := []
  startIndicesBatchingDims := []
  startIndexMap := [0]
  indexVectorDim := 1
  sliceSizes := ![1, 156]
  wf := gather_S10240x156_S40960x1_S40960x156_1_0_n_n_0_1_1156_wf
def scatter_S10240x156_S40960x1_S40960x156_1_0_0_1 : ScatterDims S10240x156 S40960x1 S40960x156 where
  updateWindowDims := [1]
  insertedWindowDims := [0]
  scatterDimsToOperandDims := [0]
  indexVectorDim := 1
  wf := scatter_S10240x156_S40960x1_S40960x156_1_0_0_1_wf
def dot_S10240x156_S156x312_S10240x312_1_0_0_1_n_n : DotDims S10240x156 S156x312 S10240x312 where
  lhsContracting := [1]
  rhsContracting := [0]
  lhsNonContracting := [0]
  rhsNonContracting := [1]
  lhsBatch := []
  rhsBatch := []
  wf := dot_S10240x156_S156x312_S10240x312_1_0_0_1_n_n_wf
def gather_S10240x312_S40960x1_S40960x312_1_0_n_n_0_1_1312 : GatherDims S10240x312 S40960x1 S40960x312 where
  offsetDims := [1]
  collapsedSliceDims := [0]
  operandBatchingDims := []
  startIndicesBatchingDims := []
  startIndexMap := [0]
  indexVectorDim := 1
  sliceSizes := ![1, 312]
  wf := gather_S10240x312_S40960x1_S40960x312_1_0_n_n_0_1_1312_wf
def scatter_S10240x312_S40960x1_S40960x312_1_0_0_1 : ScatterDims S10240x312 S40960x1 S40960x312 where
  updateWindowDims := [1]
  insertedWindowDims := [0]
  scatterDimsToOperandDims := [0]
  indexVectorDim := 1
  wf := scatter_S10240x312_S40960x1_S40960x312_1_0_0_1_wf
def scatter_S256x312_S10240x1_S10240x312_1_0_0_1 : ScatterDims S256x312 S10240x1 S10240x312 where
  updateWindowDims := [1]
  insertedWindowDims := [0]
  scatterDimsToOperandDims := [0]
  indexVectorDim := 1
  wf := scatter_S256x312_S10240x1_S10240x312_1_0_0_1_wf
def scatter_S256_S10240x1_S10240_n_0_0_1 : ScatterDims S256 S10240x1 S10240 where
  updateWindowDims := []
  insertedWindowDims := [0]
  scatterDimsToOperandDims := [0]
  indexVectorDim := 1
  wf := scatter_S256_S10240x1_S10240_n_0_0_1_wf
def dot_S256x312_S312x1024_S256x1024_1_0_0_1_n_n : DotDims S256x312 S312x1024 S256x1024 where
  lhsContracting := [1]
  rhsContracting := [0]
  lhsNonContracting := [0]
  rhsNonContracting := [1]
  lhsBatch := []
  rhsBatch := []
  wf := dot_S256x312_S312x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S76800x54_S54x54_S76800x54_1_0_0_1_n_n : DotDims S76800x54 S54x54 S76800x54 where
  lhsContracting := [1]
  rhsContracting := [0]
  lhsNonContracting := [0]
  rhsNonContracting := [1]
  lhsBatch := []
  rhsBatch := []
  wf := dot_S76800x54_S54x54_S76800x54_1_0_0_1_n_n_wf
def scatter_S76800_S768000x1_S768000_n_0_0_1 : ScatterDims S76800 S768000x1 S768000 where
  updateWindowDims := []
  insertedWindowDims := [0]
  scatterDimsToOperandDims := [0]
  indexVectorDim := 1
  wf := scatter_S76800_S768000x1_S768000_n_0_0_1_wf
def gather_S76800x54_S768000x1_S768000x54_1_0_n_n_0_1_154 : GatherDims S76800x54 S768000x1 S768000x54 where
  offsetDims := [1]
  collapsedSliceDims := [0]
  operandBatchingDims := []
  startIndicesBatchingDims := []
  startIndexMap := [0]
  indexVectorDim := 1
  sliceSizes := ![1, 54]
  wf := gather_S76800x54_S768000x1_S768000x54_1_0_n_n_0_1_154_wf
def gather_S76800_S768000x1_S768000_n_0_n_n_0_1_1 : GatherDims S76800 S768000x1 S768000 where
  offsetDims := []
  collapsedSliceDims := [0]
  operandBatchingDims := []
  startIndicesBatchingDims := []
  startIndexMap := [0]
  indexVectorDim := 1
  sliceSizes := ![1]
  wf := gather_S76800_S768000x1_S768000_n_0_n_n_0_1_1_wf
def scatter_S76800x54_S768000x1_S768000x54_1_0_0_1 : ScatterDims S76800x54 S768000x1 S768000x54 where
  updateWindowDims := [1]
  insertedWindowDims := [0]
  scatterDimsToOperandDims := [0]
  indexVectorDim := 1
  wf := scatter_S76800x54_S768000x1_S768000x54_1_0_0_1_wf
def dot_S76800x54_S54x108_S76800x108_1_0_0_1_n_n : DotDims S76800x54 S54x108 S76800x108 where
  lhsContracting := [1]
  rhsContracting := [0]
  lhsNonContracting := [0]
  rhsNonContracting := [1]
  lhsBatch := []
  rhsBatch := []
  wf := dot_S76800x54_S54x108_S76800x108_1_0_0_1_n_n_wf
def gather_S76800x108_S768000x1_S768000x108_1_0_n_n_0_1_1108 : GatherDims S76800x108 S768000x1 S768000x108 where
  offsetDims := [1]
  collapsedSliceDims := [0]
  operandBatchingDims := []
  startIndicesBatchingDims := []
  startIndexMap := [0]
  indexVectorDim := 1
  sliceSizes := ![1, 108]
  wf := gather_S76800x108_S768000x1_S768000x108_1_0_n_n_0_1_1108_wf
def scatter_S76800x108_S768000x1_S768000x108_1_0_0_1 : ScatterDims S76800x108 S768000x1 S768000x108 where
  updateWindowDims := [1]
  insertedWindowDims := [0]
  scatterDimsToOperandDims := [0]
  indexVectorDim := 1
  wf := scatter_S76800x108_S768000x1_S768000x108_1_0_0_1_wf
def dot_S76800x108_S108x216_S76800x216_1_0_0_1_n_n : DotDims S76800x108 S108x216 S76800x216 where
  lhsContracting := [1]
  rhsContracting := [0]
  lhsNonContracting := [0]
  rhsNonContracting := [1]
  lhsBatch := []
  rhsBatch := []
  wf := dot_S76800x108_S108x216_S76800x216_1_0_0_1_n_n_wf
def gather_S76800x216_S768000x1_S768000x216_1_0_n_n_0_1_1216 : GatherDims S76800x216 S768000x1 S768000x216 where
  offsetDims := [1]
  collapsedSliceDims := [0]
  operandBatchingDims := []
  startIndicesBatchingDims := []
  startIndexMap := [0]
  indexVectorDim := 1
  sliceSizes := ![1, 216]
  wf := gather_S76800x216_S768000x1_S768000x216_1_0_n_n_0_1_1216_wf
def scatter_S76800x216_S768000x1_S768000x216_1_0_0_1 : ScatterDims S76800x216 S768000x1 S768000x216 where
  updateWindowDims := [1]
  insertedWindowDims := [0]
  scatterDimsToOperandDims := [0]
  indexVectorDim := 1
  wf := scatter_S76800x216_S768000x1_S768000x216_1_0_0_1_wf
def scatter_S256x216_S76800x1_S76800x216_1_0_0_1 : ScatterDims S256x216 S76800x1 S76800x216 where
  updateWindowDims := [1]
  insertedWindowDims := [0]
  scatterDimsToOperandDims := [0]
  indexVectorDim := 1
  wf := scatter_S256x216_S76800x1_S76800x216_1_0_0_1_wf
def scatter_S256_S76800x1_S76800_n_0_0_1 : ScatterDims S256 S76800x1 S76800 where
  updateWindowDims := []
  insertedWindowDims := [0]
  scatterDimsToOperandDims := [0]
  indexVectorDim := 1
  wf := scatter_S256_S76800x1_S76800_n_0_0_1_wf
def dot_S256x216_S216x1024_S256x1024_1_0_0_1_n_n : DotDims S256x216 S216x1024 S256x1024 where
  lhsContracting := [1]
  rhsContracting := [0]
  lhsNonContracting := [0]
  rhsNonContracting := [1]
  lhsBatch := []
  rhsBatch := []
  wf := dot_S256x216_S216x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

class Facts : Prop extends Facts₀ where

variable [Facts]
-- ==== Proof.RunResult.lean ====
/-
  The whole program's run with its result named. The program is a chain of thirty segments, host stretches and kernel
  regions alternating; the contents of every buffer at each boundary is a pure function of the launch memory (the fold
  W0, W1, …, W30). Every weakly fair execution terminates with each buffer at the last boundary's contents: in particular
  the result buffer holds W30 there, and the argument arrays are as launched.
-/
import proofs.«144194_j36799279792821_1_alg».proof.Proof.Gen.KernelIdeal.Frame

set_option maxRecDepth 16384

noncomputable section

namespace Cert.KernelIdeal.RunResult

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    every argument array as launched. -/
theorem run_result : θ_run defs (onTc (τ := τ) (main (F := F))) ⟨m, fun _ => 0, ρ⟩ (fun r => ∀ c : Dev nD,
      r.2.mem ((c.tc : Thread nD τ).loc main_v187) = W30 m ρ c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v187 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c),
       (h c _ (mem_uc main_arg15 (by decide))).trans (W30_main_arg15 m ρ c),
       (h c _ (mem_uc main_arg16 (by decide))).trans (W30_main_arg16 m ρ c),
       (h c _ (mem_uc main_arg17 (by decide))).trans (W30_main_arg17 m ρ c),
       (h c _ (mem_uc main_arg18 (by decide))).trans (W30_main_arg18 m ρ c),
       (h c _ (mem_uc main_arg19 (by decide))).trans (W30_main_arg19 m ρ c),
       (h c _ (mem_uc main_arg20 (by decide))).trans (W30_main_arg20 m ρ c),
       (h c _ (mem_uc main_arg21 (by decide))).trans (W30_main_arg21 m ρ c),
       (h c _ (mem_uc main_arg22 (by decide))).trans (W30_main_arg22 m ρ c),
       (h c _ (mem_uc main_arg23 (by decide))).trans (W30_main_arg23 m ρ c),
       (h c _ (mem_uc main_arg24 (by decide))).trans (W30_main_arg24 m ρ c),
       (h c _ (mem_uc main_arg25 (by decide))).trans (W30_main_arg25 m ρ c),
       (h c _ (mem_uc main_arg26 (by decide))).trans (W30_main_arg26 m ρ c),
       (h c _ (mem_uc main_arg27 (by decide))).trans (W30_main_arg27 m ρ c),
       (h c _ (mem_uc main_arg28 (by decide))).trans (W30_main_arg28 m ρ c),
       (h c _ (mem_uc main_arg29 (by decide))).trans (W30_main_arg29 m ρ c),
       (h c _ (mem_uc main_arg30 (by decide))).trans (W30_main_arg30 m ρ c),
       (h c _ (mem_uc main_arg31 (by decide))).trans (W30_main_arg31 m ρ c)⟩)

end Cert.KernelIdeal.RunResult

end
-- ==== Proof.HostWrites.lean ====
/-
  Which buffers each host stretch writes. A stretch is a straight line of operations, each writing exactly one buffer;
  listing those buffers once per stretch turns "this stretch leaves buffer b alone" into a finite non-membership.
-/
import proofs.«144194_j36799279792821_1_alg».proof.Proof.Gen.KernelIdeal.Launch
import Idealize.ShloMosaic.Lib.StableHlo.Run

set_option maxRecDepth 16384

noncomputable section

namespace Cert.KernelIdeal.HostWrites

open Idealize.ShloMosaic Idealize.ShloMosaic.TcCoe Idealize.SL.Sem Idealize.ShloMosaic.StableHlo
open Cert.KernelIdeal Cert.KernelIdeal.Gen

variable {F : FTy → Type} [FloatOps F]

/-- The buffers `hostOps0`'s 15 operations write, in order. -/
abbrev hostOps0_W : List (Ref sig .tc) := [main_v0, main_v1, main_v2, main_v3, main_cst, main_v4, main_cst_0, main_v5, main_v6, main_v7, main_cst_1, main_v8, main_v9, main_v10, main_v11]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps1`'s 25 operations write, in order. -/
abbrev hostOps1_W : List (Ref sig .tc) := [main_c, main_v13, main_v14, main_c_2, main_v15, main_v16, main_v17, main_v18, main_v19, main_c_3, main_v20, main_v21, main_c_4, main_v22, main_v23, main_v24, main_v25, main_v26, main_v27, main_v28, main_v29, main_cst_5, main_v30, main_v31, main_v32]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps3`'s 25 operations write, in order. -/
abbrev hostOps3_W : List (Ref sig .tc) := [main_c_6, main_v35, main_v36, main_c_7, main_v37, main_v38, main_v39, main_v40, main_v41, main_c_8, main_v42, main_v43, main_c_9, main_v44, main_v45, main_v46, main_v47, main_v48, main_v49, main_v50, main_v51, main_cst_10, main_v52, main_v53, main_v54]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps5`'s 25 operations write, in order. -/
abbrev hostOps5_W : List (Ref sig .tc) := [main_c_11, main_v57, main_v58, main_c_12, main_v59, main_v60, main_v61, main_v62, main_v63, main_c_13, main_v64, main_v65, main_c_14, main_v66, main_v67, main_v68, main_v69, main_v70, main_v71, main_v72, main_v73, main_cst_15, main_v74, main_v75, main_v76]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps6`'s 16 operations write, in order. -/
abbrev hostOps6_W : List (Ref sig .tc) := [main_cst_16, main_v78, main_v79, main_v80, main_cst_17, main_v81, main_cst_18, main_v82, main_v83, main_v84, main_cst_19, main_v85, main_v86, main_v87, main_v88, main_v89]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps8`'s 15 operations write, in order. -/
abbrev hostOps8_W : List (Ref sig .tc) := [main_v92, main_v93, main_v94, main_v95, main_cst_20, main_v96, main_cst_21, main_v97, main_v98, main_v99, main_cst_22, main_v100, main_v101, main_v102, main_v103]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps9`'s 25 operations write, in order. -/
abbrev hostOps9_W : List (Ref sig .tc) := [main_c_23, main_v105, main_v106, main_c_24, main_v107, main_v108, main_v109, main_v110, main_v111, main_c_25, main_v112, main_v113, main_c_26, main_v114, main_v115, main_v116, main_v117, main_v118, main_v119, main_v120, main_v121, main_cst_27, main_v122, main_v123, main_v124]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps11`'s 25 operations write, in order. -/
abbrev hostOps11_W : List (Ref sig .tc) := [main_c_28, main_v127, main_v128, main_c_29, main_v129, main_v130, main_v131, main_v132, main_v133, main_c_30, main_v134, main_v135, main_c_31, main_v136, main_v137, main_v138, main_v139, main_v140, main_v141, main_v142, main_v143, main_cst_32, main_v144, main_v145, main_v146]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps13`'s 25 operations write, in order. -/
abbrev hostOps13_W : List (Ref sig .tc) := [main_c_33, main_v149, main_v150, main_c_34, main_v151, main_v152, main_v153, main_v154, main_v155, main_c_35, main_v156, main_v157, main_c_36, main_v158, main_v159, main_v160, main_v161, main_v162, main_v163, main_v164, main_v165, main_cst_37, main_v166, main_v167, main_v168]
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps14`'s 16 operations write, in order. -/
abbrev hostOps14_W : List (Ref sig .tc) := [main_cst_38, main_v170, main_v171, main_v172, main_cst_39, main_v173, main_cst_40, main_v174, main_v175, main_v176, main_cst_41, main_v177, main_v178, main_v179, main_v180, main_v181]
theorem hostOps14_writes : (hostOps14 : List (HloOp τ sig (Elt F))).Forall fun op => op.writes ⊆ (hostOps14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The buffers `hostOps16`'s 1 operations write, in order. -/
abbrev hostOps16_W : List (Ref sig .tc) := [main_v184]
theorem hostOps16_writes : (hostOps16 : List (HloOp τ sig (Elt F))).Forall fun op => op.writes ⊆ (hostOps16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

end Cert.KernelIdeal.HostWrites

end
-- ==== Proof.CarryArgsD.lean ====
/-
  The argument arrays at the boundaries where a segment reads them: no segment writes an argument, so each is as launched.
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W27_arg26 (c : Dev nD) : W27 m ρ c (Proc.devRef .tc main_arg26) = (m ((c : Thread nD τ).loc main_arg26)) :=
  calc W27 m ρ c (Proc.devRef .tc main_arg26)
    _ = W26 m ρ c (Proc.devRef .tc main_arg26) := StableHlo.after_of_writes_sub hostOps16 _ Cert.KernelIdeal.HostWrites.hostOps16_writes (by decide)
    _ = W25 m ρ c (Proc.devRef .tc main_arg26) := W26_of_ne m ρ c main_arg26 (by decide)
    _ = W24 m ρ c (Proc.devRef .tc main_arg26) := W25_of_ne m ρ c main_arg26 (by decide)
    _ = W23 m ρ c (Proc.devRef .tc main_arg26) := StableHlo.after_of_writes_sub hostOps14 _ Cert.KernelIdeal.HostWrites.hostOps14_writes (by decide)
    _ = W22 m ρ c (Proc.devRef .tc main_arg26) := W23_of_ne m ρ c main_arg26 (by decide)
    _ = W21 m ρ c (Proc.devRef .tc main_arg26) := StableHlo.after_of_writes_sub hostOps13 _ Cert.KernelIdeal.HostWrites.hostOps13_writes (by decide)
    _ = W20 m ρ c (Proc.devRef .tc main_arg26) := W21_of_ne m ρ c main_arg26 (by decide)
    _ = W19 m ρ c (Proc.devRef .tc main_arg26) := W20_of_ne m ρ c main_arg26 (by decide)
    _ = W18 m ρ c (Proc.devRef .tc main_arg26) := StableHlo.after_of_writes_sub hostOps11 _ Cert.KernelIdeal.HostWrites.hostOps11_writes (by decide)
    _ = W17 m ρ c (Proc.devRef .tc main_arg26) := W18_of_ne m ρ c main_arg26 (by decide)
    _ = W16 m ρ c (Proc.devRef .tc main_arg26) := W17_of_ne m ρ c main_arg26 (by decide)
    _ = W15 m ρ c (Proc.devRef .tc main_arg26) := StableHlo.after_of_writes_sub hostOps9 _ Cert.KernelIdeal.HostWrites.hostOps9_writes (by decide)
    _ = W14 m ρ c (Proc.devRef .tc main_arg26) := W15_of_ne m ρ c main_arg26 (by decide)
    _ = W13 m ρ c (Proc.devRef .tc main_arg26) := StableHlo.after_of_writes_sub hostOps8 _ Cert.KernelIdeal.HostWrites.hostOps8_writes (by decide)
    _ = W12 m ρ c (Proc.devRef .tc main_arg26) := W13_of_ne m ρ c main_arg26 (by decide)
    _ = W11 m ρ c (Proc.devRef .tc main_arg26) := W12_of_ne m ρ c main_arg26 (by decide)
    _ = W10 m ρ c (Proc.devRef .tc main_arg26) := StableHlo.after_of_writes_sub hostOps6 _ Cert.KernelIdeal.HostWrites.hostOps6_writes (by decide)
    _ = W9 m ρ c (Proc.devRef .tc main_arg26) := W10_of_ne m ρ c main_arg26 (by decide)
    _ = W8 m ρ c (Proc.devRef .tc main_arg26) := StableHlo.after_of_writes_sub hostOps5 _ Cert.KernelIdeal.HostWrites.hostOps5_writes (by decide)
    _ = W7 m ρ c (Proc.devRef .tc main_arg26) := W8_of_ne m ρ c main_arg26 (by decide)
    _ = W6 m ρ c (Proc.devRef .tc main_arg26) := W7_of_ne m ρ c main_arg26 (by decide)
    _ = W5 m ρ c (Proc.devRef .tc main_arg26) := StableHlo.after_of_writes_sub hostOps3 _ Cert.KernelIdeal.HostWrites.hostOps3_writes (by decide)
    _ = W4 m ρ c (Proc.devRef .tc main_arg26) := W5_of_ne m ρ c main_arg26 (by decide)
    _ = W3 m ρ c (Proc.devRef .tc main_arg26) := W4_of_ne m ρ c main_arg26 (by decide)
    _ = W2 m ρ c (Proc.devRef .tc main_arg26) := StableHlo.after_of_writes_sub hostOps1 _ Cert.KernelIdeal.HostWrites.hostOps1_writes (by decide)
    _ = W1 m ρ c (Proc.devRef .tc main_arg26) := W2_of_ne m ρ c main_arg26 (by decide)
    _ = W0 m ρ c (Proc.devRef .tc main_arg26) := StableHlo.after_of_writes_sub hostOps0 _ Cert.KernelIdeal.HostWrites.hostOps0_writes (by decide)
    _ = (m ((c : Thread nD τ).loc main_arg26)) := rfl

theorem W27_arg27 (c : Dev nD) : W27 m ρ c (Proc.devRef .tc main_arg27) = (m ((c : Thread nD τ).loc main_arg27)) :=
  calc W27 m ρ c (Proc.devRef .tc main_arg27)
    _ = W26 m ρ c (Proc.devRef .tc main_arg27) := StableHlo.after_of_writes_sub hostOps16 _ Cert.KernelIdeal.HostWrites.hostOps16_writes (by decide)
    _ = W25 m ρ c (Proc.devRef .tc main_arg27) := W26_of_ne m ρ c main_arg27 (by decide)
    _ = W24 m ρ c (Proc.devRef .tc main_arg27) := W25_of_ne m ρ c main_arg27 (by decide)
    _ = W23 m ρ c (Proc.devRef .tc main_arg27) := StableHlo.after_of_writes_sub hostOps14 _ Cert.KernelIdeal.HostWrites.hostOps14_writes (by decide)
    _ = W22 m ρ c (Proc.devRef .tc main_arg27) := W23_of_ne m ρ c main_arg27 (by decide)
    _ = W21 m ρ c (Proc.devRef .tc main_arg27) := StableHlo.after_of_writes_sub hostOps13 _ Cert.KernelIdeal.HostWrites.hostOps13_writes (by decide)
    _ = W20 m ρ c (Proc.devRef .tc main_arg27) := W21_of_ne m ρ c main_arg27 (by decide)
    _ = W19 m ρ c (Proc.devRef .tc main_arg27) := W20_of_ne m ρ c main_arg27 (by decide)
    _ = W18 m ρ c (Proc.devRef .tc main_arg27) := StableHlo.after_of_writes_sub hostOps11 _ Cert.KernelIdeal.HostWrites.hostOps11_writes (by decide)
    _ = W17 m ρ c (Proc.devRef .tc main_arg27) := W18_of_ne m ρ c main_arg27 (by decide)
    _ = W16 m ρ c (Proc.devRef .tc main_arg27) := W17_of_ne m ρ c main_arg27 (by decide)
    _ = W15 m ρ c (Proc.devRef .tc main_arg27) := StableHlo.after_of_writes_sub hostOps9 _ Cert.KernelIdeal.HostWrites.hostOps9_writes (by decide)
    _ = W14 m ρ c (Proc.devRef .tc main_arg27) := W15_of_ne m ρ c main_arg27 (by decide)
    _ = W13 m ρ c (Proc.devRef .tc main_arg27) := StableHlo.after_of_writes_sub hostOps8 _ Cert.KernelIdeal.HostWrites.hostOps8_writes (by decide)
    _ = W12 m ρ c (Proc.devRef .tc main_arg27) := W13_of_ne m ρ c main_arg27 (by decide)
    _ = W11 m ρ c (Proc.devRef .tc main_arg27) := W12_of_ne m ρ c main_arg27 (by decide)
    _ = W10 m ρ c (Proc.devRef .tc main_arg27) := StableHlo.after_of_writes_sub hostOps6 _ Cert.KernelIdeal.HostWrites.hostOps6_writes (by decide)
    _ = W9 m ρ c (Proc.devRef .tc main_arg27) := W10_of_ne m ρ c main_arg27 (by decide)
    _ = W8 m ρ c (Proc.devRef .tc main_arg27) := StableHlo.after_of_writes_sub hostOps5 _ Cert.KernelIdeal.HostWrites.hostOps5_writes (by decide)
    _ = W7 m ρ c (Proc.devRef .tc main_arg27) := W8_of_ne m ρ c main_arg27 (by decide)
    _ = W6 m ρ c (Proc.devRef .tc main_arg27) := W7_of_ne m ρ c main_arg27 (by decide)
    _ = W5 m ρ c (Proc.devRef .tc main_arg27) := StableHlo.after_of_writes_sub hostOps3 _ Cert.KernelIdeal.HostWrites.hostOps3_writes (by decide)
    _ = W4 m ρ c (Proc.devRef .tc main_arg27) := W5_of_ne m ρ c main_arg27 (by decide)
    _ = W3 m ρ c (Proc.devRef .tc main_arg27) := W4_of_ne m ρ c main_arg27 (by decide)
    _ = W2 m ρ c (Proc.devRef .tc main_arg27) := StableHlo.after_of_writes_sub hostOps1 _ Cert.KernelIdeal.HostWrites.hostOps1_writes (by decide)
    _ = W1 m ρ c (Proc.devRef .tc main_arg27) := W2_of_ne m ρ c main_arg27 (by decide)
    _ = W0 m ρ c (Proc.devRef .tc main_arg27) := StableHlo.after_of_writes_sub hostOps0 _ Cert.KernelIdeal.HostWrites.hostOps0_writes (by decide)
    _ = (m ((c : Thread nD τ).loc main_arg27)) := rfl

theorem W28_arg28 (c : Dev nD) : W28 m ρ c (Proc.devRef .tc main_arg28) = (m ((c : Thread nD τ).loc main_arg28)) :=
  calc W28 m ρ c (Proc.devRef .tc main_arg28)
    _ = W27 m ρ c (Proc.devRef .tc main_arg28) := W28_of_ne m ρ c main_arg28 (by decide)
    _ = W26 m ρ c (Proc.devRef .tc main_arg28) := StableHlo.after_of_writes_sub hostOps16 _ Cert.KernelIdeal.HostWrites.hostOps16_writes (by decide)
    _ = W25 m ρ c (Proc.devRef .tc main_arg28) := W26_of_ne m ρ c main_arg28 (by decide)
    _ = W24 m ρ c (Proc.devRef .tc main_arg28) := W25_of_ne m ρ c main_arg28 (by decide)
    _ = W23 m ρ c (Proc.devRef .tc main_arg28) := StableHlo.after_of_writes_sub hostOps14 _ Cert.KernelIdeal.HostWrites.hostOps14_writes (by decide)
    _ = W22 m ρ c (Proc.devRef .tc main_arg28) := W23_of_ne m ρ c main_arg28 (by decide)
    _ = W21 m ρ c (Proc.devRef .tc main_arg28) := StableHlo.after_of_writes_sub hostOps13 _ Cert.KernelIdeal.HostWrites.hostOps13_writes (by decide)
    _ = W20 m ρ c (Proc.devRef .tc main_arg28) := W21_of_ne m ρ c main_arg28 (by decide)
    _ = W19 m ρ c (Proc.devRef .tc main_arg28) := W20_of_ne m ρ c main_arg28 (by decide)
    _ = W18 m ρ c (Proc.devRef .tc main_arg28) := StableHlo.after_of_writes_sub hostOps11 _ Cert.KernelIdeal.HostWrites.hostOps11_writes (by decide)
    _ = W17 m ρ c (Proc.devRef .tc main_arg28) := W18_of_ne m ρ c main_arg28 (by decide)
    _ = W16 m ρ c (Proc.devRef .tc main_arg28) := W17_of_ne m ρ c main_arg28 (by decide)
    _ = W15 m ρ c (Proc.devRef .tc main_arg28) := StableHlo.after_of_writes_sub hostOps9 _ Cert.KernelIdeal.HostWrites.hostOps9_writes (by decide)
    _ = W14 m ρ c (Proc.devRef .tc main_arg28) := W15_of_ne m ρ c main_arg28 (by decide)
    _ = W13 m ρ c (Proc.devRef .tc main_arg28) := StableHlo.after_of_writes_sub hostOps8 _ Cert.KernelIdeal.HostWrites.hostOps8_writes (by decide)
    _ = W12 m ρ c (Proc.devRef .tc main_arg28) := W13_of_ne m ρ c main_arg28 (by decide)
    _ = W11 m ρ c (Proc.devRef .tc main_arg28) := W12_of_ne m ρ c main_arg28 (by decide)
    _ = W10 m ρ c (Proc.devRef .tc main_arg28) := StableHlo.after_of_writes_sub hostOps6 _ Cert.KernelIdeal.HostWrites.hostOps6_writes (by decide)
    _ = W9 m ρ c (Proc.devRef .tc main_arg28) := W10_of_ne m ρ c main_arg28 (by decide)
    _ = W8 m ρ c (Proc.devRef .tc main_arg28) := StableHlo.after_of_writes_sub hostOps5 _ Cert.KernelIdeal.HostWrites.hostOps5_writes (by decide)
    _ = W7 m ρ c (Proc.devRef .tc main_arg28) := W8_of_ne m ρ c main_arg28 (by decide)
    _ = W6 m ρ c (Proc.devRef .tc main_arg28) := W7_of_ne m ρ c main_arg28 (by decide)
    _ = W5 m ρ c (Proc.devRef .tc main_arg28) := StableHlo.after_of_writes_sub hostOps3 _ Cert.KernelIdeal.HostWrites.hostOps3_writes (by decide)
    _ = W4 m ρ c (Proc.devRef .tc main_arg28) := W5_of_ne m ρ c main_arg28 (by decide)
    _ = W3 m ρ c (Proc.devRef .tc main_arg28) := W4_of_ne m ρ c main_arg28 (by decide)
    _ = W2 m ρ c (Proc.devRef .tc main_arg28) := StableHlo.after_of_writes_sub hostOps1 _ Cert.KernelIdeal.HostWrites.hostOps1_writes (by decide)
    _ = W1 m ρ c (Proc.devRef .tc main_arg28) := W2_of_ne m ρ c main_arg28 (by decide)
    _ = W0 m ρ c (Proc.devRef .tc main_arg28) := StableHlo.after_of_writes_sub hostOps0 _ Cert.KernelIdeal.HostWrites.hostOps0_writes (by decide)
    _ = (m ((c : Thread nD τ).loc main_arg28)) := rfl

theorem W28_arg29 (c : Dev nD) : W28 m ρ c (Proc.devRef .tc main_arg29) = (m ((c : Thread nD τ).loc main_arg29)) :=
  calc W28 m ρ c (Proc.devRef .tc main_arg29)
    _ = W27 m ρ c (Proc.devRef .tc main_arg29) := W28_of_ne m ρ c main_arg29 (by decide)
    _ = W26 m ρ c (Proc.devRef .tc main_arg29) := StableHlo.after_of_writes_sub hostOps16 _ Cert.KernelIdeal.HostWrites.hostOps16_writes (by decide)
    _ = W25 m ρ c (Proc.devRef .tc main_arg29) := W26_of_ne m ρ c main_arg29 (by decide)
    _ = W24 m ρ c (Proc.devRef .tc main_arg29) := W25_of_ne m ρ c main_arg29 (by decide)
    _ = W23 m ρ c (Proc.devRef .tc main_arg29) := StableHlo.after_of_writes_sub hostOps14 _ Cert.KernelIdeal.HostWrites.hostOps14_writes (by decide)
    _ = W22 m ρ c (Proc.devRef .tc main_arg29) := W23_of_ne m ρ c main_arg29 (by decide)
    _ = W21 m ρ c (Proc.devRef .tc main_arg29) := StableHlo.after_of_writes_sub hostOps13 _ Cert.KernelIdeal.HostWrites.hostOps13_writes (by decide)
    _ = W20 m ρ c (Proc.devRef .tc main_arg29) := W21_of_ne m ρ c main_arg29 (by decide)
    _ = W19 m ρ c (Proc.devRef .tc main_arg29) := W20_of_ne m ρ c main_arg29 (by decide)
    _ = W18 m ρ c (Proc.devRef .tc main_arg29) := StableHlo.after_of_writes_sub hostOps11 _ Cert.KernelIdeal.HostWrites.hostOps11_writes (by decide)
    _ = W17 m ρ c (Proc.devRef .tc main_arg29) := W18_of_ne m ρ c main_arg29 (by decide)
    _ = W16 m ρ c (Proc.devRef .tc main_arg29) := W17_of_ne m ρ c main_arg29 (by decide)
    _ = W15 m ρ c (Proc.devRef .tc main_arg29) := StableHlo.after_of_writes_sub hostOps9 _ Cert.KernelIdeal.HostWrites.hostOps9_writes (by decide)
    _ = W14 m ρ c (Proc.devRef .tc main_arg29) := W15_of_ne m ρ c main_arg29 (by decide)
    _ = W13 m ρ c (Proc.devRef .tc main_arg29) := StableHlo.after_of_writes_sub hostOps8 _ Cert.KernelIdeal.HostWrites.hostOps8_writes (by decide)
    _ = W12 m ρ c (Proc.devRef .tc main_arg29) := W13_of_ne m ρ c main_arg29 (by decide)
    _ = W11 m ρ c (Proc.devRef .tc main_arg29) := W12_of_ne m ρ c main_arg29 (by decide)
    _ = W10 m ρ c (Proc.devRef .tc main_arg29) := StableHlo.after_of_writes_sub hostOps6 _ Cert.KernelIdeal.HostWrites.hostOps6_writes (by decide)
    _ = W9 m ρ c (Proc.devRef .tc main_arg29) := W10_of_ne m ρ c main_arg29 (by decide)
    _ = W8 m ρ c (Proc.devRef .tc main_arg29) := StableHlo.after_of_writes_sub hostOps5 _ Cert.KernelIdeal.HostWrites.hostOps5_writes (by decide)
    _ = W7 m ρ c (Proc.devRef .tc main_arg29) := W8_of_ne m ρ c main_arg29 (by decide)
    _ = W6 m ρ c (Proc.devRef .tc main_arg29) := W7_of_ne m ρ c main_arg29 (by decide)
    _ = W5 m ρ c (Proc.devRef .tc main_arg29) := StableHlo.after_of_writes_sub hostOps3 _ Cert.KernelIdeal.HostWrites.hostOps3_writes (by decide)
    _ = W4 m ρ c (Proc.devRef .tc main_arg29) := W5_of_ne m ρ c main_arg29 (by decide)
    _ = W3 m ρ c (Proc.devRef .tc main_arg29) := W4_of_ne m ρ c main_arg29 (by decide)
    _ = W2 m ρ c (Proc.devRef .tc main_arg29) := StableHlo.after_of_writes_sub hostOps1 _ Cert.KernelIdeal.HostWrites.hostOps1_writes (by decide)
    _ = W1 m ρ c (Proc.devRef .tc main_arg29) := W2_of_ne m ρ c main_arg29 (by decide)
    _ = W0 m ρ c (Proc.devRef .tc main_arg29) := StableHlo.after_of_writes_sub hostOps0 _ Cert.KernelIdeal.HostWrites.hostOps0_writes (by decide)
    _ = (m ((c : Thread nD τ).loc main_arg29)) := rfl

theorem W29_arg30 (c : Dev nD) : W29 m ρ c (Proc.devRef .tc main_arg30) = (m ((c : Thread nD τ).loc main_arg30)) :=
  calc W29 m ρ c (Proc.devRef .tc main_arg30)
    _ = W28 m ρ c (Proc.devRef .tc main_arg30) := W29_of_ne m ρ c main_arg30 (by decide)
    _ = W27 m ρ c (Proc.devRef .tc main_arg30) := W28_of_ne m ρ c main_arg30 (by decide)
    _ = W26 m ρ c (Proc.devRef .tc main_arg30) := StableHlo.after_of_writes_sub hostOps16 _ Cert.KernelIdeal.HostWrites.hostOps16_writes (by decide)
    _ = W25 m ρ c (Proc.devRef .tc main_arg30) := W26_of_ne m ρ c main_arg30 (by decide)
    _ = W24 m ρ c (Proc.devRef .tc main_arg30) := W25_of_ne m ρ c main_arg30 (by decide)
    _ = W23 m ρ c (Proc.devRef .tc main_arg30) := StableHlo.after_of_writes_sub hostOps14 _ Cert.KernelIdeal.HostWrites.hostOps14_writes (by decide)
    _ = W22 m ρ c (Proc.devRef .tc main_arg30) := W23_of_ne m ρ c main_arg30 (by decide)
    _ = W21 m ρ c (Proc.devRef .tc main_arg30) := StableHlo.after_of_writes_sub hostOps13 _ Cert.KernelIdeal.HostWrites.hostOps13_writes (by decide)
    _ = W20 m ρ c (Proc.devRef .tc main_arg30) := W21_of_ne m ρ c main_arg30 (by decide)
    _ = W19 m ρ c (Proc.devRef .tc main_arg30) := W20_of_ne m ρ c main_arg30 (by decide)
    _ = W18 m ρ c (Proc.devRef .tc main_arg30) := StableHlo.after_of_writes_sub hostOps11 _ Cert.KernelIdeal.HostWrites.hostOps11_writes (by decide)
    _ = W17 m ρ c (Proc.devRef .tc main_arg30) := W18_of_ne m ρ c main_arg30 (by decide)
    _ = W16 m ρ c (Proc.devRef .tc main_arg30) := W17_of_ne m ρ c main_arg30 (by decide)
    _ = W15 m ρ c (Proc.devRef .tc main_arg30) := StableHlo.after_of_writes_sub hostOps9 _ Cert.KernelIdeal.HostWrites.hostOps9_writes (by decide)
    _ = W14 m ρ c (Proc.devRef .tc main_arg30) := W15_of_ne m ρ c main_arg30 (by decide)
    _ = W13 m ρ c (Proc.devRef .tc main_arg30) := StableHlo.after_of_writes_sub hostOps8 _ Cert.KernelIdeal.HostWrites.hostOps8_writes (by decide)
    _ = W12 m ρ c (Proc.devRef .tc main_arg30) := W13_of_ne m ρ c main_arg30 (by decide)
    _ = W11 m ρ c (Proc.devRef .tc main_arg30) := W12_of_ne m ρ c main_arg30 (by decide)
    _ = W10 m ρ c (Proc.devRef .tc main_arg30) := StableHlo.after_of_writes_sub hostOps6 _ Cert.KernelIdeal.HostWrites.hostOps6_writes (by decide)
    _ = W9 m ρ c (Proc.devRef .tc main_arg30) := W10_of_ne m ρ c main_arg30 (by decide)
    _ = W8 m ρ c (Proc.devRef .tc main_arg30) := StableHlo.after_of_writes_sub hostOps5 _ Cert.KernelIdeal.HostWrites.hostOps5_writes (by decide)
    _ = W7 m ρ c (Proc.devRef .tc main_arg30) := W8_of_ne m ρ c main_arg30 (by decide)
    _ = W6 m ρ c (Proc.devRef .tc main_arg30) := W7_of_ne m ρ c main_arg30 (by decide)
    _ = W5 m ρ c (Proc.devRef .tc main_arg30) := StableHlo.after_of_writes_sub hostOps3 _ Cert.KernelIdeal.HostWrites.hostOps3_writes (by decide)
    _ = W4 m ρ c (Proc.devRef .tc main_arg30) := W5_of_ne m ρ c main_arg30 (by decide)
    _ = W3 m ρ c (Proc.devRef .tc main_arg30) := W4_of_ne m ρ c main_arg30 (by decide)
    _ = W2 m ρ c (Proc.devRef .tc main_arg30) := StableHlo.after_of_writes_sub hostOps1 _ Cert.KernelIdeal.HostWrites.hostOps1_writes (by decide)
    _ = W1 m ρ c (Proc.devRef .tc main_arg30) := W2_of_ne m ρ c main_arg30 (by decide)
    _ = W0 m ρ c (Proc.devRef .tc main_arg30) := StableHlo.after_of_writes_sub hostOps0 _ Cert.KernelIdeal.HostWrites.hostOps0_writes (by decide)
    _ = (m ((c : Thread nD τ).loc main_arg30)) := rfl

theorem W29_arg31 (c : Dev nD) : W29 m ρ c (Proc.devRef .tc main_arg31) = (m ((c : Thread nD τ).loc main_arg31)) :=
  calc W29 m ρ c (Proc.devRef .tc main_arg31)
    _ = W28 m ρ c (Proc.devRef .tc main_arg31) := W29_of_ne m ρ c main_arg31 (by decide)
    _ = W27 m ρ c (Proc.devRef .tc main_arg31) := W28_of_ne m ρ c main_arg31 (by decide)
    _ = W26 m ρ c (Proc.devRef .tc main_arg31) := StableHlo.after_of_writes_sub hostOps16 _ Cert.KernelIdeal.HostWrites.hostOps16_writes (by decide)
    _ = W25 m ρ c (Proc.devRef .tc main_arg31) := W26_of_ne m ρ c main_arg31 (by decide)
    _ = W24 m ρ c (Proc.devRef .tc main_arg31) := W25_of_ne m ρ c main_arg31 (by decide)
    _ = W23 m ρ c (Proc.devRef .tc main_arg31) := StableHlo.after_of_writes_sub hostOps14 _ Cert.KernelIdeal.HostWrites.hostOps14_writes (by decide)
    _ = W22 m ρ c (Proc.devRef .tc main_arg31) := W23_of_ne m ρ c main_arg31 (by decide)
    _ = W21 m ρ c (Proc.devRef .tc main_arg31) := StableHlo.after_of_writes_sub hostOps13 _ Cert.KernelIdeal.HostWrites.hostOps13_writes (by decide)
    _ = W20 m ρ c (Proc.devRef .tc main_arg31) := W21_of_ne m ρ c main_arg31 (by decide)
    _ = W19 m ρ c (Proc.devRef .tc main_arg31) := W20_of_ne m ρ c main_arg31 (by decide)
    _ = W18 m ρ c (Proc.devRef .tc main_arg31) := StableHlo.after_of_writes_sub hostOps11 _ Cert.KernelIdeal.HostWrites.hostOps11_writes (by decide)
    _ = W17 m ρ c (Proc.devRef .tc main_arg31) := W18_of_ne m ρ c main_arg31 (by decide)
    _ = W16 m ρ c (Proc.devRef .tc main_arg31) := W17_of_ne m ρ c main_arg31 (by decide)
    _ = W15 m ρ c (Proc.devRef .tc main_arg31) := StableHlo.after_of_writes_sub hostOps9 _ Cert.KernelIdeal.HostWrites.hostOps9_writes (by decide)
    _ = W14 m ρ c (Proc.devRef .tc main_arg31) := W15_of_ne m ρ c main_arg31 (by decide)
    _ = W13 m ρ c (Proc.devRef .tc main_arg31) := StableHlo.after_of_writes_sub hostOps8 _ Cert.KernelIdeal.HostWrites.hostOps8_writes (by decide)
    _ = W12 m ρ c (Proc.devRef .tc main_arg31) := W13_of_ne m ρ c main_arg31 (by decide)
    _ = W11 m ρ c (Proc.devRef .tc main_arg31) := W12_of_ne m ρ c main_arg31 (by decide)
    _ = W10 m ρ c (Proc.devRef .tc main_arg31) := StableHlo.after_of_writes_sub hostOps6 _ Cert.KernelIdeal.HostWrites.hostOps6_writes (by decide)
    _ = W9 m ρ c (Proc.devRef .tc main_arg31) := W10_of_ne m ρ c main_arg31 (by decide)
    _ = W8 m ρ c (Proc.devRef .tc main_arg31) := StableHlo.after_of_writes_sub hostOps5 _ Cert.KernelIdeal.HostWrites.hostOps5_writes (by decide)
    _ = W7 m ρ c (Proc.devRef .tc main_arg31) := W8_of_ne m ρ c main_arg31 (by decide)
    _ = W6 m ρ c (Proc.devRef .tc main_arg31) := W7_of_ne m ρ c main_arg31 (by decide)
    _ = W5 m ρ c (Proc.devRef .tc main_arg31) := StableHlo.after_of_writes_sub hostOps3 _ Cert.KernelIdeal.HostWrites.hostOps3_writes (by decide)
    _ = W4 m ρ c (Proc.devRef .tc main_arg31) := W5_of_ne m ρ c main_arg31 (by decide)
    _ = W3 m ρ c (Proc.devRef .tc main_arg31) := W4_of_ne m ρ c main_arg31 (by decide)
    _ = W2 m ρ c (Proc.devRef .tc main_arg31) := StableHlo.after_of_writes_sub hostOps1 _ Cert.KernelIdeal.HostWrites.hostOps1_writes (by decide)
    _ = W1 m ρ c (Proc.devRef .tc main_arg31) := W2_of_ne m ρ c main_arg31 (by decide)
    _ = W0 m ρ c (Proc.devRef .tc main_arg31) := StableHlo.after_of_writes_sub hostOps0 _ Cert.KernelIdeal.HostWrites.hostOps0_writes (by decide)
    _ = (m ((c : Thread nD τ).loc main_arg31)) := rfl

end Cert.KernelIdeal.Chain

end
-- ==== Proof.CarryArgsB.lean ====
/-
  The argument arrays at the boundaries where a segment reads them: no segment writes an argument, so each is as launched.
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W14_arg16 (c : Dev nD) : W14 m ρ c (Proc.devRef .tc main_arg16) = (m ((c : Thread nD τ).loc main_arg16)) :=
  calc W14 m ρ c (Proc.devRef .tc main_arg16)
    _ = W13 m ρ c (Proc.devRef .tc main_arg16) := StableHlo.after_of_writes_sub hostOps8 _ Cert.KernelIdeal.HostWrites.hostOps8_writes (by decide)
    _ = W12 m ρ c (Proc.devRef .tc main_arg16) := W13_of_ne m ρ c main_arg16 (by decide)
    _ = W11 m ρ c (Proc.devRef .tc main_arg16) := W12_of_ne m ρ c main_arg16 (by decide)
    _ = W10 m ρ c (Proc.devRef .tc main_arg16) := StableHlo.after_of_writes_sub hostOps6 _ Cert.KernelIdeal.HostWrites.hostOps6_writes (by decide)
    _ = W9 m ρ c (Proc.devRef .tc main_arg16) := W10_of_ne m ρ c main_arg16 (by decide)
    _ = W8 m ρ c (Proc.devRef .tc main_arg16) := StableHlo.after_of_writes_sub hostOps5 _ Cert.KernelIdeal.HostWrites.hostOps5_writes (by decide)
    _ = W7 m ρ c (Proc.devRef .tc main_arg16) := W8_of_ne m ρ c main_arg16 (by decide)
    _ = W6 m ρ c (Proc.devRef .tc main_arg16) := W7_of_ne m ρ c main_arg16 (by decide)
    _ = W5 m ρ c (Proc.devRef .tc main_arg16) := StableHlo.after_of_writes_sub hostOps3 _ Cert.KernelIdeal.HostWrites.hostOps3_writes (by decide)
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := StableHlo.after_of_writes_sub hostOps1 _ Cert.KernelIdeal.HostWrites.hostOps1_writes (by decide)
    _ = W1 m ρ c (Proc.devRef .tc main_arg16) := W2_of_ne m ρ c main_arg16 (by decide)
    _ = W0 m ρ c (Proc.devRef .tc main_arg16) := StableHlo.after_of_writes_sub hostOps0 _ Cert.KernelIdeal.HostWrites.hostOps0_writes (by decide)
    _ = (m ((c : Thread nD τ).loc main_arg16)) := rfl

theorem W14_arg3 (c : Dev nD) : W14 m ρ c (Proc.devRef .tc main_arg3) = (m ((c : Thread nD τ).loc main_arg3)) :=
  calc W14 m ρ c (Proc.devRef .tc main_arg3)
    _ = W13 m ρ c (Proc.devRef .tc main_arg3) := StableHlo.after_of_writes_sub hostOps8 _ Cert.KernelIdeal.HostWrites.hostOps8_writes (by decide)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := StableHlo.after_of_writes_sub hostOps6 _ Cert.KernelIdeal.HostWrites.hostOps6_writes (by decide)
    _ = W9 m ρ c (Proc.devRef .tc main_arg3) := W10_of_ne m ρ c main_arg3 (by decide)
    _ = W8 m ρ c (Proc.devRef .tc main_arg3) := StableHlo.after_of_writes_sub hostOps5 _ Cert.KernelIdeal.HostWrites.hostOps5_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_writes_sub hostOps3 _ Cert.KernelIdeal.HostWrites.hostOps3_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ Cert.KernelIdeal.HostWrites.hostOps1_writes (by decide)
    _ = W1 m ρ c (Proc.devRef .tc main_arg3) := W2_of_ne m ρ c main_arg3 (by decide)
    _ = W0 m ρ c (Proc.devRef .tc main_arg3) := StableHlo.after_of_writes_sub hostOps0 _ Cert.KernelIdeal.HostWrites.hostOps0_writes (by decide)
    _ = (m ((c : Thread nD τ).loc main_arg3)) := rfl

theorem W16_arg17 (c : Dev nD) : W16 m ρ c (Proc.devRef .tc main_arg17) = (m ((c : Thread nD τ).loc main_arg17)) :=
  calc W16 m ρ c (Proc.devRef .tc main_arg17)
    _ = W15 m ρ c (Proc.devRef .tc main_arg17) := StableHlo.after_of_writes_sub hostOps9 _ Cert.KernelIdeal.HostWrites.hostOps9_writes (by decide)
    _ = W14 m ρ c (Proc.devRef .tc main_arg17) := W15_of_ne m ρ c main_arg17 (by decide)
    _ = W13 m ρ c (Proc.devRef .tc main_arg17) := StableHlo.after_of_writes_sub hostOps8 _ Cert.KernelIdeal.HostWrites.hostOps8_writes (by decide)
    _ = W12 m ρ c (Proc.devRef .tc main_arg17) := W13_of_ne m ρ c main_arg17 (by decide)
    _ = W11 m ρ c (Proc.devRef .tc main_arg17) := W12_of_ne m ρ c main_arg17 (by decide)
    _ = W10 m ρ c (Proc.devRef .tc main_arg17) := StableHlo.after_of_writes_sub hostOps6 _ Cert.KernelIdeal.HostWrites.hostOps6_writes (by decide)
    _ = W9 m ρ c (Proc.devRef .tc main_arg17) := W10_of_ne m ρ c main_arg17 (by decide)
    _ = W8 m ρ c (Proc.devRef .tc main_arg17) := StableHlo.after_of_writes_sub hostOps5 _ Cert.KernelIdeal.HostWrites.hostOps5_writes (by decide)
    _ = W7 m ρ c (Proc.devRef .tc main_arg17) := W8_of_ne m ρ c main_arg17 (by decide)
    _ = W6 m ρ c (Proc.devRef .tc main_arg17) := W7_of_ne m ρ c main_arg17 (by decide)
    _ = W5 m ρ c (Proc.devRef .tc main_arg17) := StableHlo.after_of_writes_sub hostOps3 _ Cert.KernelIdeal.HostWrites.hostOps3_writes (by decide)
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := StableHlo.after_of_writes_sub hostOps1 _ Cert.KernelIdeal.HostWrites.hostOps1_writes (by decide)
    _ = W1 m ρ c (Proc.devRef .tc main_arg17) := W2_of_ne m ρ c main_arg17 (by decide)
    _ = W0 m ρ c (Proc.devRef .tc main_arg17) := StableHlo.after_of_writes_sub hostOps0 _ Cert.KernelIdeal.HostWrites.hostOps0_writes (by decide)
    _ = (m ((c : Thread nD τ).loc main_arg17)) := rfl

theorem W17_arg18 (c : Dev nD) : W17 m ρ c (Proc.devRef .tc main_arg18) = (m ((c : Thread nD τ).loc main_arg18)) :=
  calc W17 m ρ c (Proc.devRef .tc main_arg18)
    _ = W16 m ρ c (Proc.devRef .tc main_arg18) := W17_of_ne m ρ c main_arg18 (by decide)
    _ = W15 m ρ c (Proc.devRef .tc main_arg18) := StableHlo.after_of_writes_sub hostOps9 _ Cert.KernelIdeal.HostWrites.hostOps9_writes (by decide)
    _ = W14 m ρ c (Proc.devRef .tc main_arg18) := W15_of_ne m ρ c main_arg18 (by decide)
    _ = W13 m ρ c (Proc.devRef .tc main_arg18) := StableHlo.after_of_writes_sub hostOps8 _ Cert.KernelIdeal.HostWrites.hostOps8_writes (by decide)
    _ = W12 m ρ c (Proc.devRef .tc main_arg18) := W13_of_ne m ρ c main_arg18 (by decide)
    _ = W11 m ρ c (Proc.devRef .tc main_arg18) := W12_of_ne m ρ c main_arg18 (by decide)
    _ = W10 m ρ c (Proc.devRef .tc main_arg18) := StableHlo.after_of_writes_sub hostOps6 _ Cert.KernelIdeal.HostWrites.hostOps6_writes (by decide)
    _ = W9 m ρ c (Proc.devRef .tc main_arg18) := W10_of_ne m ρ c main_arg18 (by decide)
    _ = W8 m ρ c (Proc.devRef .tc main_arg18) := StableHlo.after_of_writes_sub hostOps5 _ Cert.KernelIdeal.HostWrites.hostOps5_writes (by decide)
    _ = W7 m ρ c (Proc.devRef .tc main_arg18) := W8_of_ne m ρ c main_arg18 (by decide)
    _ = W6 m ρ c (Proc.devRef .tc main_arg18) := W7_of_ne m ρ c main_arg18 (by decide)
    _ = W5 m ρ c (Proc.devRef .tc main_arg18) := StableHlo.after_of_writes_sub hostOps3 _ Cert.KernelIdeal.HostWrites.hostOps3_writes (by decide)
    _ = W4 m ρ c (Proc.devRef .tc main_arg18) := W5_of_ne m ρ c main_arg18 (by decide)
    _ = W3 m ρ c (Proc.devRef .tc main_arg18) := W4_of_ne m ρ c main_arg18 (by decide)
    _ = W2 m ρ c (Proc.devRef .tc main_arg18) := StableHlo.after_of_writes_sub hostOps1 _ Cert.KernelIdeal.HostWrites.hostOps1_writes (by decide)
    _ = W1 m ρ c (Proc.devRef .tc main_arg18) := W2_of_ne m ρ c main_arg18 (by decide)
    _ = W0 m ρ c (Proc.devRef .tc main_arg18) := StableHlo.after_of_writes_sub hostOps0 _ Cert.KernelIdeal.HostWrites.hostOps0_writes (by decide)
    _ = (m ((c : Thread nD τ).loc main_arg18)) := rfl

theorem W19_arg19 (c : Dev nD) : W19 m ρ c (Proc.devRef .tc main_arg19) = (m ((c : Thread nD τ).loc main_arg19)) :=
  calc W19 m ρ c (Proc.devRef .tc main_arg19)
    _ = W18 m ρ c (Proc.devRef .tc main_arg19) := StableHlo.after_of_writes_sub hostOps11 _ Cert.KernelIdeal.HostWrites.hostOps11_writes (by decide)
    _ = W17 m ρ c (Proc.devRef .tc main_arg19) := W18_of_ne m ρ c main_arg19 (by decide)
    _ = W16 m ρ c (Proc.devRef .tc main_arg19) := W17_of_ne m ρ c main_arg19 (by decide)
    _ = W15 m ρ c (Proc.devRef .tc main_arg19) := StableHlo.after_of_writes_sub hostOps9 _ Cert.KernelIdeal.HostWrites.hostOps9_writes (by decide)
    _ = W14 m ρ c (Proc.devRef .tc main_arg19) := W15_of_ne m ρ c main_arg19 (by decide)
    _ = W13 m ρ c (Proc.devRef .tc main_arg19) := StableHlo.after_of_writes_sub hostOps8 _ Cert.KernelIdeal.HostWrites.hostOps8_writes (by decide)
    _ = W12 m ρ c (Proc.devRef .tc main_arg19) := W13_of_ne m ρ c main_arg19 (by decide)
    _ = W11 m ρ c (Proc.devRef .tc main_arg19) := W12_of_ne m ρ c main_arg19 (by decide)
    _ = W10 m ρ c (Proc.devRef .tc main_arg19) := StableHlo.after_of_writes_sub hostOps6 _ Cert.KernelIdeal.HostWrites.hostOps6_writes (by decide)
    _ = W9 m ρ c (Proc.devRef .tc main_arg19) := W10_of_ne m ρ c main_arg19 (by decide)
    _ = W8 m ρ c (Proc.devRef .tc main_arg19) := StableHlo.after_of_writes_sub hostOps5 _ Cert.KernelIdeal.HostWrites.hostOps5_writes (by decide)
    _ = W7 m ρ c (Proc.devRef .tc main_arg19) := W8_of_ne m ρ c main_arg19 (by decide)
    _ = W6 m ρ c (Proc.devRef .tc main_arg19) := W7_of_ne m ρ c main_arg19 (by decide)
    _ = W5 m ρ c (Proc.devRef .tc main_arg19) := StableHlo.after_of_writes_sub hostOps3 _ Cert.KernelIdeal.HostWrites.hostOps3_writes (by decide)
    _ = W4 m ρ c (Proc.devRef .tc main_arg19) := W5_of_ne m ρ c main_arg19 (by decide)
    _ = W3 m ρ c (Proc.devRef .tc main_arg19) := W4_of_ne m ρ c main_arg19 (by decide)
    _ = W2 m ρ c (Proc.devRef .tc main_arg19) := StableHlo.after_of_writes_sub hostOps1 _ Cert.KernelIdeal.HostWrites.hostOps1_writes (by decide)
    _ = W1 m ρ c (Proc.devRef .tc main_arg19) := W2_of_ne m ρ c main_arg19 (by decide)
    _ = W0 m ρ c (Proc.devRef .tc main_arg19) := StableHlo.after_of_writes_sub hostOps0 _ Cert.KernelIdeal.HostWrites.hostOps0_writes (by decide)
    _ = (m ((c : Thread nD τ).loc main_arg19)) := rfl

theorem W20_arg20 (c : Dev nD) : W20 m ρ c (Proc.devRef .tc main_arg20) = (m ((c : Thread nD τ).loc main_arg20)) :=
  calc W20 m ρ c (Proc.devRef .tc main_arg20)
    _ = W19 m ρ c (Proc.devRef .tc main_arg20) := W20_of_ne m ρ c main_arg20 (by decide)
    _ = W18 m ρ c (Proc.devRef .tc main_arg20) := StableHlo.after_of_writes_sub hostOps11 _ Cert.KernelIdeal.HostWrites.hostOps11_writes (by decide)
    _ = W17 m ρ c (Proc.devRef .tc main_arg20) := W18_of_ne m ρ c main_arg20 (by decide)
    _ = W16 m ρ c (Proc.devRef .tc main_arg20) := W17_of_ne m ρ c main_arg20 (by decide)
    _ = W15 m ρ c (Proc.devRef .tc main_arg20) := StableHlo.after_of_writes_sub hostOps9 _ Cert.KernelIdeal.HostWrites.hostOps9_writes (by decide)
    _ = W14 m ρ c (Proc.devRef .tc main_arg20) := W15_of_ne m ρ c main_arg20 (by decide)
    _ = W13 m ρ c (Proc.devRef .tc main_arg20) := StableHlo.after_of_writes_sub hostOps8 _ Cert.KernelIdeal.HostWrites.hostOps8_writes (by decide)
    _ = W12 m ρ c (Proc.devRef .tc main_arg20) := W13_of_ne m ρ c main_arg20 (by decide)
    _ = W11 m ρ c (Proc.devRef .tc main_arg20) := W12_of_ne m ρ c main_arg20 (by decide)
    _ = W10 m ρ c (Proc.devRef .tc main_arg20) := StableHlo.after_of_writes_sub hostOps6 _ Cert.KernelIdeal.HostWrites.hostOps6_writes (by decide)
    _ = W9 m ρ c (Proc.devRef .tc main_arg20) := W10_of_ne m ρ c main_arg20 (by decide)
    _ = W8 m ρ c (Proc.devRef .tc main_arg20) := StableHlo.after_of_writes_sub hostOps5 _ Cert.KernelIdeal.HostWrites.hostOps5_writes (by decide)
    _ = W7 m ρ c (Proc.devRef .tc main_arg20) := W8_of_ne m ρ c main_arg20 (by decide)
    _ = W6 m ρ c (Proc.devRef .tc main_arg20) := W7_of_ne m ρ c main_arg20 (by decide)
    _ = W5 m ρ c (Proc.devRef .tc main_arg20) := StableHlo.after_of_writes_sub hostOps3 _ Cert.KernelIdeal.HostWrites.hostOps3_writes (by decide)
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := StableHlo.after_of_writes_sub hostOps1 _ Cert.KernelIdeal.HostWrites.hostOps1_writes (by decide)
    _ = W1 m ρ c (Proc.devRef .tc main_arg20) := W2_of_ne m ρ c main_arg20 (by decide)
    _ = W0 m ρ c (Proc.devRef .tc main_arg20) := StableHlo.after_of_writes_sub hostOps0 _ Cert.KernelIdeal.HostWrites.hostOps0_writes (by decide)
    _ = (m ((c : Thread nD τ).loc main_arg20)) := rfl

end Cert.KernelIdeal.Chain

end
-- ==== Proof.CarryArgsC.lean ====
/-
  The argument arrays at the boundaries where a segment reads them: no segment writes an argument, so each is as launched.
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W22_arg21 (c : Dev nD) : W22 m ρ c (Proc.devRef .tc main_arg21) = (m ((c : Thread nD τ).loc main_arg21)) :=
  calc W22 m ρ c (Proc.devRef .tc main_arg21)
    _ = W21 m ρ c (Proc.devRef .tc main_arg21) := StableHlo.after_of_writes_sub hostOps13 _ Cert.KernelIdeal.HostWrites.hostOps13_writes (by decide)
    _ = W20 m ρ c (Proc.devRef .tc main_arg21) := W21_of_ne m ρ c main_arg21 (by decide)
    _ = W19 m ρ c (Proc.devRef .tc main_arg21) := W20_of_ne m ρ c main_arg21 (by decide)
    _ = W18 m ρ c (Proc.devRef .tc main_arg21) := StableHlo.after_of_writes_sub hostOps11 _ Cert.KernelIdeal.HostWrites.hostOps11_writes (by decide)
    _ = W17 m ρ c (Proc.devRef .tc main_arg21) := W18_of_ne m ρ c main_arg21 (by decide)
    _ = W16 m ρ c (Proc.devRef .tc main_arg21) := W17_of_ne m ρ c main_arg21 (by decide)
    _ = W15 m ρ c (Proc.devRef .tc main_arg21) := StableHlo.after_of_writes_sub hostOps9 _ Cert.KernelIdeal.HostWrites.hostOps9_writes (by decide)
    _ = W14 m ρ c (Proc.devRef .tc main_arg21) := W15_of_ne m ρ c main_arg21 (by decide)
    _ = W13 m ρ c (Proc.devRef .tc main_arg21) := StableHlo.after_of_writes_sub hostOps8 _ Cert.KernelIdeal.HostWrites.hostOps8_writes (by decide)
    _ = W12 m ρ c (Proc.devRef .tc main_arg21) := W13_of_ne m ρ c main_arg21 (by decide)
    _ = W11 m ρ c (Proc.devRef .tc main_arg21) := W12_of_ne m ρ c main_arg21 (by decide)
    _ = W10 m ρ c (Proc.devRef .tc main_arg21) := StableHlo.after_of_writes_sub hostOps6 _ Cert.KernelIdeal.HostWrites.hostOps6_writes (by decide)
    _ = W9 m ρ c (Proc.devRef .tc main_arg21) := W10_of_ne m ρ c main_arg21 (by decide)
    _ = W8 m ρ c (Proc.devRef .tc main_arg21) := StableHlo.after_of_writes_sub hostOps5 _ Cert.KernelIdeal.HostWrites.hostOps5_writes (by decide)
    _ = W7 m ρ c (Proc.devRef .tc main_arg21) := W8_of_ne m ρ c main_arg21 (by decide)
    _ = W6 m ρ c (Proc.devRef .tc main_arg21) := W7_of_ne m ρ c main_arg21 (by decide)
    _ = W5 m ρ c (Proc.devRef .tc main_arg21) := StableHlo.after_of_writes_sub hostOps3 _ Cert.KernelIdeal.HostWrites.hostOps3_writes (by decide)
    _ = W4 m ρ c (Proc.devRef .tc main_arg21) := W5_of_ne m ρ c main_arg21 (by decide)
    _ = W3 m ρ c (Proc.devRef .tc main_arg21) := W4_of_ne m ρ c main_arg21 (by decide)
    _ = W2 m ρ c (Proc.devRef .tc main_arg21) := StableHlo.after_of_writes_sub hostOps1 _ Cert.KernelIdeal.HostWrites.hostOps1_writes (by decide)
    _ = W1 m ρ c (Proc.devRef .tc main_arg21) := W2_of_ne m ρ c main_arg21 (by decide)
    _ = W0 m ρ c (Proc.devRef .tc main_arg21) := StableHlo.after_of_writes_sub hostOps0 _ Cert.KernelIdeal.HostWrites.hostOps0_writes (by decide)
    _ = (m ((c : Thread nD τ).loc main_arg21)) := rfl

theorem W23_arg5 (c : Dev nD) : W23 m ρ c (Proc.devRef .tc main_arg5) = (m ((c : Thread nD τ).loc main_arg5)) :=
  calc W23 m ρ c (Proc.devRef .tc main_arg5)
    _ = W22 m ρ c (Proc.devRef .tc main_arg5) := W23_of_ne m ρ c main_arg5 (by decide)
    _ = W21 m ρ c (Proc.devRef .tc main_arg5) := StableHlo.after_of_writes_sub hostOps13 _ Cert.KernelIdeal.HostWrites.hostOps13_writes (by decide)
    _ = W20 m ρ c (Proc.devRef .tc main_arg5) := W21_of_ne m ρ c main_arg5 (by decide)
    _ = W19 m ρ c (Proc.devRef .tc main_arg5) := W20_of_ne m ρ c main_arg5 (by decide)
    _ = W18 m ρ c (Proc.devRef .tc main_arg5) := StableHlo.after_of_writes_sub hostOps11 _ Cert.KernelIdeal.HostWrites.hostOps11_writes (by decide)
    _ = W17 m ρ c (Proc.devRef .tc main_arg5) := W18_of_ne m ρ c main_arg5 (by decide)
    _ = W16 m ρ c (Proc.devRef .tc main_arg5) := W17_of_ne m ρ c main_arg5 (by decide)
    _ = W15 m ρ c (Proc.devRef .tc main_arg5) := StableHlo.after_of_writes_sub hostOps9 _ Cert.KernelIdeal.HostWrites.hostOps9_writes (by decide)
    _ = W14 m ρ c (Proc.devRef .tc main_arg5) := W15_of_ne m ρ c main_arg5 (by decide)
    _ = W13 m ρ c (Proc.devRef .tc main_arg5) := StableHlo.after_of_writes_sub hostOps8 _ Cert.KernelIdeal.HostWrites.hostOps8_writes (by decide)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := StableHlo.after_of_writes_sub hostOps6 _ Cert.KernelIdeal.HostWrites.hostOps6_writes (by decide)
    _ = W9 m ρ c (Proc.devRef .tc main_arg5) := W10_of_ne m ρ c main_arg5 (by decide)
    _ = W8 m ρ c (Proc.devRef .tc main_arg5) := StableHlo.after_of_writes_sub hostOps5 _ Cert.KernelIdeal.HostWrites.hostOps5_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_writes_sub hostOps3 _ Cert.KernelIdeal.HostWrites.hostOps3_writes (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ Cert.KernelIdeal.HostWrites.hostOps1_writes (by decide)
    _ = W1 m ρ c (Proc.devRef .tc main_arg5) := W2_of_ne m ρ c main_arg5 (by decide)
    _ = W0 m ρ c (Proc.devRef .tc main_arg5) := StableHlo.after_of_writes_sub hostOps0 _ Cert.KernelIdeal.HostWrites.hostOps0_writes (by decide)
    _ = (m ((c : Thread nD τ).loc main_arg5)) := rfl

theorem W24_arg22 (c : Dev nD) : W24 m ρ c (Proc.devRef .tc main_arg22) = (m ((c : Thread nD τ).loc main_arg22)) :=
  calc W24 m ρ c (Proc.devRef .tc main_arg22)
    _ = W23 m ρ c (Proc.devRef .tc main_arg22) := StableHlo.after_of_writes_sub hostOps14 _ Cert.KernelIdeal.HostWrites.hostOps14_writes (by decide)
    _ = W22 m ρ c (Proc.devRef .tc main_arg22) := W23_of_ne m ρ c main_arg22 (by decide)
    _ = W21 m ρ c (Proc.devRef .tc main_arg22) := StableHlo.after_of_writes_sub hostOps13 _ Cert.KernelIdeal.HostWrites.hostOps13_writes (by decide)
    _ = W20 m ρ c (Proc.devRef .tc main_arg22) := W21_of_ne m ρ c main_arg22 (by decide)
    _ = W19 m ρ c (Proc.devRef .tc main_arg22) := W20_of_ne m ρ c main_arg22 (by decide)
    _ = W18 m ρ c (Proc.devRef .tc main_arg22) := StableHlo.after_of_writes_sub hostOps11 _ Cert.KernelIdeal.HostWrites.hostOps11_writes (by decide)
    _ = W17 m ρ c (Proc.devRef .tc main_arg22) := W18_of_ne m ρ c main_arg22 (by decide)
    _ = W16 m ρ c (Proc.devRef .tc main_arg22) := W17_of_ne m ρ c main_arg22 (by decide)
    _ = W15 m ρ c (Proc.devRef .tc main_arg22) := StableHlo.after_of_writes_sub hostOps9 _ Cert.KernelIdeal.HostWrites.hostOps9_writes (by decide)
    _ = W14 m ρ c (Proc.devRef .tc main_arg22) := W15_of_ne m ρ c main_arg22 (by decide)
    _ = W13 m ρ c (Proc.devRef .tc main_arg22) := StableHlo.after_of_writes_sub hostOps8 _ Cert.KernelIdeal.HostWrites.hostOps8_writes (by decide)
    _ = W12 m ρ c (Proc.devRef .tc main_arg22) := W13_of_ne m ρ c main_arg22 (by decide)
    _ = W11 m ρ c (Proc.devRef .tc main_arg22) := W12_of_ne m ρ c main_arg22 (by decide)
    _ = W10 m ρ c (Proc.devRef .tc main_arg22) := StableHlo.after_of_writes_sub hostOps6 _ Cert.KernelIdeal.HostWrites.hostOps6_writes (by decide)
    _ = W9 m ρ c (Proc.devRef .tc main_arg22) := W10_of_ne m ρ c main_arg22 (by decide)
    _ = W8 m ρ c (Proc.devRef .tc main_arg22) := StableHlo.after_of_writes_sub hostOps5 _ Cert.KernelIdeal.HostWrites.hostOps5_writes (by decide)
    _ = W7 m ρ c (Proc.devRef .tc main_arg22) := W8_of_ne m ρ c main_arg22 (by decide)
    _ = W6 m ρ c (Proc.devRef .tc main_arg22) := W7_of_ne m ρ c main_arg22 (by decide)
    _ = W5 m ρ c (Proc.devRef .tc main_arg22) := StableHlo.after_of_writes_sub hostOps3 _ Cert.KernelIdeal.HostWrites.hostOps3_writes (by decide)
    _ = W4 m ρ c (Proc.devRef .tc main_arg22) := W5_of_ne m ρ c main_arg22 (by decide)
    _ = W3 m ρ c (Proc.devRef .tc main_arg22) := W4_of_ne m ρ c main_arg22 (by decide)
    _ = W2 m ρ c (Proc.devRef .tc main_arg22) := StableHlo.after_of_writes_sub hostOps1 _ Cert.KernelIdeal.HostWrites.hostOps1_writes (by decide)
    _ = W1 m ρ c (Proc.devRef .tc main_arg22) := W2_of_ne m ρ c main_arg22 (by decide)
    _ = W0 m ρ c (Proc.devRef .tc main_arg22) := StableHlo.after_of_writes_sub hostOps0 _ Cert.KernelIdeal.HostWrites.hostOps0_writes (by decide)
    _ = (m ((c : Thread nD τ).loc main_arg22)) := rfl

theorem W24_arg23 (c : Dev nD) : W24 m ρ c (Proc.devRef .tc main_arg23) = (m ((c : Thread nD τ).loc main_arg23)) :=
  calc W24 m ρ c (Proc.devRef .tc main_arg23)
    _ = W23 m ρ c (Proc.devRef .tc main_arg23) := StableHlo.after_of_writes_sub hostOps14 _ Cert.KernelIdeal.HostWrites.hostOps14_writes (by decide)
    _ = W22 m ρ c (Proc.devRef .tc main_arg23) := W23_of_ne m ρ c main_arg23 (by decide)
    _ = W21 m ρ c (Proc.devRef .tc main_arg23) := StableHlo.after_of_writes_sub hostOps13 _ Cert.KernelIdeal.HostWrites.hostOps13_writes (by decide)
    _ = W20 m ρ c (Proc.devRef .tc main_arg23) := W21_of_ne m ρ c main_arg23 (by decide)
    _ = W19 m ρ c (Proc.devRef .tc main_arg23) := W20_of_ne m ρ c main_arg23 (by decide)
    _ = W18 m ρ c (Proc.devRef .tc main_arg23) := StableHlo.after_of_writes_sub hostOps11 _ Cert.KernelIdeal.HostWrites.hostOps11_writes (by decide)
    _ = W17 m ρ c (Proc.devRef .tc main_arg23) := W18_of_ne m ρ c main_arg23 (by decide)
    _ = W16 m ρ c (Proc.devRef .tc main_arg23) := W17_of_ne m ρ c main_arg23 (by decide)
    _ = W15 m ρ c (Proc.devRef .tc main_arg23) := StableHlo.after_of_writes_sub hostOps9 _ Cert.KernelIdeal.HostWrites.hostOps9_writes (by decide)
    _ = W14 m ρ c (Proc.devRef .tc main_arg23) := W15_of_ne m ρ c main_arg23 (by decide)
    _ = W13 m ρ c (Proc.devRef .tc main_arg23) := StableHlo.after_of_writes_sub hostOps8 _ Cert.KernelIdeal.HostWrites.hostOps8_writes (by decide)
    _ = W12 m ρ c (Proc.devRef .tc main_arg23) := W13_of_ne m ρ c main_arg23 (by decide)
    _ = W11 m ρ c (Proc.devRef .tc main_arg23) := W12_of_ne m ρ c main_arg23 (by decide)
    _ = W10 m ρ c (Proc.devRef .tc main_arg23) := StableHlo.after_of_writes_sub hostOps6 _ Cert.KernelIdeal.HostWrites.hostOps6_writes (by decide)
    _ = W9 m ρ c (Proc.devRef .tc main_arg23) := W10_of_ne m ρ c main_arg23 (by decide)
    _ = W8 m ρ c (Proc.devRef .tc main_arg23) := StableHlo.after_of_writes_sub hostOps5 _ Cert.KernelIdeal.HostWrites.hostOps5_writes (by decide)
    _ = W7 m ρ c (Proc.devRef .tc main_arg23) := W8_of_ne m ρ c main_arg23 (by decide)
    _ = W6 m ρ c (Proc.devRef .tc main_arg23) := W7_of_ne m ρ c main_arg23 (by decide)
    _ = W5 m ρ c (Proc.devRef .tc main_arg23) := StableHlo.after_of_writes_sub hostOps3 _ Cert.KernelIdeal.HostWrites.hostOps3_writes (by decide)
    _ = W4 m ρ c (Proc.devRef .tc main_arg23) := W5_of_ne m ρ c main_arg23 (by decide)
    _ = W3 m ρ c (Proc.devRef .tc main_arg23) := W4_of_ne m ρ c main_arg23 (by decide)
    _ = W2 m ρ c (Proc.devRef .tc main_arg23) := StableHlo.after_of_writes_sub hostOps1 _ Cert.KernelIdeal.HostWrites.hostOps1_writes (by decide)
    _ = W1 m ρ c (Proc.devRef .tc main_arg23) := W2_of_ne m ρ c main_arg23 (by decide)
    _ = W0 m ρ c (Proc.devRef .tc main_arg23) := StableHlo.after_of_writes_sub hostOps0 _ Cert.KernelIdeal.HostWrites.hostOps0_writes (by decide)
    _ = (m ((c : Thread nD τ).loc main_arg23)) := rfl

theorem W25_arg24 (c : Dev nD) : W25 m ρ c (Proc.devRef .tc main_arg24) = (m ((c : Thread nD τ).loc main_arg24)) :=
  calc W25 m ρ c (Proc.devRef .tc main_arg24)
    _ = W24 m ρ c (Proc.devRef .tc main_arg24) := W25_of_ne m ρ c main_arg24 (by decide)
    _ = W23 m ρ c (Proc.devRef .tc main_arg24) := StableHlo.after_of_writes_sub hostOps14 _ Cert.KernelIdeal.HostWrites.hostOps14_writes (by decide)
    _ = W22 m ρ c (Proc.devRef .tc main_arg24) := W23_of_ne m ρ c main_arg24 (by decide)
    _ = W21 m ρ c (Proc.devRef .tc main_arg24) := StableHlo.after_of_writes_sub hostOps13 _ Cert.KernelIdeal.HostWrites.hostOps13_writes (by decide)
    _ = W20 m ρ c (Proc.devRef .tc main_arg24) := W21_of_ne m ρ c main_arg24 (by decide)
    _ = W19 m ρ c (Proc.devRef .tc main_arg24) := W20_of_ne m ρ c main_arg24 (by decide)
    _ = W18 m ρ c (Proc.devRef .tc main_arg24) := StableHlo.after_of_writes_sub hostOps11 _ Cert.KernelIdeal.HostWrites.hostOps11_writes (by decide)
    _ = W17 m ρ c (Proc.devRef .tc main_arg24) := W18_of_ne m ρ c main_arg24 (by decide)
    _ = W16 m ρ c (Proc.devRef .tc main_arg24) := W17_of_ne m ρ c main_arg24 (by decide)
    _ = W15 m ρ c (Proc.devRef .tc main_arg24) := StableHlo.after_of_writes_sub hostOps9 _ Cert.KernelIdeal.HostWrites.hostOps9_writes (by decide)
    _ = W14 m ρ c (Proc.devRef .tc main_arg24) := W15_of_ne m ρ c main_arg24 (by decide)
    _ = W13 m ρ c (Proc.devRef .tc main_arg24) := StableHlo.after_of_writes_sub hostOps8 _ Cert.KernelIdeal.HostWrites.hostOps8_writes (by decide)
    _ = W12 m ρ c (Proc.devRef .tc main_arg24) := W13_of_ne m ρ c main_arg24 (by decide)
    _ = W11 m ρ c (Proc.devRef .tc main_arg24) := W12_of_ne m ρ c main_arg24 (by decide)
    _ = W10 m ρ c (Proc.devRef .tc main_arg24) := StableHlo.after_of_writes_sub hostOps6 _ Cert.KernelIdeal.HostWrites.hostOps6_writes (by decide)
    _ = W9 m ρ c (Proc.devRef .tc main_arg24) := W10_of_ne m ρ c main_arg24 (by decide)
    _ = W8 m ρ c (Proc.devRef .tc main_arg24) := StableHlo.after_of_writes_sub hostOps5 _ Cert.KernelIdeal.HostWrites.hostOps5_writes (by decide)
    _ = W7 m ρ c (Proc.devRef .tc main_arg24) := W8_of_ne m ρ c main_arg24 (by decide)
    _ = W6 m ρ c (Proc.devRef .tc main_arg24) := W7_of_ne m ρ c main_arg24 (by decide)
    _ = W5 m ρ c (Proc.devRef .tc main_arg24) := StableHlo.after_of_writes_sub hostOps3 _ Cert.KernelIdeal.HostWrites.hostOps3_writes (by decide)
    _ = W4 m ρ c (Proc.devRef .tc main_arg24) := W5_of_ne m ρ c main_arg24 (by decide)
    _ = W3 m ρ c (Proc.devRef .tc main_arg24) := W4_of_ne m ρ c main_arg24 (by decide)
    _ = W2 m ρ c (Proc.devRef .tc main_arg24) := StableHlo.after_of_writes_sub hostOps1 _ Cert.KernelIdeal.HostWrites.hostOps1_writes (by decide)
    _ = W1 m ρ c (Proc.devRef .tc main_arg24) := W2_of_ne m ρ c main_arg24 (by decide)
    _ = W0 m ρ c (Proc.devRef .tc main_arg24) := StableHlo.after_of_writes_sub hostOps0 _ Cert.KernelIdeal.HostWrites.hostOps0_writes (by decide)
    _ = (m ((c : Thread nD τ).loc main_arg24)) := rfl

theorem W25_arg25 (c : Dev nD) : W25 m ρ c (Proc.devRef .tc main_arg25) = (m ((c : Thread nD τ).loc main_arg25)) :=
  calc W25 m ρ c (Proc.devRef .tc main_arg25)
    _ = W24 m ρ c (Proc.devRef .tc main_arg25) := W25_of_ne m ρ c main_arg25 (by decide)
    _ = W23 m ρ c (Proc.devRef .tc main_arg25) := StableHlo.after_of_writes_sub hostOps14 _ Cert.KernelIdeal.HostWrites.hostOps14_writes (by decide)
    _ = W22 m ρ c (Proc.devRef .tc main_arg25) := W23_of_ne m ρ c main_arg25 (by decide)
    _ = W21 m ρ c (Proc.devRef .tc main_arg25) := StableHlo.after_of_writes_sub hostOps13 _ Cert.KernelIdeal.HostWrites.hostOps13_writes (by decide)
    _ = W20 m ρ c (Proc.devRef .tc main_arg25) := W21_of_ne m ρ c main_arg25 (by decide)
    _ = W19 m ρ c (Proc.devRef .tc main_arg25) := W20_of_ne m ρ c main_arg25 (by decide)
    _ = W18 m ρ c (Proc.devRef .tc main_arg25) := StableHlo.after_of_writes_sub hostOps11 _ Cert.KernelIdeal.HostWrites.hostOps11_writes (by decide)
    _ = W17 m ρ c (Proc.devRef .tc main_arg25) := W18_of_ne m ρ c main_arg25 (by decide)
    _ = W16 m ρ c (Proc.devRef .tc main_arg25) := W17_of_ne m ρ c main_arg25 (by decide)
    _ = W15 m ρ c (Proc.devRef .tc main_arg25) := StableHlo.after_of_writes_sub hostOps9 _ Cert.KernelIdeal.HostWrites.hostOps9_writes (by decide)
    _ = W14 m ρ c (Proc.devRef .tc main_arg25) := W15_of_ne m ρ c main_arg25 (by decide)
    _ = W13 m ρ c (Proc.devRef .tc main_arg25) := StableHlo.after_of_writes_sub hostOps8 _ Cert.KernelIdeal.HostWrites.hostOps8_writes (by decide)
    _ = W12 m ρ c (Proc.devRef .tc main_arg25) := W13_of_ne m ρ c main_arg25 (by decide)
    _ = W11 m ρ c (Proc.devRef .tc main_arg25) := W12_of_ne m ρ c main_arg25 (by decide)
    _ = W10 m ρ c (Proc.devRef .tc main_arg25) := StableHlo.after_of_writes_sub hostOps6 _ Cert.KernelIdeal.HostWrites.hostOps6_writes (by decide)
    _ = W9 m ρ c (Proc.devRef .tc main_arg25) := W10_of_ne m ρ c main_arg25 (by decide)
    _ = W8 m ρ c (Proc.devRef .tc main_arg25) := StableHlo.after_of_writes_sub hostOps5 _ Cert.KernelIdeal.HostWrites.hostOps5_writes (by decide)
    _ = W7 m ρ c (Proc.devRef .tc main_arg25) := W8_of_ne m ρ c main_arg25 (by decide)
    _ = W6 m ρ c (Proc.devRef .tc main_arg25) := W7_of_ne m ρ c main_arg25 (by decide)
    _ = W5 m ρ c (Proc.devRef .tc main_arg25) := StableHlo.after_of_writes_sub hostOps3 _ Cert.KernelIdeal.HostWrites.hostOps3_writes (by decide)
    _ = W4 m ρ c (Proc.devRef .tc main_arg25) := W5_of_ne m ρ c main_arg25 (by decide)
    _ = W3 m ρ c (Proc.devRef .tc main_arg25) := W4_of_ne m ρ c main_arg25 (by decide)
    _ = W2 m ρ c (Proc.devRef .tc main_arg25) := StableHlo.after_of_writes_sub hostOps1 _ Cert.KernelIdeal.HostWrites.hostOps1_writes (by decide)
    _ = W1 m ρ c (Proc.devRef .tc main_arg25) := W2_of_ne m ρ c main_arg25 (by decide)
    _ = W0 m ρ c (Proc.devRef .tc main_arg25) := StableHlo.after_of_writes_sub hostOps0 _ Cert.KernelIdeal.HostWrites.hostOps0_writes (by decide)
    _ = (m ((c : Thread nD τ).loc main_arg25)) := rfl

end Cert.KernelIdeal.Chain

end
-- ==== Proof.CarryArgsA.lean ====
/-
  The argument arrays at the boundaries where a segment reads them: no segment writes an argument, so each is as launched.
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W0_arg1 (c : Dev nD) : W0 m ρ c (Proc.devRef .tc main_arg1) = (m ((c : Thread nD τ).loc main_arg1)) := rfl

theorem W1_arg0 (c : Dev nD) : W1 m ρ c (Proc.devRef .tc main_arg0) = (m ((c : Thread nD τ).loc main_arg0)) :=
  calc W1 m ρ c (Proc.devRef .tc main_arg0)
    _ = W0 m ρ c (Proc.devRef .tc main_arg0) := StableHlo.after_of_writes_sub hostOps0 _ Cert.KernelIdeal.HostWrites.hostOps0_writes (by decide)
    _ = (m ((c : Thread nD τ).loc main_arg0)) := rfl

theorem W1_arg6 (c : Dev nD) : W1 m ρ c (Proc.devRef .tc main_arg6) = (m ((c : Thread nD τ).loc main_arg6)) :=
  calc W1 m ρ c (Proc.devRef .tc main_arg6)
    _ = W0 m ρ c (Proc.devRef .tc main_arg6) := StableHlo.after_of_writes_sub hostOps0 _ Cert.KernelIdeal.HostWrites.hostOps0_writes (by decide)
    _ = (m ((c : Thread nD τ).loc main_arg6)) := rfl

theorem W3_arg7 (c : Dev nD) : W3 m ρ c (Proc.devRef .tc main_arg7) = (m ((c : Thread nD τ).loc main_arg7)) :=
  calc W3 m ρ c (Proc.devRef .tc main_arg7)
    _ = W2 m ρ c (Proc.devRef .tc main_arg7) := StableHlo.after_of_writes_sub hostOps1 _ Cert.KernelIdeal.HostWrites.hostOps1_writes (by decide)
    _ = W1 m ρ c (Proc.devRef .tc main_arg7) := W2_of_ne m ρ c main_arg7 (by decide)
    _ = W0 m ρ c (Proc.devRef .tc main_arg7) := StableHlo.after_of_writes_sub hostOps0 _ Cert.KernelIdeal.HostWrites.hostOps0_writes (by decide)
    _ = (m ((c : Thread nD τ).loc main_arg7)) := rfl

theorem W4_arg8 (c : Dev nD) : W4 m ρ c (Proc.devRef .tc main_arg8) = (m ((c : Thread nD τ).loc main_arg8)) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ Cert.KernelIdeal.HostWrites.hostOps1_writes (by decide)
    _ = W1 m ρ c (Proc.devRef .tc main_arg8) := W2_of_ne m ρ c main_arg8 (by decide)
    _ = W0 m ρ c (Proc.devRef .tc main_arg8) := StableHlo.after_of_writes_sub hostOps0 _ Cert.KernelIdeal.HostWrites.hostOps0_writes (by decide)
    _ = (m ((c : Thread nD τ).loc main_arg8)) := rfl

theorem W6_arg9 (c : Dev nD) : W6 m ρ c (Proc.devRef .tc main_arg9) = (m ((c : Thread nD τ).loc main_arg9)) :=
  calc W6 m ρ c (Proc.devRef .tc main_arg9)
    _ = W5 m ρ c (Proc.devRef .tc main_arg9) := StableHlo.after_of_writes_sub hostOps3 _ Cert.KernelIdeal.HostWrites.hostOps3_writes (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps1 _ Cert.KernelIdeal.HostWrites.hostOps1_writes (by decide)
    _ = W1 m ρ c (Proc.devRef .tc main_arg9) := W2_of_ne m ρ c main_arg9 (by decide)
    _ = W0 m ρ c (Proc.devRef .tc main_arg9) := StableHlo.after_of_writes_sub hostOps0 _ Cert.KernelIdeal.HostWrites.hostOps0_writes (by decide)
    _ = (m ((c : Thread nD τ).loc main_arg9)) := rfl

theorem W7_arg10 (c : Dev nD) : W7 m ρ c (Proc.devRef .tc main_arg10) = (m ((c : Thread nD τ).loc main_arg10)) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_writes_sub hostOps3 _ Cert.KernelIdeal.HostWrites.hostOps3_writes (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps1 _ Cert.KernelIdeal.HostWrites.hostOps1_writes (by decide)
    _ = W1 m ρ c (Proc.devRef .tc main_arg10) := W2_of_ne m ρ c main_arg10 (by decide)
    _ = W0 m ρ c (Proc.devRef .tc main_arg10) := StableHlo.after_of_writes_sub hostOps0 _ Cert.KernelIdeal.HostWrites.hostOps0_writes (by decide)
    _ = (m ((c : Thread nD τ).loc main_arg10)) := rfl

theorem W9_arg11 (c : Dev nD) : W9 m ρ c (Proc.devRef .tc main_arg11) = (m ((c : Thread nD τ).loc main_arg11)) :=
  calc W9 m ρ c (Proc.devRef .tc main_arg11)
    _ = W8 m ρ c (Proc.devRef .tc main_arg11) := StableHlo.after_of_writes_sub hostOps5 _ Cert.KernelIdeal.HostWrites.hostOps5_writes (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := StableHlo.after_of_writes_sub hostOps3 _ Cert.KernelIdeal.HostWrites.hostOps3_writes (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_writes_sub hostOps1 _ Cert.KernelIdeal.HostWrites.hostOps1_writes (by decide)
    _ = W1 m ρ c (Proc.devRef .tc main_arg11) := W2_of_ne m ρ c main_arg11 (by decide)
    _ = W0 m ρ c (Proc.devRef .tc main_arg11) := StableHlo.after_of_writes_sub hostOps0 _ Cert.KernelIdeal.HostWrites.hostOps0_writes (by decide)
    _ = (m ((c : Thread nD τ).loc main_arg11)) := rfl

theorem W10_arg2 (c : Dev nD) : W10 m ρ c (Proc.devRef .tc main_arg2) = (m ((c : Thread nD τ).loc main_arg2)) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps5 _ Cert.KernelIdeal.HostWrites.hostOps5_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_writes_sub hostOps3 _ Cert.KernelIdeal.HostWrites.hostOps3_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ Cert.KernelIdeal.HostWrites.hostOps1_writes (by decide)
    _ = W1 m ρ c (Proc.devRef .tc main_arg2) := W2_of_ne m ρ c main_arg2 (by decide)
    _ = W0 m ρ c (Proc.devRef .tc main_arg2) := StableHlo.after_of_writes_sub hostOps0 _ Cert.KernelIdeal.HostWrites.hostOps0_writes (by decide)
    _ = (m ((c : Thread nD τ).loc main_arg2)) := rfl

theorem W11_arg12 (c : Dev nD) : W11 m ρ c (Proc.devRef .tc main_arg12) = (m ((c : Thread nD τ).loc main_arg12)) :=
  calc W11 m ρ c (Proc.devRef .tc main_arg12)
    _ = W10 m ρ c (Proc.devRef .tc main_arg12) := StableHlo.after_of_writes_sub hostOps6 _ Cert.KernelIdeal.HostWrites.hostOps6_writes (by decide)
    _ = W9 m ρ c (Proc.devRef .tc main_arg12) := W10_of_ne m ρ c main_arg12 (by decide)
    _ = W8 m ρ c (Proc.devRef .tc main_arg12) := StableHlo.after_of_writes_sub hostOps5 _ Cert.KernelIdeal.HostWrites.hostOps5_writes (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := StableHlo.after_of_writes_sub hostOps3 _ Cert.KernelIdeal.HostWrites.hostOps3_writes (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_writes_sub hostOps1 _ Cert.KernelIdeal.HostWrites.hostOps1_writes (by decide)
    _ = W1 m ρ c (Proc.devRef .tc main_arg12) := W2_of_ne m ρ c main_arg12 (by decide)
    _ = W0 m ρ c (Proc.devRef .tc main_arg12) := StableHlo.after_of_writes_sub hostOps0 _ Cert.KernelIdeal.HostWrites.hostOps0_writes (by decide)
    _ = (m ((c : Thread nD τ).loc main_arg12)) := rfl

theorem W11_arg13 (c : Dev nD) : W11 m ρ c (Proc.devRef .tc main_arg13) = (m ((c : Thread nD τ).loc main_arg13)) :=
  calc W11 m ρ c (Proc.devRef .tc main_arg13)
    _ = W10 m ρ c (Proc.devRef .tc main_arg13) := StableHlo.after_of_writes_sub hostOps6 _ Cert.KernelIdeal.HostWrites.hostOps6_writes (by decide)
    _ = W9 m ρ c (Proc.devRef .tc main_arg13) := W10_of_ne m ρ c main_arg13 (by decide)
    _ = W8 m ρ c (Proc.devRef .tc main_arg13) := StableHlo.after_of_writes_sub hostOps5 _ Cert.KernelIdeal.HostWrites.hostOps5_writes (by decide)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := StableHlo.after_of_writes_sub hostOps3 _ Cert.KernelIdeal.HostWrites.hostOps3_writes (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_writes_sub hostOps1 _ Cert.KernelIdeal.HostWrites.hostOps1_writes (by decide)
    _ = W1 m ρ c (Proc.devRef .tc main_arg13) := W2_of_ne m ρ c main_arg13 (by decide)
    _ = W0 m ρ c (Proc.devRef .tc main_arg13) := StableHlo.after_of_writes_sub hostOps0 _ Cert.KernelIdeal.HostWrites.hostOps0_writes (by decide)
    _ = (m ((c : Thread nD τ).loc main_arg13)) := rfl

theorem W12_arg14 (c : Dev nD) : W12 m ρ c (Proc.devRef .tc main_arg14) = (m ((c : Thread nD τ).loc main_arg14)) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_writes_sub hostOps6 _ Cert.KernelIdeal.HostWrites.hostOps6_writes (by decide)
    _ = W9 m ρ c (Proc.devRef .tc main_arg14) := W10_of_ne m ρ c main_arg14 (by decide)
    _ = W8 m ρ c (Proc.devRef .tc main_arg14) := StableHlo.after_of_writes_sub hostOps5 _ Cert.KernelIdeal.HostWrites.hostOps5_writes (by decide)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := StableHlo.after_of_writes_sub hostOps3 _ Cert.KernelIdeal.HostWrites.hostOps3_writes (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := StableHlo.after_of_writes_sub hostOps1 _ Cert.KernelIdeal.HostWrites.hostOps1_writes (by decide)
    _ = W1 m ρ c (Proc.devRef .tc main_arg14) := W2_of_ne m ρ c main_arg14 (by decide)
    _ = W0 m ρ c (Proc.devRef .tc main_arg14) := StableHlo.after_of_writes_sub hostOps0 _ Cert.KernelIdeal.HostWrites.hostOps0_writes (by decide)
    _ = (m ((c : Thread nD τ).loc main_arg14)) := rfl

theorem W12_arg15 (c : Dev nD) : W12 m ρ c (Proc.devRef .tc main_arg15) = (m ((c : Thread nD τ).loc main_arg15)) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_writes_sub hostOps6 _ Cert.KernelIdeal.HostWrites.hostOps6_writes (by decide)
    _ = W9 m ρ c (Proc.devRef .tc main_arg15) := W10_of_ne m ρ c main_arg15 (by decide)
    _ = W8 m ρ c (Proc.devRef .tc main_arg15) := StableHlo.after_of_writes_sub hostOps5 _ Cert.KernelIdeal.HostWrites.hostOps5_writes (by decide)
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := StableHlo.after_of_writes_sub hostOps3 _ Cert.KernelIdeal.HostWrites.hostOps3_writes (by decide)
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := StableHlo.after_of_writes_sub hostOps1 _ Cert.KernelIdeal.HostWrites.hostOps1_writes (by decide)
    _ = W1 m ρ c (Proc.devRef .tc main_arg15) := W2_of_ne m ρ c main_arg15 (by decide)
    _ = W0 m ρ c (Proc.devRef .tc main_arg15) := StableHlo.after_of_writes_sub hostOps0 _ Cert.KernelIdeal.HostWrites.hostOps0_writes (by decide)
    _ = (m ((c : Thread nD τ).loc main_arg15)) := rfl

theorem W13_arg4 (c : Dev nD) : W13 m ρ c (Proc.devRef .tc main_arg4) = (m ((c : Thread nD τ).loc main_arg4)) :=
  calc W13 m ρ c (Proc.devRef .tc main_arg4)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := StableHlo.after_of_writes_sub hostOps6 _ Cert.KernelIdeal.HostWrites.hostOps6_writes (by decide)
    _ = W9 m ρ c (Proc.devRef .tc main_arg4) := W10_of_ne m ρ c main_arg4 (by decide)
    _ = W8 m ρ c (Proc.devRef .tc main_arg4) := StableHlo.after_of_writes_sub hostOps5 _ Cert.KernelIdeal.HostWrites.hostOps5_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_writes_sub hostOps3 _ Cert.KernelIdeal.HostWrites.hostOps3_writes (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps1 _ Cert.KernelIdeal.HostWrites.hostOps1_writes (by decide)
    _ = W1 m ρ c (Proc.devRef .tc main_arg4) := W2_of_ne m ρ c main_arg4 (by decide)
    _ = W0 m ρ c (Proc.devRef .tc main_arg4) := StableHlo.after_of_writes_sub hostOps0 _ Cert.KernelIdeal.HostWrites.hostOps0_writes (by decide)
    _ = (m ((c : Thread nD τ).loc main_arg4)) := rfl

end Cert.KernelIdeal.Chain

end
-- ==== Proof.Mm0.lean ====
/-
  The first projection of the molecule branch: the [10240, 78] matrix x times the [78, 78] matrix w, computed in 5 blocks of 2048 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm0

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x78, .f32⟩ : BufTy).Contents (Elt Ideal) := V c main_arg0
abbrev a1 (c : Dev nD) : (⟨S78x78, .f32⟩ : BufTy).Contents (Elt Ideal) := V c main_arg6

theorem hz : (![0, 0] : Fin 2 → Nat) = fun _ => 0 := funext fun a => by fin_cases a <;> rfl

/-- Row i, column k of the left factor, and row k, column q of the right factor, for the entry (i, q) of the product. -/
abbrev wl (i : S10240x78.Idx) (k : Fin 78) : S10240x78.Idx := fun a => match a with
  | ⟨0, _⟩ => ⟨(i 0).val, (i 0).isLt⟩
  | ⟨1, _⟩ => ⟨k.val, k.isLt⟩
abbrev wr (i : S10240x78.Idx) (k : Fin 78) : S78x78.Idx := fun a => match a with
  | ⟨0, _⟩ => ⟨k.val, k.isLt⟩
  | ⟨1, _⟩ => ⟨(i 1).val, (i 1).isLt⟩

/-- The product matrix, entry by entry. -/
def prod (x : (⟨S10240x78, .f32⟩ : BufTy).Contents (Elt Ideal)) (w : (⟨S78x78, .f32⟩ : BufTy).Contents (Elt Ideal)) :
    (⟨S10240x78, .f32⟩ : BufTy).Contents (Elt Ideal) :=
  fun i => ∑ k : Fin 78, x (wl i k) * w (wr i k)

/-- The same two index maps inside one block of rows. -/
abbrev bl (j : S2048x78.Idx) (k : Fin 78) : S2048x78.Idx := fun a => match a with
  | ⟨0, _⟩ => ⟨(j 0).val, (j 0).isLt⟩
  | ⟨1, _⟩ => ⟨k.val, k.isLt⟩
abbrev br (j : S2048x78.Idx) (k : Fin 78) : S78x78.Idx := fun a => match a with
  | ⟨0, _⟩ => ⟨k.val, k.isLt⟩
  | ⟨1, _⟩ => ⟨(j 1).val, (j 1).isLt⟩

theorem lhs_0 (i : S2048x78.Idx) (q : dot_S2048x78_S78x78_S2048x78_1_0_0_1_n_n.contr.Idx) : (dot_S2048x78_S78x78_S2048x78_1_0_0_1_n_n.lhsIdx i q 0).val = (i 0).val := by
  unfold DotDims.lhsIdx
  rw [dif_neg (show ¬(0 : Fin S2048x78.rank) ∈ dot_S2048x78_S78x78_S2048x78_1_0_0_1_n_n.lhsBatch by decide), dif_pos (show (0 : Fin S2048x78.rank) ∈ dot_S2048x78_S78x78_S2048x78_1_0_0_1_n_n.lhsNonContracting by decide)]
  rfl
theorem lhs_1 (i : S2048x78.Idx) (q : dot_S2048x78_S78x78_S2048x78_1_0_0_1_n_n.contr.Idx) : (dot_S2048x78_S78x78_S2048x78_1_0_0_1_n_n.lhsIdx i q 1).val = (q ⟨0, by decide⟩).val :=
  dot_S2048x78_S78x78_S2048x78_1_0_0_1_n_n.lhsIdx_val_of_single rfl i q
theorem rhs_0 (i : S2048x78.Idx) (q : dot_S2048x78_S78x78_S2048x78_1_0_0_1_n_n.contr.Idx) : (dot_S2048x78_S78x78_S2048x78_1_0_0_1_n_n.rhsIdx i q 0).val = (q ⟨0, by decide⟩).val :=
  dot_S2048x78_S78x78_S2048x78_1_0_0_1_n_n.rhsIdx_val_of_single rfl i q
theorem rhs_1 (i : S2048x78.Idx) (q : dot_S2048x78_S78x78_S2048x78_1_0_0_1_n_n.contr.Idx) : (dot_S2048x78_S78x78_S2048x78_1_0_0_1_n_n.rhsIdx i q 1).val = (i 1).val := by
  unfold DotDims.rhsIdx
  rw [dif_neg (show ¬(1 : Fin S78x78.rank) ∈ dot_S2048x78_S78x78_S2048x78_1_0_0_1_n_n.rhsBatch by decide), dif_pos (show (1 : Fin S78x78.rank) ∈ dot_S2048x78_S78x78_S2048x78_1_0_0_1_n_n.rhsNonContracting by decide)]
  rfl

/-- One block's product at (p, q): the change of number format is the identity on extended reals, and the product
    into a zero accumulator is the plain sum over the contracted axis. -/
theorem pay_apply (x0 : Vec Ideal S2048x78 .f32) (x1 : Vec Ideal S78x78 .f32) (j : S2048x78.Idx) :
    k0_pay1 (F := Ideal) x0 x1 j = ∑ k : Fin 78, x0 (bl j k) * x1 (br j k) := by
  show FloatOps.matmul (F := Ideal) dot_S2048x78_S78x78_S2048x78_1_0_0_1_n_n none (x0 : FVec Ideal _ .f32) (x1 : FVec Ideal _ .f32) (constant S2048x78 .f32 0x00000000#32) j = _
  rw [Ideal.matmul_constant_zero_apply, ← Equiv.sum_comp (ValueIdx.contrEquiv1 dot_S2048x78_S78x78_S2048x78_1_0_0_1_n_n 78 rfl rfl).symm]
  refine Finset.sum_congr rfl fun k _ => ?_
  have hk := ValueIdx.contrEquiv1_symm_val dot_S2048x78_S78x78_S2048x78_1_0_0_1_n_n 78 rfl rfl k
  have el : dot_S2048x78_S78x78_S2048x78_1_0_0_1_n_n.lhsIdx j ((ValueIdx.contrEquiv1 dot_S2048x78_S78x78_S2048x78_1_0_0_1_n_n 78 rfl rfl).symm k) = bl j k := funext fun a => Fin.ext (by
    match a with
    | ⟨0, _⟩ => exact lhs_0 _ _
    | ⟨1, _⟩ => exact (lhs_1 _ _).trans hk)
  have er : dot_S2048x78_S78x78_S2048x78_1_0_0_1_n_n.rhsIdx j ((ValueIdx.contrEquiv1 dot_S2048x78_S78x78_S2048x78_1_0_0_1_n_n 78 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block is some grid point's. -/
theorem idx_onto : ∀ (q0 : Fin 5), ∃ t : Fin cfg0.N, win0_2.index t = ![q0.val, 0] :=
  (by decide +kernel : ∀ (q0 : Fin 5), ∃ t : Fin grid0.N, win0_2.index t = ![q0.val, 0])

/-- What grid point t writes back is block t of the product matrix of the arrays as the region finds them. -/
theorem flushed_eq (c : Dev nD) (t : Fin cfg0.N) :
    (dat0 V c).flushed 2 t = ((cfg0.win 2).blk t).view.read (Elt Ideal) (prod ((a0 V c)) ((a1 V c))) := by
  show (cfg0.win 2).cut (grid0.coords t) ((dat0 V c).after 2 t) = _
  rw [after0_2]
  unfold out0_2
  rw [View.canon_unit_zero hz]
  simp only [View.ld_unit_zero (S := S2048x78) hz, View.ld_unit_zero (S := S78x78) hz]
  obtain ⟨e0, e1, e2, e3, e4, e5⟩ := idx_facts t
  funext j
  show k0_pay1 (F := Ideal) (iblk0 V c 0 t) (iblk0 V c 1 t) j = prod ((a0 V c)) ((a1 V c)) (((cfg0.win 2).blk t).view.emb j)
  refine (pay_apply (iblk0 V c 0 t) (iblk0 V c 1 t) j).trans ?_
  have h0 : ∀ k : Fin 78, ((cfg0.win 0).blk t).view.emb (bl j k) = wl (((cfg0.win 2).blk t).view.emb j) k := fun k => by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 78 + 1 * k.val = k.val; omega
  have h1 : ∀ k : Fin 78, ((cfg0.win 1).blk t).view.emb (br j k) = wr (((cfg0.win 2).blk t).view.emb j) k := fun k => by
    funext a; apply Fin.ext
    match a with
    | ⟨0, _⟩ => show win0_1.index t (0 : Fin 2) * 78 + 1 * k.val = k.val; omega
    | ⟨1, _⟩ => show win0_1.index t (1 : Fin 2) * 78 + 1 * (j 1).val = win0_2.index t (1 : Fin 2) * 78 + 1 * (j 1).val; omega
  show (∑ k : Fin 78, (a0 V c) (((cfg0.win 0).blk t).view.emb (bl j k)) * (a1 V c) (((cfg0.win 1).blk t).view.emb (br j k)))
    = ∑ k : Fin 78, (a0 V c) (wl (((cfg0.win 2).blk t).view.emb j) k) * (a1 V c) (wr (((cfg0.win 2).blk t).view.emb j) k)
  exact Finset.sum_congr rfl fun k _ => by rw [h0 k, h1 k]

/-- An index of the result array lies in grid point t's block iff each coordinate lies in the block's range. -/
theorem mem_blk (t : Fin cfg0.N) (i : S10240x78.Idx) :
    i ∈ ((cfg0.win 2).blk t).view.set ↔ ∀ a : Fin 2, win0_2.index t a * S2048x78.size a ≤ (i a).val ∧ (i a).val < win0_2.index t a * S2048x78.size a + S2048x78.size a := by
  show i ∈ ((View.whole main_v12).slice (win0_2.rect t)).set ↔ _
  rw [View.set_slice_whole, Rect.mem_set_unit]
  exact Iff.rfl

/-- The row blocks tile the result: row i lies in block i / 2048. -/
theorem cover (i : S10240x78.Idx) : ∃ t : Fin cfg0.N, (cfg0.win 2).flush t = true ∧ i ∈ ((cfg0.win 2).blk t).view.set := by
  have hi0 : (i 0).val < 10240 := (i 0).isLt
  have hi1 : (i 1).val < 78 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 78 ≤ (i 1).val ∧ (i 1).val < win0_2.index t (1 : Fin 2) * 78 + 78; omega

/-- The array the region leaves: the product of the two arrays it was entered with. -/
theorem final (c : Dev nD) : (dat0 V c).arrAt 2 cfg0.N = prod ((a0 V c)) ((a1 V c)) :=
  (dat0 V c).arrAt_eq_of_cover 2 (prod ((a0 V c)) ((a1 V c))) (fun t _ => flushed_eq V c t) cover

end Cert.KernelIdeal.Mm0

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.Cb1.lean ====
/-
  The first graph-convolution combine of the molecule branch: out = max(n · (agg + n · h) + b, 0) over [10240, 78], where n is a column [10240, 1] (one factor per node,
  the same along a row) and b a row [78] (one bias per feature, the same down a column), computed in 5 blocks of 2048 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x78, .f32⟩ : BufTy).Contents (Elt Ideal) := V c main_v32
abbrev a1 (c : Dev nD) : (⟨S10240x78, .f32⟩ : BufTy).Contents (Elt Ideal) := V c main_v12
abbrev a2 (c : Dev nD) : (⟨S10240x1, .f32⟩ : BufTy).Contents (Elt Ideal) := V c main_v11
abbrev a3 (c : Dev nD) : (⟨S78, .f32⟩ : BufTy).Contents (Elt Ideal) := V c main_arg7

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S10240x78.Idx) : S10240x1.Idx := fun a => match a with
  | ⟨0, _⟩ => ⟨(i 0).val, (i 0).isLt⟩
  | ⟨1, _⟩ => ⟨0, Nat.one_pos⟩
abbrev wb (i : S10240x78.Idx) : S78.Idx := fun a => match a with
  | ⟨0, _⟩ => ⟨(i 1).val, (i 1).isLt⟩

/-- The combined features, entry by entry. -/
def comb (agg h : (⟨S10240x78, .f32⟩ : BufTy).Contents (Elt Ideal)) (n : (⟨S10240x1, .f32⟩ : BufTy).Contents (Elt Ideal))
    (b : (⟨S78, .f32⟩ : BufTy).Contents (Elt Ideal)) : (⟨S10240x78, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S2048x78.Idx) : S2048x1.Idx := fun a => match a with
  | ⟨0, _⟩ => ⟨(j 0).val, (j 0).isLt⟩
  | ⟨1, _⟩ => ⟨0, Nat.one_pos⟩
abbrev bb (j : S2048x78.Idx) : S78.Idx := fun a => match a with
  | ⟨0, _⟩ => ⟨(j 1).val, (j 1).isLt⟩

/-- One block's result at an index: the column is read at the index's row, the bias at its feature, and the other two
    operands at the index itself. -/
theorem pay_apply (v0 : Vec Ideal S2048x1 .f32) (v2 : Vec Ideal S78 .f32) (v6 v8 : Vec Ideal S2048x78 .f32) (j : S2048x78.Idx) :
    k1_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 2048) (q : Fin 78), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S2048x78 (shapeCast S2048x1 v0 shapeCasts_S2048x1_S2048x1) broadcasts_S2048x1_S2048x78 (ix2 p q) = v0 (ix2 p (0 : Fin 1)) := by
    rw [shapeCast_self]
    exact Cert.LibLayout.broadcastTo_a1_ab_apply v0 _ p q
  have hb : broadcastTo S2048x78 (shapeCast S1x78 (shapeCast S1x78 v2 shapeCasts_S78_S1x78) shapeCasts_S1x78_S1x78) broadcasts_S1x78_S2048x78 (ix2 p q) = v2 (ix1 q) := by
    rw [shapeCast_self]
    exact (broadcastTo_1b_ab_apply _ _ p q).trans (shapeCast_a_1a_apply v2 _ 0 q)
  have h6 : shapeCast S2048x78 v6 shapeCasts_S2048x78_S2048x78 = v6 := shapeCast_self _ _
  have h8 : shapeCast S2048x78 v8 shapeCasts_S2048x78_S2048x78 = v8 := shapeCast_self _ _
  rw [en, eb]
  show max (broadcastTo S2048x78 (shapeCast S2048x1 v0 shapeCasts_S2048x1_S2048x1) broadcasts_S2048x1_S2048x78 (ix2 p q)
        * (shapeCast S2048x78 v6 shapeCasts_S2048x78_S2048x78 (ix2 p q)
            + broadcastTo S2048x78 (shapeCast S2048x1 v0 shapeCasts_S2048x1_S2048x1) broadcasts_S2048x1_S2048x78 (ix2 p q) * shapeCast S2048x78 v8 shapeCasts_S2048x78_S2048x78 (ix2 p q))
        + broadcastTo S2048x78 (shapeCast S1x78 (shapeCast S1x78 v2 shapeCasts_S78_S1x78) shapeCasts_S1x78_S1x78) broadcasts_S1x78_S2048x78 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 1) = 0
    ∧ win1_4.index t (1 : Fin 2) = 0 :=
  (by decide +kernel : ∀ t : Fin grid1.N, _)

/-- Every row block is some grid point's. -/
theorem idx_onto : ∀ (q0 : Fin 5), ∃ t : Fin cfg1.N, win1_4.index t = ![q0.val, 0] :=
  (by decide +kernel : ∀ (q0 : Fin 5), ∃ t : Fin grid1.N, win1_4.index t = ![q0.val, 0])

/-- What grid point t writes back is block t of the combined features of the arrays as the region finds them. -/
theorem flushed_eq (c : Dev nD) (t : Fin cfg1.N) :
    (dat1 V c).flushed 4 t
      = ((cfg1.win 4).blk t).view.read (Elt Ideal) (comb ((a0 V c)) ((a1 V c)) ((a2 V c)) ((a3 V c))) := by
  show (cfg1.win 4).cut (grid1.coords t) ((dat1 V c).after 4 t) = _
  rw [after1_4]
  unfold out1_4
  rw [View.canon_unit_zero hz]
  simp only [View.ld_unit_zero (S := S2048x78) hz, View.ld_unit_zero (S := S2048x1) hz, View.ld_unit_zero (S := S78) hz1]
  obtain ⟨e0, e1, e2, e3, e4, e5, e6, e7⟩ := idx_facts t
  funext j
  show k1_pay1 (F := Ideal) (iblk1 V c 2 t) (iblk1 V c 3 t) (iblk1 V c 0 t) (iblk1 V c 1 t) j
    = comb ((a0 V c)) ((a1 V c)) ((a2 V c)) ((a3 V c)) (((cfg1.win 4).blk t).view.emb j)
  refine (pay_apply (iblk1 V c 2 t) (iblk1 V c 3 t) (iblk1 V c 0 t) (iblk1 V c 1 t) j).trans ?_
  show max ((a2 V c) (((cfg1.win 2).blk t).view.emb (bn j))
        * ((a0 V c) (((cfg1.win 0).blk t).view.emb j)
            + (a2 V c) (((cfg1.win 2).blk t).view.emb (bn j)) * (a1 V c) (((cfg1.win 1).blk t).view.emb j))
        + (a3 V c) (((cfg1.win 3).blk t).view.emb (bb j))) (Scalar.ofBits (F := Ideal) .f32 0x00000000#32)
    = max ((a2 V c) (wn (((cfg1.win 4).blk t).view.emb j))
        * ((a0 V c) (((cfg1.win 4).blk t).view.emb j)
            + (a2 V c) (wn (((cfg1.win 4).blk t).view.emb j)) * (a1 V c) (((cfg1.win 4).blk t).view.emb j))
        + (a3 V c) (wb (((cfg1.win 4).blk t).view.emb j))) (Scalar.ofBits (F := Ideal) .f32 0x00000000#32)
  have h0 : ((cfg1.win 0).blk t).view.emb j = ((cfg1.win 4).blk t).view.emb j := by
    funext a; apply Fin.ext
    match a with
    | ⟨0, _⟩ => show win1_0.index t (0 : Fin 2) * 2048 + 1 * (j 0).val = win1_4.index t (0 : Fin 2) * 2048 + 1 * (j 0).val; omega
    | ⟨1, _⟩ => show win1_0.index t (1 : Fin 2) * 78 + 1 * (j 1).val = win1_4.index t (1 : Fin 2) * 78 + 1 * (j 1).val; omega
  have h1 : ((cfg1.win 1).blk t).view.emb j = ((cfg1.win 4).blk t).view.emb j := by
    funext a; apply Fin.ext
    match a with
    | ⟨0, _⟩ => show win1_1.index t (0 : Fin 2) * 2048 + 1 * (j 0).val = win1_4.index t (0 : Fin 2) * 2048 + 1 * (j 0).val; omega
    | ⟨1, _⟩ => show win1_1.index t (1 : Fin 2) * 78 + 1 * (j 1).val = win1_4.index t (1 : Fin 2) * 78 + 1 * (j 1).val; omega
  have h2 : ((cfg1.win 2).blk t).view.emb (bn j) = wn (((cfg1.win 4).blk t).view.emb j) := by
    funext a; apply Fin.ext
    match a with
    | ⟨0, _⟩ => show win1_2.index t (0 : Fin 2) * 2048 + 1 * (j 0).val = win1_4.index t (0 : Fin 2) * 2048 + 1 * (j 0).val; omega
    | ⟨1, _⟩ => show win1_2.index t (1 : Fin 2) * 1 + 1 * 0 = 0; omega
  have h3 : ((cfg1.win 3).blk t).view.emb (bb j) = wb (((cfg1.win 4).blk t).view.emb j) := by
    funext a; apply Fin.ext
    match a with
    | ⟨0, _⟩ => show win1_3.index t (0 : Fin 1) * 78 + 1 * (j 1).val = win1_4.index t (1 : Fin 2) * 78 + 1 * (j 1).val; omega
  rw [h0, h1, h2, h3]

/-- An index of the result array lies in grid point t's block iff each coordinate lies in the block's range. -/
theorem mem_blk (t : Fin cfg1.N) (i : S10240x78.Idx) :
    i ∈ ((cfg1.win 4).blk t).view.set ↔ ∀ a : Fin 2, win1_4.index t a * S2048x78.size a ≤ (i a).val ∧ (i a).val < win1_4.index t a * S2048x78.size a + S2048x78.size a := by
  show i ∈ ((View.whole main_v33).slice (win1_4.rect t)).set ↔ _
  rw [View.set_slice_whole, Rect.mem_set_unit]
  exact Iff.rfl

/-- The row blocks tile the result: row i lies in block i / 2048. -/
theorem cover (i : S10240x78.Idx) : ∃ t : Fin cfg1.N, (cfg1.win 4).flush t = true ∧ i ∈ ((cfg1.win 4).blk t).view.set := by
  have hi0 : (i 0).val < 10240 := (i 0).isLt
  have hi1 : (i 1).val < 78 := (i 1).isLt
  obtain ⟨t, ht⟩ := idx_onto ⟨(i 0).val / 2048, by omega⟩
  have q0 : win1_4.index t (0 : Fin 2) = (i 0).val / 2048 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 78 ≤ (i 1).val ∧ (i 1).val < win1_4.index t (1 : Fin 2) * 78 + 78; omega

/-- The array the region leaves: the combined features of the four arrays it was entered with. -/
theorem final (c : Dev nD) : (dat1 V c).arrAt 4 cfg1.N = comb ((a0 V c)) ((a1 V c)) ((a2 V c)) ((a3 V c)) :=
  (dat1 V c).arrAt_eq_of_cover 4 (comb ((a0 V c)) ((a1 V c)) ((a2 V c)) ((a3 V c))) (fun t _ => flushed_eq V c t) cover

end Cert.KernelIdeal.Cb1

end
-- ==== Proof.Mm2.lean ====
/-
  The second projection of the molecule branch: the [10240, 78] matrix x times the [78, 156] matrix w, computed in 5 blocks of 2048 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm2

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x78, .f32⟩ : BufTy).Contents (Elt Ideal) := V c main_v33
abbrev a1 (c : Dev nD) : (⟨S78x156, .f32⟩ : BufTy).Contents (Elt Ideal) := V c main_arg8

theorem hz : (![0, 0] : Fin 2 → Nat) = fun _ => 0 := funext fun a => by fin_cases a <;> rfl

/-- Row i, column k of the left factor, and row k, column q of the right factor, for the entry (i, q) of the product. -/
abbrev wl (i : S10240x156.Idx) (k : Fin 78) : S10240x78.Idx := fun a => match a with
  | ⟨0, _⟩ => ⟨(i 0).val, (i 0).isLt⟩
  | ⟨1, _⟩ => ⟨k.val, k.isLt⟩
abbrev wr (i : S10240x156.Idx) (k : Fin 78) : S78x156.Idx := fun a => match a with
  | ⟨0, _⟩ => ⟨k.val, k.isLt⟩
  | ⟨1, _⟩ => ⟨(i 1).val, (i 1).isLt⟩

/-- The product matrix, entry by entry. -/
def prod (x : (⟨S10240x78, .f32⟩ : BufTy).Contents (Elt Ideal)) (w : (⟨S78x156, .f32⟩ : BufTy).Contents (Elt Ideal)) :
    (⟨S10240x156, .f32⟩ : BufTy).Contents (Elt Ideal) :=
  fun i => ∑ k : Fin 78, x (wl i k) * w (wr i k)

/-- The same two index maps inside one block of rows. -/
abbrev bl (j : S2048x156.Idx) (k : Fin 78) : S2048x78.Idx := fun a => match a with
  | ⟨0, _⟩ => ⟨(j 0).val, (j 0).isLt⟩
  | ⟨1, _⟩ => ⟨k.val, k.isLt⟩
abbrev br (j : S2048x156.Idx) (k : Fin 78) : S78x156.Idx := fun a => match a with
  | ⟨0, _⟩ => ⟨k.val, k.isLt⟩
  | ⟨1, _⟩ => ⟨(j 1).val, (j 1).isLt⟩

theorem lhs_0 (i : S2048x156.Idx) (q : dot_S2048x78_S78x156_S2048x156_1_0_0_1_n_n.contr.Idx) : (dot_S2048x78_S78x156_S2048x156_1_0_0_1_n_n.lhsIdx i q 0).val = (i 0).val := by
  unfold DotDims.lhsIdx
  rw [dif_neg (show ¬(0 : Fin S2048x78.rank) ∈ dot_S2048x78_S78x156_S2048x156_1_0_0_1_n_n.lhsBatch by decide), dif_pos (show (0 : Fin S2048x78.rank) ∈ dot_S2048x78_S78x156_S2048x156_1_0_0_1_n_n.lhsNonContracting by decide)]
  rfl
theorem lhs_1 (i : S2048x156.Idx) (q : dot_S2048x78_S78x156_S2048x156_1_0_0_1_n_n.contr.Idx) : (dot_S2048x78_S78x156_S2048x156_1_0_0_1_n_n.lhsIdx i q 1).val = (q ⟨0, by decide⟩).val :=
  dot_S2048x78_S78x156_S2048x156_1_0_0_1_n_n.lhsIdx_val_of_single rfl i q
theorem rhs_0 (i : S2048x156.Idx) (q : dot_S2048x78_S78x156_S2048x156_1_0_0_1_n_n.contr.Idx) : (dot_S2048x78_S78x156_S2048x156_1_0_0_1_n_n.rhsIdx i q 0).val = (q ⟨0, by decide⟩).val :=
  dot_S2048x78_S78x156_S2048x156_1_0_0_1_n_n.rhsIdx_val_of_single rfl i q
theorem rhs_1 (i : S2048x156.Idx) (q : dot_S2048x78_S78x156_S2048x156_1_0_0_1_n_n.contr.Idx) : (dot_S2048x78_S78x156_S2048x156_1_0_0_1_n_n.rhsIdx i q 1).val = (i 1).val := by
  unfold DotDims.rhsIdx
  rw [dif_neg (show ¬(1 : Fin S78x156.rank) ∈ dot_S2048x78_S78x156_S2048x156_1_0_0_1_n_n.rhsBatch by decide), dif_pos (show (1 : Fin S78x156.rank) ∈ dot_S2048x78_S78x156_S2048x156_1_0_0_1_n_n.rhsNonContracting by decide)]
  rfl

/-- One block's product at (p, q): the change of number format is the identity on extended reals, and the product
    into a zero accumulator is the plain sum over the contracted axis. -/
theorem pay_apply (x0 : Vec Ideal S2048x78 .f32) (x1 : Vec Ideal S78x156 .f32) (j : S2048x156.Idx) :
    k2_pay1 (F := Ideal) x0 x1 j = ∑ k : Fin 78, x0 (bl j k) * x1 (br j k) := by
  have hc : shapeCast S2048x78 x0 shapeCasts_S2048x78_S2048x78 = x0 := shapeCast_self _ _
  show FloatOps.matmul (F := Ideal) (φ₁ := .f32) (φ₂ := .f32) dot_S2048x78_S78x156_S2048x156_1_0_0_1_n_n none (shapeCast S2048x78 x0 shapeCasts_S2048x78_S2048x78 : FVec Ideal S2048x78 .f32) (x1 : FVec Ideal S78x156 .f32) (constant S2048x156 .f32 0x00000000#32) j = _
  rw [hc]
  rw [Ideal.matmul_constant_zero_apply, ← Equiv.sum_comp (ValueIdx.contrEquiv1 dot_S2048x78_S78x156_S2048x156_1_0_0_1_n_n 78 rfl rfl).symm]
  refine Finset.sum_congr rfl fun k _ => ?_
  have hk := ValueIdx.contrEquiv1_symm_val dot_S2048x78_S78x156_S2048x156_1_0_0_1_n_n 78 rfl rfl k
  have el : dot_S2048x78_S78x156_S2048x156_1_0_0_1_n_n.lhsIdx j ((ValueIdx.contrEquiv1 dot_S2048x78_S78x156_S2048x156_1_0_0_1_n_n 78 rfl rfl).symm k) = bl j k := funext fun a => Fin.ext (by
    match a with
    | ⟨0, _⟩ => exact lhs_0 _ _
    | ⟨1, _⟩ => exact (lhs_1 _ _).trans hk)
  have er : dot_S2048x78_S78x156_S2048x156_1_0_0_1_n_n.rhsIdx j ((ValueIdx.contrEquiv1 dot_S2048x78_S78x156_S2048x156_1_0_0_1_n_n 78 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 4 :=
  (by decide +kernel : ∀ t : Fin grid2.N, _)

/-- Every row block is some grid point's. -/
theorem idx_onto : ∀ (q0 : Fin 5), ∃ t : Fin cfg2.N, win2_2.index t = ![q0.val, 0] :=
  (by decide +kernel : ∀ (q0 : Fin 5), ∃ t : Fin grid2.N, win2_2.index t = ![q0.val, 0])

/-- What grid point t writes back is block t of the product matrix of the arrays as the region finds them. -/
theorem flushed_eq (c : Dev nD) (t : Fin cfg2.N) :
    (dat2 V c).flushed 2 t = ((cfg2.win 2).blk t).view.read (Elt Ideal) (prod ((a0 V c)) ((a1 V c))) := by
  show (cfg2.win 2).cut (grid2.coords t) ((dat2 V c).after 2 t) = _
  rw [after2_2]
  unfold out2_2
  rw [View.canon_unit_zero hz]
  simp only [View.ld_unit_zero (S := S2048x78) hz, View.ld_unit_zero (S := S78x156) hz]
  obtain ⟨e0, e1, e2, e3, e4, e5⟩ := idx_facts t
  funext j
  show k2_pay1 (F := Ideal) (iblk2 V c 0 t) (iblk2 V c 1 t) j = prod ((a0 V c)) ((a1 V c)) (((cfg2.win 2).blk t).view.emb j)
  refine (pay_apply (iblk2 V c 0 t) (iblk2 V c 1 t) j).trans ?_
  have h0 : ∀ k : Fin 78, ((cfg2.win 0).blk t).view.emb (bl j k) = wl (((cfg2.win 2).blk t).view.emb j) k := fun k => by
    funext a; apply Fin.ext
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 78 + 1 * k.val = k.val; omega
  have h1 : ∀ k : Fin 78, ((cfg2.win 1).blk t).view.emb (br j k) = wr (((cfg2.win 2).blk t).view.emb j) k := fun k => by
    funext a; apply Fin.ext
    match a with
    | ⟨0, _⟩ => show win2_1.index t (0 : Fin 2) * 78 + 1 * k.val = k.val; omega
    | ⟨1, _⟩ => show win2_1.index t (1 : Fin 2) * 156 + 1 * (j 1).val = win2_2.index t (1 : Fin 2) * 156 + 1 * (j 1).val; omega
  show (∑ k : Fin 78, (a0 V c) (((cfg2.win 0).blk t).view.emb (bl j k)) * (a1 V c) (((cfg2.win 1).blk t).view.emb (br j k)))
    = ∑ k : Fin 78, (a0 V c) (wl (((cfg2.win 2).blk t).view.emb j) k) * (a1 V c) (wr (((cfg2.win 2).blk t).view.emb j) k)
  exact Finset.sum_congr rfl fun k _ => by rw [h0 k, h1 k]

/-- An index of the result array lies in grid point t's block iff each coordinate lies in the block's range. -/
theorem mem_blk (t : Fin cfg2.N) (i : S10240x156.Idx) :
    i ∈ ((cfg2.win 2).blk t).view.set ↔ ∀ a : Fin 2, win2_2.index t a * S2048x156.size a ≤ (i a).val ∧ (i a).val < win2_2.index t a * S2048x156.size a + S2048x156.size a := by
  show i ∈ ((View.whole main_v34).slice (win2_2.rect t)).set ↔ _
  rw [View.set_slice_whole, Rect.mem_set_unit]
  exact Iff.rfl

/-- The row blocks tile the result: row i lies in block i / 2048. -/
theorem cover (i : S10240x156.Idx) : ∃ t : Fin cfg2.N, (cfg2.win 2).flush t = true ∧ i ∈ ((cfg2.win 2).blk t).view.set := by
  have hi0 : (i 0).val < 10240 := (i 0).isLt
  have hi1 : (i 1).val < 156 := (i 1).isLt
  obtain ⟨t, ht⟩ := idx_onto ⟨(i 0).val / 2048, by omega⟩
  have q0 : win2_2.index t (0 : Fin 2) = (i 0).val / 2048 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 156 ≤ (i 1).val ∧ (i 1).val < win2_2.index t (1 : Fin 2) * 156 + 156; omega

/-- The array the region leaves: the product of the two arrays it was entered with. -/
theorem final (c : Dev nD) : (dat2 V c).arrAt 2 cfg2.N = prod ((a0 V c)) ((a1 V c)) :=
  (dat2 V c).arrAt_eq_of_cover 2 (prod ((a0 V c)) ((a1 V c))) (fun t _ => flushed_eq V c t) cover

end Cert.KernelIdeal.Mm2

end
-- ==== Proof.Cb3.lean ====
/-
  The second graph-convolution combine of the molecule branch: out = max(n · (agg + n · h) + b, 0) over [10240, 156], where n is a column [10240, 1] (one factor per node,
  the same along a row) and b a row [156] (one bias per feature, the same down a column), computed in 5 blocks of 2048 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb3

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x156, .f32⟩ : BufTy).Contents (Elt Ideal) := V c main_v54
abbrev a1 (c : Dev nD) : (⟨S10240x156, .f32⟩ : BufTy).Contents (Elt Ideal) := V c main_v34
abbrev a2 (c : Dev nD) : (⟨S10240x1, .f32⟩ : BufTy).Contents (Elt Ideal) := V c main_v11
abbrev a3 (c : Dev nD) : (⟨S156, .f32⟩ : BufTy).Contents (Elt Ideal) := V c main_arg9

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S10240x156.Idx) : S10240x1.Idx := fun a => match a with
  | ⟨0, _⟩ => ⟨(i 0).val, (i 0).isLt⟩
  | ⟨1, _⟩ => ⟨0, Nat.one_pos⟩
abbrev wb (i : S10240x156.Idx) : S156.Idx := fun a => match a with
  | ⟨0, _⟩ => ⟨(i 1).val, (i 1).isLt⟩

/-- The combined features, entry by entry. -/
def comb (agg h : (⟨S10240x156, .f32⟩ : BufTy).Contents (Elt Ideal)) (n : (⟨S10240x1, .f32⟩ : BufTy).Contents (Elt Ideal))
    (b : (⟨S156, .f32⟩ : BufTy).Contents (Elt Ideal)) : (⟨S10240x156, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S2048x156.Idx) : S2048x1.Idx := fun a => match a with
  | ⟨0, _⟩ => ⟨(j 0).val, (j 0).isLt⟩
  | ⟨1, _⟩ => ⟨0, Nat.one_pos⟩
abbrev bb (j : S2048x156.Idx) : S156.Idx := fun a => match a with
  | ⟨0, _⟩ => ⟨(j 1).val, (j 1).isLt⟩

/-- One block's result at an index: the column is read at the index's row, the bias at its feature, and the other two
    operands at the index itself. -/
theorem pay_apply (v0 : Vec Ideal S2048x1 .f32) (v2 : Vec Ideal S156 .f32) (v6 v8 : Vec Ideal S2048x156 .f32) (j : S2048x156.Idx) :
    k3_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 2048) (q : Fin 156), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S2048x156 (shapeCast S2048x1 v0 shapeCasts_S2048x1_S2048x1) broadcasts_S2048x1_S2048x156 (ix2 p q) = v0 (ix2 p (0 : Fin 1)) := by
    rw [shapeCast_self]
    exact Cert.LibLayout.broadcastTo_a1_ab_apply v0 _ p q
  have hb : broadcastTo S2048x156 (shapeCast S1x156 (shapeCast S1x156 v2 shapeCasts_S156_S1x156) shapeCasts_S1x156_S1x156) broadcasts_S1x156_S2048x156 (ix2 p q) = v2 (ix1 q) := by
    rw [shapeCast_self]
    exact (broadcastTo_1b_ab_apply _ _ p q).trans (shapeCast_a_1a_apply v2 _ 0 q)
  have h6 : shapeCast S2048x156 v6 shapeCasts_S2048x156_S2048x156 = v6 := shapeCast_self _ _
  have h8 : shapeCast S2048x156 v8 shapeCasts_S2048x156_S2048x156 = v8 := shapeCast_self _ _
  rw [en, eb]
  show max (broadcastTo S2048x156 (shapeCast S2048x1 v0 shapeCasts_S2048x1_S2048x1) broadcasts_S2048x1_S2048x156 (ix2 p q)
        * (shapeCast S2048x156 v6 shapeCasts_S2048x156_S2048x156 (ix2 p q)
            + broadcastTo S2048x156 (shapeCast S2048x1 v0 shapeCasts_S2048x1_S2048x1) broadcasts_S2048x1_S2048x156 (ix2 p q) * shapeCast S2048x156 v8 shapeCasts_S2048x156_S2048x156 (ix2 p q))
        + broadcastTo S2048x156 (shapeCast S1x156 (shapeCast S1x156 v2 shapeCasts_S156_S1x156) shapeCasts_S1x156_S1x156) broadcasts_S1x156_S2048x156 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 1) = 0
    ∧ win3_4.index t (1 : Fin 2) = 0 :=
  (by decide +kernel : ∀ t : Fin grid3.N, _)

/-- Every row block is some grid point's. -/
theorem idx_onto : ∀ (q0 : Fin 5), ∃ t : Fin cfg3.N, win3_4.index t = ![q0.val, 0] :=
  (by decide +kernel : ∀ (q0 : Fin 5), ∃ t : Fin grid3.N, win3_4.index t = ![q0.val, 0])

/-- What grid point t writes back is block t of the combined features of the arrays as the region finds them. -/
theorem flushed_eq (c : Dev nD) (t : Fin cfg3.N) :
    (dat3 V c).flushed 4 t
      = ((cfg3.win 4).blk t).view.read (Elt Ideal) (comb ((a0 V c)) ((a1 V c)) ((a2 V c)) ((a3 V c))) := by
  show (cfg3.win 4).cut (grid3.coords t) ((dat3 V c).after 4 t) = _
  rw [after3_4]
  unfold out3_4
  rw [View.canon_unit_zero hz]
  simp only [View.ld_unit_zero (S := S2048x156) hz, View.ld_unit_zero (S := S2048x1) hz, View.ld_unit_zero (S := S156) hz1]
  obtain ⟨e0, e1, e2, e3, e4, e5, e6, e7⟩ := idx_facts t
  funext j
  show k3_pay1 (F := Ideal) (iblk3 V c 2 t) (iblk3 V c 3 t) (iblk3 V c 0 t) (iblk3 V c 1 t) j
    = comb ((a0 V c)) ((a1 V c)) ((a2 V c)) ((a3 V c)) (((cfg3.win 4).blk t).view.emb j)
  refine (pay_apply (iblk3 V c 2 t) (iblk3 V c 3 t) (iblk3 V c 0 t) (iblk3 V c 1 t) j).trans ?_
  show max ((a2 V c) (((cfg3.win 2).blk t).view.emb (bn j))
        * ((a0 V c) (((cfg3.win 0).blk t).view.emb j)
            + (a2 V c) (((cfg3.win 2).blk t).view.emb (bn j)) * (a1 V c) (((cfg3.win 1).blk t).view.emb j))
        + (a3 V c) (((cfg3.win 3).blk t).view.emb (bb j))) (Scalar.ofBits (F := Ideal) .f32 0x00000000#32)
    = max ((a2 V c) (wn (((cfg3.win 4).blk t).view.emb j))
        * ((a0 V c) (((cfg3.win 4).blk t).view.emb j)
            + (a2 V c) (wn (((cfg3.win 4).blk t).view.emb j)) * (a1 V c) (((cfg3.win 4).blk t).view.emb j))
        + (a3 V c) (wb (((cfg3.win 4).blk t).view.emb j))) (Scalar.ofBits (F := Ideal) .f32 0x00000000#32)
  have h0 : ((cfg3.win 0).blk t).view.emb j = ((cfg3.win 4).blk t).view.emb j := by
    funext a; apply Fin.ext
    match a with
    | ⟨0, _⟩ => show win3_0.index t (0 : Fin 2) * 2048 + 1 * (j 0).val = win3_4.index t (0 : Fin 2) * 2048 + 1 * (j 0).val; omega
    | ⟨1, _⟩ => show win3_0.index t (1 : Fin 2) * 156 + 1 * (j 1).val = win3_4.index t (1 : Fin 2) * 156 + 1 * (j 1).val; omega
  have h1 : ((cfg3.win 1).blk t).view.emb j = ((cfg3.win 4).blk t).view.emb j := by
    funext a; apply Fin.ext
    match a with
    | ⟨0, _⟩ => show win3_1.index t (0 : Fin 2) * 2048 + 1 * (j 0).val = win3_4.index t (0 : Fin 2) * 2048 + 1 * (j 0).val; omega
    | ⟨1, _⟩ => show win3_1.index t (1 : Fin 2) * 156 + 1 * (j 1).val = win3_4.index t (1 : Fin 2) * 156 + 1 * (j 1).val; omega
  have h2 : ((cfg3.win 2).blk t).view.emb (bn j) = wn (((cfg3.win 4).blk t).view.emb j) := by
    funext a; apply Fin.ext
    match a with
    | ⟨0, _⟩ => show win3_2.index t (0 : Fin 2) * 2048 + 1 * (j 0).val = win3_4.index t (0 : Fin 2) * 2048 + 1 * (j 0).val; omega
    | ⟨1, _⟩ => show win3_2.index t (1 : Fin 2) * 1 + 1 * 0 = 0; omega
  have h3 : ((cfg3.win 3).blk t).view.emb (bb j) = wb (((cfg3.win 4).blk t).view.emb j) := by
    funext a; apply Fin.ext
    match a with
    | ⟨0, _⟩ => show win3_3.index t (0 : Fin 1) * 156 + 1 * (j 1).val = win3_4.index t (1 : Fin 2) * 156 + 1 * (j 1).val; omega
  rw [h0, h1, h2, h3]

/-- An index of the result array lies in grid point t's block iff each coordinate lies in the block's range. -/
theorem mem_blk (t : Fin cfg3.N) (i : S10240x156.Idx) :
    i ∈ ((cfg3.win 4).blk t).view.set ↔ ∀ a : Fin 2, win3_4.index t a * S2048x156.size a ≤ (i a).val ∧ (i a).val < win3_4.index t a * S2048x156.size a + S2048x156.size a := by
  show i ∈ ((View.whole main_v55).slice (win3_4.rect t)).set ↔ _
  rw [View.set_slice_whole, Rect.mem_set_unit]
  exact Iff.rfl

/-- The row blocks tile the result: row i lies in block i / 2048. -/
theorem cover (i : S10240x156.Idx) : ∃ t : Fin cfg3.N, (cfg3.win 4).flush t = true ∧ i ∈ ((cfg3.win 4).blk t).view.set := by
  have hi0 : (i 0).val < 10240 := (i 0).isLt
  have hi1 : (i 1).val < 156 := (i 1).isLt
  obtain ⟨t, ht⟩ := idx_onto ⟨(i 0).val / 2048, by omega⟩
  have q0 : win3_4.index t (0 : Fin 2) = (i 0).val / 2048 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2048 ≤ (i 0).val ∧ (i 0).val < win3_4.index t (0 : Fin 2) * 2048 + 2048; omega
  | ⟨1, _⟩ => show win3_4.index t (1 : Fin 2) * 156 ≤ (i 1).val ∧ (i 1).val < win3_4.index t (1 : Fin 2) * 156 + 156; omega

/-- The array the region leaves: the combined features of the four arrays it was entered with. -/
theorem final (c : Dev nD) : (dat3 V c).arrAt 4 cfg3.N = comb ((a0 V c)) ((a1 V c)) ((a2 V c)) ((a3 V c)) :=
  (dat3 V c).arrAt_eq_of_cover 4 (comb ((a0 V c)) ((a1 V c)) ((a2 V c)) ((a3 V c))) (fun t _ => flushed_eq V c t) cover

end Cert.KernelIdeal.Cb3

end
-- ==== Proof.Mm4.lean ====
/-
  The third projection of the molecule branch: the [10240, 156] matrix x times the [156, 312] matrix w, computed in 5 blocks of 2048 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm4

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x156, .f32⟩ : BufTy).Contents (Elt Ideal) := V c main_v55
abbrev a1 (c : Dev nD) : (⟨S156x312, .f32⟩ : BufTy).Contents (Elt Ideal) := V c main_arg10

theorem hz : (![0, 0] : Fin 2 → Nat) = fun _ => 0 := funext fun a => by fin_cases a <;> rfl

/-- Row i, column k of the left factor, and row k, column q of the right factor, for the entry (i, q) of the product. -/
abbrev wl (i : S10240x312.Idx) (k : Fin 156) : S10240x156.Idx := fun a => match a with
  | ⟨0, _⟩ => ⟨(i 0).val, (i 0).isLt⟩
  | ⟨1, _⟩ => ⟨k.val, k.isLt⟩
abbrev wr (i : S10240x312.Idx) (k : Fin 156) : S156x312.Idx := fun a => match a with
  | ⟨0, _⟩ => ⟨k.val, k.isLt⟩
  | ⟨1, _⟩ => ⟨(i 1).val, (i 1).isLt⟩

/-- The product matrix, entry by entry. -/
def prod (x : (⟨S10240x156, .f32⟩ : BufTy).Contents (Elt Ideal)) (w : (⟨S156x312, .f32⟩ : BufTy).Contents (Elt Ideal)) :
    (⟨S10240x312, .f32⟩ : BufTy).Contents (Elt Ideal) :=
  fun i => ∑ k : Fin 156, x (wl i k) * w (wr i k)

/-- The same two index maps inside one block of rows. -/
abbrev bl (j : S2048x312.Idx) (k : Fin 156) : S2048x156.Idx := fun a => match a with
  | ⟨0, _⟩ => ⟨(j 0).val, (j 0).isLt⟩
  | ⟨1, _⟩ => ⟨k.val, k.isLt⟩
abbrev br (j : S2048x312.Idx) (k : Fin 156) : S156x312.Idx := fun a => match a with
  | ⟨0, _⟩ => ⟨k.val, k.isLt⟩
  | ⟨1, _⟩ => ⟨(j 1).val, (j 1).isLt⟩

theorem lhs_0 (i : S2048x312.Idx) (q : dot_S2048x156_S156x312_S2048x312_1_0_0_1_n_n.contr.Idx) : (dot_S2048x156_S156x312_S2048x312_1_0_0_1_n_n.lhsIdx i q 0).val = (i 0).val := by
  unfold DotDims.lhsIdx
  rw [dif_neg (show ¬(0 : Fin S2048x156.rank) ∈ dot_S2048x156_S156x312_S2048x312_1_0_0_1_n_n.lhsBatch by decide), dif_pos (show (0 : Fin S2048x156.rank) ∈ dot_S2048x156_S156x312_S2048x312_1_0_0_1_n_n.lhsNonContracting by decide)]
  rfl
theorem lhs_1 (i : S2048x312.Idx) (q : dot_S2048x156_S156x312_S2048x312_1_0_0_1_n_n.contr.Idx) : (dot_S2048x156_S156x312_S2048x312_1_0_0_1_n_n.lhsIdx i q 1).val = (q ⟨0, by decide⟩).val :=
  dot_S2048x156_S156x312_S2048x312_1_0_0_1_n_n.lhsIdx_val_of_single rfl i q
theorem rhs_0 (i : S2048x312.Idx) (q : dot_S2048x156_S156x312_S2048x312_1_0_0_1_n_n.contr.Idx) : (dot_S2048x156_S156x312_S2048x312_1_0_0_1_n_n.rhsIdx i q 0).val = (q ⟨0, by decide⟩).val :=
  dot_S2048x156_S156x312_S2048x312_1_0_0_1_n_n.rhsIdx_val_of_single rfl i q
theorem rhs_1 (i : S2048x312.Idx) (q : dot_S2048x156_S156x312_S2048x312_1_0_0_1_n_n.contr.Idx) : (dot_S2048x156_S156x312_S2048x312_1_0_0_1_n_n.rhsIdx i q 1).val = (i 1).val := by
  unfold DotDims.rhsIdx
  rw [dif_neg (show ¬(1 : Fin S156x312.rank) ∈ dot_S2048x156_S156x312_S2048x312_1_0_0_1_n_n.rhsBatch by decide), dif_pos (show (1 : Fin S156x312.rank) ∈ dot_S2048x156_S156x312_S2048x312_1_0_0_1_n_n.rhsNonContracting by decide)]
  rfl

/-- One block's product at (p, q): the change of number format is the identity on extended reals, and the product
    into a zero accumulator is the plain sum over the contracted axis. -/
theorem pay_apply (x0 : Vec Ideal S2048x156 .f32) (x1 : Vec Ideal S156x312 .f32) (j : S2048x312.Idx) :
    k4_pay1 (F := Ideal) x0 x1 j = ∑ k : Fin 156, x0 (bl j k) * x1 (br j k) := by
  have hc : shapeCast S2048x156 x0 shapeCasts_S2048x156_S2048x156 = x0 := shapeCast_self _ _
  show FloatOps.matmul (F := Ideal) (φ₁ := .f32) (φ₂ := .f32) dot_S2048x156_S156x312_S2048x312_1_0_0_1_n_n none (shapeCast S2048x156 x0 shapeCasts_S2048x156_S2048x156 : FVec Ideal S2048x156 .f32) (x1 : FVec Ideal S156x312 .f32) (constant S2048x312 .f32 0x00000000#32) j = _
  rw [hc]
  rw [Ideal.matmul_constant_zero_apply, ← Equiv.sum_comp (ValueIdx.contrEquiv1 dot_S2048x156_S156x312_S2048x312_1_0_0_1_n_n 156 rfl rfl).symm]
  refine Finset.sum_congr rfl fun k _ => ?_
  have hk := ValueIdx.contrEquiv1_symm_val dot_S2048x156_S156x312_S2048x312_1_0_0_1_n_n 156 rfl rfl k
  have el : dot_S2048x156_S156x312_S2048x312_1_0_0_1_n_n.lhsIdx j ((ValueIdx.contrEquiv1 dot_S2048x156_S156x312_S2048x312_1_0_0_1_n_n 156 rfl rfl).symm k) = bl j k := funext fun a => Fin.ext (by
    match a with
    | ⟨0, _⟩ => exact lhs_0 _ _
    | ⟨1, _⟩ => exact (lhs_1 _ _).trans hk)
  have er : dot_S2048x156_S156x312_S2048x312_1_0_0_1_n_n.rhsIdx j ((ValueIdx.contrEquiv1 dot_S2048x156_S156x312_S2048x312_1_0_0_1_n_n 156 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg4.N,
    win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 4 :=
  (by decide +kernel : ∀ t : Fin grid4.N, _)

/-- Every row block is some grid point's. -/
theorem idx_onto : ∀ (q0 : Fin 5), ∃ t : Fin cfg4.N, win4_2.index t = ![q0.val, 0] :=
  (by decide +kernel : ∀ (q0 : Fin 5), ∃ t : Fin grid4.N, win4_2.index t = ![q0.val, 0])

/-- What grid point t writes back is block t of the product matrix of the arrays as the region finds them. -/
theorem flushed_eq (c : Dev nD) (t : Fin cfg4.N) :
    (dat4 V c).flushed 2 t = ((cfg4.win 2).blk t).view.read (Elt Ideal) (prod ((a0 V c)) ((a1 V c))) := by
  show (cfg4.win 2).cut (grid4.coords t) ((dat4 V c).after 2 t) = _
  rw [after4_2]
  unfold out4_2
  rw [View.canon_unit_zero hz]
  simp only [View.ld_unit_zero (S := S2048x156) hz, View.ld_unit_zero (S := S156x312) hz]
  obtain ⟨e0, e1, e2, e3, e4, e5⟩ := idx_facts t
  funext j
  show k4_pay1 (F := Ideal) (iblk4 V c 0 t) (iblk4 V c 1 t) j = prod ((a0 V c)) ((a1 V c)) (((cfg4.win 2).blk t).view.emb j)
  refine (pay_apply (iblk4 V c 0 t) (iblk4 V c 1 t) j).trans ?_
  have h0 : ∀ k : Fin 156, ((cfg4.win 0).blk t).view.emb (bl j k) = wl (((cfg4.win 2).blk t).view.emb j) k := fun k => by
    funext a; apply Fin.ext
    match a with
    | ⟨0, _⟩ => show win4_0.index t (0 : Fin 2) * 2048 + 1 * (j 0).val = win4_2.index t (0 : Fin 2) * 2048 + 1 * (j 0).val; omega
    | ⟨1, _⟩ => show win4_0.index t (1 : Fin 2) * 156 + 1 * k.val = k.val; omega
  have h1 : ∀ k : Fin 156, ((cfg4.win 1).blk t).view.emb (br j k) = wr (((cfg4.win 2).blk t).view.emb j) k := fun k => by
    funext a; apply Fin.ext
    match a with
    | ⟨0, _⟩ => show win4_1.index t (0 : Fin 2) * 156 + 1 * k.val = k.val; omega
    | ⟨1, _⟩ => show win4_1.index t (1 : Fin 2) * 312 + 1 * (j 1).val = win4_2.index t (1 : Fin 2) * 312 + 1 * (j 1).val; omega
  show (∑ k : Fin 156, (a0 V c) (((cfg4.win 0).blk t).view.emb (bl j k)) * (a1 V c) (((cfg4.win 1).blk t).view.emb (br j k)))
    = ∑ k : Fin 156, (a0 V c) (wl (((cfg4.win 2).blk t).view.emb j) k) * (a1 V c) (wr (((cfg4.win 2).blk t).view.emb j) k)
  exact Finset.sum_congr rfl fun k _ => by rw [h0 k, h1 k]

/-- An index of the result array lies in grid point t's block iff each coordinate lies in the block's range. -/
theorem mem_blk (t : Fin cfg4.N) (i : S10240x312.Idx) :
    i ∈ ((cfg4.win 2).blk t).view.set ↔ ∀ a : Fin 2, win4_2.index t a * S2048x312.size a ≤ (i a).val ∧ (i a).val < win4_2.index t a * S2048x312.size a + S2048x312.size a := by
  show i ∈ ((View.whole main_v56).slice (win4_2.rect t)).set ↔ _
  rw [View.set_slice_whole, Rect.mem_set_unit]
  exact Iff.rfl

/-- The row blocks tile the result: row i lies in block i / 2048. -/
theorem cover (i : S10240x312.Idx) : ∃ t : Fin cfg4.N, (cfg4.win 2).flush t = true ∧ i ∈ ((cfg4.win 2).blk t).view.set := by
  have hi0 : (i 0).val < 10240 := (i 0).isLt
  have hi1 : (i 1).val < 312 := (i 1).isLt
  obtain ⟨t, ht⟩ := idx_onto ⟨(i 0).val / 2048, by omega⟩
  have q0 : win4_2.index t (0 : Fin 2) = (i 0).val / 2048 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 312 ≤ (i 1).val ∧ (i 1).val < win4_2.index t (1 : Fin 2) * 312 + 312; omega

/-- The array the region leaves: the product of the two arrays it was entered with. -/
theorem final (c : Dev nD) : (dat4 V c).arrAt 2 cfg4.N = prod ((a0 V c)) ((a1 V c)) :=
  (dat4 V c).arrAt_eq_of_cover 2 (prod ((a0 V c)) ((a1 V c))) (fun t _ => flushed_eq V c t) cover

end Cert.KernelIdeal.Mm4

end
-- ==== Proof.Cb5.lean ====
/-
  The third graph-convolution combine of the molecule branch: out = max(n · (agg + n · h) + b, 0) over [10240, 312], where n is a column [10240, 1] (one factor per node,
  the same along a row) and b a row [312] (one bias per feature, the same down a column), computed in 5 blocks of 2048 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb5

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S10240x312, .f32⟩ : BufTy).Contents (Elt Ideal) := V c main_v76
abbrev a1 (c : Dev nD) : (⟨S10240x312, .f32⟩ : BufTy).Contents (Elt Ideal) := V c main_v56
abbrev a2 (c : Dev nD) : (⟨S10240x1, .f32⟩ : BufTy).Contents (Elt Ideal) := V c main_v11
abbrev a3 (c : Dev nD) : (⟨S312, .f32⟩ : BufTy).Contents (Elt Ideal) := V c main_arg11

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S10240x312.Idx) : S10240x1.Idx := fun a => match a with
  | ⟨0, _⟩ => ⟨(i 0).val, (i 0).isLt⟩
  | ⟨1, _⟩ => ⟨0, Nat.one_pos⟩
abbrev wb (i : S10240x312.Idx) : S312.Idx := fun a => match a with
  | ⟨0, _⟩ => ⟨(i 1).val, (i 1).isLt⟩

/-- The combined features, entry by entry. -/
def comb (agg h : (⟨S10240x312, .f32⟩ : BufTy).Contents (Elt Ideal)) (n : (⟨S10240x1, .f32⟩ : BufTy).Contents (Elt Ideal))
    (b : (⟨S312, .f32⟩ : BufTy).Contents (Elt Ideal)) : (⟨S10240x312, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S2048x312.Idx) : S2048x1.Idx := fun a => match a with
  | ⟨0, _⟩ => ⟨(j 0).val, (j 0).isLt⟩
  | ⟨1, _⟩ => ⟨0, Nat.one_pos⟩
abbrev bb (j : S2048x312.Idx) : S312.Idx := fun a => match a with
  | ⟨0, _⟩ => ⟨(j 1).val, (j 1).isLt⟩

/-- One block's result at an index: the column is read at the index's row, the bias at its feature, and the other two
    operands at the index itself. -/
theorem pay_apply (v0 : Vec Ideal S2048x1 .f32) (v2 : Vec Ideal S312 .f32) (v6 v8 : Vec Ideal S2048x312 .f32) (j : S2048x312.Idx) :
    k5_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 2048) (q : Fin 312), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S2048x312 (shapeCast S2048x1 v0 shapeCasts_S2048x1_S2048x1) broadcasts_S2048x1_S2048x312 (ix2 p q) = v0 (ix2 p (0 : Fin 1)) := by
    rw [shapeCast_self]
    exact Cert.LibLayout.broadcastTo_a1_ab_apply v0 _ p q
  have hb : broadcastTo S2048x312 (shapeCast S1x312 (shapeCast S1x312 v2 shapeCasts_S312_S1x312) shapeCasts_S1x312_S1x312) broadcasts_S1x312_S2048x312 (ix2 p q) = v2 (ix1 q) := by
    rw [shapeCast_self]
    exact (broadcastTo_1b_ab_apply _ _ p q).trans (shapeCast_a_1a_apply v2 _ 0 q)
  have h6 : shapeCast S2048x312 v6 shapeCasts_S2048x312_S2048x312 = v6 := shapeCast_self _ _
  have h8 : shapeCast S2048x312 v8 shapeCasts_S2048x312_S2048x312 = v8 := shapeCast_self _ _
  rw [en, eb]
  show max (broadcastTo S2048x312 (shapeCast S2048x1 v0 shapeCasts_S2048x1_S2048x1) broadcasts_S2048x1_S2048x312 (ix2 p q)
        * (shapeCast S2048x312 v6 shapeCasts_S2048x312_S2048x312 (ix2 p q)
            + broadcastTo S2048x312 (shapeCast S2048x1 v0 shapeCasts_S2048x1_S2048x1) broadcasts_S2048x1_S2048x312 (ix2 p q) * shapeCast S2048x312 v8 shapeCasts_S2048x312_S2048x312 (ix2 p q))
        + broadcastTo S2048x312 (shapeCast S1x312 (shapeCast S1x312 v2 shapeCasts_S312_S1x312) shapeCasts_S1x312_S1x312) broadcasts_S1x312_S2048x312 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg5.N,
    win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 1) = 0
    ∧ win5_4.index t (1 : Fin 2) = 0 :=
  (by decide +kernel : ∀ t : Fin grid5.N, _)

/-- Every row block is some grid point's. -/
theorem idx_onto : ∀ (q0 : Fin 5), ∃ t : Fin cfg5.N, win5_4.index t = ![q0.val, 0] :=
  (by decide +kernel : ∀ (q0 : Fin 5), ∃ t : Fin grid5.N, win5_4.index t = ![q0.val, 0])

/-- What grid point t writes back is block t of the combined features of the arrays as the region finds them. -/
theorem flushed_eq (c : Dev nD) (t : Fin cfg5.N) :
    (dat5 V c).flushed 4 t
      = ((cfg5.win 4).blk t).view.read (Elt Ideal) (comb ((a0 V c)) ((a1 V c)) ((a2 V c)) ((a3 V c))) := by
  show (cfg5.win 4).cut (grid5.coords t) ((dat5 V c).after 4 t) = _
  rw [after5_4]
  unfold out5_4
  rw [View.canon_unit_zero hz]
  simp only [View.ld_unit_zero (S := S2048x312) hz, View.ld_unit_zero (S := S2048x1) hz, View.ld_unit_zero (S := S312) hz1]
  obtain ⟨e0, e1, e2, e3, e4, e5, e6, e7⟩ := idx_facts t
  funext j
  show k5_pay1 (F := Ideal) (iblk5 V c 2 t) (iblk5 V c 3 t) (iblk5 V c 0 t) (iblk5 V c 1 t) j
    = comb ((a0 V c)) ((a1 V c)) ((a2 V c)) ((a3 V c)) (((cfg5.win 4).blk t).view.emb j)
  refine (pay_apply (iblk5 V c 2 t) (iblk5 V c 3 t) (iblk5 V c 0 t) (iblk5 V c 1 t) j).trans ?_
  show max ((a2 V c) (((cfg5.win 2).blk t).view.emb (bn j))
        * ((a0 V c) (((cfg5.win 0).blk t).view.emb j)
            + (a2 V c) (((cfg5.win 2).blk t).view.emb (bn j)) * (a1 V c) (((cfg5.win 1).blk t).view.emb j))
        + (a3 V c) (((cfg5.win 3).blk t).view.emb (bb j))) (Scalar.ofBits (F := Ideal) .f32 0x00000000#32)
    = max ((a2 V c) (wn (((cfg5.win 4).blk t).view.emb j))
        * ((a0 V c) (((cfg5.win 4).blk t).view.emb j)
            + (a2 V c) (wn (((cfg5.win 4).blk t).view.emb j)) * (a1 V c) (((cfg5.win 4).blk t).view.emb j))
        + (a3 V c) (wb (((cfg5.win 4).blk t).view.emb j))) (Scalar.ofBits (F := Ideal) .f32 0x00000000#32)
  have h0 : ((cfg5.win 0).blk t).view.emb j = ((cfg5.win 4).blk t).view.emb j := by
    funext a; apply Fin.ext
    match a with
    | ⟨0, _⟩ => show win5_0.index t (0 : Fin 2) * 2048 + 1 * (j 0).val = win5_4.index t (0 : Fin 2) * 2048 + 1 * (j 0).val; omega
    | ⟨1, _⟩ => show win5_0.index t (1 : Fin 2) * 312 + 1 * (j 1).val = win5_4.index t (1 : Fin 2) * 312 + 1 * (j 1).val; omega
  have h1 : ((cfg5.win 1).blk t).view.emb j = ((cfg5.win 4).blk t).view.emb j := by
    funext a; apply Fin.ext
    match a with
    | ⟨0, _⟩ => show win5_1.index t (0 : Fin 2) * 2048 + 1 * (j 0).val = win5_4.index t (0 : Fin 2) * 2048 + 1 * (j 0).val; omega
    | ⟨1, _⟩ => show win5_1.index t (1 : Fin 2) * 312 + 1 * (j 1).val = win5_4.index t (1 : Fin 2) * 312 + 1 * (j 1).val; omega
  have h2 : ((cfg5.win 2).blk t).view.emb (bn j) = wn (((cfg5.win 4).blk t).view.emb j) := by
    funext a; apply Fin.ext
    match a with
    | ⟨0, _⟩ => show win5_2.index t (0 : Fin 2) * 2048 + 1 * (j 0).val = win5_4.index t (0 : Fin 2) * 2048 + 1 * (j 0).val; omega
    | ⟨1, _⟩ => show win5_2.index t (1 : Fin 2) * 1 + 1 * 0 = 0; omega
  have h3 : ((cfg5.win 3).blk t).view.emb (bb j) = wb (((cfg5.win 4).blk t).view.emb j) := by
    funext a; apply Fin.ext
    match a with
    | ⟨0, _⟩ => show win5_3.index t (0 : Fin 1) * 312 + 1 * (j 1).val = win5_4.index t (1 : Fin 2) * 312 + 1 * (j 1).val; omega
  rw [h0, h1, h2, h3]

/-- An index of the result array lies in grid point t's block iff each coordinate lies in the block's range. -/
theorem mem_blk (t : Fin cfg5.N) (i : S10240x312.Idx) :
    i ∈ ((cfg5.win 4).blk t).view.set ↔ ∀ a : Fin 2, win5_4.index t a * S2048x312.size a ≤ (i a).val ∧ (i a).val < win5_4.index t a * S2048x312.size a + S2048x312.size a := by
  show i ∈ ((View.whole main_v77).slice (win5_4.rect t)).set ↔ _
  rw [View.set_slice_whole, Rect.mem_set_unit]
  exact Iff.rfl

/-- The row blocks tile the result: row i lies in block i / 2048. -/
theorem cover (i : S10240x312.Idx) : ∃ t : Fin cfg5.N, (cfg5.win 4).flush t = true ∧ i ∈ ((cfg5.win 4).blk t).view.set := by
  have hi0 : (i 0).val < 10240 := (i 0).isLt
  have hi1 : (i 1).val < 312 := (i 1).isLt
  obtain ⟨t, ht⟩ := idx_onto ⟨(i 0).val / 2048, by omega⟩
  have q0 : win5_4.index t (0 : Fin 2) = (i 0).val / 2048 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 2048 ≤ (i 0).val ∧ (i 0).val < win5_4.index t (0 : Fin 2) * 2048 + 2048; omega
  | ⟨1, _⟩ => show win5_4.index t (1 : Fin 2) * 312 ≤ (i 1).val ∧ (i 1).val < win5_4.index t (1 : Fin 2) * 312 + 312; omega

/-- The array the region leaves: the combined features of the four arrays it was entered with. -/
theorem final (c : Dev nD) : (dat5 V c).arrAt 4 cfg5.N = comb ((a0 V c)) ((a1 V c)) ((a2 V c)) ((a3 V c)) :=
  (dat5 V c).arrAt_eq_of_cover 4 (comb ((a0 V c)) ((a1 V c)) ((a2 V c)) ((a3 V c))) (fun t _ => flushed_eq V c t) cover

end Cert.KernelIdeal.Cb5

end
-- ==== Proof.Ln6.lean ====
/-
  The first dense layer of the molecule branch's head: out = max(x · w + b, 0), with x : [256, 312], w : [312, 1024] and the bias b : [1024] added to every row, computed in one piece.
  At (i, q) the result is the sum over k of x(i, k) · w(k, q), plus b(q), then the larger of that and zero: the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln6

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x312, .f32⟩ : BufTy).Contents (Elt Ideal) := V c main_v89
abbrev a1 (c : Dev nD) : (⟨S312x1024, .f32⟩ : BufTy).Contents (Elt Ideal) := V c main_arg12
abbrev a2 (c : Dev nD) : (⟨S1024, .f32⟩ : BufTy).Contents (Elt Ideal) := V c main_arg13

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x1024.Idx) (k : Fin 312) : S256x312.Idx := fun a => match a with
  | ⟨0, _⟩ => ⟨(i 0).val, (i 0).isLt⟩
  | ⟨1, _⟩ => ⟨k.val, k.isLt⟩
abbrev wr (i : S256x1024.Idx) (k : Fin 312) : S312x1024.Idx := fun a => match a with
  | ⟨0, _⟩ => ⟨k.val, k.isLt⟩
  | ⟨1, _⟩ => ⟨(i 1).val, (i 1).isLt⟩
abbrev wb (i : S256x1024.Idx) : S1024.Idx := fun a => match a with
  | ⟨0, _⟩ => ⟨(i 1).val, (i 1).isLt⟩

/-- The layer's output, entry by entry. -/
def lin (x : (⟨S256x312, .f32⟩ : BufTy).Contents (Elt Ideal)) (w : (⟨S312x1024, .f32⟩ : BufTy).Contents (Elt Ideal))
    (b : (⟨S1024, .f32⟩ : BufTy).Contents (Elt Ideal)) : (⟨S256x1024, .f32⟩ : BufTy).Contents (Elt Ideal) :=
  fun i => max ((∑ k : Fin 312, x (wl i k) * w (wr i k)) + b (wb i)) (Scalar.ofBits (F := Ideal) .f32 0x00000000#32)

/-- The same index maps inside one block of rows. -/
abbrev bl (j : S256x1024.Idx) (k : Fin 312) : S256x312.Idx := fun a => match a with
  | ⟨0, _⟩ => ⟨(j 0).val, (j 0).isLt⟩
  | ⟨1, _⟩ => ⟨k.val, k.isLt⟩
abbrev br (j : S256x1024.Idx) (k : Fin 312) : S312x1024.Idx := fun a => match a with
  | ⟨0, _⟩ => ⟨k.val, k.isLt⟩
  | ⟨1, _⟩ => ⟨(j 1).val, (j 1).isLt⟩
abbrev bb (j : S256x1024.Idx) : S1024.Idx := fun a => match a with
  | ⟨0, _⟩ => ⟨(j 1).val, (j 1).isLt⟩

theorem lhs_0 (i : S256x1024.Idx) (q : dot_S256x312_S312x1024_S256x1024_1_0_0_1_n_n.contr.Idx) : (dot_S256x312_S312x1024_S256x1024_1_0_0_1_n_n.lhsIdx i q 0).val = (i 0).val := by
  unfold DotDims.lhsIdx
  rw [dif_neg (show ¬(0 : Fin S256x312.rank) ∈ dot_S256x312_S312x1024_S256x1024_1_0_0_1_n_n.lhsBatch by decide), dif_pos (show (0 : Fin S256x312.rank) ∈ dot_S256x312_S312x1024_S256x1024_1_0_0_1_n_n.lhsNonContracting by decide)]
  rfl
theorem lhs_1 (i : S256x1024.Idx) (q : dot_S256x312_S312x1024_S256x1024_1_0_0_1_n_n.contr.Idx) : (dot_S256x312_S312x1024_S256x1024_1_0_0_1_n_n.lhsIdx i q 1).val = (q ⟨0, by decide⟩).val :=
  dot_S256x312_S312x1024_S256x1024_1_0_0_1_n_n.lhsIdx_val_of_single rfl i q
theorem rhs_0 (i : S256x1024.Idx) (q : dot_S256x312_S312x1024_S256x1024_1_0_0_1_n_n.contr.Idx) : (dot_S256x312_S312x1024_S256x1024_1_0_0_1_n_n.rhsIdx i q 0).val = (q ⟨0, by decide⟩).val :=
  dot_S256x312_S312x1024_S256x1024_1_0_0_1_n_n.rhsIdx_val_of_single rfl i q
theorem rhs_1 (i : S256x1024.Idx) (q : dot_S256x312_S312x1024_S256x1024_1_0_0_1_n_n.contr.Idx) : (dot_S256x312_S312x1024_S256x1024_1_0_0_1_n_n.rhsIdx i q 1).val = (i 1).val := by
  unfold DotDims.rhsIdx
  rw [dif_neg (show ¬(1 : Fin S312x1024.rank) ∈ dot_S256x312_S312x1024_S256x1024_1_0_0_1_n_n.rhsBatch by decide), dif_pos (show (1 : Fin S312x1024.rank) ∈ dot_S256x312_S312x1024_S256x1024_1_0_0_1_n_n.rhsNonContracting by decide)]
  rfl

/-- The product into a zero accumulator at (p, q): the plain sum over the contracted axis. -/
theorem mm_apply (x0 : Vec Ideal S256x312 .f32) (x1 : Vec Ideal S312x1024 .f32) (j : S256x1024.Idx) :
    FloatOps.matmul (F := Ideal) (φ₁ := .f32) (φ₂ := .f32) dot_S256x312_S312x1024_S256x1024_1_0_0_1_n_n none (x0 : FVec Ideal S256x312 .f32) (x1 : FVec Ideal S312x1024 .f32) (constant S256x1024 .f32 0x00000000#32) j = ∑ k : Fin 312, x0 (bl j k) * x1 (br j k) := by
  rw [Ideal.matmul_constant_zero_apply, ← Equiv.sum_comp (ValueIdx.contrEquiv1 dot_S256x312_S312x1024_S256x1024_1_0_0_1_n_n 312 rfl rfl).symm]
  refine Finset.sum_congr rfl fun k _ => ?_
  have hk := ValueIdx.contrEquiv1_symm_val dot_S256x312_S312x1024_S256x1024_1_0_0_1_n_n 312 rfl rfl k
  have el : dot_S256x312_S312x1024_S256x1024_1_0_0_1_n_n.lhsIdx j ((ValueIdx.contrEquiv1 dot_S256x312_S312x1024_S256x1024_1_0_0_1_n_n 312 rfl rfl).symm k) = bl j k := funext fun a => Fin.ext (by
    match a with
    | ⟨0, _⟩ => exact lhs_0 _ _
    | ⟨1, _⟩ => exact (lhs_1 _ _).trans hk)
  have er : dot_S256x312_S312x1024_S256x1024_1_0_0_1_n_n.rhsIdx j ((ValueIdx.contrEquiv1 dot_S256x312_S312x1024_S256x1024_1_0_0_1_n_n 312 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x312 .f32) (v3 : Vec Ideal S312x1024 .f32) (v6 : Vec Ideal S1024 .f32) (j : S256x1024.Idx) :
    k6_pay1 (F := Ideal) v0 v3 v6 j = max ((∑ k : Fin 312, v0 (bl j k) * v3 (br j k)) + v6 (bb j)) (Scalar.ofBits (F := Ideal) .f32 0x00000000#32) := by
  have hm := mm_apply v0 v3 j
  obtain ⟨p, q, rfl⟩ : ∃ (p : Fin 256) (q : Fin 1024), j = ix2 p q := ⟨j 0, j 1, eq_ix2 j⟩
  have eb : bb (ix2 p q) = ix1 q := funext fun a => by match a with | ⟨0, _⟩ => rfl
  have hb : broadcastTo S256x1024 (shapeCast S1x1024 (shapeCast S1x1024 v6 shapeCasts_S1024_S1x1024) shapeCasts_S1x1024_S1x1024) broadcasts_S1x1024_S256x1024 (ix2 p q) = v6 (ix1 q) := by
    rw [shapeCast_self]
    exact (broadcastTo_1b_ab_apply _ _ p q).trans (shapeCast_a_1a_apply v6 _ 0 q)
  have h0 : shapeCast S256x312 v0 shapeCasts_S256x312_S256x312 = v0 := shapeCast_self _ _
  rw [eb]
  show max (FloatOps.matmul (F := Ideal) (φ₁ := .f32) (φ₂ := .f32) dot_S256x312_S312x1024_S256x1024_1_0_0_1_n_n none (shapeCast S256x312 v0 shapeCasts_S256x312_S256x312 : FVec Ideal S256x312 .f32) (v3 : FVec Ideal S312x1024 .f32) (constant S256x1024 .f32 0x00000000#32) (ix2 p q)
        + broadcastTo S256x1024 (shapeCast S1x1024 (shapeCast S1x1024 v6 shapeCasts_S1024_S1x1024) shapeCasts_S1x1024_S1x1024) broadcasts_S1x1024_S256x1024 (ix2 p q)) (Scalar.ofBits (F := Ideal) .f32 0x00000000#32) = _
  rw [h0, hm, hb]

/-- Where each window's block sits at grid point t. -/
theorem idx_facts : ∀ t : Fin cfg6.N,
    win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 1) = 0
    ∧ win6_3.index t (1 : Fin 2) = 0 :=
  (by decide +kernel : ∀ t : Fin grid6.N, _)

/-- Every row block is some grid point's. -/
theorem idx_onto : ∀ (q0 : Fin 1), ∃ t : Fin cfg6.N, win6_3.index t = ![q0.val, 0] :=
  (by decide +kernel : ∀ (q0 : Fin 1), ∃ t : Fin grid6.N, win6_3.index t = ![q0.val, 0])

/-- What grid point t writes back is block t of the layer's output of the arrays as the region finds them. -/
theorem flushed_eq (c : Dev nD) (t : Fin cfg6.N) :
    (dat6 V c).flushed 3 t = ((cfg6.win 3).blk t).view.read (Elt Ideal) (lin ((a0 V c)) ((a1 V c)) ((a2 V c))) := by
  show (cfg6.win 3).cut (grid6.coords t) ((dat6 V c).after 3 t) = _
  rw [after6_3]
  unfold out6_3
  rw [View.canon_unit_zero hz]
  simp only [View.ld_unit_zero (S := S256x312) hz, View.ld_unit_zero (S := S312x1024) hz, View.ld_unit_zero (S := S1024) hz1]
  obtain ⟨e0, e1, e2, e3, e4, e5⟩ := idx_facts t
  funext j
  show k6_pay1 (F := Ideal) (iblk6 V c 0 t) (iblk6 V c 1 t) (iblk6 V c 2 t) j
    = lin ((a0 V c)) ((a1 V c)) ((a2 V c)) (((cfg6.win 3).blk t).view.emb j)
  refine (pay_apply (iblk6 V c 0 t) (iblk6 V c 1 t) (iblk6 V c 2 t) j).trans ?_
  have h0 : ∀ k : Fin 312, ((cfg6.win 0).blk t).view.emb (bl j k) = wl (((cfg6.win 3).blk t).view.emb j) k := fun k => by
    funext a; apply Fin.ext
    match a with
    | ⟨0, _⟩ => show win6_0.index t (0 : Fin 2) * 256 + 1 * (j 0).val = win6_3.index t (0 : Fin 2) * 256 + 1 * (j 0).val; omega
    | ⟨1, _⟩ => show win6_0.index t (1 : Fin 2) * 312 + 1 * k.val = k.val; omega
  have h1 : ∀ k : Fin 312, ((cfg6.win 1).blk t).view.emb (br j k) = wr (((cfg6.win 3).blk t).view.emb j) k := fun k => by
    funext a; apply Fin.ext
    match a with
    | ⟨0, _⟩ => show win6_1.index t (0 : Fin 2) * 312 + 1 * k.val = k.val; omega
    | ⟨1, _⟩ => show win6_1.index t (1 : Fin 2) * 1024 + 1 * (j 1).val = win6_3.index t (1 : Fin 2) * 1024 + 1 * (j 1).val; omega
  have h2 : ((cfg6.win 2).blk t).view.emb (bb j) = wb (((cfg6.win 3).blk t).view.emb j) := by
    funext a; apply Fin.ext
    match a with
    | ⟨0, _⟩ => show win6_2.index t (0 : Fin 1) * 1024 + 1 * (j 1).val = win6_3.index t (1 : Fin 2) * 1024 + 1 * (j 1).val; omega
  have hs : (∑ k : Fin 312, (a0 V c) (((cfg6.win 0).blk t).view.emb (bl j k)) * (a1 V c) (((cfg6.win 1).blk t).view.emb (br j k)))
      = ∑ k : Fin 312, (a0 V c) (wl (((cfg6.win 3).blk t).view.emb j) k) * (a1 V c) (wr (((cfg6.win 3).blk t).view.emb j) k) :=
    Finset.sum_congr rfl fun k _ => by rw [h0 k, h1 k]
  show max ((∑ k : Fin 312, (a0 V c) (((cfg6.win 0).blk t).view.emb (bl j k)) * (a1 V c) (((cfg6.win 1).blk t).view.emb (br j k)))
        + (a2 V c) (((cfg6.win 2).blk t).view.emb (bb j))) (Scalar.ofBits (F := Ideal) .f32 0x00000000#32)
    = max ((∑ k : Fin 312, (a0 V c) (wl (((cfg6.win 3).blk t).view.emb j) k) * (a1 V c) (wr (((cfg6.win 3).blk t).view.emb j) k))
        + (a2 V c) (wb (((cfg6.win 3).blk t).view.emb j))) (Scalar.ofBits (F := Ideal) .f32 0x00000000#32)
  rw [hs, h2]

/-- An index of the result array lies in grid point t's block iff each coordinate lies in the block's range. -/
theorem mem_blk (t : Fin cfg6.N) (i : S256x1024.Idx) :
    i ∈ ((cfg6.win 3).blk t).view.set ↔ ∀ a : Fin 2, win6_3.index t a * S256x1024.size a ≤ (i a).val ∧ (i a).val < win6_3.index t a * S256x1024.size a + S256x1024.size a := by
  show i ∈ ((View.whole main_v90).slice (win6_3.rect t)).set ↔ _
  rw [View.set_slice_whole, Rect.mem_set_unit]
  exact Iff.rfl

/-- The row blocks tile the result: row i lies in block i / 256. -/
theorem cover (i : S256x1024.Idx) : ∃ t : Fin cfg6.N, (cfg6.win 3).flush t = true ∧ i ∈ ((cfg6.win 3).blk t).view.set := by
  have hi0 : (i 0).val < 256 := (i 0).isLt
  have hi1 : (i 1).val < 1024 := (i 1).isLt
  obtain ⟨t, ht⟩ := idx_onto ⟨(i 0).val / 256, by omega⟩
  have q0 : win6_3.index t (0 : Fin 2) = (i 0).val / 256 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 256 ≤ (i 0).val ∧ (i 0).val < win6_3.index t (0 : Fin 2) * 256 + 256; omega
  | ⟨1, _⟩ => show win6_3.index t (1 : Fin 2) * 1024 ≤ (i 1).val ∧ (i 1).val < win6_3.index t (1 : Fin 2) * 1024 + 1024; omega

/-- The array the region leaves: the layer's output of the three arrays it was entered with. -/
theorem final (c : Dev nD) : (dat6 V c).arrAt 3 cfg6.N = lin ((a0 V c)) ((a1 V c)) ((a2 V c)) :=
  (dat6 V c).arrAt_eq_of_cover 3 (lin ((a0 V c)) ((a1 V c)) ((a2 V c))) (fun t _ => flushed_eq V c t) cover

end Cert.KernelIdeal.Ln6

end
-- ==== Proof.Ln7.lean ====
/-
  The second dense layer of the molecule branch's head: out = x · w + b, with x : [256, 1024], w : [1024, 128] and the bias b : [128] added to every row, computed in one piece.
  At (i, q) the result is the sum over k of x(i, k) · w(k, q), plus b(q): the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln7

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x1024, .f32⟩ : BufTy).Contents (Elt Ideal) := V c main_v90
abbrev a1 (c : Dev nD) : (⟨S1024x128, .f32⟩ : BufTy).Contents (Elt Ideal) := V c main_arg14
abbrev a2 (c : Dev nD) : (⟨S128, .f32⟩ : BufTy).Contents (Elt Ideal) := V c main_arg15

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x128.Idx) (k : Fin 1024) : S256x1024.Idx := fun a => match a with
  | ⟨0, _⟩ => ⟨(i 0).val, (i 0).isLt⟩
  | ⟨1, _⟩ => ⟨k.val, k.isLt⟩
abbrev wr (i : S256x128.Idx) (k : Fin 1024) : S1024x128.Idx := fun a => match a with
  | ⟨0, _⟩ => ⟨k.val, k.isLt⟩
  | ⟨1, _⟩ => ⟨(i 1).val, (i 1).isLt⟩
abbrev wb (i : S256x128.Idx) : S128.Idx := fun a => match a with
  | ⟨0, _⟩ => ⟨(i 1).val, (i 1).isLt⟩

/-- The layer's output, entry by entry. -/
def lin (x : (⟨S256x1024, .f32⟩ : BufTy).Contents (Elt Ideal)) (w : (⟨S1024x128, .f32⟩ : BufTy).Contents (Elt Ideal))
    (b : (⟨S128, .f32⟩ : BufTy).Contents (Elt Ideal)) : (⟨S256x128, .f32⟩ : BufTy).Contents (Elt Ideal) :=
  fun i => (∑ k : Fin 1024, x (wl i k) * w (wr i k)) + b (wb i)

/-- The same index maps inside one block of rows. -/
abbrev bl (j : S256x128.Idx) (k : Fin 1024) : S256x1024.Idx := fun a => match a with
  | ⟨0, _⟩ => ⟨(j 0).val, (j 0).isLt⟩
  | ⟨1, _⟩ => ⟨k.val, k.isLt⟩
abbrev br (j : S256x128.Idx) (k : Fin 1024) : S1024x128.Idx := fun a => match a with
  | ⟨0, _⟩ => ⟨k.val, k.isLt⟩
  | ⟨1, _⟩ => ⟨(j 1).val, (j 1).isLt⟩
abbrev bb (j : S256x128.Idx) : S128.Idx := fun a => match a with
  | ⟨0, _⟩ => ⟨(j 1).val, (j 1).isLt⟩

theorem lhs_0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_1 (i : S256x128.Idx) (q : dot_S256x1024_S1024x128_S256x128_1_0_0_1_n_n.contr.Idx) : (dot_S256x1024_S1024x128_S256x128_1_0_0_1_n_n.lhsIdx i q 1).val = (q ⟨0, by decide⟩).val :=
  dot_S256x1024_S1024x128_S256x128_1_0_0_1_n_n.lhsIdx_val_of_single rfl i q
theorem rhs_0 (i : S256x128.Idx) (q : dot_S256x1024_S1024x128_S256x128_1_0_0_1_n_n.contr.Idx) : (dot_S256x1024_S1024x128_S256x128_1_0_0_1_n_n.rhsIdx i q 0).val = (q ⟨0, by decide⟩).val :=
  dot_S256x1024_S1024x128_S256x128_1_0_0_1_n_n.rhsIdx_val_of_single rfl i q
theorem rhs_1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product into a zero accumulator at (p, q): the plain sum over the contracted axis. -/
theorem mm_apply (x0 : Vec Ideal S256x1024 .f32) (x1 : Vec Ideal S1024x128 .f32) (j : S256x128.Idx) :
    FloatOps.matmul (F := Ideal) (φ₁ := .f32) (φ₂ := .f32) dot_S256x1024_S1024x128_S256x128_1_0_0_1_n_n none (x0 : FVec Ideal S256x1024 .f32) (x1 : FVec Ideal S1024x128 .f32) (constant S256x128 .f32 0x00000000#32) j = ∑ k : Fin 1024, x0 (bl j k) * x1 (br j k) := by
  rw [Ideal.matmul_constant_zero_apply, ← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx j ((ValueIdx.contrEquiv1 dot_S256x1024_S1024x128_S256x128_1_0_0_1_n_n 1024 rfl rfl).symm k) = bl j k := funext fun a => Fin.ext (by
    match a with
    | ⟨0, _⟩ => exact lhs_0 _ _
    | ⟨1, _⟩ => exact (lhs_1 _ _).trans hk)
  have er : dot_S256x1024_S1024x128_S256x128_1_0_0_1_n_n.rhsIdx j ((ValueIdx.contrEquiv1 dot_S256x1024_S1024x128_S256x128_1_0_0_1_n_n 1024 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x1024 .f32) (v3 : Vec Ideal S1024x128 .f32) (v6 : Vec Ideal S128 .f32) (j : S256x128.Idx) :
    k7_pay1 (F := Ideal) v0 v3 v6 j = (∑ k : Fin 1024, v0 (bl j k) * v3 (br j k)) + v6 (bb j) := by
  have hm := mm_apply v0 v3 j
  obtain ⟨p, q, rfl⟩ : ∃ (p : Fin 256) (q : Fin 128), j = ix2 p q := ⟨j 0, j 1, eq_ix2 j⟩
  have eb : bb (ix2 p q) = ix1 q := funext fun a => by match a with | ⟨0, _⟩ => rfl
  have hb : broadcastTo S256x128 (shapeCast S1x128 (shapeCast S1x128 v6 shapeCasts_S128_S1x128) shapeCasts_S1x128_S1x128) broadcasts_S1x128_S256x128 (ix2 p q) = v6 (ix1 q) := by
    rw [shapeCast_self]
    exact (broadcastTo_1b_ab_apply _ _ p q).trans (shapeCast_a_1a_apply v6 _ 0 q)
  have h0 : shapeCast S256x1024 v0 shapeCasts_S256x1024_S256x1024 = v0 := shapeCast_self _ _
  rw [eb]
  show FloatOps.matmul (F := Ideal) (φ₁ := .f32) (φ₂ := .f32) dot_S256x1024_S1024x128_S256x128_1_0_0_1_n_n none (shapeCast S256x1024 v0 shapeCasts_S256x1024_S256x1024 : FVec Ideal S256x1024 .f32) (v3 : FVec Ideal S1024x128 .f32) (constant S256x128 .f32 0x00000000#32) (ix2 p q)
        + broadcastTo S256x128 (shapeCast S1x128 (shapeCast S1x128 v6 shapeCasts_S128_S1x128) shapeCasts_S1x128_S1x128) broadcasts_S1x128_S256x128 (ix2 p q) = _
  rw [h0, hm, hb]

/-- Where each window's block sits at grid point t. -/
theorem idx_facts : ∀ t : Fin cfg7.N,
    win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 1) = 0
    ∧ win7_3.index t (1 : Fin 2) = 0 :=
  (by decide +kernel : ∀ t : Fin grid7.N, _)

/-- Every row block is some grid point's. -/
theorem idx_onto : ∀ (q0 : Fin 1), ∃ t : Fin cfg7.N, win7_3.index t = ![q0.val, 0] :=
  (by decide +kernel : ∀ (q0 : Fin 1), ∃ t : Fin grid7.N, win7_3.index t = ![q0.val, 0])

/-- What grid point t writes back is block t of the layer's output of the arrays as the region finds them. -/
theorem flushed_eq (c : Dev nD) (t : Fin cfg7.N) :
    (dat7 V c).flushed 3 t = ((cfg7.win 3).blk t).view.read (Elt Ideal) (lin ((a0 V c)) ((a1 V c)) ((a2 V c))) := by
  show (cfg7.win 3).cut (grid7.coords t) ((dat7 V c).after 3 t) = _
  rw [after7_3]
  unfold out7_3
  rw [View.canon_unit_zero hz]
  simp only [View.ld_unit_zero (S := S256x1024) hz, View.ld_unit_zero (S := S1024x128) hz, View.ld_unit_zero (S := S128) hz1]
  obtain ⟨e0, e1, e2, e3, e4, e5⟩ := idx_facts t
  funext j
  show k7_pay1 (F := Ideal) (iblk7 V c 0 t) (iblk7 V c 1 t) (iblk7 V c 2 t) j
    = lin ((a0 V c)) ((a1 V c)) ((a2 V c)) (((cfg7.win 3).blk t).view.emb j)
  refine (pay_apply (iblk7 V c 0 t) (iblk7 V c 1 t) (iblk7 V c 2 t) j).trans ?_
  have h0 : ∀ k : Fin 1024, ((cfg7.win 0).blk t).view.emb (bl j k) = wl (((cfg7.win 3).blk t).view.emb j) k := fun k => by
    funext a; apply Fin.ext
    match a with
    | ⟨0, _⟩ => show win7_0.index t (0 : Fin 2) * 256 + 1 * (j 0).val = win7_3.index t (0 : Fin 2) * 256 + 1 * (j 0).val; omega
    | ⟨1, _⟩ => show win7_0.index t (1 : Fin 2) * 1024 + 1 * k.val = k.val; omega
  have h1 : ∀ k : Fin 1024, ((cfg7.win 1).blk t).view.emb (br j k) = wr (((cfg7.win 3).blk t).view.emb j) k := fun k => by
    funext a; apply Fin.ext
    match a with
    | ⟨0, _⟩ => show win7_1.index t (0 : Fin 2) * 1024 + 1 * k.val = k.val; omega
    | ⟨1, _⟩ => show win7_1.index t (1 : Fin 2) * 128 + 1 * (j 1).val = win7_3.index t (1 : Fin 2) * 128 + 1 * (j 1).val; omega
  have h2 : ((cfg7.win 2).blk t).view.emb (bb j) = wb (((cfg7.win 3).blk t).view.emb j) := by
    funext a; apply Fin.ext
    match a with
    | ⟨0, _⟩ => show win7_2.index t (0 : Fin 1) * 128 + 1 * (j 1).val = win7_3.index t (1 : Fin 2) * 128 + 1 * (j 1).val; omega
  have hs : (∑ k : Fin 1024, (a0 V c) (((cfg7.win 0).blk t).view.emb (bl j k)) * (a1 V c) (((cfg7.win 1).blk t).view.emb (br j k)))
      = ∑ k : Fin 1024, (a0 V c) (wl (((cfg7.win 3).blk t).view.emb j) k) * (a1 V c) (wr (((cfg7.win 3).blk t).view.emb j) k) :=
    Finset.sum_congr rfl fun k _ => by rw [h0 k, h1 k]
  show (∑ k : Fin 1024, (a0 V c) (((cfg7.win 0).blk t).view.emb (bl j k)) * (a1 V c) (((cfg7.win 1).blk t).view.emb (br j k)))
        + (a2 V c) (((cfg7.win 2).blk t).view.emb (bb j))
    = (∑ k : Fin 1024, (a0 V c) (wl (((cfg7.win 3).blk t).view.emb j) k) * (a1 V c) (wr (((cfg7.win 3).blk t).view.emb j) k))
        + (a2 V c) (wb (((cfg7.win 3).blk t).view.emb j))
  rw [hs, h2]

/-- An index of the result array lies in grid point t's block iff each coordinate lies in the block's range. -/
theorem mem_blk (t : Fin cfg7.N) (i : S256x128.Idx) :
    i ∈ ((cfg7.win 3).blk t).view.set ↔ ∀ a : Fin 2, win7_3.index t a * S256x128.size a ≤ (i a).val ∧ (i a).val < win7_3.index t a * S256x128.size a + S256x128.size a := by
  show i ∈ ((View.whole main_v91).slice (win7_3.rect t)).set ↔ _
  rw [View.set_slice_whole, Rect.mem_set_unit]
  exact Iff.rfl

/-- The row blocks tile the result: row i lies in block i / 256. -/
theorem cover (i : S256x128.Idx) : ∃ t : Fin cfg7.N, (cfg7.win 3).flush t = true ∧ i ∈ ((cfg7.win 3).blk t).view.set := by
  have hi0 : (i 0).val < 256 := (i 0).isLt
  have hi1 : (i 1).val < 128 := (i 1).isLt
  obtain ⟨t, ht⟩ := idx_onto ⟨(i 0).val / 256, by omega⟩
  have q0 : win7_3.index t (0 : Fin 2) = (i 0).val / 256 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 256 ≤ (i 0).val ∧ (i 0).val < win7_3.index t (0 : Fin 2) * 256 + 256; omega
  | ⟨1, _⟩ => show win7_3.index t (1 : Fin 2) * 128 ≤ (i 1).val ∧ (i 1).val < win7_3.index t (1 : Fin 2) * 128 + 128; omega

/-- The array the region leaves: the layer's output of the three arrays it was entered with. -/
theorem final (c : Dev nD) : (dat7 V c).arrAt 3 cfg7.N = lin ((a0 V c)) ((a1 V c)) ((a2 V c)) :=
  (dat7 V c).arrAt_eq_of_cover 3 (lin ((a0 V c)) ((a1 V c)) ((a2 V c))) (fun t _ => flushed_eq V c t) cover

end Cert.KernelIdeal.Ln7

end
-- ==== Proof.BridgeMolA.lean ====
/-
  The regions 0, 1, 2, 3 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Mm0
import proofs.«144194_j36799279792821_1_alg».proof.Proof.Cb1
import proofs.«144194_j36799279792821_1_alg».proof.Proof.Mm2
import proofs.«144194_j36799279792821_1_alg».proof.Proof.Cb3

set_option maxRecDepth 16384

noncomputable section

namespace Cert.Bridge

open Idealize.ShloMosaic Idealize.ShloMosaic.TcCoe Idealize.SL.Sem

/-- The blocked product of region 0 is the reference's one matrix product. -/
theorem mm0 (x0 : (⟨Cert.ReferenceIdeal.S10240x78, .f32⟩ : BufTy).Contents (Elt Ideal)) (x6 : (⟨Cert.ReferenceIdeal.S78x78, .f32⟩ : BufTy).Contents (Elt Ideal)) : Cert.KernelIdeal.Mm0.prod x0 x6 = (Cert.ReferenceIdeal.ReadP.val_main_v4 (F := Ideal) x0 x6) := by
  funext i
  refine Eq.trans ?_ (Cert.ReferenceIdeal.ReadP.val_main_v4_apply x0 x6 i).symm
  refine Finset.sum_congr rfl fun k _ => ?_
  have el : Cert.KernelIdeal.Mm0.wl i k = Cert.ReferenceIdeal.ReadP.lidx_main_v4 i k := funext fun a => by match a with | ⟨0, _⟩ => rfl | ⟨1, _⟩ => rfl
  have er : Cert.KernelIdeal.Mm0.wr i k = Cert.ReferenceIdeal.ReadP.ridx_main_v4 i k := funext fun a => by match a with | ⟨0, _⟩ => rfl | ⟨1, _⟩ => rfl
  show x0 (Cert.KernelIdeal.Mm0.wl i k) * x6 (Cert.KernelIdeal.Mm0.wr i k) = _
  rw [el, er]

/-- Region 1's combined features are the reference's, entry by entry: both read the norm column at the entry's row
    and the bias at the entry's feature. The reference recomputes the column for its two uses; the copies are one function. -/
theorem cb1 (x0 : (⟨Cert.ReferenceIdeal.S10240x78, .f32⟩ : BufTy).Contents (Elt Ideal)) (x1 : (⟨Cert.ReferenceIdeal.S2x40960, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) :
    Cert.KernelIdeal.Cb1.comb (Cert.ReferenceIdeal.ReadP.val_main_v31 (F := Ideal) x0 x1 x6) (Cert.ReferenceIdeal.ReadP.val_main_v4 (F := Ideal) x0 x6) (Cert.ReferenceIdeal.ReadP.val_main_v32 (F := Ideal) x1) x7 = (Cert.ReferenceIdeal.ReadP.val_main_v42 (F := Ideal) x0 x1 x6 x7) := by
  funext i
  have eD : (Cert.ReferenceIdeal.ReadP.val_main_v37 (F := Ideal) x1) i = (Cert.ReferenceIdeal.ReadP.val_main_v32 (F := Ideal) x1) (Cert.ReferenceIdeal.ReadP.idx_main_v37 i) :=
    (Cert.ReferenceIdeal.ReadP.val_main_v37_apply x1 i).trans (congrFun (rfl : (Cert.ReferenceIdeal.ReadP.val_main_v32 (F := Ideal) x1) = (Cert.ReferenceIdeal.ReadP.val_main_v32 (F := Ideal) x1)) _)
  have eH : (Cert.ReferenceIdeal.ReadP.val_main_v34 (F := Ideal) x1) i = (Cert.ReferenceIdeal.ReadP.val_main_v32 (F := Ideal) x1) (Cert.ReferenceIdeal.ReadP.idx_main_v34 i) :=
    (Cert.ReferenceIdeal.ReadP.val_main_v34_apply x1 i).trans (congrFun (rfl : (Cert.ReferenceIdeal.ReadP.val_main_v33 (F := Ideal) x1) = (Cert.ReferenceIdeal.ReadP.val_main_v32 (F := Ideal) x1)) _)
  have eC : (Cert.ReferenceIdeal.ReadP.val_main_v40 (F := Ideal) x7) i = x7 (Cert.ReferenceIdeal.ReadP.idx_main_v39 (Cert.ReferenceIdeal.ReadP.idx_main_v40 i)) :=
    (Cert.ReferenceIdeal.ReadP.val_main_v40_apply x7 i).trans (Cert.ReferenceIdeal.ReadP.val_main_v39_apply x7 _)
  have eZ : (Cert.ReferenceIdeal.ReadP.val_main_call0_v0 (F := Ideal)) i = (FloatOps.ofBits (F := Ideal) .f32 0x00000000#32) := (Cert.ReferenceIdeal.ReadP.val_main_call0_v0_apply i).trans (Cert.ReferenceIdeal.ReadP.val_main_call0_cst_apply _)
  have wD : Cert.ReferenceIdeal.ReadP.idx_main_v37 i = Cert.KernelIdeal.Cb1.wn i := funext fun a => by match a with | ⟨0, _⟩ => rfl | ⟨1, _⟩ => rfl
  have wH : Cert.ReferenceIdeal.ReadP.idx_main_v34 i = Cert.KernelIdeal.Cb1.wn i := funext fun a => by match a with | ⟨0, _⟩ => rfl | ⟨1, _⟩ => rfl
  have wC : Cert.ReferenceIdeal.ReadP.idx_main_v39 (Cert.ReferenceIdeal.ReadP.idx_main_v40 i) = Cert.KernelIdeal.Cb1.wb i := funext fun a => by match a with | ⟨0, _⟩ => rfl
  rw [Cert.ReferenceIdeal.ReadP.val_main_v42_apply, Cert.ReferenceIdeal.ReadP.val_main_v41_apply, Cert.ReferenceIdeal.ReadP.val_main_v38_apply, Cert.ReferenceIdeal.ReadP.val_main_v36_apply, Cert.ReferenceIdeal.ReadP.val_main_v35_apply, eD, eH, eC, eZ, wD, wH, wC]
  unfold Cert.KernelIdeal.Cb1.comb
  generalize (Cert.ReferenceIdeal.ReadP.val_main_v31 (F := Ideal) x0 x1 x6) i = a
  generalize (Cert.ReferenceIdeal.ReadP.val_main_v4 (F := Ideal) x0 x6) i = h
  generalize (Cert.ReferenceIdeal.ReadP.val_main_v32 (F := Ideal) x1) (Cert.KernelIdeal.Cb1.wn i) = n
  generalize x7 (Cert.KernelIdeal.Cb1.wb i) = bb
  rfl

/-- The blocked product of region 2 is the reference's one matrix product. -/
theorem mm2 (x0 : (⟨Cert.ReferenceIdeal.S10240x78, .f32⟩ : BufTy).Contents (Elt Ideal)) (x1 : (⟨Cert.ReferenceIdeal.S2x40960, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) : Cert.KernelIdeal.Mm2.prod (Cert.ReferenceIdeal.ReadP.val_main_v42 (F := Ideal) x0 x1 x6 x7) x8 = (Cert.ReferenceIdeal.ReadP.val_main_v43 (F := Ideal) x0 x1 x6 x7 x8) := by
  funext i
  refine Eq.trans ?_ (Cert.ReferenceIdeal.ReadP.val_main_v43_apply x0 x1 x6 x7 x8 i).symm
  refine Finset.sum_congr rfl fun k _ => ?_
  have el : Cert.KernelIdeal.Mm2.wl i k = Cert.ReferenceIdeal.ReadP.lidx_main_v43 i k := funext fun a => by match a with | ⟨0, _⟩ => rfl | ⟨1, _⟩ => rfl
  have er : Cert.KernelIdeal.Mm2.wr i k = Cert.ReferenceIdeal.ReadP.ridx_main_v43 i k := funext fun a => by match a with | ⟨0, _⟩ => rfl | ⟨1, _⟩ => rfl
  show (Cert.ReferenceIdeal.ReadP.val_main_v42 (F := Ideal) x0 x1 x6 x7) (Cert.KernelIdeal.Mm2.wl i k) * x8 (Cert.KernelIdeal.Mm2.wr i k) = _
  rw [el, er]

/-- Region 3's combined features are the reference's, entry by entry: both read the norm column at the entry's row
    and the bias at the entry's feature. The reference recomputes the column for its two uses; the copies are one function. -/
theorem cb3 (x0 : (⟨Cert.ReferenceIdeal.S10240x78, .f32⟩ : BufTy).Contents (Elt Ideal)) (x1 : (⟨Cert.ReferenceIdeal.S2x40960, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) :
    Cert.KernelIdeal.Cb3.comb (Cert.ReferenceIdeal.ReadP.val_main_v70 (F := Ideal) x0 x1 x6 x7 x8) (Cert.ReferenceIdeal.ReadP.val_main_v43 (F := Ideal) x0 x1 x6 x7 x8) (Cert.ReferenceIdeal.ReadP.val_main_v32 (F := Ideal) x1) x9 = (Cert.ReferenceIdeal.ReadP.val_main_v81 (F := Ideal) x0 x1 x6 x7 x8 x9) := by
  funext i
  have eD : (Cert.ReferenceIdeal.ReadP.val_main_v76 (F := Ideal) x1) i = (Cert.ReferenceIdeal.ReadP.val_main_v32 (F := Ideal) x1) (Cert.ReferenceIdeal.ReadP.idx_main_v76 i) :=
    (Cert.ReferenceIdeal.ReadP.val_main_v76_apply x1 i).trans (congrFun (rfl : (Cert.ReferenceIdeal.ReadP.val_main_v71 (F := Ideal) x1) = (Cert.ReferenceIdeal.ReadP.val_main_v32 (F := Ideal) x1)) _)
  have eH : (Cert.ReferenceIdeal.ReadP.val_main_v73 (F := Ideal) x1) i = (Cert.ReferenceIdeal.ReadP.val_main_v32 (F := Ideal) x1) (Cert.ReferenceIdeal.ReadP.idx_main_v73 i) :=
    (Cert.ReferenceIdeal.ReadP.val_main_v73_apply x1 i).trans (congrFun (rfl : (Cert.ReferenceIdeal.ReadP.val_main_v72 (F := Ideal) x1) = (Cert.ReferenceIdeal.ReadP.val_main_v32 (F := Ideal) x1)) _)
  have eC : (Cert.ReferenceIdeal.ReadP.val_main_v79 (F := Ideal) x9) i = x9 (Cert.ReferenceIdeal.ReadP.idx_main_v78 (Cert.ReferenceIdeal.ReadP.idx_main_v79 i)) :=
    (Cert.ReferenceIdeal.ReadP.val_main_v79_apply x9 i).trans (Cert.ReferenceIdeal.ReadP.val_main_v78_apply x9 _)
  have eZ : (Cert.ReferenceIdeal.ReadP.val_main_call1_v0 (F := Ideal)) i = (FloatOps.ofBits (F := Ideal) .f32 0x00000000#32) := (Cert.ReferenceIdeal.ReadP.val_main_call1_v0_apply i).trans (Cert.ReferenceIdeal.ReadP.val_main_call1_cst_apply _)
  have wD : Cert.ReferenceIdeal.ReadP.idx_main_v76 i = Cert.KernelIdeal.Cb3.wn i := funext fun a => by match a with | ⟨0, _⟩ => rfl | ⟨1, _⟩ => rfl
  have wH : Cert.ReferenceIdeal.ReadP.idx_main_v73 i = Cert.KernelIdeal.Cb3.wn i := funext fun a => by match a with | ⟨0, _⟩ => rfl | ⟨1, _⟩ => rfl
  have wC : Cert.ReferenceIdeal.ReadP.idx_main_v78 (Cert.ReferenceIdeal.ReadP.idx_main_v79 i) = Cert.KernelIdeal.Cb3.wb i := funext fun a => by match a with | ⟨0, _⟩ => rfl
  rw [Cert.ReferenceIdeal.ReadP.val_main_v81_apply, Cert.ReferenceIdeal.ReadP.val_main_v80_apply, Cert.ReferenceIdeal.ReadP.val_main_v77_apply, Cert.ReferenceIdeal.ReadP.val_main_v75_apply, Cert.ReferenceIdeal.ReadP.val_main_v74_apply, eD, eH, eC, eZ, wD, wH, wC]
  unfold Cert.KernelIdeal.Cb3.comb
  generalize (Cert.ReferenceIdeal.ReadP.val_main_v70 (F := Ideal) x0 x1 x6 x7 x8) i = a
  generalize (Cert.ReferenceIdeal.ReadP.val_main_v43 (F := Ideal) x0 x1 x6 x7 x8) i = h
  generalize (Cert.ReferenceIdeal.ReadP.val_main_v32 (F := Ideal) x1) (Cert.KernelIdeal.Cb3.wn i) = n
  generalize x9 (Cert.KernelIdeal.Cb3.wb i) = bb
  rfl

end Cert.Bridge

end
-- ==== Proof.BridgeMolB.lean ====
/-
  The regions 4, 5, 6, 7 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Mm4
import proofs.«144194_j36799279792821_1_alg».proof.Proof.Cb5
import proofs.«144194_j36799279792821_1_alg».proof.Proof.Ln6
import proofs.«144194_j36799279792821_1_alg».proof.Proof.Ln7

set_option maxRecDepth 16384

noncomputable section

namespace Cert.Bridge

open Idealize.ShloMosaic Idealize.ShloMosaic.TcCoe Idealize.SL.Sem

/-- The blocked product of region 4 is the reference's one matrix product. -/
theorem mm4 (x0 : (⟨Cert.ReferenceIdeal.S10240x78, .f32⟩ : BufTy).Contents (Elt Ideal)) (x1 : (⟨Cert.ReferenceIdeal.S2x40960, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) : Cert.KernelIdeal.Mm4.prod (Cert.ReferenceIdeal.ReadP.val_main_v81 (F := Ideal) x0 x1 x6 x7 x8 x9) x10 = (Cert.ReferenceIdeal.ReadP.val_main_v82 (F := Ideal) x0 x1 x6 x7 x8 x9 x10) := by
  funext i
  refine Eq.trans ?_ (Cert.ReferenceIdeal.ReadP.val_main_v82_apply x0 x1 x6 x7 x8 x9 x10 i).symm
  refine Finset.sum_congr rfl fun k _ => ?_
  have el : Cert.KernelIdeal.Mm4.wl i k = Cert.ReferenceIdeal.ReadP.lidx_main_v82 i k := funext fun a => by match a with | ⟨0, _⟩ => rfl | ⟨1, _⟩ => rfl
  have er : Cert.KernelIdeal.Mm4.wr i k = Cert.ReferenceIdeal.ReadP.ridx_main_v82 i k := funext fun a => by match a with | ⟨0, _⟩ => rfl | ⟨1, _⟩ => rfl
  show (Cert.ReferenceIdeal.ReadP.val_main_v81 (F := Ideal) x0 x1 x6 x7 x8 x9) (Cert.KernelIdeal.Mm4.wl i k) * x10 (Cert.KernelIdeal.Mm4.wr i k) = _
  rw [el, er]

/-- Region 5's combined features are the reference's, entry by entry: both read the norm column at the entry's row
    and the bias at the entry's feature. The reference recomputes the column for its two uses; the copies are one function. -/
theorem cb5 (x0 : (⟨Cert.ReferenceIdeal.S10240x78, .f32⟩ : BufTy).Contents (Elt Ideal)) (x1 : (⟨Cert.ReferenceIdeal.S2x40960, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) :
    Cert.KernelIdeal.Cb5.comb (Cert.ReferenceIdeal.ReadP.val_main_v109 (F := Ideal) x0 x1 x6 x7 x8 x9 x10) (Cert.ReferenceIdeal.ReadP.val_main_v82 (F := Ideal) x0 x1 x6 x7 x8 x9 x10) (Cert.ReferenceIdeal.ReadP.val_main_v32 (F := Ideal) x1) x11 = (Cert.ReferenceIdeal.ReadP.val_main_v120 (F := Ideal) x0 x1 x6 x7 x8 x9 x10 x11) := by
  funext i
  have eD : (Cert.ReferenceIdeal.ReadP.val_main_v115 (F := Ideal) x1) i = (Cert.ReferenceIdeal.ReadP.val_main_v32 (F := Ideal) x1) (Cert.ReferenceIdeal.ReadP.idx_main_v115 i) :=
    (Cert.ReferenceIdeal.ReadP.val_main_v115_apply x1 i).trans (congrFun (rfl : (Cert.ReferenceIdeal.ReadP.val_main_v110 (F := Ideal) x1) = (Cert.ReferenceIdeal.ReadP.val_main_v32 (F := Ideal) x1)) _)
  have eH : (Cert.ReferenceIdeal.ReadP.val_main_v112 (F := Ideal) x1) i = (Cert.ReferenceIdeal.ReadP.val_main_v32 (F := Ideal) x1) (Cert.ReferenceIdeal.ReadP.idx_main_v112 i) :=
    (Cert.ReferenceIdeal.ReadP.val_main_v112_apply x1 i).trans (congrFun (rfl : (Cert.ReferenceIdeal.ReadP.val_main_v111 (F := Ideal) x1) = (Cert.ReferenceIdeal.ReadP.val_main_v32 (F := Ideal) x1)) _)
  have eC : (Cert.ReferenceIdeal.ReadP.val_main_v118 (F := Ideal) x11) i = x11 (Cert.ReferenceIdeal.ReadP.idx_main_v117 (Cert.ReferenceIdeal.ReadP.idx_main_v118 i)) :=
    (Cert.ReferenceIdeal.ReadP.val_main_v118_apply x11 i).trans (Cert.ReferenceIdeal.ReadP.val_main_v117_apply x11 _)
  have eZ : (Cert.ReferenceIdeal.ReadP.val_main_call2_v0 (F := Ideal)) i = (FloatOps.ofBits (F := Ideal) .f32 0x00000000#32) := (Cert.ReferenceIdeal.ReadP.val_main_call2_v0_apply i).trans (Cert.ReferenceIdeal.ReadP.val_main_call2_cst_apply _)
  have wD : Cert.ReferenceIdeal.ReadP.idx_main_v115 i = Cert.KernelIdeal.Cb5.wn i := funext fun a => by match a with | ⟨0, _⟩ => rfl | ⟨1, _⟩ => rfl
  have wH : Cert.ReferenceIdeal.ReadP.idx_main_v112 i = Cert.KernelIdeal.Cb5.wn i := funext fun a => by match a with | ⟨0, _⟩ => rfl | ⟨1, _⟩ => rfl
  have wC : Cert.ReferenceIdeal.ReadP.idx_main_v117 (Cert.ReferenceIdeal.ReadP.idx_main_v118 i) = Cert.KernelIdeal.Cb5.wb i := funext fun a => by match a with | ⟨0, _⟩ => rfl
  rw [Cert.ReferenceIdeal.ReadP.val_main_v120_apply, Cert.ReferenceIdeal.ReadP.val_main_v119_apply, Cert.ReferenceIdeal.ReadP.val_main_v116_apply, Cert.ReferenceIdeal.ReadP.val_main_v114_apply, Cert.ReferenceIdeal.ReadP.val_main_v113_apply, eD, eH, eC, eZ, wD, wH, wC]
  unfold Cert.KernelIdeal.Cb5.comb
  generalize (Cert.ReferenceIdeal.ReadP.val_main_v109 (F := Ideal) x0 x1 x6 x7 x8 x9 x10) i = a
  generalize (Cert.ReferenceIdeal.ReadP.val_main_v82 (F := Ideal) x0 x1 x6 x7 x8 x9 x10) i = h
  generalize (Cert.ReferenceIdeal.ReadP.val_main_v32 (F := Ideal) x1) (Cert.KernelIdeal.Cb5.wn i) = n
  generalize x11 (Cert.KernelIdeal.Cb5.wb i) = bb
  rfl

/-- Region 6's output is the reference's dense layer, entry by entry. -/
theorem ln6 (x0 : (⟨Cert.ReferenceIdeal.S10240x78, .f32⟩ : BufTy).Contents (Elt Ideal)) (x1 : (⟨Cert.ReferenceIdeal.S2x40960, .i32⟩ : BufTy).Contents (Elt Ideal)) (x2 : (⟨Cert.ReferenceIdeal.S10240, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) (x12 : (⟨Cert.ReferenceIdeal.S312x1024, .f32⟩ : BufTy).Contents (Elt Ideal)) (x13 : (⟨Cert.ReferenceIdeal.S1024, .f32⟩ : BufTy).Contents (Elt Ideal)) :
    Cert.KernelIdeal.Ln6.lin (Cert.ReferenceIdeal.ReadP.val_main_v132 (F := Ideal) x0 x1 x2 x6 x7 x8 x9 x10 x11) x12 x13 = (Cert.ReferenceIdeal.ReadP.val_main_v137 (F := Ideal) x0 x1 x2 x6 x7 x8 x9 x10 x11 x12 x13) := by
  funext i
  have eDot := Cert.ReferenceIdeal.ReadP.val_main_v133_apply x0 x1 x2 x6 x7 x8 x9 x10 x11 x12 i
  have eC : (Cert.ReferenceIdeal.ReadP.val_main_v135 (F := Ideal) x13) i = x13 (Cert.ReferenceIdeal.ReadP.idx_main_v134 (Cert.ReferenceIdeal.ReadP.idx_main_v135 i)) :=
    (Cert.ReferenceIdeal.ReadP.val_main_v135_apply x13 i).trans (Cert.ReferenceIdeal.ReadP.val_main_v134_apply x13 _)
  have eZ : (Cert.ReferenceIdeal.ReadP.val_main_call3_v0 (F := Ideal)) i = (FloatOps.ofBits (F := Ideal) .f32 0x00000000#32) := (Cert.ReferenceIdeal.ReadP.val_main_call3_v0_apply i).trans (Cert.ReferenceIdeal.ReadP.val_main_call3_cst_apply _)
  have el : ∀ k : Fin 312, Cert.KernelIdeal.Ln6.wl i k = Cert.ReferenceIdeal.ReadP.lidx_main_v133 i k := fun k => funext fun a => by match a with | ⟨0, _⟩ => rfl | ⟨1, _⟩ => rfl
  have er : ∀ k : Fin 312, Cert.KernelIdeal.Ln6.wr i k = Cert.ReferenceIdeal.ReadP.ridx_main_v133 i k := fun k => funext fun a => by match a with | ⟨0, _⟩ => rfl | ⟨1, _⟩ => rfl
  have wC : Cert.KernelIdeal.Ln6.wb i = Cert.ReferenceIdeal.ReadP.idx_main_v134 (Cert.ReferenceIdeal.ReadP.idx_main_v135 i) := funext fun a => by match a with | ⟨0, _⟩ => first | rfl | exact Fin.ext (by have h1 : (i 1).val < 1 := (i 1).isLt; show (i 1).val = 0; omega)
  have hs : (∑ k : Fin 312, (Cert.ReferenceIdeal.ReadP.val_main_v132 (F := Ideal) x0 x1 x2 x6 x7 x8 x9 x10 x11) (Cert.KernelIdeal.Ln6.wl i k) * x12 (Cert.KernelIdeal.Ln6.wr i k))
      = ∑ k : Fin 312, (Cert.ReferenceIdeal.ReadP.val_main_v132 (F := Ideal) x0 x1 x2 x6 x7 x8 x9 x10 x11) (Cert.ReferenceIdeal.ReadP.lidx_main_v133 i k) * x12 (Cert.ReferenceIdeal.ReadP.ridx_main_v133 i k) :=
    Finset.sum_congr rfl fun k _ => by rw [el k, er k]
  show max ((∑ k : Fin 312, (Cert.ReferenceIdeal.ReadP.val_main_v132 (F := Ideal) x0 x1 x2 x6 x7 x8 x9 x10 x11) (Cert.KernelIdeal.Ln6.wl i k) * x12 (Cert.KernelIdeal.Ln6.wr i k)) + x13 (Cert.KernelIdeal.Ln6.wb i)) (Scalar.ofBits (F := Ideal) .f32 0x00000000#32)
    = FloatOps.maximumf (F := Ideal) (FloatOps.addf (F := Ideal) ((Cert.ReferenceIdeal.ReadP.val_main_v133 (F := Ideal) x0 x1 x2 x6 x7 x8 x9 x10 x11 x12) i) ((Cert.ReferenceIdeal.ReadP.val_main_v135 (F := Ideal) x13) i)) ((Cert.ReferenceIdeal.ReadP.val_main_call3_v0 (F := Ideal)) i)
  rw [eDot, eC, eZ, hs, wC]
  rfl

/-- Region 7's output is the reference's dense layer, entry by entry. -/
theorem ln7 (x0 : (⟨Cert.ReferenceIdeal.S10240x78, .f32⟩ : BufTy).Contents (Elt Ideal)) (x1 : (⟨Cert.ReferenceIdeal.S2x40960, .i32⟩ : BufTy).Contents (Elt Ideal)) (x2 : (⟨Cert.ReferenceIdeal.S10240, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) (x12 : (⟨Cert.ReferenceIdeal.S312x1024, .f32⟩ : BufTy).Contents (Elt Ideal)) (x13 : (⟨Cert.ReferenceIdeal.S1024, .f32⟩ : BufTy).Contents (Elt Ideal)) (x14 : (⟨Cert.ReferenceIdeal.S1024x128, .f32⟩ : BufTy).Contents (Elt Ideal)) (x15 : (⟨Cert.ReferenceIdeal.S128, .f32⟩ : BufTy).Contents (Elt Ideal)) :
    Cert.KernelIdeal.Ln7.lin (Cert.ReferenceIdeal.ReadP.val_main_v137 (F := Ideal) x0 x1 x2 x6 x7 x8 x9 x10 x11 x12 x13) x14 x15 = (Cert.ReferenceIdeal.ReadP.val_main_v141 (F := Ideal) x0 x1 x2 x6 x7 x8 x9 x10 x11 x12 x13 x14 x15) := by
  funext i
  have eDot := Cert.ReferenceIdeal.ReadP.val_main_v138_apply x0 x1 x2 x6 x7 x8 x9 x10 x11 x12 x13 x14 i
  have eC : (Cert.ReferenceIdeal.ReadP.val_main_v140 (F := Ideal) x15) i = x15 (Cert.ReferenceIdeal.ReadP.idx_main_v139 (Cert.ReferenceIdeal.ReadP.idx_main_v140 i)) :=
    (Cert.ReferenceIdeal.ReadP.val_main_v140_apply x15 i).trans (Cert.ReferenceIdeal.ReadP.val_main_v139_apply x15 _)
  have el : ∀ k : Fin 1024, Cert.KernelIdeal.Ln7.wl i k = Cert.ReferenceIdeal.ReadP.lidx_main_v138 i k := fun k => funext fun a => by match a with | ⟨0, _⟩ => rfl | ⟨1, _⟩ => rfl
  have er : ∀ k : Fin 1024, Cert.KernelIdeal.Ln7.wr i k = Cert.ReferenceIdeal.ReadP.ridx_main_v138 i k := fun k => funext fun a => by match a with | ⟨0, _⟩ => rfl | ⟨1, _⟩ => rfl
  have wC : Cert.KernelIdeal.Ln7.wb i = Cert.ReferenceIdeal.ReadP.idx_main_v139 (Cert.ReferenceIdeal.ReadP.idx_main_v140 i) := funext fun a => by match a with | ⟨0, _⟩ => first | rfl | exact Fin.ext (by have h1 : (i 1).val < 1 := (i 1).isLt; show (i 1).val = 0; omega)
  have hs : (∑ k : Fin 1024, (Cert.ReferenceIdeal.ReadP.val_main_v137 (F := Ideal) x0 x1 x2 x6 x7 x8 x9 x10 x11 x12 x13) (Cert.KernelIdeal.Ln7.wl i k) * x14 (Cert.KernelIdeal.Ln7.wr i k))
      = ∑ k : Fin 1024, (Cert.ReferenceIdeal.ReadP.val_main_v137 (F := Ideal) x0 x1 x2 x6 x7 x8 x9 x10 x11 x12 x13) (Cert.ReferenceIdeal.ReadP.lidx_main_v138 i k) * x14 (Cert.ReferenceIdeal.ReadP.ridx_main_v138 i k) :=
    Finset.sum_congr rfl fun k _ => by rw [el k, er k]
  show (∑ k : Fin 1024, (Cert.ReferenceIdeal.ReadP.val_main_v137 (F := Ideal) x0 x1 x2 x6 x7 x8 x9 x10 x11 x12 x13) (Cert.KernelIdeal.Ln7.wl i k) * x14 (Cert.KernelIdeal.Ln7.wr i k)) + x15 (Cert.KernelIdeal.Ln7.wb i)
    = FloatOps.addf (F := Ideal) ((Cert.ReferenceIdeal.ReadP.val_main_v138 (F := Ideal) x0 x1 x2 x6 x7 x8 x9 x10 x11 x12 x13 x14) i) ((Cert.ReferenceIdeal.ReadP.val_main_v140 (F := Ideal) x15) i)
  rw [eDot, eC, hs, wC]
  rfl

end Cert.Bridge

end
-- ==== Proof.ChainMol.lean ====
/-
  The molecule branch, boundary by boundary (W0 to W13).
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import proofs.«144194_j36799279792821_1_alg».proof.Proof.CarryArgsA
import proofs.«144194_j36799279792821_1_alg».proof.Proof.Mm0
import proofs.«144194_j36799279792821_1_alg».proof.Proof.Cb1
import proofs.«144194_j36799279792821_1_alg».proof.Proof.Mm2
import proofs.«144194_j36799279792821_1_alg».proof.Proof.Cb3
import proofs.«144194_j36799279792821_1_alg».proof.Proof.Mm4
import proofs.«144194_j36799279792821_1_alg».proof.Proof.Cb5
import proofs.«144194_j36799279792821_1_alg».proof.Proof.Ln6
import proofs.«144194_j36799279792821_1_alg».proof.Proof.Ln7
import proofs.«144194_j36799279792821_1_alg».proof.Proof.BridgeMolA
import proofs.«144194_j36799279792821_1_alg».proof.Proof.BridgeMolB
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W1_v1 (c : Dev nD) : W1 m ρ c (Proc.devRef .tc main_v1) = (Cert.ReferenceIdeal.ReadP.val_main_v1 (F := Ideal) (m ((c : Thread nD τ).loc main_arg1))) := by
  show StableHlo.after hostOps0 (W0 m ρ c) (Proc.devRef .tc main_v1) = _
  after_results_simp
  rfl

theorem W1_v10 (c : Dev nD) : W1 m ρ c (Proc.devRef .tc main_v10) = (Cert.ReferenceIdeal.ReadP.val_main_v11 (F := Ideal) (m ((c : Thread nD τ).loc main_arg1))) := by
  show StableHlo.after hostOps0 (W0 m ρ c) (Proc.devRef .tc main_v10) = _
  after_results_simp
  rfl

theorem W1_v11 (c : Dev nD) : W1 m ρ c (Proc.devRef .tc main_v11) = (Cert.ReferenceIdeal.ReadP.val_main_v32 (F := Ideal) (m ((c : Thread nD τ).loc main_arg1))) := by
  show StableHlo.after hostOps0 (W0 m ρ c) (Proc.devRef .tc main_v11) = _
  after_results_simp
  rfl

theorem W1_v3 (c : Dev nD) : W1 m ρ c (Proc.devRef .tc main_v3) = (Cert.ReferenceIdeal.ReadP.val_main_v3 (F := Ideal) (m ((c : Thread nD τ).loc main_arg1))) := by
  show StableHlo.after hostOps0 (W0 m ρ c) (Proc.devRef .tc main_v3) = _
  after_results_simp
  rfl

theorem W2_v1 (c : Dev nD) : W2 m ρ c (Proc.devRef .tc main_v1) = (Cert.ReferenceIdeal.ReadP.val_main_v1 (F := Ideal) (m ((c : Thread nD τ).loc main_arg1))) :=
  calc W2 m ρ c (Proc.devRef .tc main_v1)
    _ = W1 m ρ c (Proc.devRef .tc main_v1) := W2_of_ne m ρ c main_v1 (by decide)
    _ = (Cert.ReferenceIdeal.ReadP.val_main_v1 (F := Ideal) (m ((c : Thread nD τ).loc main_arg1))) := W1_v1 m ρ c

theorem W2_v10 (c : Dev nD) : W2 m ρ c (Proc.devRef .tc main_v10) = (Cert.ReferenceIdeal.ReadP.val_main_v11 (F := Ideal) (m ((c : Thread nD τ).loc main_arg1))) :=
  calc W2 m ρ c (Proc.devRef .tc main_v10)
    _ = W1 m ρ c (Proc.devRef .tc main_v10) := W2_of_ne m ρ c main_v10 (by decide)
    _ = (Cert.ReferenceIdeal.ReadP.val_main_v11 (F := Ideal) (m ((c : Thread nD τ).loc main_arg1))) := W1_v10 m ρ c

theorem W2_v12 (c : Dev nD) : W2 m ρ c (Proc.devRef .tc main_v12) = (Cert.ReferenceIdeal.ReadP.val_main_v4 (F := Ideal) (m ((c : Thread nD τ).loc main_arg0)) (m ((c : Thread nD τ).loc main_arg6))) := by
  refine (W2_arr m ρ c 2).trans ?_
  refine (Cert.KernelIdeal.Mm0.final (V1 m ρ) c).trans ?_
  show Cert.KernelIdeal.Mm0.prod (W1 m ρ c (Proc.devRef .tc main_arg0)) (W1 m ρ c (Proc.devRef .tc main_arg6)) = _
  rw [W1_arg0 m ρ c, W1_arg6 m ρ c]
  exact Cert.Bridge.mm0 (m ((c : Thread nD τ).loc main_arg0)) (m ((c : Thread nD τ).loc main_arg6))

theorem W2_v3 (c : Dev nD) : W2 m ρ c (Proc.devRef .tc main_v3) = (Cert.ReferenceIdeal.ReadP.val_main_v3 (F := Ideal) (m ((c : Thread nD τ).loc main_arg1))) :=
  calc W2 m ρ c (Proc.devRef .tc main_v3)
    _ = W1 m ρ c (Proc.devRef .tc main_v3) := W2_of_ne m ρ c main_v3 (by decide)
    _ = (Cert.ReferenceIdeal.ReadP.val_main_v3 (F := Ideal) (m ((c : Thread nD τ).loc main_arg1))) := W1_v3 m ρ c

theorem W3_v11 (c : Dev nD) : W3 m ρ c (Proc.devRef .tc main_v11) = (Cert.ReferenceIdeal.ReadP.val_main_v32 (F := Ideal) (m ((c : Thread nD τ).loc main_arg1))) :=
  calc W3 m ρ c (Proc.devRef .tc main_v11)
    _ = W2 m ρ c (Proc.devRef .tc main_v11) := StableHlo.after_of_writes_sub hostOps1 _ Cert.KernelIdeal.HostWrites.hostOps1_writes (by decide)
    _ = W1 m ρ c (Proc.devRef .tc main_v11) := W2_of_ne m ρ c main_v11 (by decide)
    _ = (Cert.ReferenceIdeal.ReadP.val_main_v32 (F := Ideal) (m ((c : Thread nD τ).loc main_arg1))) := W1_v11 m ρ c

theorem W3_v12 (c : Dev nD) : W3 m ρ c (Proc.devRef .tc main_v12) = (Cert.ReferenceIdeal.ReadP.val_main_v4 (F := Ideal) (m ((c : Thread nD τ).loc main_arg0)) (m ((c : Thread nD τ).loc main_arg6))) :=
  calc W3 m ρ c (Proc.devRef .tc main_v12)
    _ = W2 m ρ c (Proc.devRef .tc main_v12) := StableHlo.after_of_writes_sub hostOps1 _ Cert.KernelIdeal.HostWrites.hostOps1_writes (by decide)
    _ = (Cert.ReferenceIdeal.ReadP.val_main_v4 (F := Ideal) (m ((c : Thread nD τ).loc main_arg0)) (m ((c : Thread nD τ).loc main_arg6))) := W2_v12 m ρ c

theorem W3_v32 (c : Dev nD) : W3 m ρ c (Proc.devRef .tc main_v32) = (Cert.ReferenceIdeal.ReadP.val_main_v31 (F := Ideal) (m ((c : Thread nD τ).loc main_arg0)) (m ((c : Thread nD τ).loc main_arg1)) (m ((c : Thread nD τ).loc main_arg6))) := by
  show StableHlo.after hostOps1 (W2 m ρ c) (Proc.devRef .tc main_v32) = _
  after_results_simp
  rw [W2_v3 m ρ c, W2_v12 m ρ c, W2_v1 m ρ c, W2_v10 m ρ c]
  rfl

theorem W4_v33 (c : Dev nD) : W4 m ρ c (Proc.devRef .tc main_v33) = (Cert.ReferenceIdeal.ReadP.val_main_v42 (F := Ideal) (m ((c : Thread nD τ).loc main_arg0)) (m ((c : Thread nD τ).loc main_arg1)) (m ((c : Thread nD τ).loc main_arg6)) (m ((c : Thread nD τ).loc main_arg7))) := by
  refine (W4_arr m ρ c 4).trans ?_
  refine (Cert.KernelIdeal.Cb1.final (V3 m ρ) c).trans ?_
  show Cert.KernelIdeal.Cb1.comb (W3 m ρ c (Proc.devRef .tc main_v32)) (W3 m ρ c (Proc.devRef .tc main_v12)) (W3 m ρ c (Proc.devRef .tc main_v11)) (W3 m ρ c (Proc.devRef .tc main_arg7)) = _
  rw [W3_v32 m ρ c, W3_v12 m ρ c, W3_v11 m ρ c, W3_arg7 m ρ c]
  exact Cert.Bridge.cb1 (m ((c : Thread nD τ).loc main_arg0)) (m ((c : Thread nD τ).loc main_arg1)) (m ((c : Thread nD τ).loc main_arg6)) (m ((c : Thread nD τ).loc main_arg7))

theorem W5_v1 (c : Dev nD) : W5 m ρ c (Proc.devRef .tc main_v1) = (Cert.ReferenceIdeal.ReadP.val_main_v1 (F := Ideal) (m ((c : Thread nD τ).loc main_arg1))) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_writes_sub hostOps1 _ Cert.KernelIdeal.HostWrites.hostOps1_writes (by decide)
    _ = (Cert.ReferenceIdeal.ReadP.val_main_v1 (F := Ideal) (m ((c : Thread nD τ).loc main_arg1))) := W2_v1 m ρ c

theorem W5_v10 (c : Dev nD) : W5 m ρ c (Proc.devRef .tc main_v10) = (Cert.ReferenceIdeal.ReadP.val_main_v11 (F := Ideal) (m ((c : Thread nD τ).loc main_arg1))) :=
  calc W5 m ρ c (Proc.devRef .tc main_v10)
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := StableHlo.after_of_writes_sub hostOps1 _ Cert.KernelIdeal.HostWrites.hostOps1_writes (by decide)
    _ = (Cert.ReferenceIdeal.ReadP.val_main_v11 (F := Ideal) (m ((c : Thread nD τ).loc main_arg1))) := W2_v10 m ρ c

theorem W5_v3 (c : Dev nD) : W5 m ρ c (Proc.devRef .tc main_v3) = (Cert.ReferenceIdeal.ReadP.val_main_v3 (F := Ideal) (m ((c : Thread nD τ).loc main_arg1))) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_writes_sub hostOps1 _ Cert.KernelIdeal.HostWrites.hostOps1_writes (by decide)
    _ = (Cert.ReferenceIdeal.ReadP.val_main_v3 (F := Ideal) (m ((c : Thread nD τ).loc main_arg1))) := W2_v3 m ρ c

theorem W5_v34 (c : Dev nD) : W5 m ρ c (Proc.devRef .tc main_v34) = (Cert.ReferenceIdeal.ReadP.val_main_v43 (F := Ideal) (m ((c : Thread nD τ).loc main_arg0)) (m ((c : Thread nD τ).loc main_arg1)) (m ((c : Thread nD τ).loc main_arg6)) (m ((c : Thread nD τ).loc main_arg7)) (m ((c : Thread nD τ).loc main_arg8))) := by
  refine (W5_arr m ρ c 2).trans ?_
  refine (Cert.KernelIdeal.Mm2.final (V4 m ρ) c).trans ?_
  show Cert.KernelIdeal.Mm2.prod (W4 m ρ c (Proc.devRef .tc main_v33)) (W4 m ρ c (Proc.devRef .tc main_arg8)) = _
  rw [W4_v33 m ρ c, W4_arg8 m ρ c]
  exact Cert.Bridge.mm2 (m ((c : Thread nD τ).loc main_arg0)) (m ((c : Thread nD τ).loc main_arg1)) (m ((c : Thread nD τ).loc main_arg6)) (m ((c : Thread nD τ).loc main_arg7)) (m ((c : Thread nD τ).loc main_arg8))

theorem W6_v11 (c : Dev nD) : W6 m ρ c (Proc.devRef .tc main_v11) = (Cert.ReferenceIdeal.ReadP.val_main_v32 (F := Ideal) (m ((c : Thread nD τ).loc main_arg1))) :=
  calc W6 m ρ c (Proc.devRef .tc main_v11)
    _ = W5 m ρ c (Proc.devRef .tc main_v11) := StableHlo.after_of_writes_sub hostOps3 _ Cert.KernelIdeal.HostWrites.hostOps3_writes (by decide)
    _ = W4 m ρ c (Proc.devRef .tc main_v11) := W5_of_ne m ρ c main_v11 (by decide)
    _ = W3 m ρ c (Proc.devRef .tc main_v11) := (W4_arr m ρ c 2).trans (((dat1 (V3 m ρ) c).arrAt_in 2 rfl _).trans (A_eq1 (V3 m ρ) c 2))
    _ = (Cert.ReferenceIdeal.ReadP.val_main_v32 (F := Ideal) (m ((c : Thread nD τ).loc main_arg1))) := W3_v11 m ρ c

theorem W6_v34 (c : Dev nD) : W6 m ρ c (Proc.devRef .tc main_v34) = (Cert.ReferenceIdeal.ReadP.val_main_v43 (F := Ideal) (m ((c : Thread nD τ).loc main_arg0)) (m ((c : Thread nD τ).loc main_arg1)) (m ((c : Thread nD τ).loc main_arg6)) (m ((c : Thread nD τ).loc main_arg7)) (m ((c : Thread nD τ).loc main_arg8))) :=
  calc W6 m ρ c (Proc.devRef .tc main_v34)
    _ = W5 m ρ c (Proc.devRef .tc main_v34) := StableHlo.after_of_writes_sub hostOps3 _ Cert.KernelIdeal.HostWrites.hostOps3_writes (by decide)
    _ = (Cert.ReferenceIdeal.ReadP.val_main_v43 (F := Ideal) (m ((c : Thread nD τ).loc main_arg0)) (m ((c : Thread nD τ).loc main_arg1)) (m ((c : Thread nD τ).loc main_arg6)) (m ((c : Thread nD τ).loc main_arg7)) (m ((c : Thread nD τ).loc main_arg8))) := W5_v34 m ρ c

theorem W6_v54 (c : Dev nD) : W6 m ρ c (Proc.devRef .tc main_v54) = (Cert.ReferenceIdeal.ReadP.val_main_v70 (F := Ideal) (m ((c : Thread nD τ).loc main_arg0)) (m ((c : Thread nD τ).loc main_arg1)) (m ((c : Thread nD τ).loc main_arg6)) (m ((c : Thread nD τ).loc main_arg7)) (m ((c : Thread nD τ).loc main_arg8))) := by
  show StableHlo.after hostOps3 (W5 m ρ c) (Proc.devRef .tc main_v54) = _
  after_results_simp
  rw [W5_v3 m ρ c, W5_v34 m ρ c, W5_v1 m ρ c, W5_v10 m ρ c]
  rfl

theorem W7_v55 (c : Dev nD) : W7 m ρ c (Proc.devRef .tc main_v55) = (Cert.ReferenceIdeal.ReadP.val_main_v81 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) := by
  refine (W7_arr m ρ c 4).trans ?_
  refine (Cert.KernelIdeal.Cb3.final (V6 m ρ) c).trans ?_
  show Cert.KernelIdeal.Cb3.comb (W6 m ρ c (Proc.devRef .tc main_v54)) (W6 m ρ c (Proc.devRef .tc main_v34)) (W6 m ρ c (Proc.devRef .tc main_v11)) (W6 m ρ c (Proc.devRef .tc main_arg9)) = _
  rw [W6_v54 m ρ c, W6_v34 m ρ c, W6_v11 m ρ c, W6_arg9 m ρ c]
  exact Cert.Bridge.cb3 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))

theorem W8_v1 (c : Dev nD) : W8 m ρ c (Proc.devRef .tc main_v1) = (Cert.ReferenceIdeal.ReadP.val_main_v1 (F := Ideal) (m ((c : Thread nD τ).loc main_arg1))) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := StableHlo.after_of_writes_sub hostOps3 _ Cert.KernelIdeal.HostWrites.hostOps3_writes (by decide)
    _ = (Cert.ReferenceIdeal.ReadP.val_main_v1 (F := Ideal) (m ((c : Thread nD τ).loc main_arg1))) := W5_v1 m ρ c

theorem W8_v10 (c : Dev nD) : W8 m ρ c (Proc.devRef .tc main_v10) = (Cert.ReferenceIdeal.ReadP.val_main_v11 (F := Ideal) (m ((c : Thread nD τ).loc main_arg1))) :=
  calc W8 m ρ c (Proc.devRef .tc main_v10)
    _ = W7 m ρ c (Proc.devRef .tc main_v10) := W8_of_ne m ρ c main_v10 (by decide)
    _ = W6 m ρ c (Proc.devRef .tc main_v10) := W7_of_ne m ρ c main_v10 (by decide)
    _ = W5 m ρ c (Proc.devRef .tc main_v10) := StableHlo.after_of_writes_sub hostOps3 _ Cert.KernelIdeal.HostWrites.hostOps3_writes (by decide)
    _ = (Cert.ReferenceIdeal.ReadP.val_main_v11 (F := Ideal) (m ((c : Thread nD τ).loc main_arg1))) := W5_v10 m ρ c

theorem W8_v3 (c : Dev nD) : W8 m ρ c (Proc.devRef .tc main_v3) = (Cert.ReferenceIdeal.ReadP.val_main_v3 (F := Ideal) (m ((c : Thread nD τ).loc main_arg1))) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_writes_sub hostOps3 _ Cert.KernelIdeal.HostWrites.hostOps3_writes (by decide)
    _ = (Cert.ReferenceIdeal.ReadP.val_main_v3 (F := Ideal) (m ((c : Thread nD τ).loc main_arg1))) := W5_v3 m ρ c

theorem W8_v56 (c : Dev nD) : W8 m ρ c (Proc.devRef .tc main_v56) = (Cert.ReferenceIdeal.ReadP.val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W8_arr m ρ c 2).trans ?_
  refine (Cert.KernelIdeal.Mm4.final (V7 m ρ) c).trans ?_
  show Cert.KernelIdeal.Mm4.prod (W7 m ρ c (Proc.devRef .tc main_v55)) (W7 m ρ c (Proc.devRef .tc main_arg10)) = _
  rw [W7_v55 m ρ c, W7_arg10 m ρ c]
  exact Cert.Bridge.mm4 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))

theorem W9_v11 (c : Dev nD) : W9 m ρ c (Proc.devRef .tc main_v11) = (Cert.ReferenceIdeal.ReadP.val_main_v32 (F := Ideal) (m ((c : Thread nD τ).loc main_arg1))) :=
  calc W9 m ρ c (Proc.devRef .tc main_v11)
    _ = W8 m ρ c (Proc.devRef .tc main_v11) := StableHlo.after_of_writes_sub hostOps5 _ Cert.KernelIdeal.HostWrites.hostOps5_writes (by decide)
    _ = W7 m ρ c (Proc.devRef .tc main_v11) := W8_of_ne m ρ c main_v11 (by decide)
    _ = W6 m ρ c (Proc.devRef .tc main_v11) := (W7_arr m ρ c 2).trans (((dat3 (V6 m ρ) c).arrAt_in 2 rfl _).trans (A_eq3 (V6 m ρ) c 2))
    _ = (Cert.ReferenceIdeal.ReadP.val_main_v32 (F := Ideal) (m ((c : Thread nD τ).loc main_arg1))) := W6_v11 m ρ c

theorem W9_v56 (c : Dev nD) : W9 m ρ c (Proc.devRef .tc main_v56) = (Cert.ReferenceIdeal.ReadP.val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))) :=
  calc W9 m ρ c (Proc.devRef .tc main_v56)
    _ = W8 m ρ c (Proc.devRef .tc main_v56) := StableHlo.after_of_writes_sub hostOps5 _ Cert.KernelIdeal.HostWrites.hostOps5_writes (by decide)
    _ = (Cert.ReferenceIdeal.ReadP.val_main_v82 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))) := W8_v56 m ρ c

theorem W9_v76 (c : Dev nD) : W9 m ρ c (Proc.devRef .tc main_v76) = (Cert.ReferenceIdeal.ReadP.val_main_v109 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps5 (W8 m ρ c) (Proc.devRef .tc main_v76) = _
  after_results_simp
  rw [W8_v3 m ρ c, W8_v56 m ρ c, W8_v1 m ρ c, W8_v10 m ρ c]
  rfl

theorem W10_v77 (c : Dev nD) : W10 m ρ c (Proc.devRef .tc main_v77) = (Cert.ReferenceIdeal.ReadP.val_main_v120 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W10_arr m ρ c 4).trans ?_
  refine (Cert.KernelIdeal.Cb5.final (V9 m ρ) c).trans ?_
  show Cert.KernelIdeal.Cb5.comb (W9 m ρ c (Proc.devRef .tc main_v76)) (W9 m ρ c (Proc.devRef .tc main_v56)) (W9 m ρ c (Proc.devRef .tc main_v11)) (W9 m ρ c (Proc.devRef .tc main_arg11)) = _
  rw [W9_v76 m ρ c, W9_v56 m ρ c, W9_v11 m ρ c, W9_arg11 m ρ c]
  exact Cert.Bridge.cb5 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem W11_v89 (c : Dev nD) : W11 m ρ c (Proc.devRef .tc main_v89) = (Cert.ReferenceIdeal.ReadP.val_main_v132 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps6 (W10 m ρ c) (Proc.devRef .tc main_v89) = _
  after_results_simp
  rw [W10_arg2 m ρ c, W10_v77 m ρ c]
  rfl

theorem W12_v90 (c : Dev nD) : W12 m ρ c (Proc.devRef .tc main_v90) = (Cert.ReferenceIdeal.ReadP.val_main_v137 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W12_arr m ρ c 3).trans ?_
  refine (Cert.KernelIdeal.Ln6.final (V11 m ρ) c).trans ?_
  show Cert.KernelIdeal.Ln6.lin (W11 m ρ c (Proc.devRef .tc main_v89)) (W11 m ρ c (Proc.devRef .tc main_arg12)) (W11 m ρ c (Proc.devRef .tc main_arg13)) = _
  rw [W11_v89 m ρ c, W11_arg12 m ρ c, W11_arg13 m ρ c]
  exact Cert.Bridge.ln6 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem W13_v91 (c : Dev nD) : W13 m ρ c (Proc.devRef .tc main_v91) = (Cert.ReferenceIdeal.ReadP.val_main_v141 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W13_arr m ρ c 3).trans ?_
  refine (Cert.KernelIdeal.Ln7.final (V12 m ρ) c).trans ?_
  show Cert.KernelIdeal.Ln7.lin (W12 m ρ c (Proc.devRef .tc main_v90)) (W12 m ρ c (Proc.devRef .tc main_arg14)) (W12 m ρ c (Proc.devRef .tc main_arg15)) = _
  rw [W12_v90 m ρ c, W12_arg14 m ρ c, W12_arg15 m ρ c]
  exact Cert.Bridge.ln7 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

end Cert.KernelIdeal.Chain

end
-- ==== Proof.Mm8.lean ====
/-
  The first projection of the protein branch: the [76800, 54] matrix x times the [54, 54] matrix w, computed in 25 blocks of 3072 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm8

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x54, .f32⟩ : BufTy).Contents (Elt Ideal) := V c main_arg3
abbrev a1 (c : Dev nD) : (⟨S54x54, .f32⟩ : BufTy).Contents (Elt Ideal) := V c main_arg16

theorem hz : (![0, 0] : Fin 2 → Nat) = fun _ => 0 := funext fun a => by fin_cases a <;> rfl

/-- Row i, column k of the left factor, and row k, column q of the right factor, for the entry (i, q) of the product. -/
abbrev wl (i : S76800x54.Idx) (k : Fin 54) : S76800x54.Idx := fun a => match a with
  | ⟨0, _⟩ => ⟨(i 0).val, (i 0).isLt⟩
  | ⟨1, _⟩ => ⟨k.val, k.isLt⟩
abbrev wr (i : S76800x54.Idx) (k : Fin 54) : S54x54.Idx := fun a => match a with
  | ⟨0, _⟩ => ⟨k.val, k.isLt⟩
  | ⟨1, _⟩ => ⟨(i 1).val, (i 1).isLt⟩

/-- The product matrix, entry by entry. -/
def prod (x : (⟨S76800x54, .f32⟩ : BufTy).Contents (Elt Ideal)) (w : (⟨S54x54, .f32⟩ : BufTy).Contents (Elt Ideal)) :
    (⟨S76800x54, .f32⟩ : BufTy).Contents (Elt Ideal) :=
  fun i => ∑ k : Fin 54, x (wl i k) * w (wr i k)

/-- The same two index maps inside one block of rows. -/
abbrev bl (j : S3072x54.Idx) (k : Fin 54) : S3072x54.Idx := fun a => match a with
  | ⟨0, _⟩ => ⟨(j 0).val, (j 0).isLt⟩
  | ⟨1, _⟩ => ⟨k.val, k.isLt⟩
abbrev br (j : S3072x54.Idx) (k : Fin 54) : S54x54.Idx := fun a => match a with
  | ⟨0, _⟩ => ⟨k.val, k.isLt⟩
  | ⟨1, _⟩ => ⟨(j 1).val, (j 1).isLt⟩

theorem lhs_0 (i : S3072x54.Idx) (q : dot_S3072x54_S54x54_S3072x54_1_0_0_1_n_n.contr.Idx) : (dot_S3072x54_S54x54_S3072x54_1_0_0_1_n_n.lhsIdx i q 0).val = (i 0).val := by
  unfold DotDims.lhsIdx
  rw [dif_neg (show ¬(0 : Fin S3072x54.rank) ∈ dot_S3072x54_S54x54_S3072x54_1_0_0_1_n_n.lhsBatch by decide), dif_pos (show (0 : Fin S3072x54.rank) ∈ dot_S3072x54_S54x54_S3072x54_1_0_0_1_n_n.lhsNonContracting by decide)]
  rfl
theorem lhs_1 (i : S3072x54.Idx) (q : dot_S3072x54_S54x54_S3072x54_1_0_0_1_n_n.contr.Idx) : (dot_S3072x54_S54x54_S3072x54_1_0_0_1_n_n.lhsIdx i q 1).val = (q ⟨0, by decide⟩).val :=
  dot_S3072x54_S54x54_S3072x54_1_0_0_1_n_n.lhsIdx_val_of_single rfl i q
theorem rhs_0 (i : S3072x54.Idx) (q : dot_S3072x54_S54x54_S3072x54_1_0_0_1_n_n.contr.Idx) : (dot_S3072x54_S54x54_S3072x54_1_0_0_1_n_n.rhsIdx i q 0).val = (q ⟨0, by decide⟩).val :=
  dot_S3072x54_S54x54_S3072x54_1_0_0_1_n_n.rhsIdx_val_of_single rfl i q
theorem rhs_1 (i : S3072x54.Idx) (q : dot_S3072x54_S54x54_S3072x54_1_0_0_1_n_n.contr.Idx) : (dot_S3072x54_S54x54_S3072x54_1_0_0_1_n_n.rhsIdx i q 1).val = (i 1).val := by
  unfold DotDims.rhsIdx
  rw [dif_neg (show ¬(1 : Fin S54x54.rank) ∈ dot_S3072x54_S54x54_S3072x54_1_0_0_1_n_n.rhsBatch by decide), dif_pos (show (1 : Fin S54x54.rank) ∈ dot_S3072x54_S54x54_S3072x54_1_0_0_1_n_n.rhsNonContracting by decide)]
  rfl

/-- One block's product at (p, q): the change of number format is the identity on extended reals, and the product
    into a zero accumulator is the plain sum over the contracted axis. -/
theorem pay_apply (x0 : Vec Ideal S3072x54 .f32) (x1 : Vec Ideal S54x54 .f32) (j : S3072x54.Idx) :
    k8_pay1 (F := Ideal) x0 x1 j = ∑ k : Fin 54, x0 (bl j k) * x1 (br j k) := by
  show FloatOps.matmul (F := Ideal) dot_S3072x54_S54x54_S3072x54_1_0_0_1_n_n none (x0 : FVec Ideal _ .f32) (x1 : FVec Ideal _ .f32) (constant S3072x54 .f32 0x00000000#32) j = _
  rw [Ideal.matmul_constant_zero_apply, ← Equiv.sum_comp (ValueIdx.contrEquiv1 dot_S3072x54_S54x54_S3072x54_1_0_0_1_n_n 54 rfl rfl).symm]
  refine Finset.sum_congr rfl fun k _ => ?_
  have hk := ValueIdx.contrEquiv1_symm_val dot_S3072x54_S54x54_S3072x54_1_0_0_1_n_n 54 rfl rfl k
  have el : dot_S3072x54_S54x54_S3072x54_1_0_0_1_n_n.lhsIdx j ((ValueIdx.contrEquiv1 dot_S3072x54_S54x54_S3072x54_1_0_0_1_n_n 54 rfl rfl).symm k) = bl j k := funext fun a => Fin.ext (by
    match a with
    | ⟨0, _⟩ => exact lhs_0 _ _
    | ⟨1, _⟩ => exact (lhs_1 _ _).trans hk)
  have er : dot_S3072x54_S54x54_S3072x54_1_0_0_1_n_n.rhsIdx j ((ValueIdx.contrEquiv1 dot_S3072x54_S54x54_S3072x54_1_0_0_1_n_n 54 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg8.N,
    win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) ≤ 24 :=
  (by decide +kernel : ∀ t : Fin grid8.N, _)

/-- Every row block is some grid point's. -/
theorem idx_onto : ∀ (q0 : Fin 25), ∃ t : Fin cfg8.N, win8_2.index t = ![q0.val, 0] :=
  (by decide +kernel : ∀ (q0 : Fin 25), ∃ t : Fin grid8.N, win8_2.index t = ![q0.val, 0])

/-- What grid point t writes back is block t of the product matrix of the arrays as the region finds them. -/
theorem flushed_eq (c : Dev nD) (t : Fin cfg8.N) :
    (dat8 V c).flushed 2 t = ((cfg8.win 2).blk t).view.read (Elt Ideal) (prod ((a0 V c)) ((a1 V c))) := by
  show (cfg8.win 2).cut (grid8.coords t) ((dat8 V c).after 2 t) = _
  rw [after8_2]
  unfold out8_2
  rw [View.canon_unit_zero hz]
  simp only [View.ld_unit_zero (S := S3072x54) hz, View.ld_unit_zero (S := S54x54) hz]
  obtain ⟨e0, e1, e2, e3, e4, e5⟩ := idx_facts t
  funext j
  show k8_pay1 (F := Ideal) (iblk8 V c 0 t) (iblk8 V c 1 t) j = prod ((a0 V c)) ((a1 V c)) (((cfg8.win 2).blk t).view.emb j)
  refine (pay_apply (iblk8 V c 0 t) (iblk8 V c 1 t) j).trans ?_
  have h0 : ∀ k : Fin 54, ((cfg8.win 0).blk t).view.emb (bl j k) = wl (((cfg8.win 2).blk t).view.emb j) k := fun k => by
    funext a; apply Fin.ext
    match a with
    | ⟨0, _⟩ => show win8_0.index t (0 : Fin 2) * 3072 + 1 * (j 0).val = win8_2.index t (0 : Fin 2) * 3072 + 1 * (j 0).val; omega
    | ⟨1, _⟩ => show win8_0.index t (1 : Fin 2) * 54 + 1 * k.val = k.val; omega
  have h1 : ∀ k : Fin 54, ((cfg8.win 1).blk t).view.emb (br j k) = wr (((cfg8.win 2).blk t).view.emb j) k := fun k => by
    funext a; apply Fin.ext
    match a with
    | ⟨0, _⟩ => show win8_1.index t (0 : Fin 2) * 54 + 1 * k.val = k.val; omega
    | ⟨1, _⟩ => show win8_1.index t (1 : Fin 2) * 54 + 1 * (j 1).val = win8_2.index t (1 : Fin 2) * 54 + 1 * (j 1).val; omega
  show (∑ k : Fin 54, (a0 V c) (((cfg8.win 0).blk t).view.emb (bl j k)) * (a1 V c) (((cfg8.win 1).blk t).view.emb (br j k)))
    = ∑ k : Fin 54, (a0 V c) (wl (((cfg8.win 2).blk t).view.emb j) k) * (a1 V c) (wr (((cfg8.win 2).blk t).view.emb j) k)
  exact Finset.sum_congr rfl fun k _ => by rw [h0 k, h1 k]

/-- An index of the result array lies in grid point t's block iff each coordinate lies in the block's range. -/
theorem mem_blk (t : Fin cfg8.N) (i : S76800x54.Idx) :
    i ∈ ((cfg8.win 2).blk t).view.set ↔ ∀ a : Fin 2, win8_2.index t a * S3072x54.size a ≤ (i a).val ∧ (i a).val < win8_2.index t a * S3072x54.size a + S3072x54.size a := by
  show i ∈ ((View.whole main_v104).slice (win8_2.rect t)).set ↔ _
  rw [View.set_slice_whole, Rect.mem_set_unit]
  exact Iff.rfl

/-- The row blocks tile the result: row i lies in block i / 3072. -/
theorem cover (i : S76800x54.Idx) : ∃ t : Fin cfg8.N, (cfg8.win 2).flush t = true ∧ i ∈ ((cfg8.win 2).blk t).view.set := by
  have hi0 : (i 0).val < 76800 := (i 0).isLt
  have hi1 : (i 1).val < 54 := (i 1).isLt
  obtain ⟨t, ht⟩ := idx_onto ⟨(i 0).val / 3072, by omega⟩
  have q0 : win8_2.index t (0 : Fin 2) = (i 0).val / 3072 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 3072 ≤ (i 0).val ∧ (i 0).val < win8_2.index t (0 : Fin 2) * 3072 + 3072; omega
  | ⟨1, _⟩ => show win8_2.index t (1 : Fin 2) * 54 ≤ (i 1).val ∧ (i 1).val < win8_2.index t (1 : Fin 2) * 54 + 54; omega

/-- The array the region leaves: the product of the two arrays it was entered with. -/
theorem final (c : Dev nD) : (dat8 V c).arrAt 2 cfg8.N = prod ((a0 V c)) ((a1 V c)) :=
  (dat8 V c).arrAt_eq_of_cover 2 (prod ((a0 V c)) ((a1 V c))) (fun t _ => flushed_eq V c t) cover

end Cert.KernelIdeal.Mm8

end
-- ==== Proof.Cb9.lean ====
/-
  The first graph-convolution combine of the protein branch: out = max(n · (agg + n · h) + b, 0) over [76800, 54], where n is a column [76800, 1] (one factor per node,
  the same along a row) and b a row [54] (one bias per feature, the same down a column), computed in 25 blocks of 3072 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb9

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x54, .f32⟩ : BufTy).Contents (Elt Ideal) := V c main_v124
abbrev a1 (c : Dev nD) : (⟨S76800x54, .f32⟩ : BufTy).Contents (Elt Ideal) := V c main_v104
abbrev a2 (c : Dev nD) : (⟨S76800x1, .f32⟩ : BufTy).Contents (Elt Ideal) := V c main_v103
abbrev a3 (c : Dev nD) : (⟨S54, .f32⟩ : BufTy).Contents (Elt Ideal) := V c main_arg17

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S76800x54.Idx) : S76800x1.Idx := fun a => match a with
  | ⟨0, _⟩ => ⟨(i 0).val, (i 0).isLt⟩
  | ⟨1, _⟩ => ⟨0, Nat.one_pos⟩
abbrev wb (i : S76800x54.Idx) : S54.Idx := fun a => match a with
  | ⟨0, _⟩ => ⟨(i 1).val, (i 1).isLt⟩

/-- The combined features, entry by entry. -/
def comb (agg h : (⟨S76800x54, .f32⟩ : BufTy).Contents (Elt Ideal)) (n : (⟨S76800x1, .f32⟩ : BufTy).Contents (Elt Ideal))
    (b : (⟨S54, .f32⟩ : BufTy).Contents (Elt Ideal)) : (⟨S76800x54, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S3072x54.Idx) : S3072x1.Idx := fun a => match a with
  | ⟨0, _⟩ => ⟨(j 0).val, (j 0).isLt⟩
  | ⟨1, _⟩ => ⟨0, Nat.one_pos⟩
abbrev bb (j : S3072x54.Idx) : S54.Idx := fun a => match a with
  | ⟨0, _⟩ => ⟨(j 1).val, (j 1).isLt⟩

/-- One block's result at an index: the column is read at the index's row, the bias at its feature, and the other two
    operands at the index itself. -/
theorem pay_apply (v0 : Vec Ideal S3072x1 .f32) (v2 : Vec Ideal S54 .f32) (v6 v8 : Vec Ideal S3072x54 .f32) (j : S3072x54.Idx) :
    k9_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 3072) (q : Fin 54), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S3072x54 (shapeCast S3072x1 v0 shapeCasts_S3072x1_S3072x1) broadcasts_S3072x1_S3072x54 (ix2 p q) = v0 (ix2 p (0 : Fin 1)) := by
    rw [shapeCast_self]
    exact Cert.LibLayout.broadcastTo_a1_ab_apply v0 _ p q
  have hb : broadcastTo S3072x54 (shapeCast S1x54 (shapeCast S1x54 v2 shapeCasts_S54_S1x54) shapeCasts_S1x54_S1x54) broadcasts_S1x54_S3072x54 (ix2 p q) = v2 (ix1 q) := by
    rw [shapeCast_self]
    exact (broadcastTo_1b_ab_apply _ _ p q).trans (shapeCast_a_1a_apply v2 _ 0 q)
  have h6 : shapeCast S3072x54 v6 shapeCasts_S3072x54_S3072x54 = v6 := shapeCast_self _ _
  have h8 : shapeCast S3072x54 v8 shapeCasts_S3072x54_S3072x54 = v8 := shapeCast_self _ _
  rw [en, eb]
  show max (broadcastTo S3072x54 (shapeCast S3072x1 v0 shapeCasts_S3072x1_S3072x1) broadcasts_S3072x1_S3072x54 (ix2 p q)
        * (shapeCast S3072x54 v6 shapeCasts_S3072x54_S3072x54 (ix2 p q)
            + broadcastTo S3072x54 (shapeCast S3072x1 v0 shapeCasts_S3072x1_S3072x1) broadcasts_S3072x1_S3072x54 (ix2 p q) * shapeCast S3072x54 v8 shapeCasts_S3072x54_S3072x54 (ix2 p q))
        + broadcastTo S3072x54 (shapeCast S1x54 (shapeCast S1x54 v2 shapeCasts_S54_S1x54) shapeCasts_S1x54_S1x54) broadcasts_S1x54_S3072x54 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg9.N,
    win9_0.index t (0 : Fin 2) = win9_4.index t (0 : Fin 2)
    ∧ win9_0.index t (1 : Fin 2) = 0
    ∧ win9_1.index t (0 : Fin 2) = win9_4.index t (0 : Fin 2)
    ∧ win9_1.index t (1 : Fin 2) = 0
    ∧ win9_2.index t (0 : Fin 2) = win9_4.index t (0 : Fin 2)
    ∧ win9_2.index t (1 : Fin 2) = 0
    ∧ win9_3.index t (0 : Fin 1) = 0
    ∧ win9_4.index t (1 : Fin 2) = 0 :=
  (by decide +kernel : ∀ t : Fin grid9.N, _)

/-- Every row block is some grid point's. -/
theorem idx_onto : ∀ (q0 : Fin 25), ∃ t : Fin cfg9.N, win9_4.index t = ![q0.val, 0] :=
  (by decide +kernel : ∀ (q0 : Fin 25), ∃ t : Fin grid9.N, win9_4.index t = ![q0.val, 0])

/-- What grid point t writes back is block t of the combined features of the arrays as the region finds them. -/
theorem flushed_eq (c : Dev nD) (t : Fin cfg9.N) :
    (dat9 V c).flushed 4 t
      = ((cfg9.win 4).blk t).view.read (Elt Ideal) (comb ((a0 V c)) ((a1 V c)) ((a2 V c)) ((a3 V c))) := by
  show (cfg9.win 4).cut (grid9.coords t) ((dat9 V c).after 4 t) = _
  rw [after9_4]
  unfold out9_4
  rw [View.canon_unit_zero hz]
  simp only [View.ld_unit_zero (S := S3072x54) hz, View.ld_unit_zero (S := S3072x1) hz, View.ld_unit_zero (S := S54) hz1]
  obtain ⟨e0, e1, e2, e3, e4, e5, e6, e7⟩ := idx_facts t
  funext j
  show k9_pay1 (F := Ideal) (iblk9 V c 2 t) (iblk9 V c 3 t) (iblk9 V c 0 t) (iblk9 V c 1 t) j
    = comb ((a0 V c)) ((a1 V c)) ((a2 V c)) ((a3 V c)) (((cfg9.win 4).blk t).view.emb j)
  refine (pay_apply (iblk9 V c 2 t) (iblk9 V c 3 t) (iblk9 V c 0 t) (iblk9 V c 1 t) j).trans ?_
  show max ((a2 V c) (((cfg9.win 2).blk t).view.emb (bn j))
        * ((a0 V c) (((cfg9.win 0).blk t).view.emb j)
            + (a2 V c) (((cfg9.win 2).blk t).view.emb (bn j)) * (a1 V c) (((cfg9.win 1).blk t).view.emb j))
        + (a3 V c) (((cfg9.win 3).blk t).view.emb (bb j))) (Scalar.ofBits (F := Ideal) .f32 0x00000000#32)
    = max ((a2 V c) (wn (((cfg9.win 4).blk t).view.emb j))
        * ((a0 V c) (((cfg9.win 4).blk t).view.emb j)
            + (a2 V c) (wn (((cfg9.win 4).blk t).view.emb j)) * (a1 V c) (((cfg9.win 4).blk t).view.emb j))
        + (a3 V c) (wb (((cfg9.win 4).blk t).view.emb j))) (Scalar.ofBits (F := Ideal) .f32 0x00000000#32)
  have h0 : ((cfg9.win 0).blk t).view.emb j = ((cfg9.win 4).blk t).view.emb j := by
    funext a; apply Fin.ext
    match a with
    | ⟨0, _⟩ => show win9_0.index t (0 : Fin 2) * 3072 + 1 * (j 0).val = win9_4.index t (0 : Fin 2) * 3072 + 1 * (j 0).val; omega
    | ⟨1, _⟩ => show win9_0.index t (1 : Fin 2) * 54 + 1 * (j 1).val = win9_4.index t (1 : Fin 2) * 54 + 1 * (j 1).val; omega
  have h1 : ((cfg9.win 1).blk t).view.emb j = ((cfg9.win 4).blk t).view.emb j := by
    funext a; apply Fin.ext
    match a with
    | ⟨0, _⟩ => show win9_1.index t (0 : Fin 2) * 3072 + 1 * (j 0).val = win9_4.index t (0 : Fin 2) * 3072 + 1 * (j 0).val; omega
    | ⟨1, _⟩ => show win9_1.index t (1 : Fin 2) * 54 + 1 * (j 1).val = win9_4.index t (1 : Fin 2) * 54 + 1 * (j 1).val; omega
  have h2 : ((cfg9.win 2).blk t).view.emb (bn j) = wn (((cfg9.win 4).blk t).view.emb j) := by
    funext a; apply Fin.ext
    match a with
    | ⟨0, _⟩ => show win9_2.index t (0 : Fin 2) * 3072 + 1 * (j 0).val = win9_4.index t (0 : Fin 2) * 3072 + 1 * (j 0).val; omega
    | ⟨1, _⟩ => show win9_2.index t (1 : Fin 2) * 1 + 1 * 0 = 0; omega
  have h3 : ((cfg9.win 3).blk t).view.emb (bb j) = wb (((cfg9.win 4).blk t).view.emb j) := by
    funext a; apply Fin.ext
    match a with
    | ⟨0, _⟩ => show win9_3.index t (0 : Fin 1) * 54 + 1 * (j 1).val = win9_4.index t (1 : Fin 2) * 54 + 1 * (j 1).val; omega
  rw [h0, h1, h2, h3]

/-- An index of the result array lies in grid point t's block iff each coordinate lies in the block's range. -/
theorem mem_blk (t : Fin cfg9.N) (i : S76800x54.Idx) :
    i ∈ ((cfg9.win 4).blk t).view.set ↔ ∀ a : Fin 2, win9_4.index t a * S3072x54.size a ≤ (i a).val ∧ (i a).val < win9_4.index t a * S3072x54.size a + S3072x54.size a := by
  show i ∈ ((View.whole main_v125).slice (win9_4.rect t)).set ↔ _
  rw [View.set_slice_whole, Rect.mem_set_unit]
  exact Iff.rfl

/-- The row blocks tile the result: row i lies in block i / 3072. -/
theorem cover (i : S76800x54.Idx) : ∃ t : Fin cfg9.N, (cfg9.win 4).flush t = true ∧ i ∈ ((cfg9.win 4).blk t).view.set := by
  have hi0 : (i 0).val < 76800 := (i 0).isLt
  have hi1 : (i 1).val < 54 := (i 1).isLt
  obtain ⟨t, ht⟩ := idx_onto ⟨(i 0).val / 3072, by omega⟩
  have q0 : win9_4.index t (0 : Fin 2) = (i 0).val / 3072 := congrFun ht 0
  have q1 : win9_4.index t (1 : Fin 2) = 0 := congrFun ht 1
  refine ⟨t, flush9_4 t, ?_⟩
  rw [mem_blk]
  intro a
  match a with
  | ⟨0, _⟩ => show win9_4.index t (0 : Fin 2) * 3072 ≤ (i 0).val ∧ (i 0).val < win9_4.index t (0 : Fin 2) * 3072 + 3072; omega
  | ⟨1, _⟩ => show win9_4.index t (1 : Fin 2) * 54 ≤ (i 1).val ∧ (i 1).val < win9_4.index t (1 : Fin 2) * 54 + 54; omega

/-- The array the region leaves: the combined features of the four arrays it was entered with. -/
theorem final (c : Dev nD) : (dat9 V c).arrAt 4 cfg9.N = comb ((a0 V c)) ((a1 V c)) ((a2 V c)) ((a3 V c)) :=
  (dat9 V c).arrAt_eq_of_cover 4 (comb ((a0 V c)) ((a1 V c)) ((a2 V c)) ((a3 V c))) (fun t _ => flushed_eq V c t) cover

end Cert.KernelIdeal.Cb9

end
-- ==== Proof.Mm10.lean ====
/-
  The second projection of the protein branch: the [76800, 54] matrix x times the [54, 108] matrix w, computed in 25 blocks of 3072 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm10

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x54, .f32⟩ : BufTy).Contents (Elt Ideal) := V c main_v125
abbrev a1 (c : Dev nD) : (⟨S54x108, .f32⟩ : BufTy).Contents (Elt Ideal) := V c main_arg18

theorem hz : (![0, 0] : Fin 2 → Nat) = fun _ => 0 := funext fun a => by fin_cases a <;> rfl

/-- Row i, column k of the left factor, and row k, column q of the right factor, for the entry (i, q) of the product. -/
abbrev wl (i : S76800x108.Idx) (k : Fin 54) : S76800x54.Idx := fun a => match a with
  | ⟨0, _⟩ => ⟨(i 0).val, (i 0).isLt⟩
  | ⟨1, _⟩ => ⟨k.val, k.isLt⟩
abbrev wr (i : S76800x108.Idx) (k : Fin 54) : S54x108.Idx := fun a => match a with
  | ⟨0, _⟩ => ⟨k.val, k.isLt⟩
  | ⟨1, _⟩ => ⟨(i 1).val, (i 1).isLt⟩

/-- The product matrix, entry by entry. -/
def prod (x : (⟨S76800x54, .f32⟩ : BufTy).Contents (Elt Ideal)) (w : (⟨S54x108, .f32⟩ : BufTy).Contents (Elt Ideal)) :
    (⟨S76800x108, .f32⟩ : BufTy).Contents (Elt Ideal) :=
  fun i => ∑ k : Fin 54, x (wl i k) * w (wr i k)

/-- The same two index maps inside one block of rows. -/
abbrev bl (j : S3072x108.Idx) (k : Fin 54) : S3072x54.Idx := fun a => match a with
  | ⟨0, _⟩ => ⟨(j 0).val, (j 0).isLt⟩
  | ⟨1, _⟩ => ⟨k.val, k.isLt⟩
abbrev br (j : S3072x108.Idx) (k : Fin 54) : S54x108.Idx := fun a => match a with
  | ⟨0, _⟩ => ⟨k.val, k.isLt⟩
  | ⟨1, _⟩ => ⟨(j 1).val, (j 1).isLt⟩

theorem lhs_0 (i : S3072x108.Idx) (q : dot_S3072x54_S54x108_S3072x108_1_0_0_1_n_n.contr.Idx) : (dot_S3072x54_S54x108_S3072x108_1_0_0_1_n_n.lhsIdx i q 0).val = (i 0).val := by
  unfold DotDims.lhsIdx
  rw [dif_neg (show ¬(0 : Fin S3072x54.rank) ∈ dot_S3072x54_S54x108_S3072x108_1_0_0_1_n_n.lhsBatch by decide), dif_pos (show (0 : Fin S3072x54.rank) ∈ dot_S3072x54_S54x108_S3072x108_1_0_0_1_n_n.lhsNonContracting by decide)]
  rfl
theorem lhs_1 (i : S3072x108.Idx) (q : dot_S3072x54_S54x108_S3072x108_1_0_0_1_n_n.contr.Idx) : (dot_S3072x54_S54x108_S3072x108_1_0_0_1_n_n.lhsIdx i q 1).val = (q ⟨0, by decide⟩).val :=
  dot_S3072x54_S54x108_S3072x108_1_0_0_1_n_n.lhsIdx_val_of_single rfl i q
theorem rhs_0 (i : S3072x108.Idx) (q : dot_S3072x54_S54x108_S3072x108_1_0_0_1_n_n.contr.Idx) : (dot_S3072x54_S54x108_S3072x108_1_0_0_1_n_n.rhsIdx i q 0).val = (q ⟨0, by decide⟩).val :=
  dot_S3072x54_S54x108_S3072x108_1_0_0_1_n_n.rhsIdx_val_of_single rfl i q
theorem rhs_1 (i : S3072x108.Idx) (q : dot_S3072x54_S54x108_S3072x108_1_0_0_1_n_n.contr.Idx) : (dot_S3072x54_S54x108_S3072x108_1_0_0_1_n_n.rhsIdx i q 1).val = (i 1).val := by
  unfold DotDims.rhsIdx
  rw [dif_neg (show ¬(1 : Fin S54x108.rank) ∈ dot_S3072x54_S54x108_S3072x108_1_0_0_1_n_n.rhsBatch by decide), dif_pos (show (1 : Fin S54x108.rank) ∈ dot_S3072x54_S54x108_S3072x108_1_0_0_1_n_n.rhsNonContracting by decide)]
  rfl

/-- One block's product at (p, q): the change of number format is the identity on extended reals, and the product
    into a zero accumulator is the plain sum over the contracted axis. -/
theorem pay_apply (x0 : Vec Ideal S3072x54 .f32) (x1 : Vec Ideal S54x108 .f32) (j : S3072x108.Idx) :
    k10_pay1 (F := Ideal) x0 x1 j = ∑ k : Fin 54, x0 (bl j k) * x1 (br j k) := by
  have hc : shapeCast S3072x54 x0 shapeCasts_S3072x54_S3072x54 = x0 := shapeCast_self _ _
  show FloatOps.matmul (F := Ideal) (φ₁ := .f32) (φ₂ := .f32) dot_S3072x54_S54x108_S3072x108_1_0_0_1_n_n none (shapeCast S3072x54 x0 shapeCasts_S3072x54_S3072x54 : FVec Ideal S3072x54 .f32) (x1 : FVec Ideal S54x108 .f32) (constant S3072x108 .f32 0x00000000#32) j = _
  rw [hc]
  rw [Ideal.matmul_constant_zero_apply, ← Equiv.sum_comp (ValueIdx.contrEquiv1 dot_S3072x54_S54x108_S3072x108_1_0_0_1_n_n 54 rfl rfl).symm]
  refine Finset.sum_congr rfl fun k _ => ?_
  have hk := ValueIdx.contrEquiv1_symm_val dot_S3072x54_S54x108_S3072x108_1_0_0_1_n_n 54 rfl rfl k
  have el : dot_S3072x54_S54x108_S3072x108_1_0_0_1_n_n.lhsIdx j ((ValueIdx.contrEquiv1 dot_S3072x54_S54x108_S3072x108_1_0_0_1_n_n 54 rfl rfl).symm k) = bl j k := funext fun a => Fin.ext (by
    match a with
    | ⟨0, _⟩ => exact lhs_0 _ _
    | ⟨1, _⟩ => exact (lhs_1 _ _).trans hk)
  have er : dot_S3072x54_S54x108_S3072x108_1_0_0_1_n_n.rhsIdx j ((ValueIdx.contrEquiv1 dot_S3072x54_S54x108_S3072x108_1_0_0_1_n_n 54 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg10.N,
    win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0
    ∧ win10_2.index t (0 : Fin 2) ≤ 24 :=
  (by decide +kernel : ∀ t : Fin grid10.N, _)

/-- Every row block is some grid point's. -/
theorem idx_onto : ∀ (q0 : Fin 25), ∃ t : Fin cfg10.N, win10_2.index t = ![q0.val, 0] :=
  (by decide +kernel : ∀ (q0 : Fin 25), ∃ t : Fin grid10.N, win10_2.index t = ![q0.val, 0])

/-- What grid point t writes back is block t of the product matrix of the arrays as the region finds them. -/
theorem flushed_eq (c : Dev nD) (t : Fin cfg10.N) :
    (dat10 V c).flushed 2 t = ((cfg10.win 2).blk t).view.read (Elt Ideal) (prod ((a0 V c)) ((a1 V c))) := by
  show (cfg10.win 2).cut (grid10.coords t) ((dat10 V c).after 2 t) = _
  rw [after10_2]
  unfold out10_2
  rw [View.canon_unit_zero hz]
  simp only [View.ld_unit_zero (S := S3072x54) hz, View.ld_unit_zero (S := S54x108) hz]
  obtain ⟨e0, e1, e2, e3, e4, e5⟩ := idx_facts t
  funext j
  show k10_pay1 (F := Ideal) (iblk10 V c 0 t) (iblk10 V c 1 t) j = prod ((a0 V c)) ((a1 V c)) (((cfg10.win 2).blk t).view.emb j)
  refine (pay_apply (iblk10 V c 0 t) (iblk10 V c 1 t) j).trans ?_
  have h0 : ∀ k : Fin 54, ((cfg10.win 0).blk t).view.emb (bl j k) = wl (((cfg10.win 2).blk t).view.emb j) k := fun k => by
    funext a; apply Fin.ext
    match a with
    | ⟨0, _⟩ => show win10_0.index t (0 : Fin 2) * 3072 + 1 * (j 0).val = win10_2.index t (0 : Fin 2) * 3072 + 1 * (j 0).val; omega
    | ⟨1, _⟩ => show win10_0.index t (1 : Fin 2) * 54 + 1 * k.val = k.val; omega
  have h1 : ∀ k : Fin 54, ((cfg10.win 1).blk t).view.emb (br j k) = wr (((cfg10.win 2).blk t).view.emb j) k := fun k => by
    funext a; apply Fin.ext
    match a with
    | ⟨0, _⟩ => show win10_1.index t (0 : Fin 2) * 54 + 1 * k.val = k.val; omega
    | ⟨1, _⟩ => show win10_1.index t (1 : Fin 2) * 108 + 1 * (j 1).val = win10_2.index t (1 : Fin 2) * 108 + 1 * (j 1).val; omega
  show (∑ k : Fin 54, (a0 V c) (((cfg10.win 0).blk t).view.emb (bl j k)) * (a1 V c) (((cfg10.win 1).blk t).view.emb (br j k)))
    = ∑ k : Fin 54, (a0 V c) (wl (((cfg10.win 2).blk t).view.emb j) k) * (a1 V c) (wr (((cfg10.win 2).blk t).view.emb j) k)
  exact Finset.sum_congr rfl fun k _ => by rw [h0 k, h1 k]

/-- An index of the result array lies in grid point t's block iff each coordinate lies in the block's range. -/
theorem mem_blk (t : Fin cfg10.N) (i : S76800x108.Idx) :
    i ∈ ((cfg10.win 2).blk t).view.set ↔ ∀ a : Fin 2, win10_2.index t a * S3072x108.size a ≤ (i a).val ∧ (i a).val < win10_2.index t a * S3072x108.size a + S3072x108.size a := by
  show i ∈ ((View.whole main_v126).slice (win10_2.rect t)).set ↔ _
  rw [View.set_slice_whole, Rect.mem_set_unit]
  exact Iff.rfl

/-- The row blocks tile the result: row i lies in block i / 3072. -/
theorem cover (i : S76800x108.Idx) : ∃ t : Fin cfg10.N, (cfg10.win 2).flush t = true ∧ i ∈ ((cfg10.win 2).blk t).view.set := by
  have hi0 : (i 0).val < 76800 := (i 0).isLt
  have hi1 : (i 1).val < 108 := (i 1).isLt
  obtain ⟨t, ht⟩ := idx_onto ⟨(i 0).val / 3072, by omega⟩
  have q0 : win10_2.index t (0 : Fin 2) = (i 0).val / 3072 := congrFun ht 0
  have q1 : win10_2.index t (1 : Fin 2) = 0 := congrFun ht 1
  refine ⟨t, flush10_2 t, ?_⟩
  rw [mem_blk]
  intro a
  match a with
  | ⟨0, _⟩ => show win10_2.index t (0 : Fin 2) * 3072 ≤ (i 0).val ∧ (i 0).val < win10_2.index t (0 : Fin 2) * 3072 + 3072; omega
  | ⟨1, _⟩ => show win10_2.index t (1 : Fin 2) * 108 ≤ (i 1).val ∧ (i 1).val < win10_2.index t (1 : Fin 2) * 108 + 108; omega

/-- The array the region leaves: the product of the two arrays it was entered with. -/
theorem final (c : Dev nD) : (dat10 V c).arrAt 2 cfg10.N = prod ((a0 V c)) ((a1 V c)) :=
  (dat10 V c).arrAt_eq_of_cover 2 (prod ((a0 V c)) ((a1 V c))) (fun t _ => flushed_eq V c t) cover

end Cert.KernelIdeal.Mm10

end
-- ==== Proof.Cb11.lean ====
/-
  The second graph-convolution combine of the protein branch: out = max(n · (agg + n · h) + b, 0) over [76800, 108], where n is a column [76800, 1] (one factor per node,
  the same along a row) and b a row [108] (one bias per feature, the same down a column), computed in 25 blocks of 3072 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb11

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x108, .f32⟩ : BufTy).Contents (Elt Ideal) := V c main_v146
abbrev a1 (c : Dev nD) : (⟨S76800x108, .f32⟩ : BufTy).Contents (Elt Ideal) := V c main_v126
abbrev a2 (c : Dev nD) : (⟨S76800x1, .f32⟩ : BufTy).Contents (Elt Ideal) := V c main_v103
abbrev a3 (c : Dev nD) : (⟨S108, .f32⟩ : BufTy).Contents (Elt Ideal) := V c main_arg19

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S76800x108.Idx) : S76800x1.Idx := fun a => match a with
  | ⟨0, _⟩ => ⟨(i 0).val, (i 0).isLt⟩
  | ⟨1, _⟩ => ⟨0, Nat.one_pos⟩
abbrev wb (i : S76800x108.Idx) : S108.Idx := fun a => match a with
  | ⟨0, _⟩ => ⟨(i 1).val, (i 1).isLt⟩

/-- The combined features, entry by entry. -/
def comb (agg h : (⟨S76800x108, .f32⟩ : BufTy).Contents (Elt Ideal)) (n : (⟨S76800x1, .f32⟩ : BufTy).Contents (Elt Ideal))
    (b : (⟨S108, .f32⟩ : BufTy).Contents (Elt Ideal)) : (⟨S76800x108, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S3072x108.Idx) : S3072x1.Idx := fun a => match a with
  | ⟨0, _⟩ => ⟨(j 0).val, (j 0).isLt⟩
  | ⟨1, _⟩ => ⟨0, Nat.one_pos⟩
abbrev bb (j : S3072x108.Idx) : S108.Idx := fun a => match a with
  | ⟨0, _⟩ => ⟨(j 1).val, (j 1).isLt⟩

/-- One block's result at an index: the column is read at the index's row, the bias at its feature, and the other two
    operands at the index itself. -/
theorem pay_apply (v0 : Vec Ideal S3072x1 .f32) (v2 : Vec Ideal S108 .f32) (v6 v8 : Vec Ideal S3072x108 .f32) (j : S3072x108.Idx) :
    k11_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 3072) (q : Fin 108), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S3072x108 (shapeCast S3072x1 v0 shapeCasts_S3072x1_S3072x1) broadcasts_S3072x1_S3072x108 (ix2 p q) = v0 (ix2 p (0 : Fin 1)) := by
    rw [shapeCast_self]
    exact Cert.LibLayout.broadcastTo_a1_ab_apply v0 _ p q
  have hb : broadcastTo S3072x108 (shapeCast S1x108 (shapeCast S1x108 v2 shapeCasts_S108_S1x108) shapeCasts_S1x108_S1x108) broadcasts_S1x108_S3072x108 (ix2 p q) = v2 (ix1 q) := by
    rw [shapeCast_self]
    exact (broadcastTo_1b_ab_apply _ _ p q).trans (shapeCast_a_1a_apply v2 _ 0 q)
  have h6 : shapeCast S3072x108 v6 shapeCasts_S3072x108_S3072x108 = v6 := shapeCast_self _ _
  have h8 : shapeCast S3072x108 v8 shapeCasts_S3072x108_S3072x108 = v8 := shapeCast_self _ _
  rw [en, eb]
  show max (broadcastTo S3072x108 (shapeCast S3072x1 v0 shapeCasts_S3072x1_S3072x1) broadcasts_S3072x1_S3072x108 (ix2 p q)
        * (shapeCast S3072x108 v6 shapeCasts_S3072x108_S3072x108 (ix2 p q)
            + broadcastTo S3072x108 (shapeCast S3072x1 v0 shapeCasts_S3072x1_S3072x1) broadcasts_S3072x1_S3072x108 (ix2 p q) * shapeCast S3072x108 v8 shapeCasts_S3072x108_S3072x108 (ix2 p q))
        + broadcastTo S3072x108 (shapeCast S1x108 (shapeCast S1x108 v2 shapeCasts_S108_S1x108) shapeCasts_S1x108_S1x108) broadcasts_S1x108_S3072x108 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg11.N,
    win11_0.index t (0 : Fin 2) = win11_4.index t (0 : Fin 2)
    ∧ win11_0.index t (1 : Fin 2) = 0
    ∧ win11_1.index t (0 : Fin 2) = win11_4.index t (0 : Fin 2)
    ∧ win11_1.index t (1 : Fin 2) = 0
    ∧ win11_2.index t (0 : Fin 2) = win11_4.index t (0 : Fin 2)
    ∧ win11_2.index t (1 : Fin 2) = 0
    ∧ win11_3.index t (0 : Fin 1) = 0
    ∧ win11_4.index t (1 : Fin 2) = 0 :=
  (by decide +kernel : ∀ t : Fin grid11.N, _)

/-- Every row block is some grid point's. -/
theorem idx_onto : ∀ (q0 : Fin 25), ∃ t : Fin cfg11.N, win11_4.index t = ![q0.val, 0] :=
  (by decide +kernel : ∀ (q0 : Fin 25), ∃ t : Fin grid11.N, win11_4.index t = ![q0.val, 0])

/-- What grid point t writes back is block t of the combined features of the arrays as the region finds them. -/
theorem flushed_eq (c : Dev nD) (t : Fin cfg11.N) :
    (dat11 V c).flushed 4 t
      = ((cfg11.win 4).blk t).view.read (Elt Ideal) (comb ((a0 V c)) ((a1 V c)) ((a2 V c)) ((a3 V c))) := by
  show (cfg11.win 4).cut (grid11.coords t) ((dat11 V c).after 4 t) = _
  rw [after11_4]
  unfold out11_4
  rw [View.canon_unit_zero hz]
  simp only [View.ld_unit_zero (S := S3072x108) hz, View.ld_unit_zero (S := S3072x1) hz, View.ld_unit_zero (S := S108) hz1]
  obtain ⟨e0, e1, e2, e3, e4, e5, e6, e7⟩ := idx_facts t
  funext j
  show k11_pay1 (F := Ideal) (iblk11 V c 2 t) (iblk11 V c 3 t) (iblk11 V c 0 t) (iblk11 V c 1 t) j
    = comb ((a0 V c)) ((a1 V c)) ((a2 V c)) ((a3 V c)) (((cfg11.win 4).blk t).view.emb j)
  refine (pay_apply (iblk11 V c 2 t) (iblk11 V c 3 t) (iblk11 V c 0 t) (iblk11 V c 1 t) j).trans ?_
  show max ((a2 V c) (((cfg11.win 2).blk t).view.emb (bn j))
        * ((a0 V c) (((cfg11.win 0).blk t).view.emb j)
            + (a2 V c) (((cfg11.win 2).blk t).view.emb (bn j)) * (a1 V c) (((cfg11.win 1).blk t).view.emb j))
        + (a3 V c) (((cfg11.win 3).blk t).view.emb (bb j))) (Scalar.ofBits (F := Ideal) .f32 0x00000000#32)
    = max ((a2 V c) (wn (((cfg11.win 4).blk t).view.emb j))
        * ((a0 V c) (((cfg11.win 4).blk t).view.emb j)
            + (a2 V c) (wn (((cfg11.win 4).blk t).view.emb j)) * (a1 V c) (((cfg11.win 4).blk t).view.emb j))
        + (a3 V c) (wb (((cfg11.win 4).blk t).view.emb j))) (Scalar.ofBits (F := Ideal) .f32 0x00000000#32)
  have h0 : ((cfg11.win 0).blk t).view.emb j = ((cfg11.win 4).blk t).view.emb j := by
    funext a; apply Fin.ext
    match a with
    | ⟨0, _⟩ => show win11_0.index t (0 : Fin 2) * 3072 + 1 * (j 0).val = win11_4.index t (0 : Fin 2) * 3072 + 1 * (j 0).val; omega
    | ⟨1, _⟩ => show win11_0.index t (1 : Fin 2) * 108 + 1 * (j 1).val = win11_4.index t (1 : Fin 2) * 108 + 1 * (j 1).val; omega
  have h1 : ((cfg11.win 1).blk t).view.emb j = ((cfg11.win 4).blk t).view.emb j := by
    funext a; apply Fin.ext
    match a with
    | ⟨0, _⟩ => show win11_1.index t (0 : Fin 2) * 3072 + 1 * (j 0).val = win11_4.index t (0 : Fin 2) * 3072 + 1 * (j 0).val; omega
    | ⟨1, _⟩ => show win11_1.index t (1 : Fin 2) * 108 + 1 * (j 1).val = win11_4.index t (1 : Fin 2) * 108 + 1 * (j 1).val; omega
  have h2 : ((cfg11.win 2).blk t).view.emb (bn j) = wn (((cfg11.win 4).blk t).view.emb j) := by
    funext a; apply Fin.ext
    match a with
    | ⟨0, _⟩ => show win11_2.index t (0 : Fin 2) * 3072 + 1 * (j 0).val = win11_4.index t (0 : Fin 2) * 3072 + 1 * (j 0).val; omega
    | ⟨1, _⟩ => show win11_2.index t (1 : Fin 2) * 1 + 1 * 0 = 0; omega
  have h3 : ((cfg11.win 3).blk t).view.emb (bb j) = wb (((cfg11.win 4).blk t).view.emb j) := by
    funext a; apply Fin.ext
    match a with
    | ⟨0, _⟩ => show win11_3.index t (0 : Fin 1) * 108 + 1 * (j 1).val = win11_4.index t (1 : Fin 2) * 108 + 1 * (j 1).val; omega
  rw [h0, h1, h2, h3]

/-- An index of the result array lies in grid point t's block iff each coordinate lies in the block's range. -/
theorem mem_blk (t : Fin cfg11.N) (i : S76800x108.Idx) :
    i ∈ ((cfg11.win 4).blk t).view.set ↔ ∀ a : Fin 2, win11_4.index t a * S3072x108.size a ≤ (i a).val ∧ (i a).val < win11_4.index t a * S3072x108.size a + S3072x108.size a := by
  show i ∈ ((View.whole main_v147).slice (win11_4.rect t)).set ↔ _
  rw [View.set_slice_whole, Rect.mem_set_unit]
  exact Iff.rfl

/-- The row blocks tile the result: row i lies in block i / 3072. -/
theorem cover (i : S76800x108.Idx) : ∃ t : Fin cfg11.N, (cfg11.win 4).flush t = true ∧ i ∈ ((cfg11.win 4).blk t).view.set := by
  have hi0 : (i 0).val < 76800 := (i 0).isLt
  have hi1 : (i 1).val < 108 := (i 1).isLt
  obtain ⟨t, ht⟩ := idx_onto ⟨(i 0).val / 3072, by omega⟩
  have q0 : win11_4.index t (0 : Fin 2) = (i 0).val / 3072 := congrFun ht 0
  have q1 : win11_4.index t (1 : Fin 2) = 0 := congrFun ht 1
  refine ⟨t, flush11_4 t, ?_⟩
  rw [mem_blk]
  intro a
  match a with
  | ⟨0, _⟩ => show win11_4.index t (0 : Fin 2) * 3072 ≤ (i 0).val ∧ (i 0).val < win11_4.index t (0 : Fin 2) * 3072 + 3072; omega
  | ⟨1, _⟩ => show win11_4.index t (1 : Fin 2) * 108 ≤ (i 1).val ∧ (i 1).val < win11_4.index t (1 : Fin 2) * 108 + 108; omega

/-- The array the region leaves: the combined features of the four arrays it was entered with. -/
theorem final (c : Dev nD) : (dat11 V c).arrAt 4 cfg11.N = comb ((a0 V c)) ((a1 V c)) ((a2 V c)) ((a3 V c)) :=
  (dat11 V c).arrAt_eq_of_cover 4 (comb ((a0 V c)) ((a1 V c)) ((a2 V c)) ((a3 V c))) (fun t _ => flushed_eq V c t) cover

end Cert.KernelIdeal.Cb11

end
-- ==== Proof.Mm12.lean ====
/-
  The third projection of the protein branch: the [76800, 108] matrix x times the [108, 216] matrix w, computed in 25 blocks of 3072 rows.
  A block's product read at (p, q) is the sum over k of x(row, k) · w(k, q), where row is the block's first row plus p; the
  blocks tile the rows, so the array the region leaves is the one matrix product, entry by entry: at (i, q) the sum over k
  of x(i, k) · w(k, q).
-/
import proofs.«144194_j36799279792821_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Mm12

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x108, .f32⟩ : BufTy).Contents (Elt Ideal) := V c main_v147
abbrev a1 (c : Dev nD) : (⟨S108x216, .f32⟩ : BufTy).Contents (Elt Ideal) := V c main_arg20

theorem hz : (![0, 0] : Fin 2 → Nat) = fun _ => 0 := funext fun a => by fin_cases a <;> rfl

/-- Row i, column k of the left factor, and row k, column q of the right factor, for the entry (i, q) of the product. -/
abbrev wl (i : S76800x216.Idx) (k : Fin 108) : S76800x108.Idx := fun a => match a with
  | ⟨0, _⟩ => ⟨(i 0).val, (i 0).isLt⟩
  | ⟨1, _⟩ => ⟨k.val, k.isLt⟩
abbrev wr (i : S76800x216.Idx) (k : Fin 108) : S108x216.Idx := fun a => match a with
  | ⟨0, _⟩ => ⟨k.val, k.isLt⟩
  | ⟨1, _⟩ => ⟨(i 1).val, (i 1).isLt⟩

/-- The product matrix, entry by entry. -/
def prod (x : (⟨S76800x108, .f32⟩ : BufTy).Contents (Elt Ideal)) (w : (⟨S108x216, .f32⟩ : BufTy).Contents (Elt Ideal)) :
    (⟨S76800x216, .f32⟩ : BufTy).Contents (Elt Ideal) :=
  fun i => ∑ k : Fin 108, x (wl i k) * w (wr i k)

/-- The same two index maps inside one block of rows. -/
abbrev bl (j : S3072x216.Idx) (k : Fin 108) : S3072x108.Idx := fun a => match a with
  | ⟨0, _⟩ => ⟨(j 0).val, (j 0).isLt⟩
  | ⟨1, _⟩ => ⟨k.val, k.isLt⟩
abbrev br (j : S3072x216.Idx) (k : Fin 108) : S108x216.Idx := fun a => match a with
  | ⟨0, _⟩ => ⟨k.val, k.isLt⟩
  | ⟨1, _⟩ => ⟨(j 1).val, (j 1).isLt⟩

theorem lhs_0 (i : S3072x216.Idx) (q : dot_S3072x108_S108x216_S3072x216_1_0_0_1_n_n.contr.Idx) : (dot_S3072x108_S108x216_S3072x216_1_0_0_1_n_n.lhsIdx i q 0).val = (i 0).val := by
  unfold DotDims.lhsIdx
  rw [dif_neg (show ¬(0 : Fin S3072x108.rank) ∈ dot_S3072x108_S108x216_S3072x216_1_0_0_1_n_n.lhsBatch by decide), dif_pos (show (0 : Fin S3072x108.rank) ∈ dot_S3072x108_S108x216_S3072x216_1_0_0_1_n_n.lhsNonContracting by decide)]
  rfl
theorem lhs_1 (i : S3072x216.Idx) (q : dot_S3072x108_S108x216_S3072x216_1_0_0_1_n_n.contr.Idx) : (dot_S3072x108_S108x216_S3072x216_1_0_0_1_n_n.lhsIdx i q 1).val = (q ⟨0, by decide⟩).val :=
  dot_S3072x108_S108x216_S3072x216_1_0_0_1_n_n.lhsIdx_val_of_single rfl i q
theorem rhs_0 (i : S3072x216.Idx) (q : dot_S3072x108_S108x216_S3072x216_1_0_0_1_n_n.contr.Idx) : (dot_S3072x108_S108x216_S3072x216_1_0_0_1_n_n.rhsIdx i q 0).val = (q ⟨0, by decide⟩).val :=
  dot_S3072x108_S108x216_S3072x216_1_0_0_1_n_n.rhsIdx_val_of_single rfl i q
theorem rhs_1 (i : S3072x216.Idx) (q : dot_S3072x108_S108x216_S3072x216_1_0_0_1_n_n.contr.Idx) : (dot_S3072x108_S108x216_S3072x216_1_0_0_1_n_n.rhsIdx i q 1).val = (i 1).val := by
  unfold DotDims.rhsIdx
  rw [dif_neg (show ¬(1 : Fin S108x216.rank) ∈ dot_S3072x108_S108x216_S3072x216_1_0_0_1_n_n.rhsBatch by decide), dif_pos (show (1 : Fin S108x216.rank) ∈ dot_S3072x108_S108x216_S3072x216_1_0_0_1_n_n.rhsNonContracting by decide)]
  rfl

/-- One block's product at (p, q): the change of number format is the identity on extended reals, and the product
    into a zero accumulator is the plain sum over the contracted axis. -/
theorem pay_apply (x0 : Vec Ideal S3072x108 .f32) (x1 : Vec Ideal S108x216 .f32) (j : S3072x216.Idx) :
    k12_pay1 (F := Ideal) x0 x1 j = ∑ k : Fin 108, x0 (bl j k) * x1 (br j k) := by
  have hc : shapeCast S3072x108 x0 shapeCasts_S3072x108_S3072x108 = x0 := shapeCast_self _ _
  show FloatOps.matmul (F := Ideal) (φ₁ := .f32) (φ₂ := .f32) dot_S3072x108_S108x216_S3072x216_1_0_0_1_n_n none (shapeCast S3072x108 x0 shapeCasts_S3072x108_S3072x108 : FVec Ideal S3072x108 .f32) (x1 : FVec Ideal S108x216 .f32) (constant S3072x216 .f32 0x00000000#32) j = _
  rw [hc]
  rw [Ideal.matmul_constant_zero_apply, ← Equiv.sum_comp (ValueIdx.contrEquiv1 dot_S3072x108_S108x216_S3072x216_1_0_0_1_n_n 108 rfl rfl).symm]
  refine Finset.sum_congr rfl fun k _ => ?_
  have hk := ValueIdx.contrEquiv1_symm_val dot_S3072x108_S108x216_S3072x216_1_0_0_1_n_n 108 rfl rfl k
  have el : dot_S3072x108_S108x216_S3072x216_1_0_0_1_n_n.lhsIdx j ((ValueIdx.contrEquiv1 dot_S3072x108_S108x216_S3072x216_1_0_0_1_n_n 108 rfl rfl).symm k) = bl j k := funext fun a => Fin.ext (by
    match a with
    | ⟨0, _⟩ => exact lhs_0 _ _
    | ⟨1, _⟩ => exact (lhs_1 _ _).trans hk)
  have er : dot_S3072x108_S108x216_S3072x216_1_0_0_1_n_n.rhsIdx j ((ValueIdx.contrEquiv1 dot_S3072x108_S108x216_S3072x216_1_0_0_1_n_n 108 rfl rfl).symm k) = br j k := funext fun a => Fin.ext (by
    match a with
    | ⟨0, _⟩ => exact (rhs_0 _ _).trans hk
    | ⟨1, _⟩ => exact rhs_1 _ _)
  rw [el, er]

/-- Where each window's block sits at grid point t: the left factor's and the result's row blocks move together, the
    right factor is the whole matrix, and the result's row block is block number t. -/
theorem idx_facts : ∀ t : Fin cfg12.N,
    win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (1 : Fin 2) = 0
    ∧ win12_2.index t (0 : Fin 2) ≤ 24 :=
  (by decide +kernel : ∀ t : Fin grid12.N, _)

/-- Every row block is some grid point's. -/
theorem idx_onto : ∀ (q0 : Fin 25), ∃ t : Fin cfg12.N, win12_2.index t = ![q0.val, 0] :=
  (by decide +kernel : ∀ (q0 : Fin 25), ∃ t : Fin grid12.N, win12_2.index t = ![q0.val, 0])

/-- What grid point t writes back is block t of the product matrix of the arrays as the region finds them. -/
theorem flushed_eq (c : Dev nD) (t : Fin cfg12.N) :
    (dat12 V c).flushed 2 t = ((cfg12.win 2).blk t).view.read (Elt Ideal) (prod ((a0 V c)) ((a1 V c))) := by
  show (cfg12.win 2).cut (grid12.coords t) ((dat12 V c).after 2 t) = _
  rw [after12_2]
  unfold out12_2
  rw [View.canon_unit_zero hz]
  simp only [View.ld_unit_zero (S := S3072x108) hz, View.ld_unit_zero (S := S108x216) hz]
  obtain ⟨e0, e1, e2, e3, e4, e5⟩ := idx_facts t
  funext j
  show k12_pay1 (F := Ideal) (iblk12 V c 0 t) (iblk12 V c 1 t) j = prod ((a0 V c)) ((a1 V c)) (((cfg12.win 2).blk t).view.emb j)
  refine (pay_apply (iblk12 V c 0 t) (iblk12 V c 1 t) j).trans ?_
  have h0 : ∀ k : Fin 108, ((cfg12.win 0).blk t).view.emb (bl j k) = wl (((cfg12.win 2).blk t).view.emb j) k := fun k => by
    funext a; apply Fin.ext
    match a with
    | ⟨0, _⟩ => show win12_0.index t (0 : Fin 2) * 3072 + 1 * (j 0).val = win12_2.index t (0 : Fin 2) * 3072 + 1 * (j 0).val; omega
    | ⟨1, _⟩ => show win12_0.index t (1 : Fin 2) * 108 + 1 * k.val = k.val; omega
  have h1 : ∀ k : Fin 108, ((cfg12.win 1).blk t).view.emb (br j k) = wr (((cfg12.win 2).blk t).view.emb j) k := fun k => by
    funext a; apply Fin.ext
    match a with
    | ⟨0, _⟩ => show win12_1.index t (0 : Fin 2) * 108 + 1 * k.val = k.val; omega
    | ⟨1, _⟩ => show win12_1.index t (1 : Fin 2) * 216 + 1 * (j 1).val = win12_2.index t (1 : Fin 2) * 216 + 1 * (j 1).val; omega
  show (∑ k : Fin 108, (a0 V c) (((cfg12.win 0).blk t).view.emb (bl j k)) * (a1 V c) (((cfg12.win 1).blk t).view.emb (br j k)))
    = ∑ k : Fin 108, (a0 V c) (wl (((cfg12.win 2).blk t).view.emb j) k) * (a1 V c) (wr (((cfg12.win 2).blk t).view.emb j) k)
  exact Finset.sum_congr rfl fun k _ => by rw [h0 k, h1 k]

/-- An index of the result array lies in grid point t's block iff each coordinate lies in the block's range. -/
theorem mem_blk (t : Fin cfg12.N) (i : S76800x216.Idx) :
    i ∈ ((cfg12.win 2).blk t).view.set ↔ ∀ a : Fin 2, win12_2.index t a * S3072x216.size a ≤ (i a).val ∧ (i a).val < win12_2.index t a * S3072x216.size a + S3072x216.size a := by
  show i ∈ ((View.whole main_v148).slice (win12_2.rect t)).set ↔ _
  rw [View.set_slice_whole, Rect.mem_set_unit]
  exact Iff.rfl

/-- The row blocks tile the result: row i lies in block i / 3072. -/
theorem cover (i : S76800x216.Idx) : ∃ t : Fin cfg12.N, (cfg12.win 2).flush t = true ∧ i ∈ ((cfg12.win 2).blk t).view.set := by
  have hi0 : (i 0).val < 76800 := (i 0).isLt
  have hi1 : (i 1).val < 216 := (i 1).isLt
  obtain ⟨t, ht⟩ := idx_onto ⟨(i 0).val / 3072, by omega⟩
  have q0 : win12_2.index t (0 : Fin 2) = (i 0).val / 3072 := congrFun ht 0
  have q1 : win12_2.index t (1 : Fin 2) = 0 := congrFun ht 1
  refine ⟨t, flush12_2 t, ?_⟩
  rw [mem_blk]
  intro a
  match a with
  | ⟨0, _⟩ => show win12_2.index t (0 : Fin 2) * 3072 ≤ (i 0).val ∧ (i 0).val < win12_2.index t (0 : Fin 2) * 3072 + 3072; omega
  | ⟨1, _⟩ => show win12_2.index t (1 : Fin 2) * 216 ≤ (i 1).val ∧ (i 1).val < win12_2.index t (1 : Fin 2) * 216 + 216; omega

/-- The array the region leaves: the product of the two arrays it was entered with. -/
theorem final (c : Dev nD) : (dat12 V c).arrAt 2 cfg12.N = prod ((a0 V c)) ((a1 V c)) :=
  (dat12 V c).arrAt_eq_of_cover 2 (prod ((a0 V c)) ((a1 V c))) (fun t _ => flushed_eq V c t) cover

end Cert.KernelIdeal.Mm12

end
-- ==== Proof.Cb13.lean ====
/-
  The third graph-convolution combine of the protein branch: out = max(n · (agg + n · h) + b, 0) over [76800, 216], where n is a column [76800, 1] (one factor per node,
  the same along a row) and b a row [216] (one bias per feature, the same down a column), computed in 25 blocks of 3072 rows.
  Every operation is entry by entry, so a block's result at (p, q) depends on row (block start + p) only, and the blocks
  tile the rows: the array the region leaves is that expression entry by entry.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Cb13

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S76800x216, .f32⟩ : BufTy).Contents (Elt Ideal) := V c main_v168
abbrev a1 (c : Dev nD) : (⟨S76800x216, .f32⟩ : BufTy).Contents (Elt Ideal) := V c main_v148
abbrev a2 (c : Dev nD) : (⟨S76800x1, .f32⟩ : BufTy).Contents (Elt Ideal) := V c main_v103
abbrev a3 (c : Dev nD) : (⟨S216, .f32⟩ : BufTy).Contents (Elt Ideal) := V c main_arg21

theorem hz : (![0, 0] : Fin 2 → Nat) = fun _ => 0 := funext fun a => by fin_cases a <;> rfl
theorem hz1 : (![0] : Fin 1 → Nat) = fun _ => 0 := funext fun a => by fin_cases a; rfl

/-- The column entry of row i 0, and the bias entry of feature i 1, for the entry i of the result. -/
abbrev wn (i : S76800x216.Idx) : S76800x1.Idx := fun a => match a with
  | ⟨0, _⟩ => ⟨(i 0).val, (i 0).isLt⟩
  | ⟨1, _⟩ => ⟨0, Nat.one_pos⟩
abbrev wb (i : S76800x216.Idx) : S216.Idx := fun a => match a with
  | ⟨0, _⟩ => ⟨(i 1).val, (i 1).isLt⟩

/-- The combined features, entry by entry. -/
def comb (agg h : (⟨S76800x216, .f32⟩ : BufTy).Contents (Elt Ideal)) (n : (⟨S76800x1, .f32⟩ : BufTy).Contents (Elt Ideal))
    (b : (⟨S216, .f32⟩ : BufTy).Contents (Elt Ideal)) : (⟨S76800x216, .f32⟩ : BufTy).Contents (Elt Ideal) :=
  fun i => max (n (wn i) * (agg i + n (wn i) * h i) + b (wb i)) (Scalar.ofBits (F := Ideal) .f32 0x00000000#32)

/-- The same two index maps inside one block of rows. -/
abbrev bn (j : S3072x216.Idx) : S3072x1.Idx := fun a => match a with
  | ⟨0, _⟩ => ⟨(j 0).val, (j 0).isLt⟩
  | ⟨1, _⟩ => ⟨0, Nat.one_pos⟩
abbrev bb (j : S3072x216.Idx) : S216.Idx := fun a => match a with
  | ⟨0, _⟩ => ⟨(j 1).val, (j 1).isLt⟩

/-- One block's result at an index: the column is read at the index's row, the bias at its feature, and the other two
    operands at the index itself. -/
theorem pay_apply (v0 : Vec Ideal S3072x1 .f32) (v2 : Vec Ideal S216 .f32) (v6 v8 : Vec Ideal S3072x216 .f32) (j : S3072x216.Idx) :
    k13_pay1 (F := Ideal) v0 v2 v6 v8 j
      = max (v0 (bn j) * (v6 j + v0 (bn j) * v8 j) + v2 (bb j)) (Scalar.ofBits (F := Ideal) .f32 0x00000000#32) := by
  obtain ⟨p, q, rfl⟩ : ∃ (p : Fin 3072) (q : Fin 216), j = ix2 p q := ⟨j 0, j 1, eq_ix2 j⟩
  have en : bn (ix2 p q) = ix2 p (0 : Fin 1) := funext fun a => by match a with | ⟨0, _⟩ => rfl | ⟨1, _⟩ => rfl
  have eb : bb (ix2 p q) = ix1 q := funext fun a => by match a with | ⟨0, _⟩ => rfl
  have hn : broadcastTo S3072x216 (shapeCast S3072x1 v0 shapeCasts_S3072x1_S3072x1) broadcasts_S3072x1_S3072x216 (ix2 p q) = v0 (ix2 p (0 : Fin 1)) := by
    rw [shapeCast_self]
    exact Cert.LibLayout.broadcastTo_a1_ab_apply v0 _ p q
  have hb : broadcastTo S3072x216 (shapeCast S1x216 (shapeCast S1x216 v2 shapeCasts_S216_S1x216) shapeCasts_S1x216_S1x216) broadcasts_S1x216_S3072x216 (ix2 p q) = v2 (ix1 q) := by
    rw [shapeCast_self]
    exact (broadcastTo_1b_ab_apply _ _ p q).trans (shapeCast_a_1a_apply v2 _ 0 q)
  have h6 : shapeCast S3072x216 v6 shapeCasts_S3072x216_S3072x216 = v6 := shapeCast_self _ _
  have h8 : shapeCast S3072x216 v8 shapeCasts_S3072x216_S3072x216 = v8 := shapeCast_self _ _
  rw [en, eb]
  show max (broadcastTo S3072x216 (shapeCast S3072x1 v0 shapeCasts_S3072x1_S3072x1) broadcasts_S3072x1_S3072x216 (ix2 p q)
        * (shapeCast S3072x216 v6 shapeCasts_S3072x216_S3072x216 (ix2 p q)
            + broadcastTo S3072x216 (shapeCast S3072x1 v0 shapeCasts_S3072x1_S3072x1) broadcasts_S3072x1_S3072x216 (ix2 p q) * shapeCast S3072x216 v8 shapeCasts_S3072x216_S3072x216 (ix2 p q))
        + broadcastTo S3072x216 (shapeCast S1x216 (shapeCast S1x216 v2 shapeCasts_S216_S1x216) shapeCasts_S1x216_S1x216) broadcasts_S1x216_S3072x216 (ix2 p q))
      (Scalar.ofBits (F := Ideal) .f32 0x00000000#32) = _
  rw [hn, hb, h6, h8]

/-- Where each window's block sits at grid point t: the three row-blocked operands and the result move together, the
    bias is the whole row. -/
theorem idx_facts : ∀ t : Fin cfg13.N,
    win13_0.index t (0 : Fin 2) = win13_4.index t (0 : Fin 2)
    ∧ win13_0.index t (1 : Fin 2) = 0
    ∧ win13_1.index t (0 : Fin 2) = win13_4.index t (0 : Fin 2)
    ∧ win13_1.index t (1 : Fin 2) = 0
    ∧ win13_2.index t (0 : Fin 2) = win13_4.index t (0 : Fin 2)
    ∧ win13_2.index t (1 : Fin 2) = 0
    ∧ win13_3.index t (0 : Fin 1) = 0
    ∧ win13_4.index t (1 : Fin 2) = 0 :=
  (by decide +kernel : ∀ t : Fin grid13.N, _)

/-- Every row block is some grid point's. -/
theorem idx_onto : ∀ (q0 : Fin 25), ∃ t : Fin cfg13.N, win13_4.index t = ![q0.val, 0] :=
  (by decide +kernel : ∀ (q0 : Fin 25), ∃ t : Fin grid13.N, win13_4.index t = ![q0.val, 0])

/-- What grid point t writes back is block t of the combined features of the arrays as the region finds them. -/
theorem flushed_eq (c : Dev nD) (t : Fin cfg13.N) :
    (dat13 V c).flushed 4 t
      = ((cfg13.win 4).blk t).view.read (Elt Ideal) (comb ((a0 V c)) ((a1 V c)) ((a2 V c)) ((a3 V c))) := by
  show (cfg13.win 4).cut (grid13.coords t) ((dat13 V c).after 4 t) = _
  rw [after13_4]
  unfold out13_4
  rw [View.canon_unit_zero hz]
  simp only [View.ld_unit_zero (S := S3072x216) hz, View.ld_unit_zero (S := S3072x1) hz, View.ld_unit_zero (S := S216) hz1]
  obtain ⟨e0, e1, e2, e3, e4, e5, e6, e7⟩ := idx_facts t
  funext j
  show k13_pay1 (F := Ideal) (iblk13 V c 2 t) (iblk13 V c 3 t) (iblk13 V c 0 t) (iblk13 V c 1 t) j
    = comb ((a0 V c)) ((a1 V c)) ((a2 V c)) ((a3 V c)) (((cfg13.win 4).blk t).view.emb j)
  refine (pay_apply (iblk13 V c 2 t) (iblk13 V c 3 t) (iblk13 V c 0 t) (iblk13 V c 1 t) j).trans ?_
  show max ((a2 V c) (((cfg13.win 2).blk t).view.emb (bn j))
        * ((a0 V c) (((cfg13.win 0).blk t).view.emb j)
            + (a2 V c) (((cfg13.win 2).blk t).view.emb (bn j)) * (a1 V c) (((cfg13.win 1).blk t).view.emb j))
        + (a3 V c) (((cfg13.win 3).blk t).view.emb (bb j))) (Scalar.ofBits (F := Ideal) .f32 0x00000000#32)
    = max ((a2 V c) (wn (((cfg13.win 4).blk t).view.emb j))
        * ((a0 V c) (((cfg13.win 4).blk t).view.emb j)
            + (a2 V c) (wn (((cfg13.win 4).blk t).view.emb j)) * (a1 V c) (((cfg13.win 4).blk t).view.emb j))
        + (a3 V c) (wb (((cfg13.win 4).blk t).view.emb j))) (Scalar.ofBits (F := Ideal) .f32 0x00000000#32)
  have h0 : ((cfg13.win 0).blk t).view.emb j = ((cfg13.win 4).blk t).view.emb j := by
    funext a; apply Fin.ext
    match a with
    | ⟨0, _⟩ => show win13_0.index t (0 : Fin 2) * 3072 + 1 * (j 0).val = win13_4.index t (0 : Fin 2) * 3072 + 1 * (j 0).val; omega
    | ⟨1, _⟩ => show win13_0.index t (1 : Fin 2) * 216 + 1 * (j 1).val = win13_4.index t (1 : Fin 2) * 216 + 1 * (j 1).val; omega
  have h1 : ((cfg13.win 1).blk t).view.emb j = ((cfg13.win 4).blk t).view.emb j := by
    funext a; apply Fin.ext
    match a with
    | ⟨0, _⟩ => show win13_1.index t (0 : Fin 2) * 3072 + 1 * (j 0).val = win13_4.index t (0 : Fin 2) * 3072 + 1 * (j 0).val; omega
    | ⟨1, _⟩ => show win13_1.index t (1 : Fin 2) * 216 + 1 * (j 1).val = win13_4.index t (1 : Fin 2) * 216 + 1 * (j 1).val; omega
  have h2 : ((cfg13.win 2).blk t).view.emb (bn j) = wn (((cfg13.win 4).blk t).view.emb j) := by
    funext a; apply Fin.ext
    match a with
    | ⟨0, _⟩ => show win13_2.index t (0 : Fin 2) * 3072 + 1 * (j 0).val = win13_4.index t (0 : Fin 2) * 3072 + 1 * (j 0).val; omega
    | ⟨1, _⟩ => show win13_2.index t (1 : Fin 2) * 1 + 1 * 0 = 0; omega
  have h3 : ((cfg13.win 3).blk t).view.emb (bb j) = wb (((cfg13.win 4).blk t).view.emb j) := by
    funext a; apply Fin.ext
    match a with
    | ⟨0, _⟩ => show win13_3.index t (0 : Fin 1) * 216 + 1 * (j 1).val = win13_4.index t (1 : Fin 2) * 216 + 1 * (j 1).val; omega
  rw [h0, h1, h2, h3]

/-- An index of the result array lies in grid point t's block iff each coordinate lies in the block's range. -/
theorem mem_blk (t : Fin cfg13.N) (i : S76800x216.Idx) :
    i ∈ ((cfg13.win 4).blk t).view.set ↔ ∀ a : Fin 2, win13_4.index t a * S3072x216.size a ≤ (i a).val ∧ (i a).val < win13_4.index t a * S3072x216.size a + S3072x216.size a := by
  show i ∈ ((View.whole main_v169).slice (win13_4.rect t)).set ↔ _
  rw [View.set_slice_whole, Rect.mem_set_unit]
  exact Iff.rfl

/-- The row blocks tile the result: row i lies in block i / 3072. -/
theorem cover (i : S76800x216.Idx) : ∃ t : Fin cfg13.N, (cfg13.win 4).flush t = true ∧ i ∈ ((cfg13.win 4).blk t).view.set := by
  have hi0 : (i 0).val < 76800 := (i 0).isLt
  have hi1 : (i 1).val < 216 := (i 1).isLt
  obtain ⟨t, ht⟩ := idx_onto ⟨(i 0).val / 3072, by omega⟩
  have q0 : win13_4.index t (0 : Fin 2) = (i 0).val / 3072 := congrFun ht 0
  have q1 : win13_4.index t (1 : Fin 2) = 0 := congrFun ht 1
  refine ⟨t, flush13_4 t, ?_⟩
  rw [mem_blk]
  intro a
  match a with
  | ⟨0, _⟩ => show win13_4.index t (0 : Fin 2) * 3072 ≤ (i 0).val ∧ (i 0).val < win13_4.index t (0 : Fin 2) * 3072 + 3072; omega
  | ⟨1, _⟩ => show win13_4.index t (1 : Fin 2) * 216 ≤ (i 1).val ∧ (i 1).val < win13_4.index t (1 : Fin 2) * 216 + 216; omega

/-- The array the region leaves: the combined features of the four arrays it was entered with. -/
theorem final (c : Dev nD) : (dat13 V c).arrAt 4 cfg13.N = comb ((a0 V c)) ((a1 V c)) ((a2 V c)) ((a3 V c)) :=
  (dat13 V c).arrAt_eq_of_cover 4 (comb ((a0 V c)) ((a1 V c)) ((a2 V c)) ((a3 V c))) (fun t _ => flushed_eq V c t) cover

end Cert.KernelIdeal.Cb13

end
-- ==== Proof.Ln14.lean ====
/-
  The first dense layer of the protein branch's head: out = max(x · w + b, 0), with x : [256, 216], w : [216, 1024] and the bias b : [1024] added to every row, computed in one piece.
  At (i, q) the result is the sum over k of x(i, k) · w(k, q), plus b(q), then the larger of that and zero: the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln14

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x216, .f32⟩ : BufTy).Contents (Elt Ideal) := V c main_v181
abbrev a1 (c : Dev nD) : (⟨S216x1024, .f32⟩ : BufTy).Contents (Elt Ideal) := V c main_arg22
abbrev a2 (c : Dev nD) : (⟨S1024, .f32⟩ : BufTy).Contents (Elt Ideal) := V c main_arg23

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x1024.Idx) (k : Fin 216) : S256x216.Idx := fun a => match a with
  | ⟨0, _⟩ => ⟨(i 0).val, (i 0).isLt⟩
  | ⟨1, _⟩ => ⟨k.val, k.isLt⟩
abbrev wr (i : S256x1024.Idx) (k : Fin 216) : S216x1024.Idx := fun a => match a with
  | ⟨0, _⟩ => ⟨k.val, k.isLt⟩
  | ⟨1, _⟩ => ⟨(i 1).val, (i 1).isLt⟩
abbrev wb (i : S256x1024.Idx) : S1024.Idx := fun a => match a with
  | ⟨0, _⟩ => ⟨(i 1).val, (i 1).isLt⟩

/-- The layer's output, entry by entry. -/
def lin (x : (⟨S256x216, .f32⟩ : BufTy).Contents (Elt Ideal)) (w : (⟨S216x1024, .f32⟩ : BufTy).Contents (Elt Ideal))
    (b : (⟨S1024, .f32⟩ : BufTy).Contents (Elt Ideal)) : (⟨S256x1024, .f32⟩ : BufTy).Contents (Elt Ideal) :=
  fun i => max ((∑ k : Fin 216, x (wl i k) * w (wr i k)) + b (wb i)) (Scalar.ofBits (F := Ideal) .f32 0x00000000#32)

/-- The same index maps inside one block of rows. -/
abbrev bl (j : S256x1024.Idx) (k : Fin 216) : S256x216.Idx := fun a => match a with
  | ⟨0, _⟩ => ⟨(j 0).val, (j 0).isLt⟩
  | ⟨1, _⟩ => ⟨k.val, k.isLt⟩
abbrev br (j : S256x1024.Idx) (k : Fin 216) : S216x1024.Idx := fun a => match a with
  | ⟨0, _⟩ => ⟨k.val, k.isLt⟩
  | ⟨1, _⟩ => ⟨(j 1).val, (j 1).isLt⟩
abbrev bb (j : S256x1024.Idx) : S1024.Idx := fun a => match a with
  | ⟨0, _⟩ => ⟨(j 1).val, (j 1).isLt⟩

theorem lhs_0 (i : S256x1024.Idx) (q : dot_S256x216_S216x1024_S256x1024_1_0_0_1_n_n.contr.Idx) : (dot_S256x216_S216x1024_S256x1024_1_0_0_1_n_n.lhsIdx i q 0).val = (i 0).val := by
  unfold DotDims.lhsIdx
  rw [dif_neg (show ¬(0 : Fin S256x216.rank) ∈ dot_S256x216_S216x1024_S256x1024_1_0_0_1_n_n.lhsBatch by decide), dif_pos (show (0 : Fin S256x216.rank) ∈ dot_S256x216_S216x1024_S256x1024_1_0_0_1_n_n.lhsNonContracting by decide)]
  rfl
theorem lhs_1 (i : S256x1024.Idx) (q : dot_S256x216_S216x1024_S256x1024_1_0_0_1_n_n.contr.Idx) : (dot_S256x216_S216x1024_S256x1024_1_0_0_1_n_n.lhsIdx i q 1).val = (q ⟨0, by decide⟩).val :=
  dot_S256x216_S216x1024_S256x1024_1_0_0_1_n_n.lhsIdx_val_of_single rfl i q
theorem rhs_0 (i : S256x1024.Idx) (q : dot_S256x216_S216x1024_S256x1024_1_0_0_1_n_n.contr.Idx) : (dot_S256x216_S216x1024_S256x1024_1_0_0_1_n_n.rhsIdx i q 0).val = (q ⟨0, by decide⟩).val :=
  dot_S256x216_S216x1024_S256x1024_1_0_0_1_n_n.rhsIdx_val_of_single rfl i q
theorem rhs_1 (i : S256x1024.Idx) (q : dot_S256x216_S216x1024_S256x1024_1_0_0_1_n_n.contr.Idx) : (dot_S256x216_S216x1024_S256x1024_1_0_0_1_n_n.rhsIdx i q 1).val = (i 1).val := by
  unfold DotDims.rhsIdx
  rw [dif_neg (show ¬(1 : Fin S216x1024.rank) ∈ dot_S256x216_S216x1024_S256x1024_1_0_0_1_n_n.rhsBatch by decide), dif_pos (show (1 : Fin S216x1024.rank) ∈ dot_S256x216_S216x1024_S256x1024_1_0_0_1_n_n.rhsNonContracting by decide)]
  rfl

/-- The product into a zero accumulator at (p, q): the plain sum over the contracted axis. -/
theorem mm_apply (x0 : Vec Ideal S256x216 .f32) (x1 : Vec Ideal S216x1024 .f32) (j : S256x1024.Idx) :
    FloatOps.matmul (F := Ideal) (φ₁ := .f32) (φ₂ := .f32) dot_S256x216_S216x1024_S256x1024_1_0_0_1_n_n none (x0 : FVec Ideal S256x216 .f32) (x1 : FVec Ideal S216x1024 .f32) (constant S256x1024 .f32 0x00000000#32) j = ∑ k : Fin 216, x0 (bl j k) * x1 (br j k) := by
  rw [Ideal.matmul_constant_zero_apply, ← Equiv.sum_comp (ValueIdx.contrEquiv1 dot_S256x216_S216x1024_S256x1024_1_0_0_1_n_n 216 rfl rfl).symm]
  refine Finset.sum_congr rfl fun k _ => ?_
  have hk := ValueIdx.contrEquiv1_symm_val dot_S256x216_S216x1024_S256x1024_1_0_0_1_n_n 216 rfl rfl k
  have el : dot_S256x216_S216x1024_S256x1024_1_0_0_1_n_n.lhsIdx j ((ValueIdx.contrEquiv1 dot_S256x216_S216x1024_S256x1024_1_0_0_1_n_n 216 rfl rfl).symm k) = bl j k := funext fun a => Fin.ext (by
    match a with
    | ⟨0, _⟩ => exact lhs_0 _ _
    | ⟨1, _⟩ => exact (lhs_1 _ _).trans hk)
  have er : dot_S256x216_S216x1024_S256x1024_1_0_0_1_n_n.rhsIdx j ((ValueIdx.contrEquiv1 dot_S256x216_S216x1024_S256x1024_1_0_0_1_n_n 216 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x216 .f32) (v3 : Vec Ideal S216x1024 .f32) (v6 : Vec Ideal S1024 .f32) (j : S256x1024.Idx) :
    k14_pay1 (F := Ideal) v0 v3 v6 j = max ((∑ k : Fin 216, v0 (bl j k) * v3 (br j k)) + v6 (bb j)) (Scalar.ofBits (F := Ideal) .f32 0x00000000#32) := by
  have hm := mm_apply v0 v3 j
  obtain ⟨p, q, rfl⟩ : ∃ (p : Fin 256) (q : Fin 1024), j = ix2 p q := ⟨j 0, j 1, eq_ix2 j⟩
  have eb : bb (ix2 p q) = ix1 q := funext fun a => by match a with | ⟨0, _⟩ => rfl
  have hb : broadcastTo S256x1024 (shapeCast S1x1024 (shapeCast S1x1024 v6 shapeCasts_S1024_S1x1024) shapeCasts_S1x1024_S1x1024) broadcasts_S1x1024_S256x1024 (ix2 p q) = v6 (ix1 q) := by
    rw [shapeCast_self]
    exact (broadcastTo_1b_ab_apply _ _ p q).trans (shapeCast_a_1a_apply v6 _ 0 q)
  have h0 : shapeCast S256x216 v0 shapeCasts_S256x216_S256x216 = v0 := shapeCast_self _ _
  rw [eb]
  show max (FloatOps.matmul (F := Ideal) (φ₁ := .f32) (φ₂ := .f32) dot_S256x216_S216x1024_S256x1024_1_0_0_1_n_n none (shapeCast S256x216 v0 shapeCasts_S256x216_S256x216 : FVec Ideal S256x216 .f32) (v3 : FVec Ideal S216x1024 .f32) (constant S256x1024 .f32 0x00000000#32) (ix2 p q)
        + broadcastTo S256x1024 (shapeCast S1x1024 (shapeCast S1x1024 v6 shapeCasts_S1024_S1x1024) shapeCasts_S1x1024_S1x1024) broadcasts_S1x1024_S256x1024 (ix2 p q)) (Scalar.ofBits (F := Ideal) .f32 0x00000000#32) = _
  rw [h0, hm, hb]

/-- Where each window's block sits at grid point t. -/
theorem idx_facts : ∀ t : Fin cfg14.N,
    win14_0.index t (0 : Fin 2) = win14_3.index t (0 : Fin 2)
    ∧ win14_0.index t (1 : Fin 2) = 0
    ∧ win14_1.index t (0 : Fin 2) = 0
    ∧ win14_1.index t (1 : Fin 2) = 0
    ∧ win14_2.index t (0 : Fin 1) = 0
    ∧ win14_3.index t (1 : Fin 2) = 0 :=
  (by decide +kernel : ∀ t : Fin grid14.N, _)

/-- Every row block is some grid point's. -/
theorem idx_onto : ∀ (q0 : Fin 1), ∃ t : Fin cfg14.N, win14_3.index t = ![q0.val, 0] :=
  (by decide +kernel : ∀ (q0 : Fin 1), ∃ t : Fin grid14.N, win14_3.index t = ![q0.val, 0])

/-- What grid point t writes back is block t of the layer's output of the arrays as the region finds them. -/
theorem flushed_eq (c : Dev nD) (t : Fin cfg14.N) :
    (dat14 V c).flushed 3 t = ((cfg14.win 3).blk t).view.read (Elt Ideal) (lin ((a0 V c)) ((a1 V c)) ((a2 V c))) := by
  show (cfg14.win 3).cut (grid14.coords t) ((dat14 V c).after 3 t) = _
  rw [after14_3]
  unfold out14_3
  rw [View.canon_unit_zero hz]
  simp only [View.ld_unit_zero (S := S256x216) hz, View.ld_unit_zero (S := S216x1024) hz, View.ld_unit_zero (S := S1024) hz1]
  obtain ⟨e0, e1, e2, e3, e4, e5⟩ := idx_facts t
  funext j
  show k14_pay1 (F := Ideal) (iblk14 V c 0 t) (iblk14 V c 1 t) (iblk14 V c 2 t) j
    = lin ((a0 V c)) ((a1 V c)) ((a2 V c)) (((cfg14.win 3).blk t).view.emb j)
  refine (pay_apply (iblk14 V c 0 t) (iblk14 V c 1 t) (iblk14 V c 2 t) j).trans ?_
  have h0 : ∀ k : Fin 216, ((cfg14.win 0).blk t).view.emb (bl j k) = wl (((cfg14.win 3).blk t).view.emb j) k := fun k => by
    funext a; apply Fin.ext
    match a with
    | ⟨0, _⟩ => show win14_0.index t (0 : Fin 2) * 256 + 1 * (j 0).val = win14_3.index t (0 : Fin 2) * 256 + 1 * (j 0).val; omega
    | ⟨1, _⟩ => show win14_0.index t (1 : Fin 2) * 216 + 1 * k.val = k.val; omega
  have h1 : ∀ k : Fin 216, ((cfg14.win 1).blk t).view.emb (br j k) = wr (((cfg14.win 3).blk t).view.emb j) k := fun k => by
    funext a; apply Fin.ext
    match a with
    | ⟨0, _⟩ => show win14_1.index t (0 : Fin 2) * 216 + 1 * k.val = k.val; omega
    | ⟨1, _⟩ => show win14_1.index t (1 : Fin 2) * 1024 + 1 * (j 1).val = win14_3.index t (1 : Fin 2) * 1024 + 1 * (j 1).val; omega
  have h2 : ((cfg14.win 2).blk t).view.emb (bb j) = wb (((cfg14.win 3).blk t).view.emb j) := by
    funext a; apply Fin.ext
    match a with
    | ⟨0, _⟩ => show win14_2.index t (0 : Fin 1) * 1024 + 1 * (j 1).val = win14_3.index t (1 : Fin 2) * 1024 + 1 * (j 1).val; omega
  have hs : (∑ k : Fin 216, (a0 V c) (((cfg14.win 0).blk t).view.emb (bl j k)) * (a1 V c) (((cfg14.win 1).blk t).view.emb (br j k)))
      = ∑ k : Fin 216, (a0 V c) (wl (((cfg14.win 3).blk t).view.emb j) k) * (a1 V c) (wr (((cfg14.win 3).blk t).view.emb j) k) :=
    Finset.sum_congr rfl fun k _ => by rw [h0 k, h1 k]
  show max ((∑ k : Fin 216, (a0 V c) (((cfg14.win 0).blk t).view.emb (bl j k)) * (a1 V c) (((cfg14.win 1).blk t).view.emb (br j k)))
        + (a2 V c) (((cfg14.win 2).blk t).view.emb (bb j))) (Scalar.ofBits (F := Ideal) .f32 0x00000000#32)
    = max ((∑ k : Fin 216, (a0 V c) (wl (((cfg14.win 3).blk t).view.emb j) k) * (a1 V c) (wr (((cfg14.win 3).blk t).view.emb j) k))
        + (a2 V c) (wb (((cfg14.win 3).blk t).view.emb j))) (Scalar.ofBits (F := Ideal) .f32 0x00000000#32)
  rw [hs, h2]

/-- An index of the result array lies in grid point t's block iff each coordinate lies in the block's range. -/
theorem mem_blk (t : Fin cfg14.N) (i : S256x1024.Idx) :
    i ∈ ((cfg14.win 3).blk t).view.set ↔ ∀ a : Fin 2, win14_3.index t a * S256x1024.size a ≤ (i a).val ∧ (i a).val < win14_3.index t a * S256x1024.size a + S256x1024.size a := by
  show i ∈ ((View.whole main_v182).slice (win14_3.rect t)).set ↔ _
  rw [View.set_slice_whole, Rect.mem_set_unit]
  exact Iff.rfl

/-- The row blocks tile the result: row i lies in block i / 256. -/
theorem cover (i : S256x1024.Idx) : ∃ t : Fin cfg14.N, (cfg14.win 3).flush t = true ∧ i ∈ ((cfg14.win 3).blk t).view.set := by
  have hi0 : (i 0).val < 256 := (i 0).isLt
  have hi1 : (i 1).val < 1024 := (i 1).isLt
  obtain ⟨t, ht⟩ := idx_onto ⟨(i 0).val / 256, by omega⟩
  have q0 : win14_3.index t (0 : Fin 2) = (i 0).val / 256 := congrFun ht 0
  have q1 : win14_3.index t (1 : Fin 2) = 0 := congrFun ht 1
  refine ⟨t, flush14_3 t, ?_⟩
  rw [mem_blk]
  intro a
  match a with
  | ⟨0, _⟩ => show win14_3.index t (0 : Fin 2) * 256 ≤ (i 0).val ∧ (i 0).val < win14_3.index t (0 : Fin 2) * 256 + 256; omega
  | ⟨1, _⟩ => show win14_3.index t (1 : Fin 2) * 1024 ≤ (i 1).val ∧ (i 1).val < win14_3.index t (1 : Fin 2) * 1024 + 1024; omega

/-- The array the region leaves: the layer's output of the three arrays it was entered with. -/
theorem final (c : Dev nD) : (dat14 V c).arrAt 3 cfg14.N = lin ((a0 V c)) ((a1 V c)) ((a2 V c)) :=
  (dat14 V c).arrAt_eq_of_cover 3 (lin ((a0 V c)) ((a1 V c)) ((a2 V c))) (fun t _ => flushed_eq V c t) cover

end Cert.KernelIdeal.Ln14

end
-- ==== Proof.Ln15.lean ====
/-
  The second dense layer of the protein branch's head: out = x · w + b, with x : [256, 1024], w : [1024, 128] and the bias b : [128] added to every row, computed in one piece.
  At (i, q) the result is the sum over k of x(i, k) · w(k, q), plus b(q): the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln15

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x1024, .f32⟩ : BufTy).Contents (Elt Ideal) := V c main_v182
abbrev a1 (c : Dev nD) : (⟨S1024x128, .f32⟩ : BufTy).Contents (Elt Ideal) := V c main_arg24
abbrev a2 (c : Dev nD) : (⟨S128, .f32⟩ : BufTy).Contents (Elt Ideal) := V c main_arg25

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x128.Idx) (k : Fin 1024) : S256x1024.Idx := fun a => match a with
  | ⟨0, _⟩ => ⟨(i 0).val, (i 0).isLt⟩
  | ⟨1, _⟩ => ⟨k.val, k.isLt⟩
abbrev wr (i : S256x128.Idx) (k : Fin 1024) : S1024x128.Idx := fun a => match a with
  | ⟨0, _⟩ => ⟨k.val, k.isLt⟩
  | ⟨1, _⟩ => ⟨(i 1).val, (i 1).isLt⟩
abbrev wb (i : S256x128.Idx) : S128.Idx := fun a => match a with
  | ⟨0, _⟩ => ⟨(i 1).val, (i 1).isLt⟩

/-- The layer's output, entry by entry. -/
def lin (x : (⟨S256x1024, .f32⟩ : BufTy).Contents (Elt Ideal)) (w : (⟨S1024x128, .f32⟩ : BufTy).Contents (Elt Ideal))
    (b : (⟨S128, .f32⟩ : BufTy).Contents (Elt Ideal)) : (⟨S256x128, .f32⟩ : BufTy).Contents (Elt Ideal) :=
  fun i => (∑ k : Fin 1024, x (wl i k) * w (wr i k)) + b (wb i)

/-- The same index maps inside one block of rows. -/
abbrev bl (j : S256x128.Idx) (k : Fin 1024) : S256x1024.Idx := fun a => match a with
  | ⟨0, _⟩ => ⟨(j 0).val, (j 0).isLt⟩
  | ⟨1, _⟩ => ⟨k.val, k.isLt⟩
abbrev br (j : S256x128.Idx) (k : Fin 1024) : S1024x128.Idx := fun a => match a with
  | ⟨0, _⟩ => ⟨k.val, k.isLt⟩
  | ⟨1, _⟩ => ⟨(j 1).val, (j 1).isLt⟩
abbrev bb (j : S256x128.Idx) : S128.Idx := fun a => match a with
  | ⟨0, _⟩ => ⟨(j 1).val, (j 1).isLt⟩

theorem lhs_0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_1 (i : S256x128.Idx) (q : dot_S256x1024_S1024x128_S256x128_1_0_0_1_n_n.contr.Idx) : (dot_S256x1024_S1024x128_S256x128_1_0_0_1_n_n.lhsIdx i q 1).val = (q ⟨0, by decide⟩).val :=
  dot_S256x1024_S1024x128_S256x128_1_0_0_1_n_n.lhsIdx_val_of_single rfl i q
theorem rhs_0 (i : S256x128.Idx) (q : dot_S256x1024_S1024x128_S256x128_1_0_0_1_n_n.contr.Idx) : (dot_S256x1024_S1024x128_S256x128_1_0_0_1_n_n.rhsIdx i q 0).val = (q ⟨0, by decide⟩).val :=
  dot_S256x1024_S1024x128_S256x128_1_0_0_1_n_n.rhsIdx_val_of_single rfl i q
theorem rhs_1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product into a zero accumulator at (p, q): the plain sum over the contracted axis. -/
theorem mm_apply (x0 : Vec Ideal S256x1024 .f32) (x1 : Vec Ideal S1024x128 .f32) (j : S256x128.Idx) :
    FloatOps.matmul (F := Ideal) (φ₁ := .f32) (φ₂ := .f32) dot_S256x1024_S1024x128_S256x128_1_0_0_1_n_n none (x0 : FVec Ideal S256x1024 .f32) (x1 : FVec Ideal S1024x128 .f32) (constant S256x128 .f32 0x00000000#32) j = ∑ k : Fin 1024, x0 (bl j k) * x1 (br j k) := by
  rw [Ideal.matmul_constant_zero_apply, ← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx j ((ValueIdx.contrEquiv1 dot_S256x1024_S1024x128_S256x128_1_0_0_1_n_n 1024 rfl rfl).symm k) = bl j k := funext fun a => Fin.ext (by
    match a with
    | ⟨0, _⟩ => exact lhs_0 _ _
    | ⟨1, _⟩ => exact (lhs_1 _ _).trans hk)
  have er : dot_S256x1024_S1024x128_S256x128_1_0_0_1_n_n.rhsIdx j ((ValueIdx.contrEquiv1 dot_S256x1024_S1024x128_S256x128_1_0_0_1_n_n 1024 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x1024 .f32) (v3 : Vec Ideal S1024x128 .f32) (v6 : Vec Ideal S128 .f32) (j : S256x128.Idx) :
    k15_pay1 (F := Ideal) v0 v3 v6 j = (∑ k : Fin 1024, v0 (bl j k) * v3 (br j k)) + v6 (bb j) := by
  have hm := mm_apply v0 v3 j
  obtain ⟨p, q, rfl⟩ : ∃ (p : Fin 256) (q : Fin 128), j = ix2 p q := ⟨j 0, j 1, eq_ix2 j⟩
  have eb : bb (ix2 p q) = ix1 q := funext fun a => by match a with | ⟨0, _⟩ => rfl
  have hb : broadcastTo S256x128 (shapeCast S1x128 (shapeCast S1x128 v6 shapeCasts_S128_S1x128) shapeCasts_S1x128_S1x128) broadcasts_S1x128_S256x128 (ix2 p q) = v6 (ix1 q) := by
    rw [shapeCast_self]
    exact (broadcastTo_1b_ab_apply _ _ p q).trans (shapeCast_a_1a_apply v6 _ 0 q)
  have h0 : shapeCast S256x1024 v0 shapeCasts_S256x1024_S256x1024 = v0 := shapeCast_self _ _
  rw [eb]
  show FloatOps.matmul (F := Ideal) (φ₁ := .f32) (φ₂ := .f32) dot_S256x1024_S1024x128_S256x128_1_0_0_1_n_n none (shapeCast S256x1024 v0 shapeCasts_S256x1024_S256x1024 : FVec Ideal S256x1024 .f32) (v3 : FVec Ideal S1024x128 .f32) (constant S256x128 .f32 0x00000000#32) (ix2 p q)
        + broadcastTo S256x128 (shapeCast S1x128 (shapeCast S1x128 v6 shapeCasts_S128_S1x128) shapeCasts_S1x128_S1x128) broadcasts_S1x128_S256x128 (ix2 p q) = _
  rw [h0, hm, hb]

/-- Where each window's block sits at grid point t. -/
theorem idx_facts : ∀ t : Fin cfg15.N,
    win15_0.index t (0 : Fin 2) = win15_3.index t (0 : Fin 2)
    ∧ win15_0.index t (1 : Fin 2) = 0
    ∧ win15_1.index t (0 : Fin 2) = 0
    ∧ win15_1.index t (1 : Fin 2) = 0
    ∧ win15_2.index t (0 : Fin 1) = 0
    ∧ win15_3.index t (1 : Fin 2) = 0 :=
  (by decide +kernel : ∀ t : Fin grid15.N, _)

/-- Every row block is some grid point's. -/
theorem idx_onto : ∀ (q0 : Fin 1), ∃ t : Fin cfg15.N, win15_3.index t = ![q0.val, 0] :=
  (by decide +kernel : ∀ (q0 : Fin 1), ∃ t : Fin grid15.N, win15_3.index t = ![q0.val, 0])

/-- What grid point t writes back is block t of the layer's output of the arrays as the region finds them. -/
theorem flushed_eq (c : Dev nD) (t : Fin cfg15.N) :
    (dat15 V c).flushed 3 t = ((cfg15.win 3).blk t).view.read (Elt Ideal) (lin ((a0 V c)) ((a1 V c)) ((a2 V c))) := by
  show (cfg15.win 3).cut (grid15.coords t) ((dat15 V c).after 3 t) = _
  rw [after15_3]
  unfold out15_3
  rw [View.canon_unit_zero hz]
  simp only [View.ld_unit_zero (S := S256x1024) hz, View.ld_unit_zero (S := S1024x128) hz, View.ld_unit_zero (S := S128) hz1]
  obtain ⟨e0, e1, e2, e3, e4, e5⟩ := idx_facts t
  funext j
  show k15_pay1 (F := Ideal) (iblk15 V c 0 t) (iblk15 V c 1 t) (iblk15 V c 2 t) j
    = lin ((a0 V c)) ((a1 V c)) ((a2 V c)) (((cfg15.win 3).blk t).view.emb j)
  refine (pay_apply (iblk15 V c 0 t) (iblk15 V c 1 t) (iblk15 V c 2 t) j).trans ?_
  have h0 : ∀ k : Fin 1024, ((cfg15.win 0).blk t).view.emb (bl j k) = wl (((cfg15.win 3).blk t).view.emb j) k := fun k => by
    funext a; apply Fin.ext
    match a with
    | ⟨0, _⟩ => show win15_0.index t (0 : Fin 2) * 256 + 1 * (j 0).val = win15_3.index t (0 : Fin 2) * 256 + 1 * (j 0).val; omega
    | ⟨1, _⟩ => show win15_0.index t (1 : Fin 2) * 1024 + 1 * k.val = k.val; omega
  have h1 : ∀ k : Fin 1024, ((cfg15.win 1).blk t).view.emb (br j k) = wr (((cfg15.win 3).blk t).view.emb j) k := fun k => by
    funext a; apply Fin.ext
    match a with
    | ⟨0, _⟩ => show win15_1.index t (0 : Fin 2) * 1024 + 1 * k.val = k.val; omega
    | ⟨1, _⟩ => show win15_1.index t (1 : Fin 2) * 128 + 1 * (j 1).val = win15_3.index t (1 : Fin 2) * 128 + 1 * (j 1).val; omega
  have h2 : ((cfg15.win 2).blk t).view.emb (bb j) = wb (((cfg15.win 3).blk t).view.emb j) := by
    funext a; apply Fin.ext
    match a with
    | ⟨0, _⟩ => show win15_2.index t (0 : Fin 1) * 128 + 1 * (j 1).val = win15_3.index t (1 : Fin 2) * 128 + 1 * (j 1).val; omega
  have hs : (∑ k : Fin 1024, (a0 V c) (((cfg15.win 0).blk t).view.emb (bl j k)) * (a1 V c) (((cfg15.win 1).blk t).view.emb (br j k)))
      = ∑ k : Fin 1024, (a0 V c) (wl (((cfg15.win 3).blk t).view.emb j) k) * (a1 V c) (wr (((cfg15.win 3).blk t).view.emb j) k) :=
    Finset.sum_congr rfl fun k _ => by rw [h0 k, h1 k]
  show (∑ k : Fin 1024, (a0 V c) (((cfg15.win 0).blk t).view.emb (bl j k)) * (a1 V c) (((cfg15.win 1).blk t).view.emb (br j k)))
        + (a2 V c) (((cfg15.win 2).blk t).view.emb (bb j))
    = (∑ k : Fin 1024, (a0 V c) (wl (((cfg15.win 3).blk t).view.emb j) k) * (a1 V c) (wr (((cfg15.win 3).blk t).view.emb j) k))
        + (a2 V c) (wb (((cfg15.win 3).blk t).view.emb j))
  rw [hs, h2]

/-- An index of the result array lies in grid point t's block iff each coordinate lies in the block's range. -/
theorem mem_blk (t : Fin cfg15.N) (i : S256x128.Idx) :
    i ∈ ((cfg15.win 3).blk t).view.set ↔ ∀ a : Fin 2, win15_3.index t a * S256x128.size a ≤ (i a).val ∧ (i a).val < win15_3.index t a * S256x128.size a + S256x128.size a := by
  show i ∈ ((View.whole main_v183).slice (win15_3.rect t)).set ↔ _
  rw [View.set_slice_whole, Rect.mem_set_unit]
  exact Iff.rfl

/-- The row blocks tile the result: row i lies in block i / 256. -/
theorem cover (i : S256x128.Idx) : ∃ t : Fin cfg15.N, (cfg15.win 3).flush t = true ∧ i ∈ ((cfg15.win 3).blk t).view.set := by
  have hi0 : (i 0).val < 256 := (i 0).isLt
  have hi1 : (i 1).val < 128 := (i 1).isLt
  obtain ⟨t, ht⟩ := idx_onto ⟨(i 0).val / 256, by omega⟩
  have q0 : win15_3.index t (0 : Fin 2) = (i 0).val / 256 := congrFun ht 0
  have q1 : win15_3.index t (1 : Fin 2) = 0 := congrFun ht 1
  refine ⟨t, flush15_3 t, ?_⟩
  rw [mem_blk]
  intro a
  match a with
  | ⟨0, _⟩ => show win15_3.index t (0 : Fin 2) * 256 ≤ (i 0).val ∧ (i 0).val < win15_3.index t (0 : Fin 2) * 256 + 256; omega
  | ⟨1, _⟩ => show win15_3.index t (1 : Fin 2) * 128 ≤ (i 1).val ∧ (i 1).val < win15_3.index t (1 : Fin 2) * 128 + 128; omega

/-- The array the region leaves: the layer's output of the three arrays it was entered with. -/
theorem final (c : Dev nD) : (dat15 V c).arrAt 3 cfg15.N = lin ((a0 V c)) ((a1 V c)) ((a2 V c)) :=
  (dat15 V c).arrAt_eq_of_cover 3 (lin ((a0 V c)) ((a1 V c)) ((a2 V c))) (fun t _ => flushed_eq V c t) cover

end Cert.KernelIdeal.Ln15

end
-- ==== Proof.BridgeProA.lean ====
/-
  The regions 8, 9, 10 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Mm8
import proofs.«144194_j36799279792821_1_alg».proof.Proof.Cb9
import proofs.«144194_j36799279792821_1_alg».proof.Proof.Mm10

set_option maxRecDepth 16384

noncomputable section

namespace Cert.Bridge

open Idealize.ShloMosaic Idealize.ShloMosaic.TcCoe Idealize.SL.Sem

/-- The blocked product of region 8 is the reference's one matrix product. -/
theorem mm8 (x3 : (⟨Cert.ReferenceIdeal.S76800x54, .f32⟩ : BufTy).Contents (Elt Ideal)) (x16 : (⟨Cert.ReferenceIdeal.S54x54, .f32⟩ : BufTy).Contents (Elt Ideal)) : Cert.KernelIdeal.Mm8.prod x3 x16 = (Cert.ReferenceIdeal.ReadP.val_main_v146 (F := Ideal) x3 x16) := by
  funext i
  refine Eq.trans ?_ (Cert.ReferenceIdeal.ReadP.val_main_v146_apply x3 x16 i).symm
  refine Finset.sum_congr rfl fun k _ => ?_
  have el : Cert.KernelIdeal.Mm8.wl i k = Cert.ReferenceIdeal.ReadP.lidx_main_v146 i k := funext fun a => by match a with | ⟨0, _⟩ => rfl | ⟨1, _⟩ => rfl
  have er : Cert.KernelIdeal.Mm8.wr i k = Cert.ReferenceIdeal.ReadP.ridx_main_v146 i k := funext fun a => by match a with | ⟨0, _⟩ => rfl | ⟨1, _⟩ => rfl
  show x3 (Cert.KernelIdeal.Mm8.wl i k) * x16 (Cert.KernelIdeal.Mm8.wr i k) = _
  rw [el, er]

/-- Region 9's combined features are the reference's, entry by entry: both read the norm column at the entry's row
    and the bias at the entry's feature. The reference recomputes the column for its two uses; the copies are one function. -/
theorem cb9 (x3 : (⟨Cert.ReferenceIdeal.S76800x54, .f32⟩ : BufTy).Contents (Elt Ideal)) (x4 : (⟨Cert.ReferenceIdeal.S2x768000, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) :
    Cert.KernelIdeal.Cb9.comb (Cert.ReferenceIdeal.ReadP.val_main_v173 (F := Ideal) x3 x4 x16) (Cert.ReferenceIdeal.ReadP.val_main_v146 (F := Ideal) x3 x16) (Cert.ReferenceIdeal.ReadP.val_main_v174 (F := Ideal) x4) x17 = (Cert.ReferenceIdeal.ReadP.val_main_v184 (F := Ideal) x3 x4 x16 x17) := by
  funext i
  have eD : (Cert.ReferenceIdeal.ReadP.val_main_v179 (F := Ideal) x4) i = (Cert.ReferenceIdeal.ReadP.val_main_v174 (F := Ideal) x4) (Cert.ReferenceIdeal.ReadP.idx_main_v179 i) :=
    (Cert.ReferenceIdeal.ReadP.val_main_v179_apply x4 i).trans (congrFun (rfl : (Cert.ReferenceIdeal.ReadP.val_main_v174 (F := Ideal) x4) = (Cert.ReferenceIdeal.ReadP.val_main_v174 (F := Ideal) x4)) _)
  have eH : (Cert.ReferenceIdeal.ReadP.val_main_v176 (F := Ideal) x4) i = (Cert.ReferenceIdeal.ReadP.val_main_v174 (F := Ideal) x4) (Cert.ReferenceIdeal.ReadP.idx_main_v176 i) :=
    (Cert.ReferenceIdeal.ReadP.val_main_v176_apply x4 i).trans (congrFun (rfl : (Cert.ReferenceIdeal.ReadP.val_main_v175 (F := Ideal) x4) = (Cert.ReferenceIdeal.ReadP.val_main_v174 (F := Ideal) x4)) _)
  have eC : (Cert.ReferenceIdeal.ReadP.val_main_v182 (F := Ideal) x17) i = x17 (Cert.ReferenceIdeal.ReadP.idx_main_v181 (Cert.ReferenceIdeal.ReadP.idx_main_v182 i)) :=
    (Cert.ReferenceIdeal.ReadP.val_main_v182_apply x17 i).trans (Cert.ReferenceIdeal.ReadP.val_main_v181_apply x17 _)
  have eZ : (Cert.ReferenceIdeal.ReadP.val_main_call4_v0 (F := Ideal)) i = (FloatOps.ofBits (F := Ideal) .f32 0x00000000#32) := (Cert.ReferenceIdeal.ReadP.val_main_call4_v0_apply i).trans (Cert.ReferenceIdeal.ReadP.val_main_call4_cst_apply _)
  have wD : Cert.ReferenceIdeal.ReadP.idx_main_v179 i = Cert.KernelIdeal.Cb9.wn i := funext fun a => by match a with | ⟨0, _⟩ => rfl | ⟨1, _⟩ => rfl
  have wH : Cert.ReferenceIdeal.ReadP.idx_main_v176 i = Cert.KernelIdeal.Cb9.wn i := funext fun a => by match a with | ⟨0, _⟩ => rfl | ⟨1, _⟩ => rfl
  have wC : Cert.ReferenceIdeal.ReadP.idx_main_v181 (Cert.ReferenceIdeal.ReadP.idx_main_v182 i) = Cert.KernelIdeal.Cb9.wb i := funext fun a => by match a with | ⟨0, _⟩ => rfl
  rw [Cert.ReferenceIdeal.ReadP.val_main_v184_apply, Cert.ReferenceIdeal.ReadP.val_main_v183_apply, Cert.ReferenceIdeal.ReadP.val_main_v180_apply, Cert.ReferenceIdeal.ReadP.val_main_v178_apply, Cert.ReferenceIdeal.ReadP.val_main_v177_apply, eD, eH, eC, eZ, wD, wH, wC]
  unfold Cert.KernelIdeal.Cb9.comb
  generalize (Cert.ReferenceIdeal.ReadP.val_main_v173 (F := Ideal) x3 x4 x16) i = a
  generalize (Cert.ReferenceIdeal.ReadP.val_main_v146 (F := Ideal) x3 x16) i = h
  generalize (Cert.ReferenceIdeal.ReadP.val_main_v174 (F := Ideal) x4) (Cert.KernelIdeal.Cb9.wn i) = n
  generalize x17 (Cert.KernelIdeal.Cb9.wb i) = bb
  rfl

/-- The blocked product of region 10 is the reference's one matrix product. -/
theorem mm10 (x3 : (⟨Cert.ReferenceIdeal.S76800x54, .f32⟩ : BufTy).Contents (Elt Ideal)) (x4 : (⟨Cert.ReferenceIdeal.S2x768000, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) : Cert.KernelIdeal.Mm10.prod (Cert.ReferenceIdeal.ReadP.val_main_v184 (F := Ideal) x3 x4 x16 x17) x18 = (Cert.ReferenceIdeal.ReadP.val_main_v185 (F := Ideal) x3 x4 x16 x17 x18) := by
  funext i
  refine Eq.trans ?_ (Cert.ReferenceIdeal.ReadP.val_main_v185_apply x3 x4 x16 x17 x18 i).symm
  refine Finset.sum_congr rfl fun k _ => ?_
  have el : Cert.KernelIdeal.Mm10.wl i k = Cert.ReferenceIdeal.ReadP.lidx_main_v185 i k := funext fun a => by match a with | ⟨0, _⟩ => rfl | ⟨1, _⟩ => rfl
  have er : Cert.KernelIdeal.Mm10.wr i k = Cert.ReferenceIdeal.ReadP.ridx_main_v185 i k := funext fun a => by match a with | ⟨0, _⟩ => rfl | ⟨1, _⟩ => rfl
  show (Cert.ReferenceIdeal.ReadP.val_main_v184 (F := Ideal) x3 x4 x16 x17) (Cert.KernelIdeal.Mm10.wl i k) * x18 (Cert.KernelIdeal.Mm10.wr i k) = _
  rw [el, er]

end Cert.Bridge

end
-- ==== Proof.BridgeProB.lean ====
/-
  The regions 11, 12, 13 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Cb11
import proofs.«144194_j36799279792821_1_alg».proof.Proof.Mm12
import proofs.«144194_j36799279792821_1_alg».proof.Proof.Cb13

set_option maxRecDepth 16384

noncomputable section

namespace Cert.Bridge

open Idealize.ShloMosaic Idealize.ShloMosaic.TcCoe Idealize.SL.Sem

/-- Region 11's combined features are the reference's, entry by entry: both read the norm column at the entry's row
    and the bias at the entry's feature. The reference recomputes the column for its two uses; the copies are one function. -/
theorem cb11 (x3 : (⟨Cert.ReferenceIdeal.S76800x54, .f32⟩ : BufTy).Contents (Elt Ideal)) (x4 : (⟨Cert.ReferenceIdeal.S2x768000, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) :
    Cert.KernelIdeal.Cb11.comb (Cert.ReferenceIdeal.ReadP.val_main_v212 (F := Ideal) x3 x4 x16 x17 x18) (Cert.ReferenceIdeal.ReadP.val_main_v185 (F := Ideal) x3 x4 x16 x17 x18) (Cert.ReferenceIdeal.ReadP.val_main_v174 (F := Ideal) x4) x19 = (Cert.ReferenceIdeal.ReadP.val_main_v223 (F := Ideal) x3 x4 x16 x17 x18 x19) := by
  funext i
  have eD : (Cert.ReferenceIdeal.ReadP.val_main_v218 (F := Ideal) x4) i = (Cert.ReferenceIdeal.ReadP.val_main_v174 (F := Ideal) x4) (Cert.ReferenceIdeal.ReadP.idx_main_v218 i) :=
    (Cert.ReferenceIdeal.ReadP.val_main_v218_apply x4 i).trans (congrFun (rfl : (Cert.ReferenceIdeal.ReadP.val_main_v213 (F := Ideal) x4) = (Cert.ReferenceIdeal.ReadP.val_main_v174 (F := Ideal) x4)) _)
  have eH : (Cert.ReferenceIdeal.ReadP.val_main_v215 (F := Ideal) x4) i = (Cert.ReferenceIdeal.ReadP.val_main_v174 (F := Ideal) x4) (Cert.ReferenceIdeal.ReadP.idx_main_v215 i) :=
    (Cert.ReferenceIdeal.ReadP.val_main_v215_apply x4 i).trans (congrFun (rfl : (Cert.ReferenceIdeal.ReadP.val_main_v214 (F := Ideal) x4) = (Cert.ReferenceIdeal.ReadP.val_main_v174 (F := Ideal) x4)) _)
  have eC : (Cert.ReferenceIdeal.ReadP.val_main_v221 (F := Ideal) x19) i = x19 (Cert.ReferenceIdeal.ReadP.idx_main_v220 (Cert.ReferenceIdeal.ReadP.idx_main_v221 i)) :=
    (Cert.ReferenceIdeal.ReadP.val_main_v221_apply x19 i).trans (Cert.ReferenceIdeal.ReadP.val_main_v220_apply x19 _)
  have eZ : (Cert.ReferenceIdeal.ReadP.val_main_call5_v0 (F := Ideal)) i = (FloatOps.ofBits (F := Ideal) .f32 0x00000000#32) := (Cert.ReferenceIdeal.ReadP.val_main_call5_v0_apply i).trans (Cert.ReferenceIdeal.ReadP.val_main_call5_cst_apply _)
  have wD : Cert.ReferenceIdeal.ReadP.idx_main_v218 i = Cert.KernelIdeal.Cb11.wn i := funext fun a => by match a with | ⟨0, _⟩ => rfl | ⟨1, _⟩ => rfl
  have wH : Cert.ReferenceIdeal.ReadP.idx_main_v215 i = Cert.KernelIdeal.Cb11.wn i := funext fun a => by match a with | ⟨0, _⟩ => rfl | ⟨1, _⟩ => rfl
  have wC : Cert.ReferenceIdeal.ReadP.idx_main_v220 (Cert.ReferenceIdeal.ReadP.idx_main_v221 i) = Cert.KernelIdeal.Cb11.wb i := funext fun a => by match a with | ⟨0, _⟩ => rfl
  rw [Cert.ReferenceIdeal.ReadP.val_main_v223_apply, Cert.ReferenceIdeal.ReadP.val_main_v222_apply, Cert.ReferenceIdeal.ReadP.val_main_v219_apply, Cert.ReferenceIdeal.ReadP.val_main_v217_apply, Cert.ReferenceIdeal.ReadP.val_main_v216_apply, eD, eH, eC, eZ, wD, wH, wC]
  unfold Cert.KernelIdeal.Cb11.comb
  generalize (Cert.ReferenceIdeal.ReadP.val_main_v212 (F := Ideal) x3 x4 x16 x17 x18) i = a
  generalize (Cert.ReferenceIdeal.ReadP.val_main_v185 (F := Ideal) x3 x4 x16 x17 x18) i = h
  generalize (Cert.ReferenceIdeal.ReadP.val_main_v174 (F := Ideal) x4) (Cert.KernelIdeal.Cb11.wn i) = n
  generalize x19 (Cert.KernelIdeal.Cb11.wb i) = bb
  rfl

/-- The blocked product of region 12 is the reference's one matrix product. -/
theorem mm12 (x3 : (⟨Cert.ReferenceIdeal.S76800x54, .f32⟩ : BufTy).Contents (Elt Ideal)) (x4 : (⟨Cert.ReferenceIdeal.S2x768000, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) : Cert.KernelIdeal.Mm12.prod (Cert.ReferenceIdeal.ReadP.val_main_v223 (F := Ideal) x3 x4 x16 x17 x18 x19) x20 = (Cert.ReferenceIdeal.ReadP.val_main_v224 (F := Ideal) x3 x4 x16 x17 x18 x19 x20) := by
  funext i
  refine Eq.trans ?_ (Cert.ReferenceIdeal.ReadP.val_main_v224_apply x3 x4 x16 x17 x18 x19 x20 i).symm
  refine Finset.sum_congr rfl fun k _ => ?_
  have el : Cert.KernelIdeal.Mm12.wl i k = Cert.ReferenceIdeal.ReadP.lidx_main_v224 i k := funext fun a => by match a with | ⟨0, _⟩ => rfl | ⟨1, _⟩ => rfl
  have er : Cert.KernelIdeal.Mm12.wr i k = Cert.ReferenceIdeal.ReadP.ridx_main_v224 i k := funext fun a => by match a with | ⟨0, _⟩ => rfl | ⟨1, _⟩ => rfl
  show (Cert.ReferenceIdeal.ReadP.val_main_v223 (F := Ideal) x3 x4 x16 x17 x18 x19) (Cert.KernelIdeal.Mm12.wl i k) * x20 (Cert.KernelIdeal.Mm12.wr i k) = _
  rw [el, er]

/-- Region 13's combined features are the reference's, entry by entry: both read the norm column at the entry's row
    and the bias at the entry's feature. The reference recomputes the column for its two uses; the copies are one function. -/
theorem cb13 (x3 : (⟨Cert.ReferenceIdeal.S76800x54, .f32⟩ : BufTy).Contents (Elt Ideal)) (x4 : (⟨Cert.ReferenceIdeal.S2x768000, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) :
    Cert.KernelIdeal.Cb13.comb (Cert.ReferenceIdeal.ReadP.val_main_v251 (F := Ideal) x3 x4 x16 x17 x18 x19 x20) (Cert.ReferenceIdeal.ReadP.val_main_v224 (F := Ideal) x3 x4 x16 x17 x18 x19 x20) (Cert.ReferenceIdeal.ReadP.val_main_v174 (F := Ideal) x4) x21 = (Cert.ReferenceIdeal.ReadP.val_main_v262 (F := Ideal) x3 x4 x16 x17 x18 x19 x20 x21) := by
  funext i
  have eD : (Cert.ReferenceIdeal.ReadP.val_main_v257 (F := Ideal) x4) i = (Cert.ReferenceIdeal.ReadP.val_main_v174 (F := Ideal) x4) (Cert.ReferenceIdeal.ReadP.idx_main_v257 i) :=
    (Cert.ReferenceIdeal.ReadP.val_main_v257_apply x4 i).trans (congrFun (rfl : (Cert.ReferenceIdeal.ReadP.val_main_v252 (F := Ideal) x4) = (Cert.ReferenceIdeal.ReadP.val_main_v174 (F := Ideal) x4)) _)
  have eH : (Cert.ReferenceIdeal.ReadP.val_main_v254 (F := Ideal) x4) i = (Cert.ReferenceIdeal.ReadP.val_main_v174 (F := Ideal) x4) (Cert.ReferenceIdeal.ReadP.idx_main_v254 i) :=
    (Cert.ReferenceIdeal.ReadP.val_main_v254_apply x4 i).trans (congrFun (rfl : (Cert.ReferenceIdeal.ReadP.val_main_v253 (F := Ideal) x4) = (Cert.ReferenceIdeal.ReadP.val_main_v174 (F := Ideal) x4)) _)
  have eC : (Cert.ReferenceIdeal.ReadP.val_main_v260 (F := Ideal) x21) i = x21 (Cert.ReferenceIdeal.ReadP.idx_main_v259 (Cert.ReferenceIdeal.ReadP.idx_main_v260 i)) :=
    (Cert.ReferenceIdeal.ReadP.val_main_v260_apply x21 i).trans (Cert.ReferenceIdeal.ReadP.val_main_v259_apply x21 _)
  have eZ : (Cert.ReferenceIdeal.ReadP.val_main_call6_v0 (F := Ideal)) i = (FloatOps.ofBits (F := Ideal) .f32 0x00000000#32) := (Cert.ReferenceIdeal.ReadP.val_main_call6_v0_apply i).trans (Cert.ReferenceIdeal.ReadP.val_main_call6_cst_apply _)
  have wD : Cert.ReferenceIdeal.ReadP.idx_main_v257 i = Cert.KernelIdeal.Cb13.wn i := funext fun a => by match a with | ⟨0, _⟩ => rfl | ⟨1, _⟩ => rfl
  have wH : Cert.ReferenceIdeal.ReadP.idx_main_v254 i = Cert.KernelIdeal.Cb13.wn i := funext fun a => by match a with | ⟨0, _⟩ => rfl | ⟨1, _⟩ => rfl
  have wC : Cert.ReferenceIdeal.ReadP.idx_main_v259 (Cert.ReferenceIdeal.ReadP.idx_main_v260 i) = Cert.KernelIdeal.Cb13.wb i := funext fun a => by match a with | ⟨0, _⟩ => rfl
  rw [Cert.ReferenceIdeal.ReadP.val_main_v262_apply, Cert.ReferenceIdeal.ReadP.val_main_v261_apply, Cert.ReferenceIdeal.ReadP.val_main_v258_apply, Cert.ReferenceIdeal.ReadP.val_main_v256_apply, Cert.ReferenceIdeal.ReadP.val_main_v255_apply, eD, eH, eC, eZ, wD, wH, wC]
  unfold Cert.KernelIdeal.Cb13.comb
  generalize (Cert.ReferenceIdeal.ReadP.val_main_v251 (F := Ideal) x3 x4 x16 x17 x18 x19 x20) i = a
  generalize (Cert.ReferenceIdeal.ReadP.val_main_v224 (F := Ideal) x3 x4 x16 x17 x18 x19 x20) i = h
  generalize (Cert.ReferenceIdeal.ReadP.val_main_v174 (F := Ideal) x4) (Cert.KernelIdeal.Cb13.wn i) = n
  generalize x21 (Cert.KernelIdeal.Cb13.wb i) = bb
  rfl

end Cert.Bridge

end
-- ==== Proof.BridgeProC.lean ====
/-
  The regions 14, 15 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Ln14
import proofs.«144194_j36799279792821_1_alg».proof.Proof.Ln15

set_option maxRecDepth 16384

noncomputable section

namespace Cert.Bridge

open Idealize.ShloMosaic Idealize.ShloMosaic.TcCoe Idealize.SL.Sem

/-- Region 14's output is the reference's dense layer, entry by entry. -/
theorem ln14 (x3 : (⟨Cert.ReferenceIdeal.S76800x54, .f32⟩ : BufTy).Contents (Elt Ideal)) (x4 : (⟨Cert.ReferenceIdeal.S2x768000, .i32⟩ : BufTy).Contents (Elt Ideal)) (x5 : (⟨Cert.ReferenceIdeal.S76800, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) (x22 : (⟨Cert.ReferenceIdeal.S216x1024, .f32⟩ : BufTy).Contents (Elt Ideal)) (x23 : (⟨Cert.ReferenceIdeal.S1024, .f32⟩ : BufTy).Contents (Elt Ideal)) :
    Cert.KernelIdeal.Ln14.lin (Cert.ReferenceIdeal.ReadP.val_main_v274 (F := Ideal) x3 x4 x5 x16 x17 x18 x19 x20 x21) x22 x23 = (Cert.ReferenceIdeal.ReadP.val_main_v279 (F := Ideal) x3 x4 x5 x16 x17 x18 x19 x20 x21 x22 x23) := by
  funext i
  have eDot := Cert.ReferenceIdeal.ReadP.val_main_v275_apply x3 x4 x5 x16 x17 x18 x19 x20 x21 x22 i
  have eC : (Cert.ReferenceIdeal.ReadP.val_main_v277 (F := Ideal) x23) i = x23 (Cert.ReferenceIdeal.ReadP.idx_main_v276 (Cert.ReferenceIdeal.ReadP.idx_main_v277 i)) :=
    (Cert.ReferenceIdeal.ReadP.val_main_v277_apply x23 i).trans (Cert.ReferenceIdeal.ReadP.val_main_v276_apply x23 _)
  have eZ : (Cert.ReferenceIdeal.ReadP.val_main_call7_v0 (F := Ideal)) i = (FloatOps.ofBits (F := Ideal) .f32 0x00000000#32) := (Cert.ReferenceIdeal.ReadP.val_main_call7_v0_apply i).trans (Cert.ReferenceIdeal.ReadP.val_main_call7_cst_apply _)
  have el : ∀ k : Fin 216, Cert.KernelIdeal.Ln14.wl i k = Cert.ReferenceIdeal.ReadP.lidx_main_v275 i k := fun k => funext fun a => by match a with | ⟨0, _⟩ => rfl | ⟨1, _⟩ => rfl
  have er : ∀ k : Fin 216, Cert.KernelIdeal.Ln14.wr i k = Cert.ReferenceIdeal.ReadP.ridx_main_v275 i k := fun k => funext fun a => by match a with | ⟨0, _⟩ => rfl | ⟨1, _⟩ => rfl
  have wC : Cert.KernelIdeal.Ln14.wb i = Cert.ReferenceIdeal.ReadP.idx_main_v276 (Cert.ReferenceIdeal.ReadP.idx_main_v277 i) := funext fun a => by match a with | ⟨0, _⟩ => first | rfl | exact Fin.ext (by have h1 : (i 1).val < 1 := (i 1).isLt; show (i 1).val = 0; omega)
  have hs : (∑ k : Fin 216, (Cert.ReferenceIdeal.ReadP.val_main_v274 (F := Ideal) x3 x4 x5 x16 x17 x18 x19 x20 x21) (Cert.KernelIdeal.Ln14.wl i k) * x22 (Cert.KernelIdeal.Ln14.wr i k))
      = ∑ k : Fin 216, (Cert.ReferenceIdeal.ReadP.val_main_v274 (F := Ideal) x3 x4 x5 x16 x17 x18 x19 x20 x21) (Cert.ReferenceIdeal.ReadP.lidx_main_v275 i k) * x22 (Cert.ReferenceIdeal.ReadP.ridx_main_v275 i k) :=
    Finset.sum_congr rfl fun k _ => by rw [el k, er k]
  show max ((∑ k : Fin 216, (Cert.ReferenceIdeal.ReadP.val_main_v274 (F := Ideal) x3 x4 x5 x16 x17 x18 x19 x20 x21) (Cert.KernelIdeal.Ln14.wl i k) * x22 (Cert.KernelIdeal.Ln14.wr i k)) + x23 (Cert.KernelIdeal.Ln14.wb i)) (Scalar.ofBits (F := Ideal) .f32 0x00000000#32)
    = FloatOps.maximumf (F := Ideal) (FloatOps.addf (F := Ideal) ((Cert.ReferenceIdeal.ReadP.val_main_v275 (F := Ideal) x3 x4 x5 x16 x17 x18 x19 x20 x21 x22) i) ((Cert.ReferenceIdeal.ReadP.val_main_v277 (F := Ideal) x23) i)) ((Cert.ReferenceIdeal.ReadP.val_main_call7_v0 (F := Ideal)) i)
  rw [eDot, eC, eZ, hs, wC]
  rfl

/-- Region 15's output is the reference's dense layer, entry by entry. -/
theorem ln15 (x3 : (⟨Cert.ReferenceIdeal.S76800x54, .f32⟩ : BufTy).Contents (Elt Ideal)) (x4 : (⟨Cert.ReferenceIdeal.S2x768000, .i32⟩ : BufTy).Contents (Elt Ideal)) (x5 : (⟨Cert.ReferenceIdeal.S76800, .i32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) (x22 : (⟨Cert.ReferenceIdeal.S216x1024, .f32⟩ : BufTy).Contents (Elt Ideal)) (x23 : (⟨Cert.ReferenceIdeal.S1024, .f32⟩ : BufTy).Contents (Elt Ideal)) (x24 : (⟨Cert.ReferenceIdeal.S1024x128, .f32⟩ : BufTy).Contents (Elt Ideal)) (x25 : (⟨Cert.ReferenceIdeal.S128, .f32⟩ : BufTy).Contents (Elt Ideal)) :
    Cert.KernelIdeal.Ln15.lin (Cert.ReferenceIdeal.ReadP.val_main_v279 (F := Ideal) x3 x4 x5 x16 x17 x18 x19 x20 x21 x22 x23) x24 x25 = (Cert.ReferenceIdeal.ReadP.val_main_v283 (F := Ideal) x3 x4 x5 x16 x17 x18 x19 x20 x21 x22 x23 x24 x25) := by
  funext i
  have eDot := Cert.ReferenceIdeal.ReadP.val_main_v280_apply x3 x4 x5 x16 x17 x18 x19 x20 x21 x22 x23 x24 i
  have eC : (Cert.ReferenceIdeal.ReadP.val_main_v282 (F := Ideal) x25) i = x25 (Cert.ReferenceIdeal.ReadP.idx_main_v281 (Cert.ReferenceIdeal.ReadP.idx_main_v282 i)) :=
    (Cert.ReferenceIdeal.ReadP.val_main_v282_apply x25 i).trans (Cert.ReferenceIdeal.ReadP.val_main_v281_apply x25 _)
  have el : ∀ k : Fin 1024, Cert.KernelIdeal.Ln15.wl i k = Cert.ReferenceIdeal.ReadP.lidx_main_v280 i k := fun k => funext fun a => by match a with | ⟨0, _⟩ => rfl | ⟨1, _⟩ => rfl
  have er : ∀ k : Fin 1024, Cert.KernelIdeal.Ln15.wr i k = Cert.ReferenceIdeal.ReadP.ridx_main_v280 i k := fun k => funext fun a => by match a with | ⟨0, _⟩ => rfl | ⟨1, _⟩ => rfl
  have wC : Cert.KernelIdeal.Ln15.wb i = Cert.ReferenceIdeal.ReadP.idx_main_v281 (Cert.ReferenceIdeal.ReadP.idx_main_v282 i) := funext fun a => by match a with | ⟨0, _⟩ => first | rfl | exact Fin.ext (by have h1 : (i 1).val < 1 := (i 1).isLt; show (i 1).val = 0; omega)
  have hs : (∑ k : Fin 1024, (Cert.ReferenceIdeal.ReadP.val_main_v279 (F := Ideal) x3 x4 x5 x16 x17 x18 x19 x20 x21 x22 x23) (Cert.KernelIdeal.Ln15.wl i k) * x24 (Cert.KernelIdeal.Ln15.wr i k))
      = ∑ k : Fin 1024, (Cert.ReferenceIdeal.ReadP.val_main_v279 (F := Ideal) x3 x4 x5 x16 x17 x18 x19 x20 x21 x22 x23) (Cert.ReferenceIdeal.ReadP.lidx_main_v280 i k) * x24 (Cert.ReferenceIdeal.ReadP.ridx_main_v280 i k) :=
    Finset.sum_congr rfl fun k _ => by rw [el k, er k]
  show (∑ k : Fin 1024, (Cert.ReferenceIdeal.ReadP.val_main_v279 (F := Ideal) x3 x4 x5 x16 x17 x18 x19 x20 x21 x22 x23) (Cert.KernelIdeal.Ln15.wl i k) * x24 (Cert.KernelIdeal.Ln15.wr i k)) + x25 (Cert.KernelIdeal.Ln15.wb i)
    = FloatOps.addf (F := Ideal) ((Cert.ReferenceIdeal.ReadP.val_main_v280 (F := Ideal) x3 x4 x5 x16 x17 x18 x19 x20 x21 x22 x23 x24) i) ((Cert.ReferenceIdeal.ReadP.val_main_v282 (F := Ideal) x25) i)
  rw [eDot, eC, hs, wC]
  rfl

end Cert.Bridge

end
-- ==== Proof.ChainPro.lean ====
/-
  The protein branch, boundary by boundary (W14 to W26).
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import proofs.«144194_j36799279792821_1_alg».proof.Proof.CarryArgsB
import proofs.«144194_j36799279792821_1_alg».proof.Proof.CarryArgsC
import proofs.«144194_j36799279792821_1_alg».proof.Proof.ChainMol
import proofs.«144194_j36799279792821_1_alg».proof.Proof.Mm8
import proofs.«144194_j36799279792821_1_alg».proof.Proof.Cb9
import proofs.«144194_j36799279792821_1_alg».proof.Proof.Mm10
import proofs.«144194_j36799279792821_1_alg».proof.Proof.Cb11
import proofs.«144194_j36799279792821_1_alg».proof.Proof.Mm12
import proofs.«144194_j36799279792821_1_alg».proof.Proof.Cb13
import proofs.«144194_j36799279792821_1_alg».proof.Proof.Ln14
import proofs.«144194_j36799279792821_1_alg».proof.Proof.Ln15
import proofs.«144194_j36799279792821_1_alg».proof.Proof.BridgeProA
import proofs.«144194_j36799279792821_1_alg».proof.Proof.BridgeProB
import proofs.«144194_j36799279792821_1_alg».proof.Proof.BridgeProC
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W14_v102 (c : Dev nD) : W14 m ρ c (Proc.devRef .tc main_v102) = (Cert.ReferenceIdeal.ReadP.val_main_v153 (F := Ideal) (m ((c : Thread nD τ).loc main_arg4))) := by
  show StableHlo.after hostOps8 (W13 m ρ c) (Proc.devRef .tc main_v102) = _
  after_results_simp
  rw [W13_arg4 m ρ c]
  rfl

theorem W14_v103 (c : Dev nD) : W14 m ρ c (Proc.devRef .tc main_v103) = (Cert.ReferenceIdeal.ReadP.val_main_v174 (F := Ideal) (m ((c : Thread nD τ).loc main_arg4))) := by
  show StableHlo.after hostOps8 (W13 m ρ c) (Proc.devRef .tc main_v103) = _
  after_results_simp
  rw [W13_arg4 m ρ c]
  rfl

theorem W14_v93 (c : Dev nD) : W14 m ρ c (Proc.devRef .tc main_v93) = (Cert.ReferenceIdeal.ReadP.val_main_v143 (F := Ideal) (m ((c : Thread nD τ).loc main_arg4))) := by
  show StableHlo.after hostOps8 (W13 m ρ c) (Proc.devRef .tc main_v93) = _
  after_results_simp
  rw [W13_arg4 m ρ c]
  rfl

theorem W14_v95 (c : Dev nD) : W14 m ρ c (Proc.devRef .tc main_v95) = (Cert.ReferenceIdeal.ReadP.val_main_v145 (F := Ideal) (m ((c : Thread nD τ).loc main_arg4))) := by
  show StableHlo.after hostOps8 (W13 m ρ c) (Proc.devRef .tc main_v95) = _
  after_results_simp
  rw [W13_arg4 m ρ c]
  rfl

theorem W15_v102 (c : Dev nD) : W15 m ρ c (Proc.devRef .tc main_v102) = (Cert.ReferenceIdeal.ReadP.val_main_v153 (F := Ideal) (m ((c : Thread nD τ).loc main_arg4))) :=
  calc W15 m ρ c (Proc.devRef .tc main_v102)
    _ = W14 m ρ c (Proc.devRef .tc main_v102) := W15_of_ne m ρ c main_v102 (by decide)
    _ = (Cert.ReferenceIdeal.ReadP.val_main_v153 (F := Ideal) (m ((c : Thread nD τ).loc main_arg4))) := W14_v102 m ρ c

theorem W15_v104 (c : Dev nD) : W15 m ρ c (Proc.devRef .tc main_v104) = (Cert.ReferenceIdeal.ReadP.val_main_v146 (F := Ideal) (m ((c : Thread nD τ).loc main_arg3)) (m ((c : Thread nD τ).loc main_arg16))) := by
  refine (W15_arr m ρ c 2).trans ?_
  refine (Cert.KernelIdeal.Mm8.final (V14 m ρ) c).trans ?_
  show Cert.KernelIdeal.Mm8.prod (W14 m ρ c (Proc.devRef .tc main_arg3)) (W14 m ρ c (Proc.devRef .tc main_arg16)) = _
  rw [W14_arg3 m ρ c, W14_arg16 m ρ c]
  exact Cert.Bridge.mm8 (m ((c : Thread nD τ).loc main_arg3)) (m ((c : Thread nD τ).loc main_arg16))

theorem W15_v93 (c : Dev nD) : W15 m ρ c (Proc.devRef .tc main_v93) = (Cert.ReferenceIdeal.ReadP.val_main_v143 (F := Ideal) (m ((c : Thread nD τ).loc main_arg4))) :=
  calc W15 m ρ c (Proc.devRef .tc main_v93)
    _ = W14 m ρ c (Proc.devRef .tc main_v93) := W15_of_ne m ρ c main_v93 (by decide)
    _ = (Cert.ReferenceIdeal.ReadP.val_main_v143 (F := Ideal) (m ((c : Thread nD τ).loc main_arg4))) := W14_v93 m ρ c

theorem W15_v95 (c : Dev nD) : W15 m ρ c (Proc.devRef .tc main_v95) = (Cert.ReferenceIdeal.ReadP.val_main_v145 (F := Ideal) (m ((c : Thread nD τ).loc main_arg4))) :=
  calc W15 m ρ c (Proc.devRef .tc main_v95)
    _ = W14 m ρ c (Proc.devRef .tc main_v95) := W15_of_ne m ρ c main_v95 (by decide)
    _ = (Cert.ReferenceIdeal.ReadP.val_main_v145 (F := Ideal) (m ((c : Thread nD τ).loc main_arg4))) := W14_v95 m ρ c

theorem W16_v103 (c : Dev nD) : W16 m ρ c (Proc.devRef .tc main_v103) = (Cert.ReferenceIdeal.ReadP.val_main_v174 (F := Ideal) (m ((c : Thread nD τ).loc main_arg4))) :=
  calc W16 m ρ c (Proc.devRef .tc main_v103)
    _ = W15 m ρ c (Proc.devRef .tc main_v103) := StableHlo.after_of_writes_sub hostOps9 _ Cert.KernelIdeal.HostWrites.hostOps9_writes (by decide)
    _ = W14 m ρ c (Proc.devRef .tc main_v103) := W15_of_ne m ρ c main_v103 (by decide)
    _ = (Cert.ReferenceIdeal.ReadP.val_main_v174 (F := Ideal) (m ((c : Thread nD τ).loc main_arg4))) := W14_v103 m ρ c

theorem W16_v104 (c : Dev nD) : W16 m ρ c (Proc.devRef .tc main_v104) = (Cert.ReferenceIdeal.ReadP.val_main_v146 (F := Ideal) (m ((c : Thread nD τ).loc main_arg3)) (m ((c : Thread nD τ).loc main_arg16))) :=
  calc W16 m ρ c (Proc.devRef .tc main_v104)
    _ = W15 m ρ c (Proc.devRef .tc main_v104) := StableHlo.after_of_writes_sub hostOps9 _ Cert.KernelIdeal.HostWrites.hostOps9_writes (by decide)
    _ = (Cert.ReferenceIdeal.ReadP.val_main_v146 (F := Ideal) (m ((c : Thread nD τ).loc main_arg3)) (m ((c : Thread nD τ).loc main_arg16))) := W15_v104 m ρ c

theorem W16_v124 (c : Dev nD) : W16 m ρ c (Proc.devRef .tc main_v124) = (Cert.ReferenceIdeal.ReadP.val_main_v173 (F := Ideal) (m ((c : Thread nD τ).loc main_arg3)) (m ((c : Thread nD τ).loc main_arg4)) (m ((c : Thread nD τ).loc main_arg16))) := by
  show StableHlo.after hostOps9 (W15 m ρ c) (Proc.devRef .tc main_v124) = _
  after_results_simp
  rw [W15_v95 m ρ c, W15_v104 m ρ c, W15_v93 m ρ c, W15_v102 m ρ c]
  rfl

theorem W17_v125 (c : Dev nD) : W17 m ρ c (Proc.devRef .tc main_v125) = (Cert.ReferenceIdeal.ReadP.val_main_v184 (F := Ideal) (m ((c : Thread nD τ).loc main_arg3)) (m ((c : Thread nD τ).loc main_arg4)) (m ((c : Thread nD τ).loc main_arg16)) (m ((c : Thread nD τ).loc main_arg17))) := by
  refine (W17_arr m ρ c 4).trans ?_
  refine (Cert.KernelIdeal.Cb9.final (V16 m ρ) c).trans ?_
  show Cert.KernelIdeal.Cb9.comb (W16 m ρ c (Proc.devRef .tc main_v124)) (W16 m ρ c (Proc.devRef .tc main_v104)) (W16 m ρ c (Proc.devRef .tc main_v103)) (W16 m ρ c (Proc.devRef .tc main_arg17)) = _
  rw [W16_v124 m ρ c, W16_v104 m ρ c, W16_v103 m ρ c, W16_arg17 m ρ c]
  exact Cert.Bridge.cb9 (m ((c : Thread nD τ).loc main_arg3)) (m ((c : Thread nD τ).loc main_arg4)) (m ((c : Thread nD τ).loc main_arg16)) (m ((c : Thread nD τ).loc main_arg17))

theorem W18_v102 (c : Dev nD) : W18 m ρ c (Proc.devRef .tc main_v102) = (Cert.ReferenceIdeal.ReadP.val_main_v153 (F := Ideal) (m ((c : Thread nD τ).loc main_arg4))) :=
  calc W18 m ρ c (Proc.devRef .tc main_v102)
    _ = W17 m ρ c (Proc.devRef .tc main_v102) := W18_of_ne m ρ c main_v102 (by decide)
    _ = W16 m ρ c (Proc.devRef .tc main_v102) := W17_of_ne m ρ c main_v102 (by decide)
    _ = W15 m ρ c (Proc.devRef .tc main_v102) := StableHlo.after_of_writes_sub hostOps9 _ Cert.KernelIdeal.HostWrites.hostOps9_writes (by decide)
    _ = (Cert.ReferenceIdeal.ReadP.val_main_v153 (F := Ideal) (m ((c : Thread nD τ).loc main_arg4))) := W15_v102 m ρ c

theorem W18_v126 (c : Dev nD) : W18 m ρ c (Proc.devRef .tc main_v126) = (Cert.ReferenceIdeal.ReadP.val_main_v185 (F := Ideal) (m ((c : Thread nD τ).loc main_arg3)) (m ((c : Thread nD τ).loc main_arg4)) (m ((c : Thread nD τ).loc main_arg16)) (m ((c : Thread nD τ).loc main_arg17)) (m ((c : Thread nD τ).loc main_arg18))) := by
  refine (W18_arr m ρ c 2).trans ?_
  refine (Cert.KernelIdeal.Mm10.final (V17 m ρ) c).trans ?_
  show Cert.KernelIdeal.Mm10.prod (W17 m ρ c (Proc.devRef .tc main_v125)) (W17 m ρ c (Proc.devRef .tc main_arg18)) = _
  rw [W17_v125 m ρ c, W17_arg18 m ρ c]
  exact Cert.Bridge.mm10 (m ((c : Thread nD τ).loc main_arg3)) (m ((c : Thread nD τ).loc main_arg4)) (m ((c : Thread nD τ).loc main_arg16)) (m ((c : Thread nD τ).loc main_arg17)) (m ((c : Thread nD τ).loc main_arg18))

theorem W18_v93 (c : Dev nD) : W18 m ρ c (Proc.devRef .tc main_v93) = (Cert.ReferenceIdeal.ReadP.val_main_v143 (F := Ideal) (m ((c : Thread nD τ).loc main_arg4))) :=
  calc W18 m ρ c (Proc.devRef .tc main_v93)
    _ = W17 m ρ c (Proc.devRef .tc main_v93) := W18_of_ne m ρ c main_v93 (by decide)
    _ = W16 m ρ c (Proc.devRef .tc main_v93) := W17_of_ne m ρ c main_v93 (by decide)
    _ = W15 m ρ c (Proc.devRef .tc main_v93) := StableHlo.after_of_writes_sub hostOps9 _ Cert.KernelIdeal.HostWrites.hostOps9_writes (by decide)
    _ = (Cert.ReferenceIdeal.ReadP.val_main_v143 (F := Ideal) (m ((c : Thread nD τ).loc main_arg4))) := W15_v93 m ρ c

theorem W18_v95 (c : Dev nD) : W18 m ρ c (Proc.devRef .tc main_v95) = (Cert.ReferenceIdeal.ReadP.val_main_v145 (F := Ideal) (m ((c : Thread nD τ).loc main_arg4))) :=
  calc W18 m ρ c (Proc.devRef .tc main_v95)
    _ = W17 m ρ c (Proc.devRef .tc main_v95) := W18_of_ne m ρ c main_v95 (by decide)
    _ = W16 m ρ c (Proc.devRef .tc main_v95) := W17_of_ne m ρ c main_v95 (by decide)
    _ = W15 m ρ c (Proc.devRef .tc main_v95) := StableHlo.after_of_writes_sub hostOps9 _ Cert.KernelIdeal.HostWrites.hostOps9_writes (by decide)
    _ = (Cert.ReferenceIdeal.ReadP.val_main_v145 (F := Ideal) (m ((c : Thread nD τ).loc main_arg4))) := W15_v95 m ρ c

theorem W19_v103 (c : Dev nD) : W19 m ρ c (Proc.devRef .tc main_v103) = (Cert.ReferenceIdeal.ReadP.val_main_v174 (F := Ideal) (m ((c : Thread nD τ).loc main_arg4))) :=
  calc W19 m ρ c (Proc.devRef .tc main_v103)
    _ = W18 m ρ c (Proc.devRef .tc main_v103) := StableHlo.after_of_writes_sub hostOps11 _ Cert.KernelIdeal.HostWrites.hostOps11_writes (by decide)
    _ = W17 m ρ c (Proc.devRef .tc main_v103) := W18_of_ne m ρ c main_v103 (by decide)
    _ = W16 m ρ c (Proc.devRef .tc main_v103) := (W17_arr m ρ c 2).trans (((dat9 (V16 m ρ) c).arrAt_in 2 rfl _).trans (A_eq9 (V16 m ρ) c 2))
    _ = (Cert.ReferenceIdeal.ReadP.val_main_v174 (F := Ideal) (m ((c : Thread nD τ).loc main_arg4))) := W16_v103 m ρ c

theorem W19_v126 (c : Dev nD) : W19 m ρ c (Proc.devRef .tc main_v126) = (Cert.ReferenceIdeal.ReadP.val_main_v185 (F := Ideal) (m ((c : Thread nD τ).loc main_arg3)) (m ((c : Thread nD τ).loc main_arg4)) (m ((c : Thread nD τ).loc main_arg16)) (m ((c : Thread nD τ).loc main_arg17)) (m ((c : Thread nD τ).loc main_arg18))) :=
  calc W19 m ρ c (Proc.devRef .tc main_v126)
    _ = W18 m ρ c (Proc.devRef .tc main_v126) := StableHlo.after_of_writes_sub hostOps11 _ Cert.KernelIdeal.HostWrites.hostOps11_writes (by decide)
    _ = (Cert.ReferenceIdeal.ReadP.val_main_v185 (F := Ideal) (m ((c : Thread nD τ).loc main_arg3)) (m ((c : Thread nD τ).loc main_arg4)) (m ((c : Thread nD τ).loc main_arg16)) (m ((c : Thread nD τ).loc main_arg17)) (m ((c : Thread nD τ).loc main_arg18))) := W18_v126 m ρ c

theorem W19_v146 (c : Dev nD) : W19 m ρ c (Proc.devRef .tc main_v146) = (Cert.ReferenceIdeal.ReadP.val_main_v212 (F := Ideal) (m ((c : Thread nD τ).loc main_arg3)) (m ((c : Thread nD τ).loc main_arg4)) (m ((c : Thread nD τ).loc main_arg16)) (m ((c : Thread nD τ).loc main_arg17)) (m ((c : Thread nD τ).loc main_arg18))) := by
  show StableHlo.after hostOps11 (W18 m ρ c) (Proc.devRef .tc main_v146) = _
  after_results_simp
  rw [W18_v95 m ρ c, W18_v126 m ρ c, W18_v93 m ρ c, W18_v102 m ρ c]
  rfl

theorem W20_v147 (c : Dev nD) : W20 m ρ c (Proc.devRef .tc main_v147) = (Cert.ReferenceIdeal.ReadP.val_main_v223 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19))) := by
  refine (W20_arr m ρ c 4).trans ?_
  refine (Cert.KernelIdeal.Cb11.final (V19 m ρ) c).trans ?_
  show Cert.KernelIdeal.Cb11.comb (W19 m ρ c (Proc.devRef .tc main_v146)) (W19 m ρ c (Proc.devRef .tc main_v126)) (W19 m ρ c (Proc.devRef .tc main_v103)) (W19 m ρ c (Proc.devRef .tc main_arg19)) = _
  rw [W19_v146 m ρ c, W19_v126 m ρ c, W19_v103 m ρ c, W19_arg19 m ρ c]
  exact Cert.Bridge.cb11 (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19))

theorem W21_v102 (c : Dev nD) : W21 m ρ c (Proc.devRef .tc main_v102) = (Cert.ReferenceIdeal.ReadP.val_main_v153 (F := Ideal) (m ((c : Thread nD τ).loc main_arg4))) :=
  calc W21 m ρ c (Proc.devRef .tc main_v102)
    _ = W20 m ρ c (Proc.devRef .tc main_v102) := W21_of_ne m ρ c main_v102 (by decide)
    _ = W19 m ρ c (Proc.devRef .tc main_v102) := W20_of_ne m ρ c main_v102 (by decide)
    _ = W18 m ρ c (Proc.devRef .tc main_v102) := StableHlo.after_of_writes_sub hostOps11 _ Cert.KernelIdeal.HostWrites.hostOps11_writes (by decide)
    _ = (Cert.ReferenceIdeal.ReadP.val_main_v153 (F := Ideal) (m ((c : Thread nD τ).loc main_arg4))) := W18_v102 m ρ c

theorem W21_v148 (c : Dev nD) : W21 m ρ c (Proc.devRef .tc main_v148) = (Cert.ReferenceIdeal.ReadP.val_main_v224 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W21_arr m ρ c 2).trans ?_
  refine (Cert.KernelIdeal.Mm12.final (V20 m ρ) c).trans ?_
  show Cert.KernelIdeal.Mm12.prod (W20 m ρ c (Proc.devRef .tc main_v147)) (W20 m ρ c (Proc.devRef .tc main_arg20)) = _
  rw [W20_v147 m ρ c, W20_arg20 m ρ c]
  exact Cert.Bridge.mm12 (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20))

theorem W21_v93 (c : Dev nD) : W21 m ρ c (Proc.devRef .tc main_v93) = (Cert.ReferenceIdeal.ReadP.val_main_v143 (F := Ideal) (m ((c : Thread nD τ).loc main_arg4))) :=
  calc W21 m ρ c (Proc.devRef .tc main_v93)
    _ = W20 m ρ c (Proc.devRef .tc main_v93) := W21_of_ne m ρ c main_v93 (by decide)
    _ = W19 m ρ c (Proc.devRef .tc main_v93) := W20_of_ne m ρ c main_v93 (by decide)
    _ = W18 m ρ c (Proc.devRef .tc main_v93) := StableHlo.after_of_writes_sub hostOps11 _ Cert.KernelIdeal.HostWrites.hostOps11_writes (by decide)
    _ = (Cert.ReferenceIdeal.ReadP.val_main_v143 (F := Ideal) (m ((c : Thread nD τ).loc main_arg4))) := W18_v93 m ρ c

theorem W21_v95 (c : Dev nD) : W21 m ρ c (Proc.devRef .tc main_v95) = (Cert.ReferenceIdeal.ReadP.val_main_v145 (F := Ideal) (m ((c : Thread nD τ).loc main_arg4))) :=
  calc W21 m ρ c (Proc.devRef .tc main_v95)
    _ = W20 m ρ c (Proc.devRef .tc main_v95) := W21_of_ne m ρ c main_v95 (by decide)
    _ = W19 m ρ c (Proc.devRef .tc main_v95) := W20_of_ne m ρ c main_v95 (by decide)
    _ = W18 m ρ c (Proc.devRef .tc main_v95) := StableHlo.after_of_writes_sub hostOps11 _ Cert.KernelIdeal.HostWrites.hostOps11_writes (by decide)
    _ = (Cert.ReferenceIdeal.ReadP.val_main_v145 (F := Ideal) (m ((c : Thread nD τ).loc main_arg4))) := W18_v95 m ρ c

theorem W22_v103 (c : Dev nD) : W22 m ρ c (Proc.devRef .tc main_v103) = (Cert.ReferenceIdeal.ReadP.val_main_v174 (F := Ideal) (m ((c : Thread nD τ).loc main_arg4))) :=
  calc W22 m ρ c (Proc.devRef .tc main_v103)
    _ = W21 m ρ c (Proc.devRef .tc main_v103) := StableHlo.after_of_writes_sub hostOps13 _ Cert.KernelIdeal.HostWrites.hostOps13_writes (by decide)
    _ = W20 m ρ c (Proc.devRef .tc main_v103) := W21_of_ne m ρ c main_v103 (by decide)
    _ = W19 m ρ c (Proc.devRef .tc main_v103) := (W20_arr m ρ c 2).trans (((dat11 (V19 m ρ) c).arrAt_in 2 rfl _).trans (A_eq11 (V19 m ρ) c 2))
    _ = (Cert.ReferenceIdeal.ReadP.val_main_v174 (F := Ideal) (m ((c : Thread nD τ).loc main_arg4))) := W19_v103 m ρ c

theorem W22_v148 (c : Dev nD) : W22 m ρ c (Proc.devRef .tc main_v148) = (Cert.ReferenceIdeal.ReadP.val_main_v224 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20))) :=
  calc W22 m ρ c (Proc.devRef .tc main_v148)
    _ = W21 m ρ c (Proc.devRef .tc main_v148) := StableHlo.after_of_writes_sub hostOps13 _ Cert.KernelIdeal.HostWrites.hostOps13_writes (by decide)
    _ = (Cert.ReferenceIdeal.ReadP.val_main_v224 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20))) := W21_v148 m ρ c

theorem W22_v168 (c : Dev nD) : W22 m ρ c (Proc.devRef .tc main_v168) = (Cert.ReferenceIdeal.ReadP.val_main_v251 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps13 (W21 m ρ c) (Proc.devRef .tc main_v168) = _
  after_results_simp
  rw [W21_v95 m ρ c, W21_v148 m ρ c, W21_v93 m ρ c, W21_v102 m ρ c]
  rfl

theorem W23_v169 (c : Dev nD) : W23 m ρ c (Proc.devRef .tc main_v169) = (Cert.ReferenceIdeal.ReadP.val_main_v262 (F := Ideal) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  refine (W23_arr m ρ c 4).trans ?_
  refine (Cert.KernelIdeal.Cb13.final (V22 m ρ) c).trans ?_
  show Cert.KernelIdeal.Cb13.comb (W22 m ρ c (Proc.devRef .tc main_v168)) (W22 m ρ c (Proc.devRef .tc main_v148)) (W22 m ρ c (Proc.devRef .tc main_v103)) (W22 m ρ c (Proc.devRef .tc main_arg21)) = _
  rw [W22_v168 m ρ c, W22_v148 m ρ c, W22_v103 m ρ c, W22_arg21 m ρ c]
  exact Cert.Bridge.cb13 (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

theorem W24_v181 (c : Dev nD) : W24 m ρ c (Proc.devRef .tc main_v181) = (Cert.ReferenceIdeal.ReadP.val_main_v274 (F := Ideal) (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  show StableHlo.after hostOps14 (W23 m ρ c) (Proc.devRef .tc main_v181) = _
  after_results_simp
  rw [W23_arg5 m ρ c, W23_v169 m ρ c]
  rfl

theorem W25_v182 (c : Dev nD) : W25 m ρ c (Proc.devRef .tc main_v182) = (Cert.ReferenceIdeal.ReadP.val_main_v279 (F := Ideal) (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine (W25_arr m ρ c 3).trans ?_
  refine (Cert.KernelIdeal.Ln14.final (V24 m ρ) c).trans ?_
  show Cert.KernelIdeal.Ln14.lin (W24 m ρ c (Proc.devRef .tc main_v181)) (W24 m ρ c (Proc.devRef .tc main_arg22)) (W24 m ρ c (Proc.devRef .tc main_arg23)) = _
  rw [W24_v181 m ρ c, W24_arg22 m ρ c, W24_arg23 m ρ c]
  exact Cert.Bridge.ln14 (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

theorem W26_v183 (c : Dev nD) : W26 m ρ c (Proc.devRef .tc main_v183) = (Cert.ReferenceIdeal.ReadP.val_main_v283 (F := Ideal) (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  refine (W26_arr m ρ c 3).trans ?_
  refine (Cert.KernelIdeal.Ln15.final (V25 m ρ) c).trans ?_
  show Cert.KernelIdeal.Ln15.lin (W25 m ρ c (Proc.devRef .tc main_v182)) (W25 m ρ c (Proc.devRef .tc main_arg24)) (W25 m ρ c (Proc.devRef .tc main_arg25)) = _
  rw [W25_v182 m ρ c, W25_arg24 m ρ c, W25_arg25 m ρ c]
  exact Cert.Bridge.ln15 (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

theorem W26_v91 (c : Dev nD) : W26 m ρ c (Proc.devRef .tc main_v91) = (Cert.ReferenceIdeal.ReadP.val_main_v141 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  calc W26 m ρ c (Proc.devRef .tc main_v91)
    _ = W25 m ρ c (Proc.devRef .tc main_v91) := W26_of_ne m ρ c main_v91 (by decide)
    _ = W24 m ρ c (Proc.devRef .tc main_v91) := W25_of_ne m ρ c main_v91 (by decide)
    _ = W23 m ρ c (Proc.devRef .tc main_v91) := StableHlo.after_of_writes_sub hostOps14 _ Cert.KernelIdeal.HostWrites.hostOps14_writes (by decide)
    _ = W22 m ρ c (Proc.devRef .tc main_v91) := W23_of_ne m ρ c main_v91 (by decide)
    _ = W21 m ρ c (Proc.devRef .tc main_v91) := StableHlo.after_of_writes_sub hostOps13 _ Cert.KernelIdeal.HostWrites.hostOps13_writes (by decide)
    _ = W20 m ρ c (Proc.devRef .tc main_v91) := W21_of_ne m ρ c main_v91 (by decide)
    _ = W19 m ρ c (Proc.devRef .tc main_v91) := W20_of_ne m ρ c main_v91 (by decide)
    _ = W18 m ρ c (Proc.devRef .tc main_v91) := StableHlo.after_of_writes_sub hostOps11 _ Cert.KernelIdeal.HostWrites.hostOps11_writes (by decide)
    _ = W17 m ρ c (Proc.devRef .tc main_v91) := W18_of_ne m ρ c main_v91 (by decide)
    _ = W16 m ρ c (Proc.devRef .tc main_v91) := W17_of_ne m ρ c main_v91 (by decide)
    _ = W15 m ρ c (Proc.devRef .tc main_v91) := StableHlo.after_of_writes_sub hostOps9 _ Cert.KernelIdeal.HostWrites.hostOps9_writes (by decide)
    _ = W14 m ρ c (Proc.devRef .tc main_v91) := W15_of_ne m ρ c main_v91 (by decide)
    _ = W13 m ρ c (Proc.devRef .tc main_v91) := StableHlo.after_of_writes_sub hostOps8 _ Cert.KernelIdeal.HostWrites.hostOps8_writes (by decide)
    _ = (Cert.ReferenceIdeal.ReadP.val_main_v141 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := W13_v91 m ρ c

end Cert.KernelIdeal.Chain

end
-- ==== Proof.Ln16.lean ====
/-
  The first dense layer of the joint head: out = max(x · w + b, 0), with x : [256, 256], w : [256, 1024] and the bias b : [1024] added to every row, computed in one piece.
  At (i, q) the result is the sum over k of x(i, k) · w(k, q), plus b(q), then the larger of that and zero: the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln16

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x256, .f32⟩ : BufTy).Contents (Elt Ideal) := V c main_v184
abbrev a1 (c : Dev nD) : (⟨S256x1024, .f32⟩ : BufTy).Contents (Elt Ideal) := V c main_arg26
abbrev a2 (c : Dev nD) : (⟨S1024, .f32⟩ : BufTy).Contents (Elt Ideal) := V c main_arg27

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x1024.Idx) (k : Fin 256) : S256x256.Idx := fun a => match a with
  | ⟨0, _⟩ => ⟨(i 0).val, (i 0).isLt⟩
  | ⟨1, _⟩ => ⟨k.val, k.isLt⟩
abbrev wr (i : S256x1024.Idx) (k : Fin 256) : S256x1024.Idx := fun a => match a with
  | ⟨0, _⟩ => ⟨k.val, k.isLt⟩
  | ⟨1, _⟩ => ⟨(i 1).val, (i 1).isLt⟩
abbrev wb (i : S256x1024.Idx) : S1024.Idx := fun a => match a with
  | ⟨0, _⟩ => ⟨(i 1).val, (i 1).isLt⟩

/-- The layer's output, entry by entry. -/
def lin (x : (⟨S256x256, .f32⟩ : BufTy).Contents (Elt Ideal)) (w : (⟨S256x1024, .f32⟩ : BufTy).Contents (Elt Ideal))
    (b : (⟨S1024, .f32⟩ : BufTy).Contents (Elt Ideal)) : (⟨S256x1024, .f32⟩ : BufTy).Contents (Elt Ideal) :=
  fun i => max ((∑ k : Fin 256, x (wl i k) * w (wr i k)) + b (wb i)) (Scalar.ofBits (F := Ideal) .f32 0x00000000#32)

/-- The same index maps inside one block of rows. -/
abbrev bl (j : S256x1024.Idx) (k : Fin 256) : S256x256.Idx := fun a => match a with
  | ⟨0, _⟩ => ⟨(j 0).val, (j 0).isLt⟩
  | ⟨1, _⟩ => ⟨k.val, k.isLt⟩
abbrev br (j : S256x1024.Idx) (k : Fin 256) : S256x1024.Idx := fun a => match a with
  | ⟨0, _⟩ => ⟨k.val, k.isLt⟩
  | ⟨1, _⟩ => ⟨(j 1).val, (j 1).isLt⟩
abbrev bb (j : S256x1024.Idx) : S1024.Idx := fun a => match a with
  | ⟨0, _⟩ => ⟨(j 1).val, (j 1).isLt⟩

theorem lhs_0 (i : S256x1024.Idx) (q : dot_S256x256_S256x1024_S256x1024_1_0_0_1_n_n.contr.Idx) : (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs_1 (i : S256x1024.Idx) (q : dot_S256x256_S256x1024_S256x1024_1_0_0_1_n_n.contr.Idx) : (dot_S256x256_S256x1024_S256x1024_1_0_0_1_n_n.lhsIdx i q 1).val = (q ⟨0, by decide⟩).val :=
  dot_S256x256_S256x1024_S256x1024_1_0_0_1_n_n.lhsIdx_val_of_single rfl i q
theorem rhs_0 (i : S256x1024.Idx) (q : dot_S256x256_S256x1024_S256x1024_1_0_0_1_n_n.contr.Idx) : (dot_S256x256_S256x1024_S256x1024_1_0_0_1_n_n.rhsIdx i q 0).val = (q ⟨0, by decide⟩).val :=
  dot_S256x256_S256x1024_S256x1024_1_0_0_1_n_n.rhsIdx_val_of_single rfl i q
theorem rhs_1 (i : S256x1024.Idx) (q : dot_S256x256_S256x1024_S256x1024_1_0_0_1_n_n.contr.Idx) : (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The product into a zero accumulator at (p, q): the plain sum over the contracted axis. -/
theorem mm_apply (x0 : Vec Ideal S256x256 .f32) (x1 : Vec Ideal S256x1024 .f32) (j : S256x1024.Idx) :
    FloatOps.matmul (F := Ideal) (φ₁ := .f32) (φ₂ := .f32) dot_S256x256_S256x1024_S256x1024_1_0_0_1_n_n none (x0 : FVec Ideal S256x256 .f32) (x1 : FVec Ideal S256x1024 .f32) (constant S256x1024 .f32 0x00000000#32) j = ∑ k : Fin 256, x0 (bl j k) * x1 (br j k) := by
  rw [Ideal.matmul_constant_zero_apply, ← Equiv.sum_comp (ValueIdx.contrEquiv1 dot_S256x256_S256x1024_S256x1024_1_0_0_1_n_n 256 rfl rfl).symm]
  refine Finset.sum_congr rfl fun k _ => ?_
  have hk := ValueIdx.contrEquiv1_symm_val dot_S256x256_S256x1024_S256x1024_1_0_0_1_n_n 256 rfl rfl k
  have el : dot_S256x256_S256x1024_S256x1024_1_0_0_1_n_n.lhsIdx j ((ValueIdx.contrEquiv1 dot_S256x256_S256x1024_S256x1024_1_0_0_1_n_n 256 rfl rfl).symm k) = bl j k := funext fun a => Fin.ext (by
    match a with
    | ⟨0, _⟩ => exact lhs_0 _ _
    | ⟨1, _⟩ => exact (lhs_1 _ _).trans hk)
  have er : dot_S256x256_S256x1024_S256x1024_1_0_0_1_n_n.rhsIdx j ((ValueIdx.contrEquiv1 dot_S256x256_S256x1024_S256x1024_1_0_0_1_n_n 256 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x256 .f32) (v3 : Vec Ideal S256x1024 .f32) (v6 : Vec Ideal S1024 .f32) (j : S256x1024.Idx) :
    k16_pay1 (F := Ideal) v0 v3 v6 j = max ((∑ k : Fin 256, v0 (bl j k) * v3 (br j k)) + v6 (bb j)) (Scalar.ofBits (F := Ideal) .f32 0x00000000#32) := by
  have hm := mm_apply v0 v3 j
  obtain ⟨p, q, rfl⟩ : ∃ (p : Fin 256) (q : Fin 1024), j = ix2 p q := ⟨j 0, j 1, eq_ix2 j⟩
  have eb : bb (ix2 p q) = ix1 q := funext fun a => by match a with | ⟨0, _⟩ => rfl
  have hb : broadcastTo S256x1024 (shapeCast S1x1024 (shapeCast S1x1024 v6 shapeCasts_S1024_S1x1024) shapeCasts_S1x1024_S1x1024) broadcasts_S1x1024_S256x1024 (ix2 p q) = v6 (ix1 q) := by
    rw [shapeCast_self]
    exact (broadcastTo_1b_ab_apply _ _ p q).trans (shapeCast_a_1a_apply v6 _ 0 q)
  have h0 : shapeCast S256x256 v0 shapeCasts_S256x256_S256x256 = v0 := shapeCast_self _ _
  rw [eb]
  show max (FloatOps.matmul (F := Ideal) (φ₁ := .f32) (φ₂ := .f32) dot_S256x256_S256x1024_S256x1024_1_0_0_1_n_n none (shapeCast S256x256 v0 shapeCasts_S256x256_S256x256 : FVec Ideal S256x256 .f32) (v3 : FVec Ideal S256x1024 .f32) (constant S256x1024 .f32 0x00000000#32) (ix2 p q)
        + broadcastTo S256x1024 (shapeCast S1x1024 (shapeCast S1x1024 v6 shapeCasts_S1024_S1x1024) shapeCasts_S1x1024_S1x1024) broadcasts_S1x1024_S256x1024 (ix2 p q)) (Scalar.ofBits (F := Ideal) .f32 0x00000000#32) = _
  rw [h0, hm, hb]

/-- Where each window's block sits at grid point t. -/
theorem idx_facts : ∀ t : Fin cfg16.N,
    win16_0.index t (0 : Fin 2) = win16_3.index t (0 : Fin 2)
    ∧ win16_0.index t (1 : Fin 2) = 0
    ∧ win16_1.index t (0 : Fin 2) = 0
    ∧ win16_1.index t (1 : Fin 2) = 0
    ∧ win16_2.index t (0 : Fin 1) = 0
    ∧ win16_3.index t (1 : Fin 2) = 0 :=
  (by decide +kernel : ∀ t : Fin grid16.N, _)

/-- Every row block is some grid point's. -/
theorem idx_onto : ∀ (q0 : Fin 1), ∃ t : Fin cfg16.N, win16_3.index t = ![q0.val, 0] :=
  (by decide +kernel : ∀ (q0 : Fin 1), ∃ t : Fin grid16.N, win16_3.index t = ![q0.val, 0])

/-- What grid point t writes back is block t of the layer's output of the arrays as the region finds them. -/
theorem flushed_eq (c : Dev nD) (t : Fin cfg16.N) :
    (dat16 V c).flushed 3 t = ((cfg16.win 3).blk t).view.read (Elt Ideal) (lin ((a0 V c)) ((a1 V c)) ((a2 V c))) := by
  show (cfg16.win 3).cut (grid16.coords t) ((dat16 V c).after 3 t) = _
  rw [after16_3]
  unfold out16_3
  rw [View.canon_unit_zero hz]
  simp only [View.ld_unit_zero (S := S256x256) hz, View.ld_unit_zero (S := S256x1024) hz, View.ld_unit_zero (S := S1024) hz1]
  obtain ⟨e0, e1, e2, e3, e4, e5⟩ := idx_facts t
  funext j
  show k16_pay1 (F := Ideal) (iblk16 V c 0 t) (iblk16 V c 1 t) (iblk16 V c 2 t) j
    = lin ((a0 V c)) ((a1 V c)) ((a2 V c)) (((cfg16.win 3).blk t).view.emb j)
  refine (pay_apply (iblk16 V c 0 t) (iblk16 V c 1 t) (iblk16 V c 2 t) j).trans ?_
  have h0 : ∀ k : Fin 256, ((cfg16.win 0).blk t).view.emb (bl j k) = wl (((cfg16.win 3).blk t).view.emb j) k := fun k => by
    funext a; apply Fin.ext
    match a with
    | ⟨0, _⟩ => show win16_0.index t (0 : Fin 2) * 256 + 1 * (j 0).val = win16_3.index t (0 : Fin 2) * 256 + 1 * (j 0).val; omega
    | ⟨1, _⟩ => show win16_0.index t (1 : Fin 2) * 256 + 1 * k.val = k.val; omega
  have h1 : ∀ k : Fin 256, ((cfg16.win 1).blk t).view.emb (br j k) = wr (((cfg16.win 3).blk t).view.emb j) k := fun k => by
    funext a; apply Fin.ext
    match a with
    | ⟨0, _⟩ => show win16_1.index t (0 : Fin 2) * 256 + 1 * k.val = k.val; omega
    | ⟨1, _⟩ => show win16_1.index t (1 : Fin 2) * 1024 + 1 * (j 1).val = win16_3.index t (1 : Fin 2) * 1024 + 1 * (j 1).val; omega
  have h2 : ((cfg16.win 2).blk t).view.emb (bb j) = wb (((cfg16.win 3).blk t).view.emb j) := by
    funext a; apply Fin.ext
    match a with
    | ⟨0, _⟩ => show win16_2.index t (0 : Fin 1) * 1024 + 1 * (j 1).val = win16_3.index t (1 : Fin 2) * 1024 + 1 * (j 1).val; omega
  have hs : (∑ k : Fin 256, (a0 V c) (((cfg16.win 0).blk t).view.emb (bl j k)) * (a1 V c) (((cfg16.win 1).blk t).view.emb (br j k)))
      = ∑ k : Fin 256, (a0 V c) (wl (((cfg16.win 3).blk t).view.emb j) k) * (a1 V c) (wr (((cfg16.win 3).blk t).view.emb j) k) :=
    Finset.sum_congr rfl fun k _ => by rw [h0 k, h1 k]
  show max ((∑ k : Fin 256, (a0 V c) (((cfg16.win 0).blk t).view.emb (bl j k)) * (a1 V c) (((cfg16.win 1).blk t).view.emb (br j k)))
        + (a2 V c) (((cfg16.win 2).blk t).view.emb (bb j))) (Scalar.ofBits (F := Ideal) .f32 0x00000000#32)
    = max ((∑ k : Fin 256, (a0 V c) (wl (((cfg16.win 3).blk t).view.emb j) k) * (a1 V c) (wr (((cfg16.win 3).blk t).view.emb j) k))
        + (a2 V c) (wb (((cfg16.win 3).blk t).view.emb j))) (Scalar.ofBits (F := Ideal) .f32 0x00000000#32)
  rw [hs, h2]

/-- An index of the result array lies in grid point t's block iff each coordinate lies in the block's range. -/
theorem mem_blk (t : Fin cfg16.N) (i : S256x1024.Idx) :
    i ∈ ((cfg16.win 3).blk t).view.set ↔ ∀ a : Fin 2, win16_3.index t a * S256x1024.size a ≤ (i a).val ∧ (i a).val < win16_3.index t a * S256x1024.size a + S256x1024.size a := by
  show i ∈ ((View.whole main_v185).slice (win16_3.rect t)).set ↔ _
  rw [View.set_slice_whole, Rect.mem_set_unit]
  exact Iff.rfl

/-- The row blocks tile the result: row i lies in block i / 256. -/
theorem cover (i : S256x1024.Idx) : ∃ t : Fin cfg16.N, (cfg16.win 3).flush t = true ∧ i ∈ ((cfg16.win 3).blk t).view.set := by
  have hi0 : (i 0).val < 256 := (i 0).isLt
  have hi1 : (i 1).val < 1024 := (i 1).isLt
  obtain ⟨t, ht⟩ := idx_onto ⟨(i 0).val / 256, by omega⟩
  have q0 : win16_3.index t (0 : Fin 2) = (i 0).val / 256 := congrFun ht 0
  have q1 : win16_3.index t (1 : Fin 2) = 0 := congrFun ht 1
  refine ⟨t, flush16_3 t, ?_⟩
  rw [mem_blk]
  intro a
  match a with
  | ⟨0, _⟩ => show win16_3.index t (0 : Fin 2) * 256 ≤ (i 0).val ∧ (i 0).val < win16_3.index t (0 : Fin 2) * 256 + 256; omega
  | ⟨1, _⟩ => show win16_3.index t (1 : Fin 2) * 1024 ≤ (i 1).val ∧ (i 1).val < win16_3.index t (1 : Fin 2) * 1024 + 1024; omega

/-- The array the region leaves: the layer's output of the three arrays it was entered with. -/
theorem final (c : Dev nD) : (dat16 V c).arrAt 3 cfg16.N = lin ((a0 V c)) ((a1 V c)) ((a2 V c)) :=
  (dat16 V c).arrAt_eq_of_cover 3 (lin ((a0 V c)) ((a1 V c)) ((a2 V c))) (fun t _ => flushed_eq V c t) cover

end Cert.KernelIdeal.Ln16

end
-- ==== Proof.Ln17.lean ====
/-
  The second dense layer of the joint head: out = max(x · w + b, 0), with x : [256, 1024], w : [1024, 512] and the bias b : [512] added to every row, computed in one piece.
  At (i, q) the result is the sum over k of x(i, k) · w(k, q), plus b(q), then the larger of that and zero: the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln17

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x1024, .f32⟩ : BufTy).Contents (Elt Ideal) := V c main_v185
abbrev a1 (c : Dev nD) : (⟨S1024x512, .f32⟩ : BufTy).Contents (Elt Ideal) := V c main_arg28
abbrev a2 (c : Dev nD) : (⟨S512, .f32⟩ : BufTy).Contents (Elt Ideal) := V c main_arg29

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x512.Idx) (k : Fin 1024) : S256x1024.Idx := fun a => match a with
  | ⟨0, _⟩ => ⟨(i 0).val, (i 0).isLt⟩
  | ⟨1, _⟩ => ⟨k.val, k.isLt⟩
abbrev wr (i : S256x512.Idx) (k : Fin 1024) : S1024x512.Idx := fun a => match a with
  | ⟨0, _⟩ => ⟨k.val, k.isLt⟩
  | ⟨1, _⟩ => ⟨(i 1).val, (i 1).isLt⟩
abbrev wb (i : S256x512.Idx) : S512.Idx := fun a => match a with
  | ⟨0, _⟩ => ⟨(i 1).val, (i 1).isLt⟩

/-- The layer's output, entry by entry. -/
def lin (x : (⟨S256x1024, .f32⟩ : BufTy).Contents (Elt Ideal)) (w : (⟨S1024x512, .f32⟩ : BufTy).Contents (Elt Ideal))
    (b : (⟨S512, .f32⟩ : BufTy).Contents (Elt Ideal)) : (⟨S256x512, .f32⟩ : BufTy).Contents (Elt Ideal) :=
  fun i => max ((∑ k : Fin 1024, x (wl i k) * w (wr i k)) + b (wb i)) (Scalar.ofBits (F := Ideal) .f32 0x00000000#32)

/-- The same index maps inside one block of rows. -/
abbrev bl (j : S256x512.Idx) (k : Fin 1024) : S256x1024.Idx := fun a => match a with
  | ⟨0, _⟩ => ⟨(j 0).val, (j 0).isLt⟩
  | ⟨1, _⟩ => ⟨k.val, k.isLt⟩
abbrev br (j : S256x512.Idx) (k : Fin 1024) : S1024x512.Idx := fun a => match a with
  | ⟨0, _⟩ => ⟨k.val, k.isLt⟩
  | ⟨1, _⟩ => ⟨(j 1).val, (j 1).isLt⟩
abbrev bb (j : S256x512.Idx) : S512.Idx := fun a => match a with
  | ⟨0, _⟩ => ⟨(j 1).val, (j 1).isLt⟩

theorem lhs_0 (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_1 (i : S256x512.Idx) (q : dot_S256x1024_S1024x512_S256x512_1_0_0_1_n_n.contr.Idx) : (dot_S256x1024_S1024x512_S256x512_1_0_0_1_n_n.lhsIdx i q 1).val = (q ⟨0, by decide⟩).val :=
  dot_S256x1024_S1024x512_S256x512_1_0_0_1_n_n.lhsIdx_val_of_single rfl i q
theorem rhs_0 (i : S256x512.Idx) (q : dot_S256x1024_S1024x512_S256x512_1_0_0_1_n_n.contr.Idx) : (dot_S256x1024_S1024x512_S256x512_1_0_0_1_n_n.rhsIdx i q 0).val = (q ⟨0, by decide⟩).val :=
  dot_S256x1024_S1024x512_S256x512_1_0_0_1_n_n.rhsIdx_val_of_single rfl i q
theorem rhs_1 (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- The product into a zero accumulator at (p, q): the plain sum over the contracted axis. -/
theorem mm_apply (x0 : Vec Ideal S256x1024 .f32) (x1 : Vec Ideal S1024x512 .f32) (j : S256x512.Idx) :
    FloatOps.matmul (F := Ideal) (φ₁ := .f32) (φ₂ := .f32) dot_S256x1024_S1024x512_S256x512_1_0_0_1_n_n none (x0 : FVec Ideal S256x1024 .f32) (x1 : FVec Ideal S1024x512 .f32) (constant S256x512 .f32 0x00000000#32) j = ∑ k : Fin 1024, x0 (bl j k) * x1 (br j k) := by
  rw [Ideal.matmul_constant_zero_apply, ← Equiv.sum_comp (ValueIdx.contrEquiv1 dot_S256x1024_S1024x512_S256x512_1_0_0_1_n_n 1024 rfl rfl).symm]
  refine Finset.sum_congr rfl fun k _ => ?_
  have hk := ValueIdx.contrEquiv1_symm_val dot_S256x1024_S1024x512_S256x512_1_0_0_1_n_n 1024 rfl rfl k
  have el : dot_S256x1024_S1024x512_S256x512_1_0_0_1_n_n.lhsIdx j ((ValueIdx.contrEquiv1 dot_S256x1024_S1024x512_S256x512_1_0_0_1_n_n 1024 rfl rfl).symm k) = bl j k := funext fun a => Fin.ext (by
    match a with
    | ⟨0, _⟩ => exact lhs_0 _ _
    | ⟨1, _⟩ => exact (lhs_1 _ _).trans hk)
  have er : dot_S256x1024_S1024x512_S256x512_1_0_0_1_n_n.rhsIdx j ((ValueIdx.contrEquiv1 dot_S256x1024_S1024x512_S256x512_1_0_0_1_n_n 1024 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x1024 .f32) (v3 : Vec Ideal S1024x512 .f32) (v6 : Vec Ideal S512 .f32) (j : S256x512.Idx) :
    k17_pay1 (F := Ideal) v0 v3 v6 j = max ((∑ k : Fin 1024, v0 (bl j k) * v3 (br j k)) + v6 (bb j)) (Scalar.ofBits (F := Ideal) .f32 0x00000000#32) := by
  have hm := mm_apply v0 v3 j
  obtain ⟨p, q, rfl⟩ : ∃ (p : Fin 256) (q : Fin 512), j = ix2 p q := ⟨j 0, j 1, eq_ix2 j⟩
  have eb : bb (ix2 p q) = ix1 q := funext fun a => by match a with | ⟨0, _⟩ => rfl
  have hb : broadcastTo S256x512 (shapeCast S1x512 (shapeCast S1x512 v6 shapeCasts_S512_S1x512) shapeCasts_S1x512_S1x512) broadcasts_S1x512_S256x512 (ix2 p q) = v6 (ix1 q) := by
    rw [shapeCast_self]
    exact (broadcastTo_1b_ab_apply _ _ p q).trans (shapeCast_a_1a_apply v6 _ 0 q)
  have h0 : shapeCast S256x1024 v0 shapeCasts_S256x1024_S256x1024 = v0 := shapeCast_self _ _
  rw [eb]
  show max (FloatOps.matmul (F := Ideal) (φ₁ := .f32) (φ₂ := .f32) dot_S256x1024_S1024x512_S256x512_1_0_0_1_n_n none (shapeCast S256x1024 v0 shapeCasts_S256x1024_S256x1024 : FVec Ideal S256x1024 .f32) (v3 : FVec Ideal S1024x512 .f32) (constant S256x512 .f32 0x00000000#32) (ix2 p q)
        + broadcastTo S256x512 (shapeCast S1x512 (shapeCast S1x512 v6 shapeCasts_S512_S1x512) shapeCasts_S1x512_S1x512) broadcasts_S1x512_S256x512 (ix2 p q)) (Scalar.ofBits (F := Ideal) .f32 0x00000000#32) = _
  rw [h0, hm, hb]

/-- Where each window's block sits at grid point t. -/
theorem idx_facts : ∀ t : Fin cfg17.N,
    win17_0.index t (0 : Fin 2) = win17_3.index t (0 : Fin 2)
    ∧ win17_0.index t (1 : Fin 2) = 0
    ∧ win17_1.index t (0 : Fin 2) = 0
    ∧ win17_1.index t (1 : Fin 2) = 0
    ∧ win17_2.index t (0 : Fin 1) = 0
    ∧ win17_3.index t (1 : Fin 2) = 0 :=
  (by decide +kernel : ∀ t : Fin grid17.N, _)

/-- Every row block is some grid point's. -/
theorem idx_onto : ∀ (q0 : Fin 1), ∃ t : Fin cfg17.N, win17_3.index t = ![q0.val, 0] :=
  (by decide +kernel : ∀ (q0 : Fin 1), ∃ t : Fin grid17.N, win17_3.index t = ![q0.val, 0])

/-- What grid point t writes back is block t of the layer's output of the arrays as the region finds them. -/
theorem flushed_eq (c : Dev nD) (t : Fin cfg17.N) :
    (dat17 V c).flushed 3 t = ((cfg17.win 3).blk t).view.read (Elt Ideal) (lin ((a0 V c)) ((a1 V c)) ((a2 V c))) := by
  show (cfg17.win 3).cut (grid17.coords t) ((dat17 V c).after 3 t) = _
  rw [after17_3]
  unfold out17_3
  rw [View.canon_unit_zero hz]
  simp only [View.ld_unit_zero (S := S256x1024) hz, View.ld_unit_zero (S := S1024x512) hz, View.ld_unit_zero (S := S512) hz1]
  obtain ⟨e0, e1, e2, e3, e4, e5⟩ := idx_facts t
  funext j
  show k17_pay1 (F := Ideal) (iblk17 V c 0 t) (iblk17 V c 1 t) (iblk17 V c 2 t) j
    = lin ((a0 V c)) ((a1 V c)) ((a2 V c)) (((cfg17.win 3).blk t).view.emb j)
  refine (pay_apply (iblk17 V c 0 t) (iblk17 V c 1 t) (iblk17 V c 2 t) j).trans ?_
  have h0 : ∀ k : Fin 1024, ((cfg17.win 0).blk t).view.emb (bl j k) = wl (((cfg17.win 3).blk t).view.emb j) k := fun k => by
    funext a; apply Fin.ext
    match a with
    | ⟨0, _⟩ => show win17_0.index t (0 : Fin 2) * 256 + 1 * (j 0).val = win17_3.index t (0 : Fin 2) * 256 + 1 * (j 0).val; omega
    | ⟨1, _⟩ => show win17_0.index t (1 : Fin 2) * 1024 + 1 * k.val = k.val; omega
  have h1 : ∀ k : Fin 1024, ((cfg17.win 1).blk t).view.emb (br j k) = wr (((cfg17.win 3).blk t).view.emb j) k := fun k => by
    funext a; apply Fin.ext
    match a with
    | ⟨0, _⟩ => show win17_1.index t (0 : Fin 2) * 1024 + 1 * k.val = k.val; omega
    | ⟨1, _⟩ => show win17_1.index t (1 : Fin 2) * 512 + 1 * (j 1).val = win17_3.index t (1 : Fin 2) * 512 + 1 * (j 1).val; omega
  have h2 : ((cfg17.win 2).blk t).view.emb (bb j) = wb (((cfg17.win 3).blk t).view.emb j) := by
    funext a; apply Fin.ext
    match a with
    | ⟨0, _⟩ => show win17_2.index t (0 : Fin 1) * 512 + 1 * (j 1).val = win17_3.index t (1 : Fin 2) * 512 + 1 * (j 1).val; omega
  have hs : (∑ k : Fin 1024, (a0 V c) (((cfg17.win 0).blk t).view.emb (bl j k)) * (a1 V c) (((cfg17.win 1).blk t).view.emb (br j k)))
      = ∑ k : Fin 1024, (a0 V c) (wl (((cfg17.win 3).blk t).view.emb j) k) * (a1 V c) (wr (((cfg17.win 3).blk t).view.emb j) k) :=
    Finset.sum_congr rfl fun k _ => by rw [h0 k, h1 k]
  show max ((∑ k : Fin 1024, (a0 V c) (((cfg17.win 0).blk t).view.emb (bl j k)) * (a1 V c) (((cfg17.win 1).blk t).view.emb (br j k)))
        + (a2 V c) (((cfg17.win 2).blk t).view.emb (bb j))) (Scalar.ofBits (F := Ideal) .f32 0x00000000#32)
    = max ((∑ k : Fin 1024, (a0 V c) (wl (((cfg17.win 3).blk t).view.emb j) k) * (a1 V c) (wr (((cfg17.win 3).blk t).view.emb j) k))
        + (a2 V c) (wb (((cfg17.win 3).blk t).view.emb j))) (Scalar.ofBits (F := Ideal) .f32 0x00000000#32)
  rw [hs, h2]

/-- An index of the result array lies in grid point t's block iff each coordinate lies in the block's range. -/
theorem mem_blk (t : Fin cfg17.N) (i : S256x512.Idx) :
    i ∈ ((cfg17.win 3).blk t).view.set ↔ ∀ a : Fin 2, win17_3.index t a * S256x512.size a ≤ (i a).val ∧ (i a).val < win17_3.index t a * S256x512.size a + S256x512.size a := by
  show i ∈ ((View.whole main_v186).slice (win17_3.rect t)).set ↔ _
  rw [View.set_slice_whole, Rect.mem_set_unit]
  exact Iff.rfl

/-- The row blocks tile the result: row i lies in block i / 256. -/
theorem cover (i : S256x512.Idx) : ∃ t : Fin cfg17.N, (cfg17.win 3).flush t = true ∧ i ∈ ((cfg17.win 3).blk t).view.set := by
  have hi0 : (i 0).val < 256 := (i 0).isLt
  have hi1 : (i 1).val < 512 := (i 1).isLt
  obtain ⟨t, ht⟩ := idx_onto ⟨(i 0).val / 256, by omega⟩
  have q0 : win17_3.index t (0 : Fin 2) = (i 0).val / 256 := congrFun ht 0
  have q1 : win17_3.index t (1 : Fin 2) = 0 := congrFun ht 1
  refine ⟨t, flush17_3 t, ?_⟩
  rw [mem_blk]
  intro a
  match a with
  | ⟨0, _⟩ => show win17_3.index t (0 : Fin 2) * 256 ≤ (i 0).val ∧ (i 0).val < win17_3.index t (0 : Fin 2) * 256 + 256; omega
  | ⟨1, _⟩ => show win17_3.index t (1 : Fin 2) * 512 ≤ (i 1).val ∧ (i 1).val < win17_3.index t (1 : Fin 2) * 512 + 512; omega

/-- The array the region leaves: the layer's output of the three arrays it was entered with. -/
theorem final (c : Dev nD) : (dat17 V c).arrAt 3 cfg17.N = lin ((a0 V c)) ((a1 V c)) ((a2 V c)) :=
  (dat17 V c).arrAt_eq_of_cover 3 (lin ((a0 V c)) ((a1 V c)) ((a2 V c))) (fun t _ => flushed_eq V c t) cover

end Cert.KernelIdeal.Ln17

end
-- ==== Proof.Ln18.lean ====
/-
  The output layer of the joint head: out = x · w + b, with x : [256, 512], w : [512, 1] and the bias b : [1] added to every row, computed in one piece.
  At (i, q) the result is the sum over k of x(i, k) · w(k, q), plus b(q): the change of number format before the product
  is the identity on extended reals, and the product into a zero accumulator is the plain sum.
-/
import proofs.«144194_j36799279792821_1_alg».proof.Proof.Gen.KernelIdeal.Frame
import proofs.«144194_j36799279792821_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ln18

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The operand arrays as the region finds them, at their literal types. -/
abbrev a0 (c : Dev nD) : (⟨S256x512, .f32⟩ : BufTy).Contents (Elt Ideal) := V c main_v186
abbrev a1 (c : Dev nD) : (⟨S512x1, .f32⟩ : BufTy).Contents (Elt Ideal) := V c main_arg30
abbrev a2 (c : Dev nD) : (⟨S1, .f32⟩ : BufTy).Contents (Elt Ideal) := V c main_arg31

theorem hz : (![0, 0] : Fin 2 → Nat) = fun _ => 0 := funext fun a => by fin_cases a <;> rfl
theorem hz1 : (![0] : Fin 1 → Nat) = fun _ => 0 := funext fun a => by fin_cases a; rfl

/-- Row i, column k of the left factor; row k, column q of the right factor; entry q of the bias: for the entry (i, q). -/
abbrev wl (i : S256x1.Idx) (k : Fin 512) : S256x512.Idx := fun a => match a with
  | ⟨0, _⟩ => ⟨(i 0).val, (i 0).isLt⟩
  | ⟨1, _⟩ => ⟨k.val, k.isLt⟩
abbrev wr (i : S256x1.Idx) (k : Fin 512) : S512x1.Idx := fun a => match a with
  | ⟨0, _⟩ => ⟨k.val, k.isLt⟩
  | ⟨1, _⟩ => ⟨(i 1).val, (i 1).isLt⟩
abbrev wb (i : S256x1.Idx) : S1.Idx := fun a => match a with
  | ⟨0, _⟩ => ⟨(i 1).val, (i 1).isLt⟩

/-- The layer's output, entry by entry. -/
def lin (x : (⟨S256x512, .f32⟩ : BufTy).Contents (Elt Ideal)) (w : (⟨S512x1, .f32⟩ : BufTy).Contents (Elt Ideal))
    (b : (⟨S1, .f32⟩ : BufTy).Contents (Elt Ideal)) : (⟨S256x1, .f32⟩ : BufTy).Contents (Elt Ideal) :=
  fun i => (∑ k : Fin 512, x (wl i k) * w (wr i k)) + b (wb i)

/-- The same index maps inside one block of rows. -/
abbrev bl (j : S256x1.Idx) (k : Fin 512) : S256x512.Idx := fun a => match a with
  | ⟨0, _⟩ => ⟨(j 0).val, (j 0).isLt⟩
  | ⟨1, _⟩ => ⟨k.val, k.isLt⟩
abbrev br (j : S256x1.Idx) (k : Fin 512) : S512x1.Idx := fun a => match a with
  | ⟨0, _⟩ => ⟨k.val, k.isLt⟩
  | ⟨1, _⟩ => ⟨(j 1).val, (j 1).isLt⟩
abbrev bb (j : S256x1.Idx) : S1.Idx := fun a => match a with
  | ⟨0, _⟩ => ⟨(j 1).val, (j 1).isLt⟩

theorem lhs_0 (i : S256x1.Idx) (q : dot_S256x512_S512x1_S256x1_1_0_0_1_n_n.contr.Idx) : (dot_S256x512_S512x1_S256x1_1_0_0_1_n_n.lhsIdx i q 0).val = (i 0).val := by
  unfold DotDims.lhsIdx
  rw [dif_neg (show ¬(0 : Fin S256x512.rank) ∈ dot_S256x512_S512x1_S256x1_1_0_0_1_n_n.lhsBatch by decide), dif_pos (show (0 : Fin S256x512.rank) ∈ dot_S256x512_S512x1_S256x1_1_0_0_1_n_n.lhsNonContracting by decide)]
  rfl
theorem lhs_1 (i : S256x1.Idx) (q : dot_S256x512_S512x1_S256x1_1_0_0_1_n_n.contr.Idx) : (dot_S256x512_S512x1_S256x1_1_0_0_1_n_n.lhsIdx i q 1).val = (q ⟨0, by decide⟩).val :=
  dot_S256x512_S512x1_S256x1_1_0_0_1_n_n.lhsIdx_val_of_single rfl i q
theorem rhs_0 (i : S256x1.Idx) (q : dot_S256x512_S512x1_S256x1_1_0_0_1_n_n.contr.Idx) : (dot_S256x512_S512x1_S256x1_1_0_0_1_n_n.rhsIdx i q 0).val = (q ⟨0, by decide⟩).val :=
  dot_S256x512_S512x1_S256x1_1_0_0_1_n_n.rhsIdx_val_of_single rfl i q
theorem rhs_1 (i : S256x1.Idx) (q : dot_S256x512_S512x1_S256x1_1_0_0_1_n_n.contr.Idx) : (dot_S256x512_S512x1_S256x1_1_0_0_1_n_n.rhsIdx i q 1).val = (i 1).val := by
  unfold DotDims.rhsIdx
  rw [dif_neg (show ¬(1 : Fin S512x1.rank) ∈ dot_S256x512_S512x1_S256x1_1_0_0_1_n_n.rhsBatch by decide), dif_pos (show (1 : Fin S512x1.rank) ∈ dot_S256x512_S512x1_S256x1_1_0_0_1_n_n.rhsNonContracting by decide)]
  rfl

/-- The product into a zero accumulator at (p, q): the plain sum over the contracted axis. -/
theorem mm_apply (x0 : Vec Ideal S256x512 .f32) (x1 : Vec Ideal S512x1 .f32) (j : S256x1.Idx) :
    FloatOps.matmul (F := Ideal) (φ₁ := .f32) (φ₂ := .f32) dot_S256x512_S512x1_S256x1_1_0_0_1_n_n none (x0 : FVec Ideal S256x512 .f32) (x1 : FVec Ideal S512x1 .f32) (constant S256x1 .f32 0x00000000#32) j = ∑ k : Fin 512, x0 (bl j k) * x1 (br j k) := by
  rw [Ideal.matmul_constant_zero_apply, ← Equiv.sum_comp (ValueIdx.contrEquiv1 dot_S256x512_S512x1_S256x1_1_0_0_1_n_n 512 rfl rfl).symm]
  refine Finset.sum_congr rfl fun k _ => ?_
  have hk := ValueIdx.contrEquiv1_symm_val dot_S256x512_S512x1_S256x1_1_0_0_1_n_n 512 rfl rfl k
  have el : dot_S256x512_S512x1_S256x1_1_0_0_1_n_n.lhsIdx j ((ValueIdx.contrEquiv1 dot_S256x512_S512x1_S256x1_1_0_0_1_n_n 512 rfl rfl).symm k) = bl j k := funext fun a => Fin.ext (by
    match a with
    | ⟨0, _⟩ => exact lhs_0 _ _
    | ⟨1, _⟩ => exact (lhs_1 _ _).trans hk)
  have er : dot_S256x512_S512x1_S256x1_1_0_0_1_n_n.rhsIdx j ((ValueIdx.contrEquiv1 dot_S256x512_S512x1_S256x1_1_0_0_1_n_n 512 rfl rfl).symm k) = br j k := funext fun a => Fin.ext (by
    match a with
    | ⟨0, _⟩ => exact (rhs_0 _ _).trans hk
    | ⟨1, _⟩ => exact rhs_1 _ _)
  rw [el, er]

/-- One block's result at an index. -/
theorem pay_apply (v0 : Vec Ideal S256x512 .f32) (v3 : Vec Ideal S512x1 .f32) (v6 : Vec Ideal S1 .f32) (j : S256x1.Idx) :
    k18_pay1 (F := Ideal) v0 v3 v6 j = (∑ k : Fin 512, v0 (bl j k) * v3 (br j k)) + v6 (bb j) := by
  have hm := mm_apply v0 v3 j
  obtain ⟨p, q, rfl⟩ : ∃ (p : Fin 256) (q : Fin 1), j = ix2 p q := ⟨j 0, j 1, eq_ix2 j⟩
  have eb : bb (ix2 p q) = ix1 q := funext fun a => by match a with | ⟨0, _⟩ => rfl
  have hb : broadcastTo S256x1 (shapeCast S1x1 (shapeCast S1x1 v6 shapeCasts_S1_S1x1) shapeCasts_S1x1_S1x1) broadcasts_S1x1_S256x1 (ix2 p q) = v6 (ix1 q) := by
    rw [shapeCast_self]
    exact (broadcastTo_1b_ab_apply _ _ p q).trans (shapeCast_a_1a_apply v6 _ 0 q)
  have h0 : shapeCast S256x512 v0 shapeCasts_S256x512_S256x512 = v0 := shapeCast_self _ _
  rw [eb]
  show FloatOps.matmul (F := Ideal) (φ₁ := .f32) (φ₂ := .f32) dot_S256x512_S512x1_S256x1_1_0_0_1_n_n none (shapeCast S256x512 v0 shapeCasts_S256x512_S256x512 : FVec Ideal S256x512 .f32) (v3 : FVec Ideal S512x1 .f32) (constant S256x1 .f32 0x00000000#32) (ix2 p q)
        + broadcastTo S256x1 (shapeCast S1x1 (shapeCast S1x1 v6 shapeCasts_S1_S1x1) shapeCasts_S1x1_S1x1) broadcasts_S1x1_S256x1 (ix2 p q) = _
  rw [h0, hm, hb]

/-- Where each window's block sits at grid point t. -/
theorem idx_facts : ∀ t : Fin cfg18.N,
    win18_0.index t (0 : Fin 2) = win18_3.index t (0 : Fin 2)
    ∧ win18_0.index t (1 : Fin 2) = 0
    ∧ win18_1.index t (0 : Fin 2) = 0
    ∧ win18_1.index t (1 : Fin 2) = 0
    ∧ win18_2.index t (0 : Fin 1) = 0
    ∧ win18_3.index t (1 : Fin 2) = 0 :=
  (by decide +kernel : ∀ t : Fin grid18.N, _)

/-- Every row block is some grid point's. -/
theorem idx_onto : ∀ (q0 : Fin 1), ∃ t : Fin cfg18.N, win18_3.index t = ![q0.val, 0] :=
  (by decide +kernel : ∀ (q0 : Fin 1), ∃ t : Fin grid18.N, win18_3.index t = ![q0.val, 0])

/-- What grid point t writes back is block t of the layer's output of the arrays as the region finds them. -/
theorem flushed_eq (c : Dev nD) (t : Fin cfg18.N) :
    (dat18 V c).flushed 3 t = ((cfg18.win 3).blk t).view.read (Elt Ideal) (lin ((a0 V c)) ((a1 V c)) ((a2 V c))) := by
  show (cfg18.win 3).cut (grid18.coords t) ((dat18 V c).after 3 t) = _
  rw [after18_3]
  unfold out18_3
  rw [View.canon_unit_zero hz]
  simp only [View.ld_unit_zero (S := S256x512) hz, View.ld_unit_zero (S := S512x1) hz, View.ld_unit_zero (S := S1) hz1]
  obtain ⟨e0, e1, e2, e3, e4, e5⟩ := idx_facts t
  funext j
  show k18_pay1 (F := Ideal) (iblk18 V c 0 t) (iblk18 V c 1 t) (iblk18 V c 2 t) j
    = lin ((a0 V c)) ((a1 V c)) ((a2 V c)) (((cfg18.win 3).blk t).view.emb j)
  refine (pay_apply (iblk18 V c 0 t) (iblk18 V c 1 t) (iblk18 V c 2 t) j).trans ?_
  have h0 : ∀ k : Fin 512, ((cfg18.win 0).blk t).view.emb (bl j k) = wl (((cfg18.win 3).blk t).view.emb j) k := fun k => by
    funext a; apply Fin.ext
    match a with
    | ⟨0, _⟩ => show win18_0.index t (0 : Fin 2) * 256 + 1 * (j 0).val = win18_3.index t (0 : Fin 2) * 256 + 1 * (j 0).val; omega
    | ⟨1, _⟩ => show win18_0.index t (1 : Fin 2) * 512 + 1 * k.val = k.val; omega
  have h1 : ∀ k : Fin 512, ((cfg18.win 1).blk t).view.emb (br j k) = wr (((cfg18.win 3).blk t).view.emb j) k := fun k => by
    funext a; apply Fin.ext
    match a with
    | ⟨0, _⟩ => show win18_1.index t (0 : Fin 2) * 512 + 1 * k.val = k.val; omega
    | ⟨1, _⟩ => show win18_1.index t (1 : Fin 2) * 1 + 1 * (j 1).val = win18_3.index t (1 : Fin 2) * 1 + 1 * (j 1).val; omega
  have h2 : ((cfg18.win 2).blk t).view.emb (bb j) = wb (((cfg18.win 3).blk t).view.emb j) := by
    funext a; apply Fin.ext
    match a with
    | ⟨0, _⟩ => show win18_2.index t (0 : Fin 1) * 1 + 1 * (j 1).val = win18_3.index t (1 : Fin 2) * 1 + 1 * (j 1).val; omega
  have hs : (∑ k : Fin 512, (a0 V c) (((cfg18.win 0).blk t).view.emb (bl j k)) * (a1 V c) (((cfg18.win 1).blk t).view.emb (br j k)))
      = ∑ k : Fin 512, (a0 V c) (wl (((cfg18.win 3).blk t).view.emb j) k) * (a1 V c) (wr (((cfg18.win 3).blk t).view.emb j) k) :=
    Finset.sum_congr rfl fun k _ => by rw [h0 k, h1 k]
  show (∑ k : Fin 512, (a0 V c) (((cfg18.win 0).blk t).view.emb (bl j k)) * (a1 V c) (((cfg18.win 1).blk t).view.emb (br j k)))
        + (a2 V c) (((cfg18.win 2).blk t).view.emb (bb j))
    = (∑ k : Fin 512, (a0 V c) (wl (((cfg18.win 3).blk t).view.emb j) k) * (a1 V c) (wr (((cfg18.win 3).blk t).view.emb j) k))
        + (a2 V c) (wb (((cfg18.win 3).blk t).view.emb j))
  rw [hs, h2]

/-- An index of the result array lies in grid point t's block iff each coordinate lies in the block's range. -/
theorem mem_blk (t : Fin cfg18.N) (i : S256x1.Idx) :
    i ∈ ((cfg18.win 3).blk t).view.set ↔ ∀ a : Fin 2, win18_3.index t a * S256x1.size a ≤ (i a).val ∧ (i a).val < win18_3.index t a * S256x1.size a + S256x1.size a := by
  show i ∈ ((View.whole main_v187).slice (win18_3.rect t)).set ↔ _
  rw [View.set_slice_whole, Rect.mem_set_unit]
  exact Iff.rfl

/-- The row blocks tile the result: row i lies in block i / 256. -/
theorem cover (i : S256x1.Idx) : ∃ t : Fin cfg18.N, (cfg18.win 3).flush t = true ∧ i ∈ ((cfg18.win 3).blk t).view.set := by
  have hi0 : (i 0).val < 256 := (i 0).isLt
  have hi1 : (i 1).val < 1 := (i 1).isLt
  obtain ⟨t, ht⟩ := idx_onto ⟨(i 0).val / 256, by omega⟩
  have q0 : win18_3.index t (0 : Fin 2) = (i 0).val / 256 := congrFun ht 0
  have q1 : win18_3.index t (1 : Fin 2) = 0 := congrFun ht 1
  refine ⟨t, flush18_3 t, ?_⟩
  rw [mem_blk]
  intro a
  match a with
  | ⟨0, _⟩ => show win18_3.index t (0 : Fin 2) * 256 ≤ (i 0).val ∧ (i 0).val < win18_3.index t (0 : Fin 2) * 256 + 256; omega
  | ⟨1, _⟩ => show win18_3.index t (1 : Fin 2) * 1 ≤ (i 1).val ∧ (i 1).val < win18_3.index t (1 : Fin 2) * 1 + 1; omega

/-- The array the region leaves: the layer's output of the three arrays it was entered with. -/
theorem final (c : Dev nD) : (dat18 V c).arrAt 3 cfg18.N = lin ((a0 V c)) ((a1 V c)) ((a2 V c)) :=
  (dat18 V c).arrAt_eq_of_cover 3 (lin ((a0 V c)) ((a1 V c)) ((a2 V c))) (fun t _ => flushed_eq V c t) cover

end Cert.KernelIdeal.Ln18

end
-- ==== Proof.BridgeHead.lean ====
/-
  The regions 16, 17, 18 against the reference's stages.
  Each region leaves an array that is one whole-array function of its operands; here that function, applied to the
  reference's own stages, is shown to be the reference's next stage, entry by entry: a matrix product is the same sum over
  the contracted index, a combine or a dense layer reads its broadcast operands at the same coordinates.
-/
import proofs.«144194_j36799279792821_1_alg».proof.Proof.RefRead
import proofs.«144194_j36799279792821_1_alg».proof.Proof.Ln16
import proofs.«144194_j36799279792821_1_alg».proof.Proof.Ln17
import proofs.«144194_j36799279792821_1_alg».proof.Proof.Ln18

set_option maxRecDepth 16384

noncomputable section

namespace Cert.Bridge

open Idealize.ShloMosaic Idealize.ShloMosaic.TcCoe Idealize.SL.Sem

/-- Region 16's output is the reference's dense layer, entry by entry. -/
theorem ln16 (x0 : (⟨Cert.ReferenceIdeal.S10240x78, .f32⟩ : BufTy).Contents (Elt Ideal)) (x1 : (⟨Cert.ReferenceIdeal.S2x40960, .i32⟩ : BufTy).Contents (Elt Ideal)) (x2 : (⟨Cert.ReferenceIdeal.S10240, .i32⟩ : BufTy).Contents (Elt Ideal)) (x3 : (⟨Cert.ReferenceIdeal.S76800x54, .f32⟩ : BufTy).Contents (Elt Ideal)) (x4 : (⟨Cert.ReferenceIdeal.S2x768000, .i32⟩ : BufTy).Contents (Elt Ideal)) (x5 : (⟨Cert.ReferenceIdeal.S76800, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) (x12 : (⟨Cert.ReferenceIdeal.S312x1024, .f32⟩ : BufTy).Contents (Elt Ideal)) (x13 : (⟨Cert.ReferenceIdeal.S1024, .f32⟩ : BufTy).Contents (Elt Ideal)) (x14 : (⟨Cert.ReferenceIdeal.S1024x128, .f32⟩ : BufTy).Contents (Elt Ideal)) (x15 : (⟨Cert.ReferenceIdeal.S128, .f32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) (x22 : (⟨Cert.ReferenceIdeal.S216x1024, .f32⟩ : BufTy).Contents (Elt Ideal)) (x23 : (⟨Cert.ReferenceIdeal.S1024, .f32⟩ : BufTy).Contents (Elt Ideal)) (x24 : (⟨Cert.ReferenceIdeal.S1024x128, .f32⟩ : BufTy).Contents (Elt Ideal)) (x25 : (⟨Cert.ReferenceIdeal.S128, .f32⟩ : BufTy).Contents (Elt Ideal)) (x26 : (⟨Cert.ReferenceIdeal.S256x1024, .f32⟩ : BufTy).Contents (Elt Ideal)) (x27 : (⟨Cert.ReferenceIdeal.S1024, .f32⟩ : BufTy).Contents (Elt Ideal)) :
    Cert.KernelIdeal.Ln16.lin (Cert.ReferenceIdeal.ReadP.val_main_v284 (F := Ideal) x0 x1 x2 x3 x4 x5 x6 x7 x8 x9 x10 x11 x12 x13 x14 x15 x16 x17 x18 x19 x20 x21 x22 x23 x24 x25) x26 x27 = (Cert.ReferenceIdeal.ReadP.val_main_v289 (F := Ideal) x0 x1 x2 x3 x4 x5 x6 x7 x8 x9 x10 x11 x12 x13 x14 x15 x16 x17 x18 x19 x20 x21 x22 x23 x24 x25 x26 x27) := by
  funext i
  have eDot := Cert.ReferenceIdeal.ReadP.val_main_v285_apply x0 x1 x2 x3 x4 x5 x6 x7 x8 x9 x10 x11 x12 x13 x14 x15 x16 x17 x18 x19 x20 x21 x22 x23 x24 x25 x26 i
  have eC : (Cert.ReferenceIdeal.ReadP.val_main_v287 (F := Ideal) x27) i = x27 (Cert.ReferenceIdeal.ReadP.idx_main_v286 (Cert.ReferenceIdeal.ReadP.idx_main_v287 i)) :=
    (Cert.ReferenceIdeal.ReadP.val_main_v287_apply x27 i).trans (Cert.ReferenceIdeal.ReadP.val_main_v286_apply x27 _)
  have eZ : (Cert.ReferenceIdeal.ReadP.val_main_call8_v0 (F := Ideal)) i = (FloatOps.ofBits (F := Ideal) .f32 0x00000000#32) := (Cert.ReferenceIdeal.ReadP.val_main_call8_v0_apply i).trans (Cert.ReferenceIdeal.ReadP.val_main_call8_cst_apply _)
  have el : ∀ k : Fin 256, Cert.KernelIdeal.Ln16.wl i k = Cert.ReferenceIdeal.ReadP.lidx_main_v285 i k := fun k => funext fun a => by match a with | ⟨0, _⟩ => rfl | ⟨1, _⟩ => rfl
  have er : ∀ k : Fin 256, Cert.KernelIdeal.Ln16.wr i k = Cert.ReferenceIdeal.ReadP.ridx_main_v285 i k := fun k => funext fun a => by match a with | ⟨0, _⟩ => rfl | ⟨1, _⟩ => rfl
  have wC : Cert.KernelIdeal.Ln16.wb i = Cert.ReferenceIdeal.ReadP.idx_main_v286 (Cert.ReferenceIdeal.ReadP.idx_main_v287 i) := funext fun a => by match a with | ⟨0, _⟩ => first | rfl | exact Fin.ext (by have h1 : (i 1).val < 1 := (i 1).isLt; show (i 1).val = 0; omega)
  have hs : (∑ k : Fin 256, (Cert.ReferenceIdeal.ReadP.val_main_v284 (F := Ideal) x0 x1 x2 x3 x4 x5 x6 x7 x8 x9 x10 x11 x12 x13 x14 x15 x16 x17 x18 x19 x20 x21 x22 x23 x24 x25) (Cert.KernelIdeal.Ln16.wl i k) * x26 (Cert.KernelIdeal.Ln16.wr i k))
      = ∑ k : Fin 256, (Cert.ReferenceIdeal.ReadP.val_main_v284 (F := Ideal) x0 x1 x2 x3 x4 x5 x6 x7 x8 x9 x10 x11 x12 x13 x14 x15 x16 x17 x18 x19 x20 x21 x22 x23 x24 x25) (Cert.ReferenceIdeal.ReadP.lidx_main_v285 i k) * x26 (Cert.ReferenceIdeal.ReadP.ridx_main_v285 i k) :=
    Finset.sum_congr rfl fun k _ => by rw [el k, er k]
  show max ((∑ k : Fin 256, (Cert.ReferenceIdeal.ReadP.val_main_v284 (F := Ideal) x0 x1 x2 x3 x4 x5 x6 x7 x8 x9 x10 x11 x12 x13 x14 x15 x16 x17 x18 x19 x20 x21 x22 x23 x24 x25) (Cert.KernelIdeal.Ln16.wl i k) * x26 (Cert.KernelIdeal.Ln16.wr i k)) + x27 (Cert.KernelIdeal.Ln16.wb i)) (Scalar.ofBits (F := Ideal) .f32 0x00000000#32)
    = FloatOps.maximumf (F := Ideal) (FloatOps.addf (F := Ideal) ((Cert.ReferenceIdeal.ReadP.val_main_v285 (F := Ideal) x0 x1 x2 x3 x4 x5 x6 x7 x8 x9 x10 x11 x12 x13 x14 x15 x16 x17 x18 x19 x20 x21 x22 x23 x24 x25 x26) i) ((Cert.ReferenceIdeal.ReadP.val_main_v287 (F := Ideal) x27) i)) ((Cert.ReferenceIdeal.ReadP.val_main_call8_v0 (F := Ideal)) i)
  rw [eDot, eC, eZ, hs, wC]
  rfl

/-- Region 17's output is the reference's dense layer, entry by entry. -/
theorem ln17 (x0 : (⟨Cert.ReferenceIdeal.S10240x78, .f32⟩ : BufTy).Contents (Elt Ideal)) (x1 : (⟨Cert.ReferenceIdeal.S2x40960, .i32⟩ : BufTy).Contents (Elt Ideal)) (x2 : (⟨Cert.ReferenceIdeal.S10240, .i32⟩ : BufTy).Contents (Elt Ideal)) (x3 : (⟨Cert.ReferenceIdeal.S76800x54, .f32⟩ : BufTy).Contents (Elt Ideal)) (x4 : (⟨Cert.ReferenceIdeal.S2x768000, .i32⟩ : BufTy).Contents (Elt Ideal)) (x5 : (⟨Cert.ReferenceIdeal.S76800, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) (x12 : (⟨Cert.ReferenceIdeal.S312x1024, .f32⟩ : BufTy).Contents (Elt Ideal)) (x13 : (⟨Cert.ReferenceIdeal.S1024, .f32⟩ : BufTy).Contents (Elt Ideal)) (x14 : (⟨Cert.ReferenceIdeal.S1024x128, .f32⟩ : BufTy).Contents (Elt Ideal)) (x15 : (⟨Cert.ReferenceIdeal.S128, .f32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) (x22 : (⟨Cert.ReferenceIdeal.S216x1024, .f32⟩ : BufTy).Contents (Elt Ideal)) (x23 : (⟨Cert.ReferenceIdeal.S1024, .f32⟩ : BufTy).Contents (Elt Ideal)) (x24 : (⟨Cert.ReferenceIdeal.S1024x128, .f32⟩ : BufTy).Contents (Elt Ideal)) (x25 : (⟨Cert.ReferenceIdeal.S128, .f32⟩ : BufTy).Contents (Elt Ideal)) (x26 : (⟨Cert.ReferenceIdeal.S256x1024, .f32⟩ : BufTy).Contents (Elt Ideal)) (x27 : (⟨Cert.ReferenceIdeal.S1024, .f32⟩ : BufTy).Contents (Elt Ideal)) (x28 : (⟨Cert.ReferenceIdeal.S1024x512, .f32⟩ : BufTy).Contents (Elt Ideal)) (x29 : (⟨Cert.ReferenceIdeal.S512, .f32⟩ : BufTy).Contents (Elt Ideal)) :
    Cert.KernelIdeal.Ln17.lin (Cert.ReferenceIdeal.ReadP.val_main_v289 (F := Ideal) x0 x1 x2 x3 x4 x5 x6 x7 x8 x9 x10 x11 x12 x13 x14 x15 x16 x17 x18 x19 x20 x21 x22 x23 x24 x25 x26 x27) x28 x29 = (Cert.ReferenceIdeal.ReadP.val_main_v294 (F := Ideal) x0 x1 x2 x3 x4 x5 x6 x7 x8 x9 x10 x11 x12 x13 x14 x15 x16 x17 x18 x19 x20 x21 x22 x23 x24 x25 x26 x27 x28 x29) := by
  funext i
  have eDot := Cert.ReferenceIdeal.ReadP.val_main_v290_apply x0 x1 x2 x3 x4 x5 x6 x7 x8 x9 x10 x11 x12 x13 x14 x15 x16 x17 x18 x19 x20 x21 x22 x23 x24 x25 x26 x27 x28 i
  have eC : (Cert.ReferenceIdeal.ReadP.val_main_v292 (F := Ideal) x29) i = x29 (Cert.ReferenceIdeal.ReadP.idx_main_v291 (Cert.ReferenceIdeal.ReadP.idx_main_v292 i)) :=
    (Cert.ReferenceIdeal.ReadP.val_main_v292_apply x29 i).trans (Cert.ReferenceIdeal.ReadP.val_main_v291_apply x29 _)
  have eZ : (Cert.ReferenceIdeal.ReadP.val_main_call9_v0 (F := Ideal)) i = (FloatOps.ofBits (F := Ideal) .f32 0x00000000#32) := (Cert.ReferenceIdeal.ReadP.val_main_call9_v0_apply i).trans (Cert.ReferenceIdeal.ReadP.val_main_call9_cst_apply _)
  have el : ∀ k : Fin 1024, Cert.KernelIdeal.Ln17.wl i k = Cert.ReferenceIdeal.ReadP.lidx_main_v290 i k := fun k => funext fun a => by match a with | ⟨0, _⟩ => rfl | ⟨1, _⟩ => rfl
  have er : ∀ k : Fin 1024, Cert.KernelIdeal.Ln17.wr i k = Cert.ReferenceIdeal.ReadP.ridx_main_v290 i k := fun k => funext fun a => by match a with | ⟨0, _⟩ => rfl | ⟨1, _⟩ => rfl
  have wC : Cert.KernelIdeal.Ln17.wb i = Cert.ReferenceIdeal.ReadP.idx_main_v291 (Cert.ReferenceIdeal.ReadP.idx_main_v292 i) := funext fun a => by match a with | ⟨0, _⟩ => first | rfl | exact Fin.ext (by have h1 : (i 1).val < 1 := (i 1).isLt; show (i 1).val = 0; omega)
  have hs : (∑ k : Fin 1024, (Cert.ReferenceIdeal.ReadP.val_main_v289 (F := Ideal) x0 x1 x2 x3 x4 x5 x6 x7 x8 x9 x10 x11 x12 x13 x14 x15 x16 x17 x18 x19 x20 x21 x22 x23 x24 x25 x26 x27) (Cert.KernelIdeal.Ln17.wl i k) * x28 (Cert.KernelIdeal.Ln17.wr i k))
      = ∑ k : Fin 1024, (Cert.ReferenceIdeal.ReadP.val_main_v289 (F := Ideal) x0 x1 x2 x3 x4 x5 x6 x7 x8 x9 x10 x11 x12 x13 x14 x15 x16 x17 x18 x19 x20 x21 x22 x23 x24 x25 x26 x27) (Cert.ReferenceIdeal.ReadP.lidx_main_v290 i k) * x28 (Cert.ReferenceIdeal.ReadP.ridx_main_v290 i k) :=
    Finset.sum_congr rfl fun k _ => by rw [el k, er k]
  show max ((∑ k : Fin 1024, (Cert.ReferenceIdeal.ReadP.val_main_v289 (F := Ideal) x0 x1 x2 x3 x4 x5 x6 x7 x8 x9 x10 x11 x12 x13 x14 x15 x16 x17 x18 x19 x20 x21 x22 x23 x24 x25 x26 x27) (Cert.KernelIdeal.Ln17.wl i k) * x28 (Cert.KernelIdeal.Ln17.wr i k)) + x29 (Cert.KernelIdeal.Ln17.wb i)) (Scalar.ofBits (F := Ideal) .f32 0x00000000#32)
    = FloatOps.maximumf (F := Ideal) (FloatOps.addf (F := Ideal) ((Cert.ReferenceIdeal.ReadP.val_main_v290 (F := Ideal) x0 x1 x2 x3 x4 x5 x6 x7 x8 x9 x10 x11 x12 x13 x14 x15 x16 x17 x18 x19 x20 x21 x22 x23 x24 x25 x26 x27 x28) i) ((Cert.ReferenceIdeal.ReadP.val_main_v292 (F := Ideal) x29) i)) ((Cert.ReferenceIdeal.ReadP.val_main_call9_v0 (F := Ideal)) i)
  rw [eDot, eC, eZ, hs, wC]
  rfl

/-- Region 18's output is the reference's dense layer, entry by entry. -/
theorem ln18 (x0 : (⟨Cert.ReferenceIdeal.S10240x78, .f32⟩ : BufTy).Contents (Elt Ideal)) (x1 : (⟨Cert.ReferenceIdeal.S2x40960, .i32⟩ : BufTy).Contents (Elt Ideal)) (x2 : (⟨Cert.ReferenceIdeal.S10240, .i32⟩ : BufTy).Contents (Elt Ideal)) (x3 : (⟨Cert.ReferenceIdeal.S76800x54, .f32⟩ : BufTy).Contents (Elt Ideal)) (x4 : (⟨Cert.ReferenceIdeal.S2x768000, .i32⟩ : BufTy).Contents (Elt Ideal)) (x5 : (⟨Cert.ReferenceIdeal.S76800, .i32⟩ : BufTy).Contents (Elt Ideal)) (x6 : (⟨Cert.ReferenceIdeal.S78x78, .f32⟩ : BufTy).Contents (Elt Ideal)) (x7 : (⟨Cert.ReferenceIdeal.S78, .f32⟩ : BufTy).Contents (Elt Ideal)) (x8 : (⟨Cert.ReferenceIdeal.S78x156, .f32⟩ : BufTy).Contents (Elt Ideal)) (x9 : (⟨Cert.ReferenceIdeal.S156, .f32⟩ : BufTy).Contents (Elt Ideal)) (x10 : (⟨Cert.ReferenceIdeal.S156x312, .f32⟩ : BufTy).Contents (Elt Ideal)) (x11 : (⟨Cert.ReferenceIdeal.S312, .f32⟩ : BufTy).Contents (Elt Ideal)) (x12 : (⟨Cert.ReferenceIdeal.S312x1024, .f32⟩ : BufTy).Contents (Elt Ideal)) (x13 : (⟨Cert.ReferenceIdeal.S1024, .f32⟩ : BufTy).Contents (Elt Ideal)) (x14 : (⟨Cert.ReferenceIdeal.S1024x128, .f32⟩ : BufTy).Contents (Elt Ideal)) (x15 : (⟨Cert.ReferenceIdeal.S128, .f32⟩ : BufTy).Contents (Elt Ideal)) (x16 : (⟨Cert.ReferenceIdeal.S54x54, .f32⟩ : BufTy).Contents (Elt Ideal)) (x17 : (⟨Cert.ReferenceIdeal.S54, .f32⟩ : BufTy).Contents (Elt Ideal)) (x18 : (⟨Cert.ReferenceIdeal.S54x108, .f32⟩ : BufTy).Contents (Elt Ideal)) (x19 : (⟨Cert.ReferenceIdeal.S108, .f32⟩ : BufTy).Contents (Elt Ideal)) (x20 : (⟨Cert.ReferenceIdeal.S108x216, .f32⟩ : BufTy).Contents (Elt Ideal)) (x21 : (⟨Cert.ReferenceIdeal.S216, .f32⟩ : BufTy).Contents (Elt Ideal)) (x22 : (⟨Cert.ReferenceIdeal.S216x1024, .f32⟩ : BufTy).Contents (Elt Ideal)) (x23 : (⟨Cert.ReferenceIdeal.S1024, .f32⟩ : BufTy).Contents (Elt Ideal)) (x24 : (⟨Cert.ReferenceIdeal.S1024x128, .f32⟩ : BufTy).Contents (Elt Ideal)) (x25 : (⟨Cert.ReferenceIdeal.S128, .f32⟩ : BufTy).Contents (Elt Ideal)) (x26 : (⟨Cert.ReferenceIdeal.S256x1024, .f32⟩ : BufTy).Contents (Elt Ideal)) (x27 : (⟨Cert.ReferenceIdeal.S1024, .f32⟩ : BufTy).Contents (Elt Ideal)) (x28 : (⟨Cert.ReferenceIdeal.S1024x512, .f32⟩ : BufTy).Contents (Elt Ideal)) (x29 : (⟨Cert.ReferenceIdeal.S512, .f32⟩ : BufTy).Contents (Elt Ideal)) (x30 : (⟨Cert.ReferenceIdeal.S512x1, .f32⟩ : BufTy).Contents (Elt Ideal)) (x31 : (⟨Cert.ReferenceIdeal.S1, .f32⟩ : BufTy).Contents (Elt Ideal)) :
    Cert.KernelIdeal.Ln18.lin (Cert.ReferenceIdeal.ReadP.val_main_v294 (F := Ideal) x0 x1 x2 x3 x4 x5 x6 x7 x8 x9 x10 x11 x12 x13 x14 x15 x16 x17 x18 x19 x20 x21 x22 x23 x24 x25 x26 x27 x28 x29) x30 x31 = (Cert.ReferenceIdeal.ReadP.val_main_v298 (F := Ideal) x0 x1 x2 x3 x4 x5 x6 x7 x8 x9 x10 x11 x12 x13 x14 x15 x16 x17 x18 x19 x20 x21 x22 x23 x24 x25 x26 x27 x28 x29 x30 x31) := by
  funext i
  have eDot := Cert.ReferenceIdeal.ReadP.val_main_v295_apply x0 x1 x2 x3 x4 x5 x6 x7 x8 x9 x10 x11 x12 x13 x14 x15 x16 x17 x18 x19 x20 x21 x22 x23 x24 x25 x26 x27 x28 x29 x30 i
  have eC : (Cert.ReferenceIdeal.ReadP.val_main_v297 (F := Ideal) x31) i = x31 (Cert.ReferenceIdeal.ReadP.idx_main_v296 (Cert.ReferenceIdeal.ReadP.idx_main_v297 i)) :=
    (Cert.ReferenceIdeal.ReadP.val_main_v297_apply x31 i).trans (Cert.ReferenceIdeal.ReadP.val_main_v296_apply x31 _)
  have el : ∀ k : Fin 512, Cert.KernelIdeal.Ln18.wl i k = Cert.ReferenceIdeal.ReadP.lidx_main_v295 i k := fun k => funext fun a => by match a with | ⟨0, _⟩ => rfl | ⟨1, _⟩ => rfl
  have er : ∀ k : Fin 512, Cert.KernelIdeal.Ln18.wr i k = Cert.ReferenceIdeal.ReadP.ridx_main_v295 i k := fun k => funext fun a => by match a with | ⟨0, _⟩ => rfl | ⟨1, _⟩ => rfl
  have wC : Cert.KernelIdeal.Ln18.wb i = Cert.ReferenceIdeal.ReadP.idx_main_v296 (Cert.ReferenceIdeal.ReadP.idx_main_v297 i) := funext fun a => by match a with | ⟨0, _⟩ => first | rfl | exact Fin.ext (by have h1 : (i 1).val < 1 := (i 1).isLt; show (i 1).val = 0; omega)
  have hs : (∑ k : Fin 512, (Cert.ReferenceIdeal.ReadP.val_main_v294 (F := Ideal) x0 x1 x2 x3 x4 x5 x6 x7 x8 x9 x10 x11 x12 x13 x14 x15 x16 x17 x18 x19 x20 x21 x22 x23 x24 x25 x26 x27 x28 x29) (Cert.KernelIdeal.Ln18.wl i k) * x30 (Cert.KernelIdeal.Ln18.wr i k))
      = ∑ k : Fin 512, (Cert.ReferenceIdeal.ReadP.val_main_v294 (F := Ideal) x0 x1 x2 x3 x4 x5 x6 x7 x8 x9 x10 x11 x12 x13 x14 x15 x16 x17 x18 x19 x20 x21 x22 x23 x24 x25 x26 x27 x28 x29) (Cert.ReferenceIdeal.ReadP.lidx_main_v295 i k) * x30 (Cert.ReferenceIdeal.ReadP.ridx_main_v295 i k) :=
    Finset.sum_congr rfl fun k _ => by rw [el k, er k]
  show (∑ k : Fin 512, (Cert.ReferenceIdeal.ReadP.val_main_v294 (F := Ideal) x0 x1 x2 x3 x4 x5 x6 x7 x8 x9 x10 x11 x12 x13 x14 x15 x16 x17 x18 x19 x20 x21 x22 x23 x24 x25 x26 x27 x28 x29) (Cert.KernelIdeal.Ln18.wl i k) * x30 (Cert.KernelIdeal.Ln18.wr i k)) + x31 (Cert.KernelIdeal.Ln18.wb i)
    = FloatOps.addf (F := Ideal) ((Cert.ReferenceIdeal.ReadP.val_main_v295 (F := Ideal) x0 x1 x2 x3 x4 x5 x6 x7 x8 x9 x10 x11 x12 x13 x14 x15 x16 x17 x18 x19 x20 x21 x22 x23 x24 x25 x26 x27 x28 x29 x30) i) ((Cert.ReferenceIdeal.ReadP.val_main_v297 (F := Ideal) x31) i)
  rw [eDot, eC, hs, wC]
  rfl

end Cert.Bridge

end
-- ==== Proof.ChainHead.lean ====
/-
  The joint head, boundary by boundary (W27 to W30).
  The contents of every buffer at each boundary between segments is a pure function of the launch memory. Each lemma here
  says what ONE buffer holds at ONE boundary, as the reference's own stage of the argument arrays: a buffer a host stretch
  writes is that stretch's operations of what it read; a region's output is the region's whole-array function of its
  operands (and that function is the reference's stage); a buffer no segment in between writes is carried unchanged.
-/
import proofs.«144194_j36799279792821_1_alg».proof.Proof.Gen.KernelIdeal.Frame
import proofs.«144194_j36799279792821_1_alg».proof.Proof.HostWrites
import proofs.«144194_j36799279792821_1_alg».proof.Proof.CarryArgsD
import proofs.«144194_j36799279792821_1_alg».proof.Proof.ChainPro
import proofs.«144194_j36799279792821_1_alg».proof.Proof.Ln16
import proofs.«144194_j36799279792821_1_alg».proof.Proof.Ln17
import proofs.«144194_j36799279792821_1_alg».proof.Proof.Ln18
import proofs.«144194_j36799279792821_1_alg».proof.Proof.BridgeHead
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

theorem W27_v184 (c : Dev nD) : W27 m ρ c (Proc.devRef .tc main_v184) = (Cert.ReferenceIdeal.ReadP.val_main_v284 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  show StableHlo.after hostOps16 (W26 m ρ c) (Proc.devRef .tc main_v184) = _
  after_results_simp
  rw [W26_v91 m ρ c, W26_v183 m ρ c]
  rfl

theorem W28_v185 (c : Dev nD) : W28 m ρ c (Proc.devRef .tc main_v185) = (Cert.ReferenceIdeal.ReadP.val_main_v289 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) := by
  refine (W28_arr m ρ c 3).trans ?_
  refine (Cert.KernelIdeal.Ln16.final (V27 m ρ) c).trans ?_
  show Cert.KernelIdeal.Ln16.lin (W27 m ρ c (Proc.devRef .tc main_v184)) (W27 m ρ c (Proc.devRef .tc main_arg26)) (W27 m ρ c (Proc.devRef .tc main_arg27)) = _
  rw [W27_v184 m ρ c, W27_arg26 m ρ c, W27_arg27 m ρ c]
  exact Cert.Bridge.ln16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

theorem W29_v186 (c : Dev nD) : W29 m ρ c (Proc.devRef .tc main_v186) = (Cert.ReferenceIdeal.ReadP.val_main_v294 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))) := by
  refine (W29_arr m ρ c 3).trans ?_
  refine (Cert.KernelIdeal.Ln17.final (V28 m ρ) c).trans ?_
  show Cert.KernelIdeal.Ln17.lin (W28 m ρ c (Proc.devRef .tc main_v185)) (W28 m ρ c (Proc.devRef .tc main_arg28)) (W28 m ρ c (Proc.devRef .tc main_arg29)) = _
  rw [W28_v185 m ρ c, W28_arg28 m ρ c, W28_arg29 m ρ c]
  exact Cert.Bridge.ln17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))

theorem W30_v187 (c : Dev nD) : W30 m ρ c (Proc.devRef .tc main_v187) = (Cert.ReferenceIdeal.ReadP.val_main_v298 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))) := by
  refine (W30_arr m ρ c 3).trans ?_
  refine (Cert.KernelIdeal.Ln18.final (V29 m ρ) c).trans ?_
  show Cert.KernelIdeal.Ln18.lin (W29 m ρ c (Proc.devRef .tc main_v186)) (W29 m ρ c (Proc.devRef .tc main_arg30)) (W29 m ρ c (Proc.devRef .tc main_arg31)) = _
  rw [W29_v186 m ρ c, W29_arg30 m ρ c, W29_arg31 m ρ c]
  exact Cert.Bridge.ln18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))

end Cert.KernelIdeal.Chain

end
-- ==== Proof.Claims.lean ====
/-
  The five claims. Both programs compute one graph network: three graph-convolution layers per branch, each
  relu(n · (agg + n · h) + b) with h = x · W and agg the sum over incoming edges of n(src) · h(src); a mean pool per graph;
  two dense layers per branch; and three dense layers on the two branches side by side. The kernel does every matrix
  product and every combine in row blocks inside kernel regions and everything else (gather, scatter-add, the norm, the
  pool) by the same host operations as the reference, so at the extended reals the two results are one function of the
  arguments, stage by stage; no step uses distributivity or cancellation, so the finiteness of the inputs is never opened.
  The idealization rewrote nothing (its ledger is empty).
-/
import proofs.«144194_j36799279792821_1_alg».proof.Defs
import proofs.«144194_j36799279792821_1_alg».proof.Proof.Gen.Kernel
import proofs.«144194_j36799279792821_1_alg».proof.Proof.Gen.Kernel.Frame
import proofs.«144194_j36799279792821_1_alg».proof.Proof.Gen.KernelIdeal
import proofs.«144194_j36799279792821_1_alg».proof.Proof.Gen.KernelIdeal.Frame
import proofs.«144194_j36799279792821_1_alg».proof.Proof.Gen.ReferenceIdeal
import proofs.«144194_j36799279792821_1_alg».proof.Proof.Gen.Pre_finite_inputs
import proofs.«144194_j36799279792821_1_alg».proof.Proof.RunResult
import proofs.«144194_j36799279792821_1_alg».proof.Proof.RefRun
import proofs.«144194_j36799279792821_1_alg».proof.Proof.RefRead
import proofs.«144194_j36799279792821_1_alg».proof.Proof.ChainHead

set_option maxRecDepth 16384

noncomputable section

namespace Cert.Proof.Claims

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

set_option maxHeartbeats 8000000 in
/-- Both runs end with the result at the reference's last stage of the argument arrays: the kernel's by the chain of
    boundaries, the reference's by its own run, the arguments agreeing. -/
theorem algebraic : Cert.algebraic_KernelIdeal_ReferenceIdeal := by
  intro m ρ m' ρ' _ hagree
  refine ⟨fun c => Cert.ReferenceIdeal.ReadP.val_main_v298 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)) (m ((c : Thread Cert.KernelIdeal.nD Cert.KernelIdeal.τ).loc Cert.KernelIdeal.main_arg25)) (m ((c : Thread Cert.KernelIdeal.nD Cert.KernelIdeal.τ).loc Cert.KernelIdeal.main_arg26)) (m ((c : Thread Cert.KernelIdeal.nD Cert.KernelIdeal.τ).loc Cert.KernelIdeal.main_arg27)) (m ((c : Thread Cert.KernelIdeal.nD Cert.KernelIdeal.τ).loc Cert.KernelIdeal.main_arg28)) (m ((c : Thread Cert.KernelIdeal.nD Cert.KernelIdeal.τ).loc Cert.KernelIdeal.main_arg29)) (m ((c : Thread Cert.KernelIdeal.nD Cert.KernelIdeal.τ).loc Cert.KernelIdeal.main_arg30)) (m ((c : Thread Cert.KernelIdeal.nD Cert.KernelIdeal.τ).loc Cert.KernelIdeal.main_arg31)), ?_, ?_⟩
  · exact (θ_run Cert.KernelIdeal.defs _ _).mono
      (fun r h c => ⟨(h c).1.trans (Cert.KernelIdeal.Chain.W30_v187 m ρ c), (h c).2⟩)
      (Cert.KernelIdeal.RunResult.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24, h25, h26, h27, h28, h29, h30, h31⟩ := hagree c
    rw [Cert.ReferenceIdeal.ReadP.val_main_v298_eq, h0, h1, h2, h3, h4, h5, h6, h7, h8, h9, h10, h11, h12, h13, h14, h15, h16, h17, h18, h19, h20, h21, h22, h23, h24, h25, h26, h27, h28, h29, h30, h31]

end Cert.Proof.Claims

end
-- ==== Proof.lean ====
/- The certificate: the witnesses of the programs' stated side conditions, then the five claims (Proof/Claims.lean):
   the three frames, the idealization's empty ledger, and the equality of the two idealized programs' results. -/
import proofs.«144194_j36799279792821_1_alg».proof.Defs
import proofs.«144194_j36799279792821_1_alg».proof.Proof.Gen.Kernel
import proofs.«144194_j36799279792821_1_alg».proof.Proof.Gen.Kernel.Skeleton
import proofs.«144194_j36799279792821_1_alg».proof.Proof.Gen.Kernel.Launch
import proofs.«144194_j36799279792821_1_alg».proof.Proof.Gen.Kernel.Points
import proofs.«144194_j36799279792821_1_alg».proof.Proof.Gen.Kernel.Frame
import proofs.«144194_j36799279792821_1_alg».proof.Proof.Gen.KernelIdeal
import proofs.«144194_j36799279792821_1_alg».proof.Proof.Gen.KernelIdeal.Skeleton
import proofs.«144194_j36799279792821_1_alg».proof.Proof.Gen.KernelIdeal.Launch
import proofs.«144194_j36799279792821_1_alg».proof.Proof.Gen.KernelIdeal.Points
import proofs.«144194_j36799279792821_1_alg».proof.Proof.Gen.KernelIdeal.Frame
import proofs.«144194_j36799279792821_1_alg».proof.Proof.Gen.ReferenceIdeal
import proofs.«144194_j36799279792821_1_alg».proof.Proof.Gen.Pre_finite_inputs
import proofs.«144194_j36799279792821_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
